-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v116)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v116) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v97) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x128x128x128 : Shape := ⟨4, ![32, 128, 128, 128]⟩
abbrev S64x2x2 : Shape := ⟨3, ![64, 2, 2]⟩
abbrev S64x2x1 : Shape := ⟨3, ![64, 2, 1]⟩
abbrev S_ : Shape := ⟨0, ![]⟩

class Facts : Prop where
  bcast_S_S32x128x128x128 : S_.BroadcastsInDim S32x128x128x128 (![] : Fin 0 → Fin S32x128x128x128.rank)
  reducesTo_S32x128x128x128_S_d0_1_2_3 : S32x128x128x128.ReducesTo [0, 1, 2, 3] S_
  h_S_ : 0 < S_.numel
  bcast_S_S64x2x2 : S_.BroadcastsInDim S64x2x2 (![] : Fin 0 → Fin S64x2x2.rank)
  reducesTo_S64x2x2_S_d0_1_2 : S64x2x2.ReducesTo [0, 1, 2] S_
  bcast_S_S64x2x1 : S_.BroadcastsInDim S64x2x1 (![] : Fin 0 → Fin S64x2x1.rank)
  reducesTo_S64x2x1_S_d0_1_2 : S64x2x1.ReducesTo [0, 1, 2] S_

variable [Facts]

def fn {F : FTy → Type} [FloatOps F] (main_arg0 : FVec F S32x128x128x128 .f32) (main_arg1 : FVec F S64x2x2 .f32) (main_arg2 : FVec F S64x2x1 .f32) : IVec S_ 1 :=
  let main_v0 : FVec F S32x128x128x128 .f32 := Host.absf main_arg0
  let main_cst : FVec F S_ .f32 := constant S_ .f32 0x7F800000#32
  let main_v1 : FVec F S32x128x128x128 .f32 := broadcastInDim S32x128x128x128 ![] bcast_S_S32x128x128x128 main_cst
  let main_v2 : IVec S32x128x128x128 1 := cmpf .olt main_v0 main_v1
  let main_c : IVec S_ 1 := constantI S_ 1 1#1
  let main_v3 : IVec S_ 1 := (fun x v => Host.reduce IntOp.andi x v reducesTo_S32x128x128x128_S_d0_1_2_3 h_S_) main_v2 main_c
  let main_v4 : FVec F S64x2x2 .f32 := Host.absf main_arg1
  let main_cst_0 : FVec F S_ .f32 := constant S_ .f32 0x7F800000#32
  let main_v5 : FVec F S64x2x2 .f32 := broadcastInDim S64x2x2 ![] bcast_S_S64x2x2 main_cst_0
  let main_v6 : IVec S64x2x2 1 := cmpf .olt main_v4 main_v5
  let main_c_1 : IVec S_ 1 := constantI S_ 1 1#1
  let main_v7 : IVec S_ 1 := (fun x v => Host.reduce IntOp.andi x v reducesTo_S64x2x2_S_d0_1_2 h_S_) main_v6 main_c_1
  let main_v8 : IVec S_ 1 := andi main_v3 main_v7
  let main_v9 : FVec F S64x2x1 .f32 := Host.absf main_arg2
  let main_cst_2 : FVec F S_ .f32 := constant S_ .f32 0x7F800000#32
  let main_v10 : FVec F S64x2x1 .f32 := broadcastInDim S64x2x1 ![] bcast_S_S64x2x1 main_cst_2
  let main_v11 : IVec S64x2x1 1 := cmpf .olt main_v9 main_v10
  let main_c_3 : IVec S_ 1 := constantI S_ 1 1#1
  let main_v12 : IVec S_ 1 := (fun x v => Host.reduce IntOp.andi x v reducesTo_S64x2x1_S_d0_1_2 h_S_) main_v11 main_c_3
  let main_v13 : IVec S_ 1 := andi main_v8 main_v12
  main_v13
-- ==== Kernel.lean ====
abbrev S32x128x128x128 : Shape := ⟨4, ![32, 128, 128, 128]⟩
abbrev S64x2x2 : Shape := ⟨3, ![64, 2, 2]⟩
abbrev S64x2x1 : Shape := ⟨3, ![64, 2, 1]⟩
abbrev S16x64 : Shape := ⟨2, ![16, 64]⟩
abbrev S1x128x128x128 : Shape := ⟨4, ![1, 128, 128, 128]⟩
abbrev S8x64 : Shape := ⟨2, ![8, 64]⟩
abbrev S64x128 : Shape := ⟨2, ![64, 128]⟩
abbrev S1x64x128x128 : Shape := ⟨4, ![1, 64, 128, 128]⟩
abbrev S64x128x128 : Shape := ⟨3, ![64, 128, 128]⟩
abbrev S64 : Shape := ⟨1, ![64]⟩
abbrev S1x64 : Shape := ⟨2, ![1, 64]⟩
abbrev S_ : Shape := ⟨0, ![]⟩
abbrev S64x1x1 : Shape := ⟨3, ![64, 1, 1]⟩
abbrev S1x64x1x1 : Shape := ⟨4, ![1, 64, 1, 1]⟩
abbrev S1x128x64x128 : Shape := ⟨4, ![1, 128, 64, 128]⟩
abbrev S1x64x64x128 : Shape := ⟨4, ![1, 64, 64, 128]⟩

abbrev nBuf : Space → Nat
  | .hbm => 135
  | .vmem => 27
  | .smem => 0
  | _ => 0

abbrev hbmTy0_0 (i : Nat) : BufTy := match i % 128 with
  | 0 => ⟨S32x128x128x128, .f32⟩
  | 1 => ⟨S64x2x2, .f32⟩
  | 2 => ⟨S64x2x1, .f32⟩
  | 3 => ⟨S16x64, .f32⟩
  | 4 => ⟨S16x64, .f32⟩
  | 5 => ⟨S16x64, .f32⟩
  | 6 => ⟨S16x64, .f32⟩
  | 7 => ⟨S16x64, .f32⟩
  | 8 => ⟨S1x64, .f32⟩
  | 9 => ⟨S64, .f32⟩
  | 10 => ⟨S1x64, .f32⟩
  | 11 => ⟨S64, .f32⟩
  | 12 => ⟨S64, .f32⟩
  | 13 => ⟨S1x64, .f32⟩
  | 14 => ⟨S64, .f32⟩
  | 15 => ⟨S1x64, .f32⟩
  | 16 => ⟨S64, .f32⟩
  | 17 => ⟨S64, .f32⟩
  | 18 => ⟨S1x64, .f32⟩
  | 19 => ⟨S64, .f32⟩
  | 20 => ⟨S1x64, .f32⟩
  | 21 => ⟨S64, .f32⟩
  | 22 => ⟨S64, .f32⟩
  | 23 => ⟨S1x64, .f32⟩
  | 24 => ⟨S64, .f32⟩
  | 25 => ⟨S1x64, .f32⟩
  | 26 => ⟨S64, .f32⟩
  | 27 => ⟨S64, .f32⟩
  | 28 => ⟨S1x64, .f32⟩
  | 29 => ⟨S64, .f32⟩
  | 30 => ⟨S1x64, .f32⟩
  | 31 => ⟨S64, .f32⟩
  | 32 => ⟨S64, .f32⟩
  | 33 => ⟨S_, .f32⟩
  | 34 => ⟨S64, .f32⟩
  | 35 => ⟨S64, .f32⟩
  | 36 => ⟨S_, .f32⟩
  | 37 => ⟨S64, .f32⟩
  | 38 => ⟨S64, .f32⟩
  | 39 => ⟨S64, .f32⟩
  | 40 => ⟨S_, .f32⟩
  | 41 => ⟨S64, .f32⟩
  | 42 => ⟨S64, .f32⟩
  | 43 => ⟨S64, .f32⟩
  | 44 => ⟨S_, .f32⟩
  | 45 => ⟨S64, .f32⟩
  | 46 => ⟨S64, .f32⟩
  | 47 => ⟨S64, .f32⟩
  | 48 => ⟨S_, .f32⟩
  | 49 => ⟨S64, .f32⟩
  | 50 => ⟨S64, .f32⟩
  | 51 => ⟨S64, .f32⟩
  | 52 => ⟨S_, .f32⟩
  | 53 => ⟨S64, .f32⟩
  | 54 => ⟨S64, .f32⟩
  | 55 => ⟨S64, .f32⟩
  | 56 => ⟨S_, .f32⟩
  | 57 => ⟨S64, .f32⟩
  | 58 => ⟨S64, .f32⟩
  | 59 => ⟨S64, .f32⟩
  | 60 => ⟨S_, .f32⟩
  | 61 => ⟨S64, .f32⟩
  | 62 => ⟨S64, .f32⟩
  | 63 => ⟨S_, .f32⟩
  | 64 => ⟨S64, .f32⟩
  | 65 => ⟨S64, .f32⟩
  | 66 => ⟨S_, .f32⟩
  | 67 => ⟨S64, .f32⟩
  | 68 => ⟨S64, .f32⟩
  | 69 => ⟨S64, .f32⟩
  | 70 => ⟨S64, .f32⟩
  | 71 => ⟨S64, .f32⟩
  | 72 => ⟨S64, .f32⟩
  | 73 => ⟨S64, .f32⟩
  | 74 => ⟨S_, .f32⟩
  | 75 => ⟨S64, .f32⟩
  | 76 => ⟨S64, .f32⟩
  | 77 => ⟨S64, .f32⟩
  | 78 => ⟨S64, .f32⟩
  | 79 => ⟨S64, .f32⟩
  | 80 => ⟨S64, .f32⟩
  | 81 => ⟨S64, .f32⟩
  | 82 => ⟨S64, .f32⟩
  | 83 => ⟨S64, .f32⟩
  | 84 => ⟨S64, .f32⟩
  | 85 => ⟨S64, .f32⟩
  | 86 => ⟨S64, .f32⟩
  | 87 => ⟨S64, .f32⟩
  | 88 => ⟨S64, .f32⟩
  | 89 => ⟨S64, .f32⟩
  | 90 => ⟨S64, .f32⟩
  | 91 => ⟨S64, .f32⟩
  | 92 => ⟨S64, .f32⟩
  | 93 => ⟨S64, .f32⟩
  | 94 => ⟨S64, .f32⟩
  | 95 => ⟨S64, .f32⟩
  | 96 => ⟨S64x1x1, .f32⟩
  | 97 => ⟨S64, .f32⟩
  | 98 => ⟨S64x1x1, .f32⟩
  | 99 => ⟨S64, .f32⟩
  | 100 => ⟨S64x1x1, .f32⟩
  | 101 => ⟨S64, .f32⟩
  | 102 => ⟨S64x1x1, .f32⟩
  | 103 => ⟨S64, .f32⟩
  | 104 => ⟨S64, .f32⟩
  | 105 => ⟨S64, .f32⟩
  | 106 => ⟨S64, .f32⟩
  | 107 => ⟨S64, .f32⟩
  | 108 => ⟨S64, .f32⟩
  | 109 => ⟨S64, .f32⟩
  | 110 => ⟨S64, .f32⟩
  | 111 => ⟨S64, .f32⟩
  | 112 => ⟨S64, .f32⟩
  | 113 => ⟨S64, .f32⟩
  | 114 => ⟨S64, .f32⟩
  | 115 => ⟨S64, .f32⟩
  | 116 => ⟨S64x1x1, .f32⟩
  | 117 => ⟨S64, .f32⟩
  | 118 => ⟨S64x1x1, .f32⟩
  | 119 => ⟨S64, .f32⟩
  | 120 => ⟨S64, .f32⟩
  | 121 => ⟨S64, .f32⟩
  | 122 => ⟨S64, .f32⟩
  | 123 => ⟨S64, .f32⟩
  | 124 => ⟨S64, .f32⟩
  | 125 => ⟨S64, .f32⟩
  | 126 => ⟨S64, .f32⟩
  | 127 => ⟨S64, .f32⟩
  | _ => ⟨S32x128x128x128, .f32⟩

abbrev hbmTy0_1 (i : Nat) : BufTy := match i % 128 with
  | 0 => ⟨S1x64x1x1, .f32⟩
  | 1 => ⟨S1x64x1x1, .f32⟩
  | 2 => ⟨S1x64x1x1, .f32⟩
  | 3 => ⟨S1x64x1x1, .f32⟩
  | 4 => ⟨S1x64x1x1, .f32⟩
  | 5 => ⟨S1x64x1x1, .f32⟩
  | 6 => ⟨S32x128x128x128, .f32⟩
  | _ => ⟨S32x128x128x128, .f32⟩

abbrev hbmTy (i : Nat) : BufTy := match i / 128 with
  | 0 => hbmTy0_0 i
  | 1 => hbmTy0_1 i
  | _ => ⟨S32x128x128x128, .f32⟩

abbrev bufTy : (tb : Table) → Fin (tcTables nBuf tb) → BufTy
  | .hbm, ⟨i, _⟩ => hbmTy i
  | .local _ .vmem, ⟨0, _⟩ => ⟨S1x128x128x128, .f32⟩
  | .local _ .vmem, ⟨1, _⟩ => ⟨S1x128x128x128, .f32⟩
  | .local _ .vmem, ⟨2, _⟩ => ⟨S8x64, .f32⟩
  | .local _ .vmem, ⟨3, _⟩ => ⟨S8x64, .f32⟩
  | .local _ .vmem, ⟨4, _⟩ => ⟨S8x64, .f32⟩
  | .local _ .vmem, ⟨5, _⟩ => ⟨S8x64, .f32⟩
  | .local _ .vmem, ⟨6, _⟩ => ⟨S8x64, .f32⟩
  | .local _ .vmem, ⟨7, _⟩ => ⟨S8x64, .f32⟩
  | .local _ .vmem, ⟨8, _⟩ => ⟨S8x64, .f32⟩
  | .local _ .vmem, ⟨9, _⟩ => ⟨S8x64, .f32⟩
  | .local _ .vmem, ⟨10, _⟩ => ⟨S8x64, .f32⟩
  | .local _ .vmem, ⟨11, _⟩ => ⟨S8x64, .f32⟩
  | .local _ .vmem, ⟨12, _⟩ => ⟨S64x128, .f32⟩
  | .local _ .vmem, ⟨13, _⟩ => ⟨S64x128, .f32⟩
  | .local _ .vmem, ⟨14, _⟩ => ⟨S64x128, .f32⟩
  | .local _ .vmem, ⟨15, _⟩ => ⟨S64x128, .f32⟩
  | .local _ .vmem, ⟨16, _⟩ => ⟨S64x128, .f32⟩
  | .local _ .vmem, ⟨17, _⟩ => ⟨S1x128x64x128, .f32⟩
  | .local _ .vmem, ⟨18, _⟩ => ⟨S1x128x64x128, .f32⟩
  | .local _ .vmem, ⟨19, _⟩ => ⟨S1x64x1x1, .f32⟩
  | .local _ .vmem, ⟨20, _⟩ => ⟨S1x64x1x1, .f32⟩
  | .local _ .vmem, ⟨21, _⟩ => ⟨S1x64x1x1, .f32⟩
  | .local _ .vmem, ⟨22, _⟩ => ⟨S1x64x1x1, .f32⟩
  | .local _ .vmem, ⟨23, _⟩ => ⟨S1x64x1x1, .f32⟩
  | .local _ .vmem, ⟨24, _⟩ => ⟨S1x64x1x1, .f32⟩
  | .local _ .vmem, ⟨25, _⟩ => ⟨S1x128x64x128, .f32⟩
  | .local _ .vmem, ⟨26, _⟩ => ⟨S1x128x64x128, .f32⟩
  | _, _ => ⟨S32x128x128x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev main_v0_3 : Ref sig .tc := ⟨.hbm, 6, rfl⟩
abbrev main_v0_4 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_cst : Ref sig .tc := ⟨.hbm, 33, rfl⟩
abbrev main_v26 : Ref sig .tc := ⟨.hbm, 34, rfl⟩
abbrev main_v27 : Ref sig .tc := ⟨.hbm, 35, rfl⟩
abbrev main_cst_0 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_cst_1 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_cst_2 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_cst_3 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_cst_4 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_cst_5 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_cst_6 : Ref sig .tc := ⟨.hbm, 60, rfl⟩
abbrev main_v46 : Ref sig .tc := ⟨.hbm, 61, rfl⟩
abbrev main_v47 : Ref sig .tc := ⟨.hbm, 62, rfl⟩
abbrev main_cst_7 : Ref sig .tc := ⟨.hbm, 63, rfl⟩
abbrev main_v48 : Ref sig .tc := ⟨.hbm, 64, rfl⟩
abbrev main_v49 : Ref sig .tc := ⟨.hbm, 65, rfl⟩
abbrev main_cst_8 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_cst_9 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩
abbrev main_v72 : Ref sig .tc := ⟨.hbm, 90, rfl⟩
abbrev main_v73 : Ref sig .tc := ⟨.hbm, 91, rfl⟩
abbrev main_v74 : Ref sig .tc := ⟨.hbm, 92, rfl⟩
abbrev main_v75 : Ref sig .tc := ⟨.hbm, 93, rfl⟩
abbrev main_v76 : Ref sig .tc := ⟨.hbm, 94, rfl⟩
abbrev main_v77 : Ref sig .tc := ⟨.hbm, 95, rfl⟩
abbrev main_v78 : Ref sig .tc := ⟨.hbm, 96, rfl⟩
abbrev main_v79 : Ref sig .tc := ⟨.hbm, 97, rfl⟩
abbrev main_v80 : Ref sig .tc := ⟨.hbm, 98, rfl⟩
abbrev main_v81 : Ref sig .tc := ⟨.hbm, 99, rfl⟩
abbrev main_v82 : Ref sig .tc := ⟨.hbm, 100, rfl⟩
abbrev main_v83 : Ref sig .tc := ⟨.hbm, 101, rfl⟩
abbrev main_v84 : Ref sig .tc := ⟨.hbm, 102, rfl⟩
abbrev main_v85 : Ref sig .tc := ⟨.hbm, 103, rfl⟩
abbrev main_v86 : Ref sig .tc := ⟨.hbm, 104, rfl⟩
abbrev main_v87 : Ref sig .tc := ⟨.hbm, 105, rfl⟩
abbrev main_v88 : Ref sig .tc := ⟨.hbm, 106, rfl⟩
abbrev main_v89 : Ref sig .tc := ⟨.hbm, 107, rfl⟩
abbrev main_v90 : Ref sig .tc := ⟨.hbm, 108, rfl⟩
abbrev main_v91 : Ref sig .tc := ⟨.hbm, 109, rfl⟩
abbrev main_v92 : Ref sig .tc := ⟨.hbm, 110, rfl⟩
abbrev main_v93 : Ref sig .tc := ⟨.hbm, 111, rfl⟩
abbrev main_v94 : Ref sig .tc := ⟨.hbm, 112, rfl⟩
abbrev main_v95 : Ref sig .tc := ⟨.hbm, 113, rfl⟩
abbrev main_v96 : Ref sig .tc := ⟨.hbm, 114, rfl⟩
abbrev main_v97 : Ref sig .tc := ⟨.hbm, 115, rfl⟩
abbrev main_v98 : Ref sig .tc := ⟨.hbm, 116, rfl⟩
abbrev main_v99 : Ref sig .tc := ⟨.hbm, 117, rfl⟩
abbrev main_v100 : Ref sig .tc := ⟨.hbm, 118, rfl⟩
abbrev main_v101 : Ref sig .tc := ⟨.hbm, 119, rfl⟩
abbrev main_v102 : Ref sig .tc := ⟨.hbm, 120, rfl⟩
abbrev main_v103 : Ref sig .tc := ⟨.hbm, 121, rfl⟩
abbrev main_v104 : Ref sig .tc := ⟨.hbm, 122, rfl⟩
abbrev main_v105 : Ref sig .tc := ⟨.hbm, 123, rfl⟩
abbrev main_v106 : Ref sig .tc := ⟨.hbm, 124, rfl⟩
abbrev main_v107 : Ref sig .tc := ⟨.hbm, 125, rfl⟩
abbrev main_v108 : Ref sig .tc := ⟨.hbm, 126, rfl⟩
abbrev main_v109 : Ref sig .tc := ⟨.hbm, 127, rfl⟩
abbrev main_v110 : Ref sig .tc := ⟨.hbm, 128, rfl⟩
abbrev main_v111 : Ref sig .tc := ⟨.hbm, 129, rfl⟩
abbrev main_v112 : Ref sig .tc := ⟨.hbm, 130, rfl⟩
abbrev main_v113 : Ref sig .tc := ⟨.hbm, 131, rfl⟩
abbrev main_v114 : Ref sig .tc := ⟨.hbm, 132, rfl⟩
abbrev main_v115 : Ref sig .tc := ⟨.hbm, 133, rfl⟩
abbrev main_v116 : Ref sig .tc := ⟨.hbm, 134, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_scratch3 : Ref sig .tc := ⟨.vmem, 15, rfl⟩
abbrev cc0_scratch4 : Ref sig .tc := ⟨.vmem, 16, rfl⟩
abbrev cc1_stg0_0 : Ref sig .tc := ⟨.vmem, 17, rfl⟩
abbrev cc1_stg0_1 : Ref sig .tc := ⟨.vmem, 18, rfl⟩
abbrev cc1_stg1_0 : Ref sig .tc := ⟨.vmem, 19, rfl⟩
abbrev cc1_stg2_0 : Ref sig .tc := ⟨.vmem, 20, rfl⟩
abbrev cc1_stg3_0 : Ref sig .tc := ⟨.vmem, 21, rfl⟩
abbrev cc1_stg4_0 : Ref sig .tc := ⟨.vmem, 22, rfl⟩
abbrev cc1_stg5_0 : Ref sig .tc := ⟨.vmem, 23, rfl⟩
abbrev cc1_stg6_0 : Ref sig .tc := ⟨.vmem, 24, rfl⟩
abbrev cc1_stg7_0 : Ref sig .tc := ⟨.vmem, 25, rfl⟩
abbrev cc1_stg7_1 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc1_sem0_0 : DmaSem sig := 12
abbrev cc1_sem0_1 : DmaSem sig := 13
abbrev cc1_sem1_0 : DmaSem sig := 14
abbrev cc1_sem2_0 : DmaSem sig := 15
abbrev cc1_sem3_0 : DmaSem sig := 16
abbrev cc1_sem4_0 : DmaSem sig := 17
abbrev cc1_sem5_0 : DmaSem sig := 18
abbrev cc1_sem6_0 : DmaSem sig := 19
abbrev cc1_sem7_0 : DmaSem sig := 20
abbrev cc1_sem7_1 : DmaSem sig := 21

abbrev nD : Nat := 1
abbrev τ : Topo := Topo.v7x

variable {F : FTy → Type} [FloatOps F]

abbrev grid0 : Pipeline.Grid := ⟨2, ![2, 16], ![false, false]⟩

def k0_cond2 (i : grid0.Coords) : BitVec 1 :=
  let arg1 : BitVec 32 := BitVec.ofNat 32 (i 1).val
  let c15_i32 : BitVec 32 := 15#32
  let v40 : BitVec 1 := Scalar.cmpi .eq arg1 c15_i32
  let v41 : BitVec 32 := Scalar.extui v40
  let c0_i32_31 : BitVec 32 := 0#32
  let v42 : BitVec 1 := Scalar.cmpi .ne v41 c0_i32_31
  v42

def cc0_transform_0 (i : grid0.Coords) : Fin 4 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  let c0_i32_1 : BitVec 32 := 0#32
  let c0_i32_2 : BitVec 32 := 0#32
  ![v1.toNat, c0_i32.toNat, c0_i32_0.toNat, c0_i32_1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1x128x128x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S8x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S8x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S8x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S8x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev grid1 : Pipeline.Grid := ⟨2, ![32, 2], ![false, false]⟩

def cc1_transform_0 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc1_transform_1 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc1_transform_2 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc1_transform_3 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc1_transform_4 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc1_transform_5 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc1_transform_6 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc1_transform_7 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

abbrev stage1_0 : Fin 2 → Memref sig .tc .vmem S1x128x64x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 1 → Memref sig .tc .vmem S1x64x1x1 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, false]

abbrev stage1_2 : Fin 1 → Memref sig .tc .vmem S1x64x1x1 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 1 → Memref sig .tc .vmem S1x64x1x1 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 1 → Memref sig .tc .vmem S1x64x1x1 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false]

abbrev stage1_5 : Fin 1 → Memref sig .tc .vmem S1x64x1x1 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false, false]

abbrev stage1_6 : Fin 1 → Memref sig .tc .vmem S1x64x1x1 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false, false]

abbrev stage1_7 : Fin 2 → Memref sig .tc .vmem S1x128x64x128 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true, true]

class Facts₀ : Prop where
  inb_S64x128_S64x128_0_0 : ∀ a, (![0, 0] : Fin 2 → Nat) a + S64x128.size a ≤ S64x128.size a
  h_S64x128 : 0 < S64x128.numel
  shapeCasts_S64x128_S64x128 : S64x128.ShapeCasts S64x128
  inb_S1x128x128x128_S1x64x128x128_0_0_0_0 : ∀ a, (![0, 0, 0, 0] : Fin 4 → Nat) a + S1x64x128x128.size a ≤ S1x128x128x128.size a
  h_S1x64x128x128 : 0 < S1x64x128x128.numel
  shapeCasts_S1x64x128x128_S64x128x128 : S1x64x128x128.ShapeCasts S64x128x128
  inb_S1x128x128x128_S1x64x128x128_0_64_0_0 : ∀ a, (![0, 64, 0, 0] : Fin 4 → Nat) a + S1x64x128x128.size a ≤ S1x128x128x128.size a
  reduces_S64x128x128_S64x128 : S64x128x128.Reduces [1] S64x128
  reduces_S64x128_S64 : S64x128.Reduces [1] S64
  inb_S8x64_S1x64_0_0 : ∀ a, (![0, 0] : Fin 2 → Nat) a + S1x64.size a ≤ S8x64.size a
  h_S1x64 : 0 < S1x64.numel
  shapeCasts_S1x64_S64 : S1x64.ShapeCasts S64
  shapeCasts_S64_S1x64 : S64.ShapeCasts S1x64
  slices_S16x64_S1x64_0_0 : S16x64.Slices ![0, 0] S1x64
  slices_S16x64_S1x64_8_0 : S16x64.Slices ![8, 0] S1x64
  bcast_S_S64 : S_.BroadcastsInDim S64 (![] : Fin 0 → Fin S64.rank)
  slices_S64x2x2_S64x1x1_0_0_0 : S64x2x2.Slices ![0, 0, 0] S64x1x1
  shapeCasts_S64x1x1_S64 : S64x1x1.ShapeCasts S64
  slices_S64x2x2_S64x1x1_0_0_1 : S64x2x2.Slices ![0, 0, 1] S64x1x1
  slices_S64x2x2_S64x1x1_0_1_0 : S64x2x2.Slices ![0, 1, 0] S64x1x1
  slices_S64x2x2_S64x1x1_0_1_1 : S64x2x2.Slices ![0, 1, 1] S64x1x1
  slices_S64x2x1_S64x1x1_0_0_0 : S64x2x1.Slices ![0, 0, 0] S64x1x1
  slices_S64x2x1_S64x1x1_0_1_0 : S64x2x1.Slices ![0, 1, 0] S64x1x1
  shapeCasts_S64_S1x64x1x1 : S64.ShapeCasts S1x64x1x1
  inb_S1x128x64x128_S1x128x64x128_0_0_0_0 : ∀ a, (![0, 0, 0, 0] : Fin 4 → Nat) a + S1x128x64x128.size a ≤ S1x128x64x128.size a
  h_S1x128x64x128 : 0 < S1x128x64x128.numel
  slices_S1x128x64x128_o0_0_0_0_S1x64x64x128 : S1x128x64x128.Slices ![0, 0, 0, 0] S1x64x64x128
  slices_S1x128x64x128_o0_64_0_0_S1x64x64x128 : S1x128x64x128.Slices ![0, 64, 0, 0] S1x64x64x128
  inb_S1x64x1x1_S1x64x1x1_0_0_0_0 : ∀ a, (![0, 0, 0, 0] : Fin 4 → Nat) a + S1x64x1x1.size a ≤ S1x64x1x1.size a
  h_S1x64x1x1 : 0 < S1x64x1x1.numel
  shapeCasts_S1x64x1x1_S1x64x1x1 : S1x64x1x1.ShapeCasts S1x64x1x1
  broadcasts_S1x64x1x1_S1x64x64x128 : S1x64x1x1.Broadcasts S1x64x64x128
  inb_S1x128x64x128_S1x64x64x128_0_0_0_0 : ∀ a, (![0, 0, 0, 0] : Fin 4 → Nat) a + S1x64x64x128.size a ≤ S1x128x64x128.size a
  h_S1x64x64x128 : 0 < S1x64x64x128.numel
  inb_S1x128x64x128_S1x64x64x128_0_64_0_0 : ∀ a, (![0, 64, 0, 0] : Fin 4 → Nat) a + S1x64x64x128.size a ≤ S1x128x64x128.size a
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x128x128x128.size a ≤ S32x128x128x128.size a
  hwx0_0 : ∀ i : grid0.Coords, EltTy.bits .f32 = 32 ∨ (Rect.block (s := S32x128x128x128) S1x128x128x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8x64.size a ≤ S16x64.size a
  hwx0_1 : ∀ i : grid0.Coords, EltTy.bits .f32 = 32 ∨ (Rect.block (s := S16x64) S8x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8x64.size a ≤ S16x64.size a
  hwx0_2 : ∀ i : grid0.Coords, EltTy.bits .f32 = 32 ∨ (Rect.block (s := S16x64) S8x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S8x64.size a ≤ S16x64.size a
  hwx0_3 : ∀ i : grid0.Coords, EltTy.bits .f32 = 32 ∨ (Rect.block (s := S16x64) S8x64.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S8x64.size a ≤ S16x64.size a
  hwx0_4 : ∀ i : grid0.Coords, EltTy.bits .f32 = 32 ∨ (Rect.block (s := S16x64) S8x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S8x64.size a ≤ S16x64.size a
  hwx0_5 : ∀ i : grid0.Coords, EltTy.bits .f32 = 32 ∨ (Rect.block (s := S16x64) S8x64.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x128x64x128.size a ≤ S32x128x128x128.size a
  hwx1_0 : ∀ i : grid1.Coords, EltTy.bits .f32 = 32 ∨ (Rect.block (s := S32x128x128x128) S1x128x64x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x64x1x1.size a ≤ S1x64x1x1.size a
  hwx1_1 : ∀ i : grid1.Coords, EltTy.bits .f32 = 32 ∨ (Rect.block (s := S1x64x1x1) S1x64x1x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x64x1x1.size a ≤ S1x64x1x1.size a
  hwx1_2 : ∀ i : grid1.Coords, EltTy.bits .f32 = 32 ∨ (Rect.block (s := S1x64x1x1) S1x64x1x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64x1x1.size a ≤ S1x64x1x1.size a
  hwx1_3 : ∀ i : grid1.Coords, EltTy.bits .f32 = 32 ∨ (Rect.block (s := S1x64x1x1) S1x64x1x1.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x64x1x1.size a ≤ S1x64x1x1.size a
  hwx1_4 : ∀ i : grid1.Coords, EltTy.bits .f32 = 32 ∨ (Rect.block (s := S1x64x1x1) S1x64x1x1.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x64x1x1.size a ≤ S1x64x1x1.size a
  hwx1_5 : ∀ i : grid1.Coords, EltTy.bits .f32 = 32 ∨ (Rect.block (s := S1x64x1x1) S1x64x1x1.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x64x1x1.size a ≤ S1x64x1x1.size a
  hwx1_6 : ∀ i : grid1.Coords, EltTy.bits .f32 = 32 ∨ (Rect.block (s := S1x64x1x1) S1x64x1x1.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S1x128x64x128.size a ≤ S32x128x128x128.size a
  hwx1_7 : ∀ i : grid1.Coords, EltTy.bits .f32 = 32 ∨ (Rect.block (s := S32x128x128x128) S1x128x64x128.size (cc1_transform_7 i) (hinb1_7 i)).WholeWords (EltTy.packing .f32)

variable [Facts₀]

abbrev win0_0 : Pipeline.Window sig grid0 :=
  Pipeline.Window.ofSpec (Memref.whole main_arg0) S1x128x128x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0_0) S8x64.size cc0_transform_1 reads0_1 true false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0_1) S8x64.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0_2) S8x64.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0_3) S8x64.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v0_4) S8x64.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev idle0 : Fin 6 → grid0.Coords → Bool := fun | 0 => fun _ => false | 1 => fun i => !(k0_cond2 i == 1#1) | 2 => fun i => !(k0_cond2 i == 1#1) | 3 => fun i => !(k0_cond2 i == 1#1) | 4 => fun i => !(k0_cond2 i == 1#1) | 5 => fun i => !(k0_cond2 i == 1#1) | ⟨_ + 6, h⟩ => absurd h (Nat.not_lt.2 (Nat.le_add_left _ _))

abbrev win1_0 : Pipeline.Window sig grid1 :=
  Pipeline.Window.ofSpec (Memref.whole main_arg0) S1x128x64x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v110) S1x64x1x1.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v111) S1x64x1x1.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v112) S1x64x1x1.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v113) S1x64x1x1.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v114) S1x64x1x1.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v115) S1x64x1x1.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v116) S1x128x64x128.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

class Facts : Prop extends Facts₀ where

variable [Facts]
-- ==== ReferenceIdeal.lean ====
abbrev S32x128x128x128 : Shape := ⟨4, ![32, 128, 128, 128]⟩
abbrev S64x2x2 : Shape := ⟨3, ![64, 2, 2]⟩
abbrev S64x2x1 : Shape := ⟨3, ![64, 2, 1]⟩
abbrev S32x64x128x128 : Shape := ⟨4, ![32, 64, 128, 128]⟩
abbrev S_ : Shape := ⟨0, ![]⟩
abbrev S64 : Shape := ⟨1, ![64]⟩
abbrev S1x64x1x1 : Shape := ⟨4, ![1, 64, 1, 1]⟩
abbrev S64x1 : Shape := ⟨2, ![64, 1]⟩
abbrev S64x2 : Shape := ⟨2, ![64, 2]⟩
abbrev S64x1x2 : Shape := ⟨3, ![64, 1, 2]⟩
abbrev S64x1x1 : Shape := ⟨3, ![64, 1, 1]⟩

abbrev nBuf : Space → Nat
  | .hbm => 114
  | .vmem => 0
  | .smem => 0
  | _ => 0

abbrev bufTy : (tb : Table) → Fin (tcTables nBuf tb) → BufTy
  | .hbm, ⟨0, _⟩ => ⟨S32x128x128x128, .f32⟩
  | .hbm, ⟨1, _⟩ => ⟨S64x2x2, .f32⟩
  | .hbm, ⟨2, _⟩ => ⟨S64x2x1, .f32⟩
  | .hbm, ⟨3, _⟩ => ⟨S32x64x128x128, .f32⟩
  | .hbm, ⟨4, _⟩ => ⟨S32x64x128x128, .f32⟩
  | .hbm, ⟨5, _⟩ => ⟨S_, .f32⟩
  | .hbm, ⟨6, _⟩ => ⟨S64, .f32⟩
  | .hbm, ⟨7, _⟩ => ⟨S1x64x1x1, .f32⟩
  | .hbm, ⟨8, _⟩ => ⟨S_, .f32⟩
  | .hbm, ⟨9, _⟩ => ⟨S1x64x1x1, .f32⟩
  | .hbm, ⟨10, _⟩ => ⟨S1x64x1x1, .f32⟩
  | .hbm, ⟨11, _⟩ => ⟨S_, .f32⟩
  | .hbm, ⟨12, _⟩ => ⟨S64, .f32⟩
  | .hbm, ⟨13, _⟩ => ⟨S1x64x1x1, .f32⟩
  | .hbm, ⟨14, _⟩ => ⟨S_, .f32⟩
  | .hbm, ⟨15, _⟩ => ⟨S1x64x1x1, .f32⟩
  | .hbm, ⟨16, _⟩ => ⟨S1x64x1x1, .f32⟩
  | .hbm, ⟨17, _⟩ => ⟨S32x64x128x128, .f32⟩
  | .hbm, ⟨18, _⟩ => ⟨S32x64x128x128, .f32⟩
  | .hbm, ⟨19, _⟩ => ⟨S32x64x128x128, .f32⟩
  | .hbm, ⟨20, _⟩ => ⟨S32x64x128x128, .f32⟩
  | .hbm, ⟨21, _⟩ => ⟨S32x64x128x128, .f32⟩
  | .hbm, ⟨22, _⟩ => ⟨S_, .f32⟩
  | .hbm, ⟨23, _⟩ => ⟨S64, .f32⟩
  | .hbm, ⟨24, _⟩ => ⟨S_, .f32⟩
  | .hbm, ⟨25, _⟩ => ⟨S64, .f32⟩
  | .hbm, ⟨26, _⟩ => ⟨S64, .f32⟩
  | .hbm, ⟨27, _⟩ => ⟨S32x64x128x128, .f32⟩
  | .hbm, ⟨28, _⟩ => ⟨S_, .f32⟩
  | .hbm, ⟨29, _⟩ => ⟨S64, .f32⟩
  | .hbm, ⟨30, _⟩ => ⟨S_, .f32⟩
  | .hbm, ⟨31, _⟩ => ⟨S64, .f32⟩
  | .hbm, ⟨32, _⟩ => ⟨S64, .f32⟩
  | .hbm, ⟨33, _⟩ => ⟨S32x64x128x128, .f32⟩
  | .hbm, ⟨34, _⟩ => ⟨S_, .f32⟩
  | .hbm, ⟨35, _⟩ => ⟨S64, .f32⟩
  | .hbm, ⟨36, _⟩ => ⟨S_, .f32⟩
  | .hbm, ⟨37, _⟩ => ⟨S64, .f32⟩
  | .hbm, ⟨38, _⟩ => ⟨S64, .f32⟩
  | .hbm, ⟨39, _⟩ => ⟨S_, .f32⟩
  | .hbm, ⟨40, _⟩ => ⟨S64, .f32⟩
  | .hbm, ⟨41, _⟩ => ⟨S64, .f32⟩
  | .hbm, ⟨42, _⟩ => ⟨S_, .f32⟩
  | .hbm, ⟨43, _⟩ => ⟨S64, .f32⟩
  | .hbm, ⟨44, _⟩ => ⟨S64, .f32⟩
  | .hbm, ⟨45, _⟩ => ⟨S64, .f32⟩
  | .hbm, ⟨46, _⟩ => ⟨S64, .f32⟩
  | .hbm, ⟨47, _⟩ => ⟨S64, .f32⟩
  | .hbm, ⟨48, _⟩ => ⟨S64, .f32⟩
  | .hbm, ⟨49, _⟩ => ⟨S64, .f32⟩
  | .hbm, ⟨50, _⟩ => ⟨S_, .f32⟩
  | .hbm, ⟨51, _⟩ => ⟨S64, .f32⟩
  | .hbm, ⟨52, _⟩ => ⟨S64, .f32⟩
  | .hbm, ⟨53, _⟩ => ⟨S64, .f32⟩
  | .hbm, ⟨54, _⟩ => ⟨S64, .f32⟩
  | .hbm, ⟨55, _⟩ => ⟨S64, .f32⟩
  | .hbm, ⟨56, _⟩ => ⟨S64, .f32⟩
  | .hbm, ⟨57, _⟩ => ⟨S64, .f32⟩
  | .hbm, ⟨58, _⟩ => ⟨S64, .f32⟩
  | .hbm, ⟨59, _⟩ => ⟨S64, .f32⟩
  | .hbm, ⟨60, _⟩ => ⟨S64, .f32⟩
  | .hbm, ⟨61, _⟩ => ⟨S64, .f32⟩
  | .hbm, ⟨62, _⟩ => ⟨S64, .f32⟩
  | .hbm, ⟨63, _⟩ => ⟨S64, .f32⟩
  | .hbm, ⟨64, _⟩ => ⟨S64, .f32⟩
  | .hbm, ⟨65, _⟩ => ⟨S64, .f32⟩
  | .hbm, ⟨66, _⟩ => ⟨S64, .f32⟩
  | .hbm, ⟨67, _⟩ => ⟨S64x1, .f32⟩
  | .hbm, ⟨68, _⟩ => ⟨S64x1, .f32⟩
  | .hbm, ⟨69, _⟩ => ⟨S64x2, .f32⟩
  | .hbm, ⟨70, _⟩ => ⟨S64, .f32⟩
  | .hbm, ⟨71, _⟩ => ⟨S64x1, .f32⟩
  | .hbm, ⟨72, _⟩ => ⟨S64x1, .f32⟩
  | .hbm, ⟨73, _⟩ => ⟨S64x2, .f32⟩
  | .hbm, ⟨74, _⟩ => ⟨S64x1x2, .f32⟩
  | .hbm, ⟨75, _⟩ => ⟨S64x1x2, .f32⟩
  | .hbm, ⟨76, _⟩ => ⟨S64x2x2, .f32⟩
  | .hbm, ⟨77, _⟩ => ⟨S64x1x1, .f32⟩
  | .hbm, ⟨78, _⟩ => ⟨S64x2x2, .f32⟩
  | .hbm, ⟨79, _⟩ => ⟨S64x2x2, .f32⟩
  | .hbm, ⟨80, _⟩ => ⟨S64x2x2, .f32⟩
  | .hbm, ⟨81, _⟩ => ⟨S64x1x1, .f32⟩
  | .hbm, ⟨82, _⟩ => ⟨S64, .f32⟩
  | .hbm, ⟨83, _⟩ => ⟨S1x64x1x1, .f32⟩
  | .hbm, ⟨84, _⟩ => ⟨S64x1x1, .f32⟩
  | .hbm, ⟨85, _⟩ => ⟨S64, .f32⟩
  | .hbm, ⟨86, _⟩ => ⟨S1x64x1x1, .f32⟩
  | .hbm, ⟨87, _⟩ => ⟨S64x1x1, .f32⟩
  | .hbm, ⟨88, _⟩ => ⟨S64, .f32⟩
  | .hbm, ⟨89, _⟩ => ⟨S1x64x1x1, .f32⟩
  | .hbm, ⟨90, _⟩ => ⟨S64x1x1, .f32⟩
  | .hbm, ⟨91, _⟩ => ⟨S64, .f32⟩
  | .hbm, ⟨92, _⟩ => ⟨S1x64x1x1, .f32⟩
  | .hbm, ⟨93, _⟩ => ⟨S64x1x1, .f32⟩
  | .hbm, ⟨94, _⟩ => ⟨S64, .f32⟩
  | .hbm, ⟨95, _⟩ => ⟨S1x64x1x1, .f32⟩
  | .hbm, ⟨96, _⟩ => ⟨S64x1x1, .f32⟩
  | .hbm, ⟨97, _⟩ => ⟨S64, .f32⟩
  | .hbm, ⟨98, _⟩ => ⟨S1x64x1x1, .f32⟩
  | .hbm, ⟨99, _⟩ => ⟨S32x64x128x128, .f32⟩
  | .hbm, ⟨100, _⟩ => ⟨S32x64x128x128, .f32⟩
  | .hbm, ⟨101, _⟩ => ⟨S32x64x128x128, .f32⟩
  | .hbm, ⟨102, _⟩ => ⟨S32x64x128x128, .f32⟩
  | .hbm, ⟨103, _⟩ => ⟨S32x64x128x128, .f32⟩
  | .hbm, ⟨104, _⟩ => ⟨S32x64x128x128, .f32⟩
  | .hbm, ⟨105, _⟩ => ⟨S32x64x128x128, .f32⟩
  | .hbm, ⟨106, _⟩ => ⟨S32x64x128x128, .f32⟩
  | .hbm, ⟨107, _⟩ => ⟨S32x64x128x128, .f32⟩
  | .hbm, ⟨108, _⟩ => ⟨S32x64x128x128, .f32⟩
  | .hbm, ⟨109, _⟩ => ⟨S32x64x128x128, .f32⟩
  | .hbm, ⟨110, _⟩ => ⟨S32x64x128x128, .f32⟩
  | .hbm, ⟨111, _⟩ => ⟨S32x64x128x128, .f32⟩
  | .hbm, ⟨112, _⟩ => ⟨S32x64x128x128, .f32⟩
  | .hbm, ⟨113, _⟩ => ⟨S32x128x128x128, .f32⟩
  | _, _ => ⟨S32x128x128x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_cst_2 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst_3 : Ref sig .tc := ⟨.hbm, 22, rfl⟩
abbrev main_v15 : Ref sig .tc := ⟨.hbm, 23, rfl⟩
abbrev main_cst_4 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_5 : Ref sig .tc := ⟨.hbm, 28, rfl⟩
abbrev main_v19 : Ref sig .tc := ⟨.hbm, 29, rfl⟩
abbrev main_cst_6 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst_7 : Ref sig .tc := ⟨.hbm, 34, rfl⟩
abbrev main_v23 : Ref sig .tc := ⟨.hbm, 35, rfl⟩
abbrev main_cst_8 : Ref sig .tc := ⟨.hbm, 36, rfl⟩
abbrev main_v24 : Ref sig .tc := ⟨.hbm, 37, rfl⟩
abbrev main_v25 : Ref sig .tc := ⟨.hbm, 38, rfl⟩
abbrev main_cst_9 : Ref sig .tc := ⟨.hbm, 39, rfl⟩
abbrev main_v26 : Ref sig .tc := ⟨.hbm, 40, rfl⟩
abbrev main_v27 : Ref sig .tc := ⟨.hbm, 41, rfl⟩
abbrev main_cst_10 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_cst_11 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_v66 : Ref sig .tc := ⟨.hbm, 82, rfl⟩
abbrev main_v67 : Ref sig .tc := ⟨.hbm, 83, rfl⟩
abbrev main_v68 : Ref sig .tc := ⟨.hbm, 84, rfl⟩
abbrev main_v69 : Ref sig .tc := ⟨.hbm, 85, rfl⟩
abbrev main_v70 : Ref sig .tc := ⟨.hbm, 86, rfl⟩
abbrev main_v71 : Ref sig .tc := ⟨.hbm, 87, rfl⟩
abbrev main_v72 : Ref sig .tc := ⟨.hbm, 88, rfl⟩
abbrev main_v73 : Ref sig .tc := ⟨.hbm, 89, rfl⟩
abbrev main_v74 : Ref sig .tc := ⟨.hbm, 90, rfl⟩
abbrev main_v75 : Ref sig .tc := ⟨.hbm, 91, rfl⟩
abbrev main_v76 : Ref sig .tc := ⟨.hbm, 92, rfl⟩
abbrev main_v77 : Ref sig .tc := ⟨.hbm, 93, rfl⟩
abbrev main_v78 : Ref sig .tc := ⟨.hbm, 94, rfl⟩
abbrev main_v79 : Ref sig .tc := ⟨.hbm, 95, rfl⟩
abbrev main_v80 : Ref sig .tc := ⟨.hbm, 96, rfl⟩
abbrev main_v81 : Ref sig .tc := ⟨.hbm, 97, rfl⟩
abbrev main_v82 : Ref sig .tc := ⟨.hbm, 98, rfl⟩
abbrev main_v83 : Ref sig .tc := ⟨.hbm, 99, rfl⟩
abbrev main_v84 : Ref sig .tc := ⟨.hbm, 100, rfl⟩
abbrev main_v85 : Ref sig .tc := ⟨.hbm, 101, rfl⟩
abbrev main_v86 : Ref sig .tc := ⟨.hbm, 102, rfl⟩
abbrev main_v87 : Ref sig .tc := ⟨.hbm, 103, rfl⟩
abbrev main_v88 : Ref sig .tc := ⟨.hbm, 104, rfl⟩
abbrev main_v89 : Ref sig .tc := ⟨.hbm, 105, rfl⟩
abbrev main_v90 : Ref sig .tc := ⟨.hbm, 106, rfl⟩
abbrev main_v91 : Ref sig .tc := ⟨.hbm, 107, rfl⟩
abbrev main_v92 : Ref sig .tc := ⟨.hbm, 108, rfl⟩
abbrev main_v93 : Ref sig .tc := ⟨.hbm, 109, rfl⟩
abbrev main_v94 : Ref sig .tc := ⟨.hbm, 110, rfl⟩
abbrev main_v95 : Ref sig .tc := ⟨.hbm, 111, rfl⟩
abbrev main_v96 : Ref sig .tc := ⟨.hbm, 112, rfl⟩
abbrev main_v97 : Ref sig .tc := ⟨.hbm, 113, rfl⟩

abbrev nD : Nat := 1
abbrev τ : Topo := Topo.v7x

variable {F : FTy → Type} [FloatOps F]

class Facts₀ : Prop where
  slices_S32x128x128x128_S32x64x128x128_0_0_0_0 : S32x128x128x128.Slices ![0, 0, 0, 0] S32x64x128x128
  slices_S32x128x128x128_S32x64x128x128_0_64_0_0 : S32x128x128x128.Slices ![0, 64, 0, 0] S32x64x128x128
  reducesTo_S32x64x128x128_S64_d0_2_3 : S32x64x128x128.ReducesTo [0, 2, 3] S64
  h_S_ : 0 < S_.numel
  bcast_S64_S1x64x1x1_1 : S64.BroadcastsInDim S1x64x1x1 (![1] : Fin 1 → Fin S1x64x1x1.rank)
  bcast_S_S1x64x1x1 : S_.BroadcastsInDim S1x64x1x1 (![] : Fin 0 → Fin S1x64x1x1.rank)
  bcast_S1x64x1x1_S32x64x128x128_0_1_2_3 : S1x64x1x1.BroadcastsInDim S32x64x128x128 (![0, 1, 2, 3] : Fin 4 → Fin S32x64x128x128.rank)
  bcast_S_S64 : S_.BroadcastsInDim S64 (![] : Fin 0 → Fin S64.rank)
  bcast_S64_S64x1_0 : S64.BroadcastsInDim S64x1 (![0] : Fin 1 → Fin S64x1.rank)
  concatenates_S64x1_S64x1_S64x2_d1 : Shape.Concatenates [S64x1, S64x1] S64x2 1
  bcast_S64x2_S64x1x2_0_2 : S64x2.BroadcastsInDim S64x1x2 (![0, 2] : Fin 2 → Fin S64x1x2.rank)
  concatenates_S64x1x2_S64x1x2_S64x2x2_d1 : Shape.Concatenates [S64x1x2, S64x1x2] S64x2x2 1
  bcast_S64_S64x1x1_0 : S64.BroadcastsInDim S64x1x1 (![0] : Fin 1 → Fin S64x1x1.rank)
  bcast_S64x1x1_S64x2x2_0_1_2 : S64x1x1.BroadcastsInDim S64x2x2 (![0, 1, 2] : Fin 3 → Fin S64x2x2.rank)
  slices_S64x2x2_S64x1x1_0_0_0 : S64x2x2.Slices ![0, 0, 0] S64x1x1
  shapeCasts_S64x1x1_S64 : S64x1x1.ShapeCasts S64
  slices_S64x2x2_S64x1x1_0_0_1 : S64x2x2.Slices ![0, 0, 1] S64x1x1
  slices_S64x2x2_S64x1x1_0_1_0 : S64x2x2.Slices ![0, 1, 0] S64x1x1
  slices_S64x2x2_S64x1x1_0_1_1 : S64x2x2.Slices ![0, 1, 1] S64x1x1
  slices_S64x2x1_S64x1x1_0_0_0 : S64x2x1.Slices ![0, 0, 0] S64x1x1
  slices_S64x2x1_S64x1x1_0_1_0 : S64x2x1.Slices ![0, 1, 0] S64x1x1
  concatenates_S32x64x128x128_S32x64x128x128_S32x128x128x128_d1 : Shape.Concatenates [S32x64x128x128, S32x64x128x128] S32x128x128x128 1
  dot_S64x2x2_S64x2x2_S64x2x2_2_1_1_2_0_0_wf : DotDims.WF S64x2x2 S64x2x2 S64x2x2 [2] [1] [1] [2] [0] [0]

variable [Facts₀]

def dot_S64x2x2_S64x2x2_S64x2x2_2_1_1_2_0_0 : DotDims S64x2x2 S64x2x2 S64x2x2 where
  lhsContracting := [2]
  rhsContracting := [1]
  lhsNonContracting := [1]
  rhsNonContracting := [2]
  lhsBatch := [0]
  rhsBatch := [0]
  wf := dot_S64x2x2_S64x2x2_S64x2x2_2_1_1_2_0_0_wf

class Facts : Prop extends Facts₀ where

variable [Facts]
-- ==== Proof.KI.Data0.lean ====
/-
  Region 0 (the statistics pass) as pure data: what one grid point does to the five running sums kept in scratch,
  what the scratch holds after any number of points, the row each output block receives at the last point of a
  core's half, and the pipeline's proof data stated as a RELATION on each output block (only its first row is
  stored, the other seven rows keep whatever the staging buffer held).

  The grid is 2 × 16: point t = 16·p + b handles batch element 16·p + b. The block of `x` at a point is one batch
  element, [1, 128, 128, 128]; its channels 0–63 are the real parts, 64–127 the imaginary parts. Scratch k holds, per
  (channel, lane), the running sum over the batch elements seen so far in this half and over the rows h of
  x_re, x_re², x_im, x_im², x_re·x_im (k = 0 … 4); it is reset at b = 0. At b = 15 the lanes are summed and the
  resulting [64] vector is stored as row 0 of output k's [8, 64] block p.
-/
import proofs.«141001_j43499428774583_2_alg».proof.Proof.Gen.KernelIdeal.Launch
import proofs.«141001_j43499428774583_2_alg».proof.Proof.Gen.KernelIdeal.Skeleton
import proofs.«141001_j43499428774583_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.ValueIdx

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)
open Cert.KernelIdeal Cert.KernelIdeal.Gen

variable {F : FTy → Type} [FloatOps F]

local notation "𝕄" => MT nD τ sig Unit (Elt F) ℕ (UR sig nD τ) ℕ

/-! ## The body's rectangles -/

/-- Channels 0–63 of the block: the real parts. -/
abbrev rLo : Rect S1x128x128x128 := Rect.unit (s := S1x128x128x128) ![0, 0, 0, 0] S1x64x128x128.size inb_S1x128x128x128_S1x64x128x128_0_0_0_0
/-- Channels 64–127 of the block: the imaginary parts. -/
abbrev rHi : Rect S1x128x128x128 := Rect.unit (s := S1x128x128x128) ![0, 64, 0, 0] S1x64x128x128.size inb_S1x128x128x128_S1x64x128x128_0_64_0_0
/-- A whole scratch accumulator. -/
abbrev rAcc : Rect S64x128 := Rect.unit (s := S64x128) ![0, 0] S64x128.size inb_S64x128_S64x128_0_0
/-- Row 0 of an output block. -/
abbrev rRow : Rect S8x64 := Rect.unit (s := S8x64) ![0, 0] S1x64.size inb_S8x64_S1x64_0_0

/-! ## One point's arithmetic, through the skeleton's payload names -/

/-- What the reset at the first point of a half stores into scratch `k`: zeros. -/
def zer : Fin 5 → Vec F S64x128 .f32
  | ⟨0, _⟩ => k0_pay8
  | ⟨1, _⟩ => k0_pay9
  | ⟨2, _⟩ => k0_pay10
  | ⟨3, _⟩ => k0_pay11
  | ⟨4, _⟩ => k0_pay12

/-- What a point stores into scratch `k`: the old contents plus the block's row sums of
    x_re, x_re², x_im, x_im², x_re·x_im. -/
def upd : Fin 5 → Vec F S1x128x128x128 .f32 → Vec F S64x128 .f32 → Vec F S64x128 .f32
  | ⟨0, _⟩, x0, old => k0_pay15 (View.ld x0 rLo) old
  | ⟨1, _⟩, x0, old => k0_pay16 (View.ld x0 rLo) old
  | ⟨2, _⟩, x0, old => k0_pay17 (View.ld x0 rHi) old
  | ⟨3, _⟩, x0, old => k0_pay1 (k0_pay14 (View.ld x0 rHi)) old
  | ⟨4, _⟩, x0, old => k0_pay2 (k0_pay13 (View.ld x0 rLo)) (k0_pay14 (View.ld x0 rHi)) old

/-- The row the last point of a half stores into output `k`'s block: scratch `k` summed over its lanes. -/
def row : Fin 5 → Vec F S64x128 .f32 → Vec F S1x64 .f32
  | ⟨0, _⟩, a => k0_pay3 a
  | ⟨1, _⟩, a => k0_pay4 a
  | ⟨2, _⟩, a => k0_pay5 a
  | ⟨3, _⟩, a => k0_pay6 a
  | ⟨4, _⟩, a => k0_pay7 a

/-! ## The scratch after n points -/

section Data

variable (c : Dev nD) (X : Buf (Elt F) ((cfg0.win 0).arr.view.loc (c.tc : Thread nD τ)))

/-- The block of `x` at point `t`: batch element `t`. -/
def xblk (t : Fin cfg0.N) : Vec F S1x128x128x128 .f32 := ((cfg0.win 0).blk t).view.read (Elt F) X

/-- Scratch `k` after the points below `n`: reset at every multiple of 16 (the first point of a half), then one
    `upd` per point. -/
def acc (k : Fin 5) : ℕ → Vec F S64x128 .f32
  | 0 => zer k
  | n + 1 => if h : n < cfg0.N then upd k (xblk c X ⟨n, h⟩) (if n % 16 = 0 then zer k else acc k n) else acc k n

/-- The row output `k`'s block `p` receives: the lane sums of scratch `k` after the 16 points of half `p`. -/
def pay (k : Fin 5) (p : ℕ) : Vec F S1x64 .f32 := row k (acc c X k (16 * p + 16))

end Data

/-! ## The pipeline's proof data, relational -/

section RData

open Idealize.ShloMosaic.ValueIdx

variable (V : (c : Dev nD) → (b : Ref sig .tc) → Buf (Elt F) ((c : Thread nD τ).loc b))

/-- The five scratch accumulators as whole memrefs. -/
abbrev scM : Fin 5 → Memref sig .tc .vmem S64x128 .f32
  | ⟨0, _⟩ => Memref.whole cc0_scratch0
  | ⟨1, _⟩ => Memref.whole cc0_scratch1
  | ⟨2, _⟩ => Memref.whole cc0_scratch2
  | ⟨3, _⟩ => Memref.whole cc0_scratch3
  | ⟨4, _⟩ => Memref.whole cc0_scratch4

/-- Scratch `k` between points: at some contents, which after at least one point of the current half are the running sums. -/
def scratchAt (c : Dev nD) (X : Buf (Elt F) ((cfg0.win 0).arr.view.loc (c.tc : Thread nD τ))) (k : Fin 5) (n : ℕ) : sProp 𝕄 :=
  iprop(∃ f : Vec F S64x128 .f32, ⌜n % 16 ≠ 0 → f = acc c X k n⌝ ∗ owns (c : Thread nD τ) (scM k) fullShare f)

/-- The core's scoped buffers that region 0 never touches (the other pallas_call's staging buffers), each whole at some contents. -/
def otherScoped (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg5_0), ((c : Thread nD τ).loc cc1_stg5_0) ↦{fullShare} f) ∗ (∃ f : Buf (Elt F) ((c : Thread nD τ).loc cc1_stg6_0), ((c : Thread nD τ).loc cc1_stg6_0) ↦{fullShare} f) ∗ (∃ f : Buf (Elt F) ((c : Thread nD τ).loc cc1_stg7_0), ((c : Thread nD τ).loc cc1_stg7_0) ↦{fullShare} f) ∗ (∃ f : Buf (Elt F) ((c : Thread nD τ).loc cc1_stg7_1), ((c : Thread nD τ).loc cc1_stg7_1) ↦{fullShare} f))

/-- The body's invariant before point `n`: the five accumulators, the untouched scoped buffers, the generator register. -/
def Phi0 (c : Dev nD) (X : Buf (Elt F) ((cfg0.win 0).arr.view.loc (c.tc : Thread nD τ))) (n : ℕ) : sProp 𝕄 :=
  iprop(scratchAt c X 0 n ∗ scratchAt c X 1 n ∗ scratchAt c X 2 n ∗ scratchAt c X 3 n ∗ scratchAt c X 4 n ∗ otherScoped c ∗ ∃ r, prngReg c r)

/-- What a point may leave in output `k`'s block: at the last point of a half its first row is the half's lane sums;
    nothing is said of the other rows, nor at the other points. -/
def outRel (c : Dev nD) (X : Buf (Elt F) ((cfg0.win 0).arr.view.loc (c.tc : Thread nD τ))) (k : Fin 5) (t : Fin cfg0.N)
    (X' : Vec F S8x64 .f32) : Prop :=
  t.val % 16 = 15 → ∀ j : Fin 64, X' (ix2 (0 : Fin 8) j) = pay c X k (t.val / 16) (ix2 (0 : Fin 1) j)

/-- The proof data of pipeline 0 on core `c`, at the entry contents `V`: the input block left in place; each output block
    constrained by `outRel`; the invariant `Phi0`; nothing owed; full shares. -/
def rd0 (c : Dev nD) : RDat τ (Elt F) Unit ℕ (UR sig nD τ) ℕ cfg0 c where
  A w := V c (Pipeline.arrRef spec0 w)
  after w t := match w with
    | ⟨0, _⟩ => fun Y X' => X' = Y
    | ⟨1, _⟩ => fun _ X' => outRel c (V c (Pipeline.arrRef spec0 0)) 0 t X'
    | ⟨2, _⟩ => fun _ X' => outRel c (V c (Pipeline.arrRef spec0 0)) 1 t X'
    | ⟨3, _⟩ => fun _ X' => outRel c (V c (Pipeline.arrRef spec0 0)) 2 t X'
    | ⟨4, _⟩ => fun _ X' => outRel c (V c (Pipeline.arrRef spec0 0)) 3 t X'
    | ⟨5, _⟩ => fun _ X' => outRel c (V c (Pipeline.arrRef spec0 0)) 4 t X'
  Φ t := Phi0 c (V c (Pipeline.arrRef spec0 0)) t.val
  q _ := fullShare
  owed _ := 0

end RData

end Cert.KernelIdeal.Hand

end
-- ==== Proof.KI.Body0h.lean ====
/-
  Region 0, the body at one grid point: the two conditions of the body in closed form over the grid, and what a
  whole accumulator and the first row of an output block read after the body's stores.
-/
import proofs.«141001_j43499428774583_2_alg».proof.Proof.KI.Data0
import Idealize.ShloMosaic.Lib.Pipeline.Value
import Idealize.ShloMosaic.Lib.WritesUnit

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)
open Cert.KernelIdeal Cert.KernelIdeal.Gen

variable {F : FTy → Type} [FloatOps F]

local notation "𝕄" => MT nD τ sig Unit (Elt F) ℕ (UR sig nD τ) ℕ

/-! ## The two conditions of the body, in closed form over the grid -/

/-- The condition of the reset (`b = 0`), from the grid coordinates. -/
abbrev cond0 (i : grid0.Coords) : Prop := (Scalar.cmpi .ne (Scalar.extui (Scalar.cmpi .eq (BitVec.ofNat 32 (i 1).val) 0#32)) 0#32) = 1#1
/-- The condition of the final stores (`b = 15`), from the grid coordinates. -/
abbrev cond1 (i : grid0.Coords) : Prop := k0_cond2 i = 1#1
/-- The reset runs at the first point of each half. -/
theorem hcond0 : ∀ t : Fin cfg0.N, cond0 (grid0.coords t) ↔ t.val % 16 = 0 :=
  (by decide +kernel : ∀ t : Fin grid0.N, cond0 (grid0.coords t) ↔ t.val % 16 = 0)
/-- The final stores run at the last point of each half. -/
theorem hcond1 : ∀ t : Fin cfg0.N, cond1 (grid0.coords t) ↔ t.val % 16 = 15 :=
  (by decide +kernel : ∀ t : Fin grid0.N, cond1 (grid0.coords t) ↔ t.val % 16 = 15)

/-! ## Reading back a whole accumulator and a row of an output block -/

theorem hz2 : (![0, 0] : Fin 2 → ℕ) = fun _ => 0 := funext fun a => by fin_cases a <;> rfl

/-- A store through the whole accumulator, last, leaves its payload. -/
theorem read_store_acc {m : Memref sig .tc .vmem S64x128 .f32} (f : m.view.ty.Contents (Elt F)) (w : Vec F S64x128 .f32)
    (L : List (View.Piece (Elt F) S64x128 .f32)) :
    m.view.read (Elt F) (m.view.writes (Elt F) f ((⟨rAcc, w⟩ : View.Piece (Elt F) S64x128 .f32) :: L)) = w := by
  refine (View.read_writes_eq_canon m.view f _ (fun y => ⟨_, List.mem_cons_self, ?_⟩)).trans ?_
  · exact View.mem_set_unit_zero (S := S64x128) hz2 inb_S64x128_S64x128_0_0 y
  · exact View.canon_cons_unit_zero (S := S64x128) hz2 inb_S64x128_S64x128_0_0 w L

/-- A load of the whole accumulator reads its contents. -/
theorem load_acc {m : Memref sig .tc .vmem S64x128 .f32} (h : m.IsWhole) (f : Vec F S64x128 .f32) :
    View.readAt (Elt F) m.view rAcc.toLoadRect (h.unread f) = f := by
  rw [View.readAt_eq_ld, h.read_unread]; exact View.ld_unit_zero hz2 _ f

/-- A load through a rectangle of the input block reads the block there. -/
theorem load_x {m : Memref sig .tc .vmem S1x128x128x128 .f32} (h : m.IsWhole) (x : Vec F S1x128x128x128 .f32) (r : Rect S1x128x128x128) :
    View.readAt (Elt F) m.view r.toLoadRect (h.unread x) = View.ld x r := by
  rw [View.readAt_eq_ld, h.read_unread]

open Idealize.ShloMosaic.ValueIdx in
/-- A store through row 0 of an output block, last, leaves its payload in that row. -/
theorem read_store_row {m : Memref sig .tc .vmem S8x64 .f32} (f : m.view.ty.Contents (Elt F)) (w : Vec F S1x64 .f32)
    (L : List (View.Piece (Elt F) S8x64 .f32)) (j : Fin 64) :
    m.view.read (Elt F) (m.view.writes (Elt F) f ((⟨rRow, w⟩ : View.Piece (Elt F) S8x64 .f32) :: L)) (ix2 (0 : Fin 8) j)
      = w (ix2 (0 : Fin 1) j) :=
  View.read_writes_cons_unit_of_mem m.view f inb_S8x64_S1x64_0_0 w L (ix2 (0 : Fin 8) j) (ix2 (0 : Fin 1) j) rfl (fun a => by
    match a with
    | ⟨0, _⟩ => rfl
    | ⟨1, _⟩ => show j.val = 0 + j.val; omega)

/-- A load of the whole accumulator after a store through the whole accumulator reads the stored payload. -/
theorem load_store_acc {m : Memref sig .tc .vmem S64x128 .f32} (w : Vec F S64x128 .f32) :
    m.view.readCov [(⟨rAcc, w⟩ : View.Piece (Elt F) S64x128 .f32)] rAcc.toLoadRect = w :=
  View.readCov_unit_zero (S := S64x128) m.view hz2 inb_S64x128_S64x128_0_0 w

end Cert.KernelIdeal.Hand

end
-- ==== Proof.KI.Body0a.lean ====
/-
  Region 0, the body's run in case A: the first point of a half (b = 0).
-/
import proofs.«141001_j43499428774583_2_alg».proof.Proof.KI.Body0h

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)
open Cert.KernelIdeal Cert.KernelIdeal.Gen

variable {F : FTy → Type} [FloatOps F]

local notation "𝕄" => MT nD τ sig Unit (Elt F) ℕ (UR sig nD τ) ℕ

set_option maxHeartbeats 1000000 in
/-- The first point of a half: each accumulator is zeroed, then takes the block's row sums; the output blocks are untouched. -/
theorem run_A (c : Dev nD) (i : grid0.Coords) (arg2 : Memref sig .tc .vmem S1x128x128x128 .f32) (harg2 : arg2.IsWhole) (arg3 : Memref sig .tc .vmem S8x64 .f32) (harg3 : arg3.IsWhole) (arg4 : Memref sig .tc .vmem S8x64 .f32) (harg4 : arg4.IsWhole) (arg5 : Memref sig .tc .vmem S8x64 .f32) (harg5 : arg5.IsWhole) (arg6 : Memref sig .tc .vmem S8x64 .f32) (harg6 : arg6.IsWhole) (arg7 : Memref sig .tc .vmem S8x64 .f32) (harg7 : arg7.IsWhole) (arg8 : Memref sig .tc .vmem S64x128 .f32) (harg8 : arg8.IsWhole) (arg9 : Memref sig .tc .vmem S64x128 .f32) (harg9 : arg9.IsWhole) (arg10 : Memref sig .tc .vmem S64x128 .f32) (harg10 : arg10.IsWhole) (arg11 : Memref sig .tc .vmem S64x128 .f32) (harg11 : arg11.IsWhole) (arg12 : Memref sig .tc .vmem S64x128 .f32) (harg12 : arg12.IsWhole) (hc0 : cond0 i) (hc1 : ¬cond1 i)
    (x0 : Vec F S1x128x128x128 .f32) (y1 y2 y3 y4 y5 : Vec F S8x64 .f32) (f0 f1 f2 f3 f4 : Vec F S64x128 .f32) (E : Set ℕ) (K : PUnit → sProp 𝕄) :
    iprop(owns (c : Thread nD τ) arg2 fullShare x0 ∗ owns (c : Thread nD τ) arg3 fullShare y1 ∗ owns (c : Thread nD τ) arg4 fullShare y2 ∗ owns (c : Thread nD τ) arg5 fullShare y3 ∗ owns (c : Thread nD τ) arg6 fullShare y4 ∗ owns (c : Thread nD τ) arg7 fullShare y5 ∗ owns (c : Thread nD τ) arg8 fullShare f0 ∗ owns (c : Thread nD τ) arg9 fullShare f1 ∗ owns (c : Thread nD τ) arg10 fullShare f2 ∗ owns (c : Thread nD τ) arg11 fullShare f3 ∗ owns (c : Thread nD τ) arg12 fullShare f4
        ∗ (iprop(owns (c : Thread nD τ) arg2 fullShare x0 ∗ owns (c : Thread nD τ) arg3 fullShare y1 ∗ owns (c : Thread nD τ) arg4 fullShare y2 ∗ owns (c : Thread nD τ) arg5 fullShare y3 ∗ owns (c : Thread nD τ) arg6 fullShare y4 ∗ owns (c : Thread nD τ) arg7 fullShare y5 ∗ owns (c : Thread nD τ) arg8 fullShare (upd 0 x0 (zer 0)) ∗ owns (c : Thread nD τ) arg9 fullShare (upd 1 x0 (zer 1)) ∗ owns (c : Thread nD τ) arg10 fullShare (upd 2 x0 (zer 2)) ∗ owns (c : Thread nD τ) arg11 fullShare (upd 3 x0 (zer 3)) ∗ owns (c : Thread nD τ) arg12 fullShare (upd 4 x0 (zer 4))) -∗ K ⟨⟩))
      ⊢ wp frame (wpE (defs₀ (F := F)) Variants.none c none) E (cc0__stats_kernel i arg2 harg2 arg3 harg3 arg4 harg4 arg5 harg5 arg6 harg6 arg7 harg7 arg8 harg8 arg9 harg9 arg10 harg10 arg11 harg11 arg12 harg12) K := by
  simp only [cc0__stats_kernel_eq_skeleton]; unfold cc0__stats_kernel_skel
  unfold owns
  iintro ⟨⟨%g0, %hg0, H0⟩, ⟨%g1, %hg1, H1⟩, ⟨%g2, %hg2, H2⟩, ⟨%g3, %hg3, H3⟩, ⟨%g4, %hg4, H4⟩, ⟨%g5, %hg5, H5⟩, ⟨%s0, %hs0, S0⟩, ⟨%s1, %hs1, S1⟩, ⟨%s2, %hs2, S2⟩, ⟨%s3, %hs3, S3⟩, ⟨%s4, %hs4, S4⟩, Hk⟩
  obtain rfl := harg2.eq_unread hg0; obtain rfl := harg3.eq_unread hg1; obtain rfl := harg4.eq_unread hg2; obtain rfl := harg5.eq_unread hg3; obtain rfl := harg6.eq_unread hg4; obtain rfl := harg7.eq_unread hg5
  obtain rfl := harg8.eq_unread hs0; obtain rfl := harg9.eq_unread hs1; obtain rfl := harg10.eq_unread hs2; obtain rfl := harg11.eq_unread hs3; obtain rfl := harg12.eq_unread hs4
  sl_exec (disch := first | exact hc0 | exact hc1)
  sl_step
  iapply Hk
  isplitl [H0]; · iexists _; isplitr; · ipureintro; exact hg0
                  iexact H0
  isplitl [H1]; · iexists _; isplitr; · ipureintro; exact hg1
                  iexact H1
  isplitl [H2]; · iexists _; isplitr; · ipureintro; exact hg2
                  iexact H2
  isplitl [H3]; · iexists _; isplitr; · ipureintro; exact hg3
                  iexact H3
  isplitl [H4]; · iexists _; isplitr; · ipureintro; exact hg4
                  iexact H4
  isplitl [H5]; · iexists _; isplitr; · ipureintro; exact hg5
                  iexact H5
  isplitl [S0]
  · iexists _; isplitr; swap; · iexact S0
    ipureintro; rw [read_store_acc]; sl_unfold_run_names; rw [load_store_acc, load_x harg2]; rfl
  isplitl [S1]
  · iexists _; isplitr; swap; · iexact S1
    ipureintro; rw [read_store_acc]; sl_unfold_run_names; rw [load_store_acc, load_x harg2]; rfl
  isplitl [S2]
  · iexists _; isplitr; swap; · iexact S2
    ipureintro; rw [read_store_acc]; sl_unfold_run_names; rw [load_store_acc, load_x harg2]; rfl
  isplitl [S3]
  · iexists _; isplitr; swap; · iexact S3
    ipureintro; rw [read_store_acc]; sl_unfold_run_names; rw [load_store_acc, load_x harg2]; rfl
  · iexists _; isplitr; swap; · iexact S4
    ipureintro; rw [read_store_acc]; sl_unfold_run_names; rw [load_store_acc, load_x harg2, load_x harg2]; rfl

end Cert.KernelIdeal.Hand

end
-- ==== Proof.KI.Body0b.lean ====
/-
  Region 0, the body's run in case B: a point that is neither the first nor the last of its half (0 < b < 15).
-/
import proofs.«141001_j43499428774583_2_alg».proof.Proof.KI.Body0a

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)
open Cert.KernelIdeal Cert.KernelIdeal.Gen

variable {F : FTy → Type} [FloatOps F]

local notation "𝕄" => MT nD τ sig Unit (Elt F) ℕ (UR sig nD τ) ℕ

set_option maxHeartbeats 1000000 in
/-- A point that is neither the first nor the last of its half: each accumulator takes the block's row sums; the output blocks are untouched. -/
theorem run_B (c : Dev nD) (i : grid0.Coords) (arg2 : Memref sig .tc .vmem S1x128x128x128 .f32) (harg2 : arg2.IsWhole) (arg3 : Memref sig .tc .vmem S8x64 .f32) (harg3 : arg3.IsWhole) (arg4 : Memref sig .tc .vmem S8x64 .f32) (harg4 : arg4.IsWhole) (arg5 : Memref sig .tc .vmem S8x64 .f32) (harg5 : arg5.IsWhole) (arg6 : Memref sig .tc .vmem S8x64 .f32) (harg6 : arg6.IsWhole) (arg7 : Memref sig .tc .vmem S8x64 .f32) (harg7 : arg7.IsWhole) (arg8 : Memref sig .tc .vmem S64x128 .f32) (harg8 : arg8.IsWhole) (arg9 : Memref sig .tc .vmem S64x128 .f32) (harg9 : arg9.IsWhole) (arg10 : Memref sig .tc .vmem S64x128 .f32) (harg10 : arg10.IsWhole) (arg11 : Memref sig .tc .vmem S64x128 .f32) (harg11 : arg11.IsWhole) (arg12 : Memref sig .tc .vmem S64x128 .f32) (harg12 : arg12.IsWhole) (hc0 : ¬cond0 i) (hc1 : ¬cond1 i)
    (x0 : Vec F S1x128x128x128 .f32) (y1 y2 y3 y4 y5 : Vec F S8x64 .f32) (f0 f1 f2 f3 f4 : Vec F S64x128 .f32) (E : Set ℕ) (K : PUnit → sProp 𝕄) :
    iprop(owns (c : Thread nD τ) arg2 fullShare x0 ∗ owns (c : Thread nD τ) arg3 fullShare y1 ∗ owns (c : Thread nD τ) arg4 fullShare y2 ∗ owns (c : Thread nD τ) arg5 fullShare y3 ∗ owns (c : Thread nD τ) arg6 fullShare y4 ∗ owns (c : Thread nD τ) arg7 fullShare y5 ∗ owns (c : Thread nD τ) arg8 fullShare f0 ∗ owns (c : Thread nD τ) arg9 fullShare f1 ∗ owns (c : Thread nD τ) arg10 fullShare f2 ∗ owns (c : Thread nD τ) arg11 fullShare f3 ∗ owns (c : Thread nD τ) arg12 fullShare f4
        ∗ (iprop(owns (c : Thread nD τ) arg2 fullShare x0 ∗ owns (c : Thread nD τ) arg3 fullShare y1 ∗ owns (c : Thread nD τ) arg4 fullShare y2 ∗ owns (c : Thread nD τ) arg5 fullShare y3 ∗ owns (c : Thread nD τ) arg6 fullShare y4 ∗ owns (c : Thread nD τ) arg7 fullShare y5 ∗ owns (c : Thread nD τ) arg8 fullShare (upd 0 x0 f0) ∗ owns (c : Thread nD τ) arg9 fullShare (upd 1 x0 f1) ∗ owns (c : Thread nD τ) arg10 fullShare (upd 2 x0 f2) ∗ owns (c : Thread nD τ) arg11 fullShare (upd 3 x0 f3) ∗ owns (c : Thread nD τ) arg12 fullShare (upd 4 x0 f4)) -∗ K ⟨⟩))
      ⊢ wp frame (wpE (defs₀ (F := F)) Variants.none c none) E (cc0__stats_kernel i arg2 harg2 arg3 harg3 arg4 harg4 arg5 harg5 arg6 harg6 arg7 harg7 arg8 harg8 arg9 harg9 arg10 harg10 arg11 harg11 arg12 harg12) K := by
  simp only [cc0__stats_kernel_eq_skeleton]; unfold cc0__stats_kernel_skel
  unfold owns
  iintro ⟨⟨%g0, %hg0, H0⟩, ⟨%g1, %hg1, H1⟩, ⟨%g2, %hg2, H2⟩, ⟨%g3, %hg3, H3⟩, ⟨%g4, %hg4, H4⟩, ⟨%g5, %hg5, H5⟩, ⟨%s0, %hs0, S0⟩, ⟨%s1, %hs1, S1⟩, ⟨%s2, %hs2, S2⟩, ⟨%s3, %hs3, S3⟩, ⟨%s4, %hs4, S4⟩, Hk⟩
  obtain rfl := harg2.eq_unread hg0; obtain rfl := harg3.eq_unread hg1; obtain rfl := harg4.eq_unread hg2; obtain rfl := harg5.eq_unread hg3; obtain rfl := harg6.eq_unread hg4; obtain rfl := harg7.eq_unread hg5
  obtain rfl := harg8.eq_unread hs0; obtain rfl := harg9.eq_unread hs1; obtain rfl := harg10.eq_unread hs2; obtain rfl := harg11.eq_unread hs3; obtain rfl := harg12.eq_unread hs4
  sl_exec (disch := first | exact hc0 | exact hc1)
  sl_step
  iapply Hk
  isplitl [H0]; · iexists _; isplitr; · ipureintro; exact hg0
                  iexact H0
  isplitl [H1]; · iexists _; isplitr; · ipureintro; exact hg1
                  iexact H1
  isplitl [H2]; · iexists _; isplitr; · ipureintro; exact hg2
                  iexact H2
  isplitl [H3]; · iexists _; isplitr; · ipureintro; exact hg3
                  iexact H3
  isplitl [H4]; · iexists _; isplitr; · ipureintro; exact hg4
                  iexact H4
  isplitl [H5]; · iexists _; isplitr; · ipureintro; exact hg5
                  iexact H5
  isplitl [S0]
  · iexists _; isplitr; swap; · iexact S0
    ipureintro; rw [read_store_acc, load_x harg2, load_acc harg8]; rfl
  isplitl [S1]
  · iexists _; isplitr; swap; · iexact S1
    ipureintro; rw [read_store_acc, load_x harg2, load_acc harg9]; rfl
  isplitl [S2]
  · iexists _; isplitr; swap; · iexact S2
    ipureintro; rw [read_store_acc, load_x harg2, load_acc harg10]; rfl
  isplitl [S3]
  · iexists _; isplitr; swap; · iexact S3
    ipureintro; rw [read_store_acc]; sl_unfold_run_names; rw [load_x harg2, load_acc harg11]; rfl
  · iexists _; isplitr; swap; · iexact S4
    ipureintro; rw [read_store_acc]; sl_unfold_run_names; rw [load_x harg2, load_x harg2, load_acc harg12]; rfl

end Cert.KernelIdeal.Hand

end
-- ==== Proof.KI.Body0c.lean ====
/-
  Region 0, the body's run in case C: the last point of a half (b = 15).
-/
import proofs.«141001_j43499428774583_2_alg».proof.Proof.KI.Body0b

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)
open Cert.KernelIdeal Cert.KernelIdeal.Gen

variable {F : FTy → Type} [FloatOps F]

local notation "𝕄" => MT nD τ sig Unit (Elt F) ℕ (UR sig nD τ) ℕ

set_option maxHeartbeats 1000000 in
open Idealize.ShloMosaic.ValueIdx in
/-- The last point of a half: each accumulator takes the block's row sums, and its lane sums are stored as the first row
    of the matching output block, whose other rows keep what they held. -/
theorem run_C (c : Dev nD) (i : grid0.Coords) (arg2 : Memref sig .tc .vmem S1x128x128x128 .f32) (harg2 : arg2.IsWhole) (arg3 : Memref sig .tc .vmem S8x64 .f32) (harg3 : arg3.IsWhole) (arg4 : Memref sig .tc .vmem S8x64 .f32) (harg4 : arg4.IsWhole) (arg5 : Memref sig .tc .vmem S8x64 .f32) (harg5 : arg5.IsWhole) (arg6 : Memref sig .tc .vmem S8x64 .f32) (harg6 : arg6.IsWhole) (arg7 : Memref sig .tc .vmem S8x64 .f32) (harg7 : arg7.IsWhole) (arg8 : Memref sig .tc .vmem S64x128 .f32) (harg8 : arg8.IsWhole) (arg9 : Memref sig .tc .vmem S64x128 .f32) (harg9 : arg9.IsWhole) (arg10 : Memref sig .tc .vmem S64x128 .f32) (harg10 : arg10.IsWhole) (arg11 : Memref sig .tc .vmem S64x128 .f32) (harg11 : arg11.IsWhole) (arg12 : Memref sig .tc .vmem S64x128 .f32) (harg12 : arg12.IsWhole) (hc0 : ¬cond0 i) (hc1 : cond1 i)
    (x0 : Vec F S1x128x128x128 .f32) (y1 y2 y3 y4 y5 : Vec F S8x64 .f32) (f0 f1 f2 f3 f4 : Vec F S64x128 .f32) (E : Set ℕ) (K : PUnit → sProp 𝕄) :
    iprop(owns (c : Thread nD τ) arg2 fullShare x0 ∗ owns (c : Thread nD τ) arg3 fullShare y1 ∗ owns (c : Thread nD τ) arg4 fullShare y2 ∗ owns (c : Thread nD τ) arg5 fullShare y3 ∗ owns (c : Thread nD τ) arg6 fullShare y4 ∗ owns (c : Thread nD τ) arg7 fullShare y5 ∗ owns (c : Thread nD τ) arg8 fullShare f0 ∗ owns (c : Thread nD τ) arg9 fullShare f1 ∗ owns (c : Thread nD τ) arg10 fullShare f2 ∗ owns (c : Thread nD τ) arg11 fullShare f3 ∗ owns (c : Thread nD τ) arg12 fullShare f4
        ∗ (iprop(owns (c : Thread nD τ) arg2 fullShare x0 ∗ (∃ X : Vec F S8x64 .f32, ⌜∀ j : Fin 64, X (ix2 (0 : Fin 8) j) = row 0 (upd 0 x0 f0) (ix2 (0 : Fin 1) j)⌝ ∗ owns (c : Thread nD τ) arg3 fullShare X) ∗ (∃ X : Vec F S8x64 .f32, ⌜∀ j : Fin 64, X (ix2 (0 : Fin 8) j) = row 1 (upd 1 x0 f1) (ix2 (0 : Fin 1) j)⌝ ∗ owns (c : Thread nD τ) arg4 fullShare X) ∗ (∃ X : Vec F S8x64 .f32, ⌜∀ j : Fin 64, X (ix2 (0 : Fin 8) j) = row 2 (upd 2 x0 f2) (ix2 (0 : Fin 1) j)⌝ ∗ owns (c : Thread nD τ) arg5 fullShare X) ∗ (∃ X : Vec F S8x64 .f32, ⌜∀ j : Fin 64, X (ix2 (0 : Fin 8) j) = row 3 (upd 3 x0 f3) (ix2 (0 : Fin 1) j)⌝ ∗ owns (c : Thread nD τ) arg6 fullShare X) ∗ (∃ X : Vec F S8x64 .f32, ⌜∀ j : Fin 64, X (ix2 (0 : Fin 8) j) = row 4 (upd 4 x0 f4) (ix2 (0 : Fin 1) j)⌝ ∗ owns (c : Thread nD τ) arg7 fullShare X) ∗ owns (c : Thread nD τ) arg8 fullShare (upd 0 x0 f0) ∗ owns (c : Thread nD τ) arg9 fullShare (upd 1 x0 f1) ∗ owns (c : Thread nD τ) arg10 fullShare (upd 2 x0 f2) ∗ owns (c : Thread nD τ) arg11 fullShare (upd 3 x0 f3) ∗ owns (c : Thread nD τ) arg12 fullShare (upd 4 x0 f4)) -∗ K ⟨⟩))
      ⊢ wp frame (wpE (defs₀ (F := F)) Variants.none c none) E (cc0__stats_kernel i arg2 harg2 arg3 harg3 arg4 harg4 arg5 harg5 arg6 harg6 arg7 harg7 arg8 harg8 arg9 harg9 arg10 harg10 arg11 harg11 arg12 harg12) K := by
  simp only [cc0__stats_kernel_eq_skeleton]; unfold cc0__stats_kernel_skel
  unfold owns
  iintro ⟨⟨%g0, %hg0, H0⟩, ⟨%g1, %hg1, H1⟩, ⟨%g2, %hg2, H2⟩, ⟨%g3, %hg3, H3⟩, ⟨%g4, %hg4, H4⟩, ⟨%g5, %hg5, H5⟩, ⟨%s0, %hs0, S0⟩, ⟨%s1, %hs1, S1⟩, ⟨%s2, %hs2, S2⟩, ⟨%s3, %hs3, S3⟩, ⟨%s4, %hs4, S4⟩, Hk⟩
  obtain rfl := harg2.eq_unread hg0; obtain rfl := harg3.eq_unread hg1; obtain rfl := harg4.eq_unread hg2; obtain rfl := harg5.eq_unread hg3; obtain rfl := harg6.eq_unread hg4; obtain rfl := harg7.eq_unread hg5
  obtain rfl := harg8.eq_unread hs0; obtain rfl := harg9.eq_unread hs1; obtain rfl := harg10.eq_unread hs2; obtain rfl := harg11.eq_unread hs3; obtain rfl := harg12.eq_unread hs4
  sl_exec (disch := first | exact hc0 | exact hc1)
  sl_step
  iapply Hk
  isplitl [H0]; · iexists _; isplitr; · ipureintro; exact hg0
                  iexact H0
  isplitl [H1]
  · iexists _; isplitr; swap
    · iexists _; isplitr; swap; · iexact H1
      ipureintro; rfl
    ipureintro; intro j; rw [read_store_row]; sl_unfold_run_names; rw [load_store_acc, load_x harg2, load_acc harg8]; rfl
  isplitl [H2]
  · iexists _; isplitr; swap
    · iexists _; isplitr; swap; · iexact H2
      ipureintro; rfl
    ipureintro; intro j; rw [read_store_row]; sl_unfold_run_names; rw [load_store_acc, load_x harg2, load_acc harg9]; rfl
  isplitl [H3]
  · iexists _; isplitr; swap
    · iexists _; isplitr; swap; · iexact H3
      ipureintro; rfl
    ipureintro; intro j; rw [read_store_row]; sl_unfold_run_names; rw [load_store_acc, load_x harg2, load_acc harg10]; rfl
  isplitl [H4]
  · iexists _; isplitr; swap
    · iexists _; isplitr; swap; · iexact H4
      ipureintro; rfl
    ipureintro; intro j; rw [read_store_row]; sl_unfold_run_names; rw [load_store_acc, load_x harg2, load_acc harg11]; rfl
  isplitl [H5]
  · iexists _; isplitr; swap
    · iexists _; isplitr; swap; · iexact H5
      ipureintro; rfl
    ipureintro; intro j; rw [read_store_row]; sl_unfold_run_names; rw [load_store_acc, load_x harg2, load_x harg2, load_acc harg12]; rfl
  isplitl [S0]
  · iexists _; isplitr; swap; · iexact S0
    ipureintro; sl_unfold_run_names; rw [read_store_acc, load_x harg2, load_acc harg8]; rfl
  isplitl [S1]
  · iexists _; isplitr; swap; · iexact S1
    ipureintro; sl_unfold_run_names; rw [read_store_acc, load_x harg2, load_acc harg9]; rfl
  isplitl [S2]
  · iexists _; isplitr; swap; · iexact S2
    ipureintro; sl_unfold_run_names; rw [read_store_acc, load_x harg2, load_acc harg10]; rfl
  isplitl [S3]
  · iexists _; isplitr; swap; · iexact S3
    ipureintro; sl_unfold_run_names; rw [read_store_acc, load_x harg2, load_acc harg11]; rfl
  · iexists _; isplitr; swap; · iexact S4
    ipureintro; sl_unfold_run_names; rw [read_store_acc, load_x harg2, load_x harg2, load_acc harg12]; rfl

end Cert.KernelIdeal.Hand

end
-- ==== Proof.KI.Body0.lean ====
/-
  Region 0, the body obligation of the statistics pass: at every grid point, from the five accumulators at the running
  sums of the points before it (or at anything, at the first point of a half), the input block and the output blocks at
  whatever they hold, the body leaves the accumulators at the running sums including this point, the input block in
  place, and — at the last point of a half — the lane sums in the first row of each output block.
-/
import proofs.«141001_j43499428774583_2_alg».proof.Proof.KI.Body0c

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- One more point: the running sums after the points up to `t` are those before it, reset if `t` starts a half,
    plus the block's row sums at `t`. -/
theorem acc_succ (c : Dev nD) (X : Buf (Elt F) ((cfg0.win 0).arr.view.loc (c.tc : Thread nD τ))) (k : Fin 5) (t : Fin cfg0.N) :
    acc c X k (t.val + 1) = upd k (xblk c X t) (if t.val % 16 = 0 then zer k else acc c X k t.val) := by
  show (if h : t.val < cfg0.N then upd k (xblk c X ⟨t.val, h⟩) (if t.val % 16 = 0 then zer k else acc c X k t.val) else acc c X k t.val) = _
  rw [dif_pos t.isLt]

/-- The input window is fetched at every point: its staging buffer holds the block of `x` there. -/
theorem finds_in (c : Dev nD) (t : Fin cfg0.N) (Y0 : Vec F S1x128x128x128 .f32) (h : (rd0 V c).Finds 0 t Y0) :
    Y0 = xblk c (V c (Pipeline.arrRef spec0 0)) t := by
  obtain ⟨d, rfl⟩ := ((rd0 V c).finds_of_fetch (fetch0_0 t) Y0).mp h
  rfl

open Idealize.ShloMosaic.ValueIdx in
set_option maxHeartbeats 4000000 in
/-- The body at any point, the windows one by one: by the point's place in its half. -/
theorem sound_body (c : Dev nD) (t : Fin cfg0.N) (Y0 : Vec F S1x128x128x128 .f32) (hY0 : Y0 = xblk c (V c (Pipeline.arrRef spec0 0)) t)
    (Y1 Y2 Y3 Y4 Y5 : Vec F S8x64 .f32) :
    iprop(Phi0 c (V c (Pipeline.arrRef spec0 0)) t.val ∗ (rd0 V c).owesAt () t.castSucc
        ∗ owns (c : Thread nD τ) (win0_0.stage (cfg0.slots t 0)) fullShare Y0 ∗ owns (c : Thread nD τ) (win0_1.stage (cfg0.slots t 1)) fullShare Y1 ∗ owns (c : Thread nD τ) (win0_2.stage (cfg0.slots t 2)) fullShare Y2 ∗ owns (c : Thread nD τ) (win0_3.stage (cfg0.slots t 3)) fullShare Y3 ∗ owns (c : Thread nD τ) (win0_4.stage (cfg0.slots t 4)) fullShare Y4 ∗ owns (c : Thread nD τ) (win0_5.stage (cfg0.slots t 5)) fullShare Y5)
      ⊢ wp frame (wpE (defs₀ (F := F)) Variants.none c none) Set.univ (bodyAt0 t) (fun _ =>
          iprop(Phi0 c (V c (Pipeline.arrRef spec0 0)) (t.val + 1) ∗ (rd0 V c).owesAt () t.castSucc
            ∗ (∃ X, ⌜X = Y0⌝ ∗ owns (c : Thread nD τ) (win0_0.stage (cfg0.slots t 0)) fullShare X) ∗ (∃ X, ⌜outRel c (V c (Pipeline.arrRef spec0 0)) 0 t X⌝ ∗ owns (c : Thread nD τ) (win0_1.stage (cfg0.slots t 1)) fullShare X) ∗ (∃ X, ⌜outRel c (V c (Pipeline.arrRef spec0 0)) 1 t X⌝ ∗ owns (c : Thread nD τ) (win0_2.stage (cfg0.slots t 2)) fullShare X) ∗ (∃ X, ⌜outRel c (V c (Pipeline.arrRef spec0 0)) 2 t X⌝ ∗ owns (c : Thread nD τ) (win0_3.stage (cfg0.slots t 3)) fullShare X) ∗ (∃ X, ⌜outRel c (V c (Pipeline.arrRef spec0 0)) 3 t X⌝ ∗ owns (c : Thread nD τ) (win0_4.stage (cfg0.slots t 4)) fullShare X) ∗ (∃ X, ⌜outRel c (V c (Pipeline.arrRef spec0 0)) 4 t X⌝ ∗ owns (c : Thread nD τ) (win0_5.stage (cfg0.slots t 5)) fullShare X))) := by
  subst hY0
  unfold Phi0 scratchAt
  by_cases h0 : t.val % 16 = 0
  · have h1 : ¬t.val % 16 = 15 := by omega
    iintro ⟨⟨⟨%a0, %e0, A0⟩, ⟨%a1, %e1, A1⟩, ⟨%a2, %e2, A2⟩, ⟨%a3, %e3, A3⟩, ⟨%a4, %e4, A4⟩, Hr, Hg⟩, Ho, H0, H1, H2, H3, H4, H5⟩
    iapply (run_A c (grid0.coords t) _ _ _ _ _ _ _ _ _ _ _ _ _ _ _ _ _ _ _ _ _ _ ((hcond0 t).mpr h0) (fun h => h1 ((hcond1 t).mp h)) (xblk c (V c (Pipeline.arrRef spec0 0)) t) Y1 Y2 Y3 Y4 Y5 a0 a1 a2 a3 a4 Set.univ _)
    isplitl [H0]; · iexact H0
    isplitl [H1]; · iexact H1
    isplitl [H2]; · iexact H2
    isplitl [H3]; · iexact H3
    isplitl [H4]; · iexact H4
    isplitl [H5]; · iexact H5
    isplitl [A0]; · iexact A0
    isplitl [A1]; · iexact A1
    isplitl [A2]; · iexact A2
    isplitl [A3]; · iexact A3
    isplitl [A4]; · iexact A4
    iintro ⟨H0, H1, H2, H3, H4, H5, A0, A1, A2, A3, A4⟩
    isplitl [A0 A1 A2 A3 A4 Hr Hg]
    · isplitl [A0]
      · iexists _; isplitr; swap; · iexact A0
        ipureintro; intro _; rw [acc_succ, if_pos h0]
      isplitl [A1]
      · iexists _; isplitr; swap; · iexact A1
        ipureintro; intro _; rw [acc_succ, if_pos h0]
      isplitl [A2]
      · iexists _; isplitr; swap; · iexact A2
        ipureintro; intro _; rw [acc_succ, if_pos h0]
      isplitl [A3]
      · iexists _; isplitr; swap; · iexact A3
        ipureintro; intro _; rw [acc_succ, if_pos h0]
      isplitl [A4]
      · iexists _; isplitr; swap; · iexact A4
        ipureintro; intro _; rw [acc_succ, if_pos h0]
      isplitl [Hr]; · iexact Hr
      iexact Hg
    isplitl [Ho]; · iexact Ho
    isplitl [H0]
    · iexists _; isplitr; swap; · iexact H0
      ipureintro; rfl
    isplitl [H1]
    · iexists _; isplitr; swap; · iexact H1
      ipureintro; intro h15; exact absurd h15 h1
    isplitl [H2]
    · iexists _; isplitr; swap; · iexact H2
      ipureintro; intro h15; exact absurd h15 h1
    isplitl [H3]
    · iexists _; isplitr; swap; · iexact H3
      ipureintro; intro h15; exact absurd h15 h1
    isplitl [H4]
    · iexists _; isplitr; swap; · iexact H4
      ipureintro; intro h15; exact absurd h15 h1
    · iexists _; isplitr; swap; · iexact H5
      ipureintro; intro h15; exact absurd h15 h1
  · by_cases h1 : t.val % 16 = 15
    · have e16 : 16 * (t.val / 16) + 16 = t.val + 1 := by omega
      iintro ⟨⟨⟨%a0, %e0, A0⟩, ⟨%a1, %e1, A1⟩, ⟨%a2, %e2, A2⟩, ⟨%a3, %e3, A3⟩, ⟨%a4, %e4, A4⟩, Hr, Hg⟩, Ho, H0, H1, H2, H3, H4, H5⟩
      obtain rfl := e0 h0; obtain rfl := e1 h0; obtain rfl := e2 h0; obtain rfl := e3 h0; obtain rfl := e4 h0
      iapply (run_C c (grid0.coords t) _ _ _ _ _ _ _ _ _ _ _ _ _ _ _ _ _ _ _ _ _ _ (fun h => h0 ((hcond0 t).mp h)) ((hcond1 t).mpr h1) (xblk c (V c (Pipeline.arrRef spec0 0)) t) Y1 Y2 Y3 Y4 Y5 _ _ _ _ _ Set.univ _)
      isplitl [H0]; · iexact H0
      isplitl [H1]; · iexact H1
      isplitl [H2]; · iexact H2
      isplitl [H3]; · iexact H3
      isplitl [H4]; · iexact H4
      isplitl [H5]; · iexact H5
      isplitl [A0]; · iexact A0
      isplitl [A1]; · iexact A1
      isplitl [A2]; · iexact A2
      isplitl [A3]; · iexact A3
      isplitl [A4]; · iexact A4
      iintro ⟨H0, ⟨%X1, %r1, H1⟩, ⟨%X2, %r2, H2⟩, ⟨%X3, %r3, H3⟩, ⟨%X4, %r4, H4⟩, ⟨%X5, %r5, H5⟩, A0, A1, A2, A3, A4⟩
      isplitl [A0 A1 A2 A3 A4 Hr Hg]
      · isplitl [A0]
        · iexists _; isplitr; swap; · iexact A0
          ipureintro; intro _; rw [acc_succ, if_neg h0]
        isplitl [A1]
        · iexists _; isplitr; swap; · iexact A1
          ipureintro; intro _; rw [acc_succ, if_neg h0]
        isplitl [A2]
        · iexists _; isplitr; swap; · iexact A2
          ipureintro; intro _; rw [acc_succ, if_neg h0]
        isplitl [A3]
        · iexists _; isplitr; swap; · iexact A3
          ipureintro; intro _; rw [acc_succ, if_neg h0]
        isplitl [A4]
        · iexists _; isplitr; swap; · iexact A4
          ipureintro; intro _; rw [acc_succ, if_neg h0]
        isplitl [Hr]; · iexact Hr
        iexact Hg
      isplitl [Ho]; · iexact Ho
      isplitl [H0]
      · iexists _; isplitr; swap; · iexact H0
        ipureintro; rfl
      isplitl [H1]
      · iexists X1; isplitr; swap; · iexact H1
        ipureintro; intro _ j; rw [r1 j]; unfold pay; rw [e16, acc_succ, if_neg h0]
      isplitl [H2]
      · iexists X2; isplitr; swap; · iexact H2
        ipureintro; intro _ j; rw [r2 j]; unfold pay; rw [e16, acc_succ, if_neg h0]
      isplitl [H3]
      · iexists X3; isplitr; swap; · iexact H3
        ipureintro; intro _ j; rw [r3 j]; unfold pay; rw [e16, acc_succ, if_neg h0]
      isplitl [H4]
      · iexists X4; isplitr; swap; · iexact H4
        ipureintro; intro _ j; rw [r4 j]; unfold pay; rw [e16, acc_succ, if_neg h0]
      · iexists X5; isplitr; swap; · iexact H5
        ipureintro; intro _ j; rw [r5 j]; unfold pay; rw [e16, acc_succ, if_neg h0]
    · iintro ⟨⟨⟨%a0, %e0, A0⟩, ⟨%a1, %e1, A1⟩, ⟨%a2, %e2, A2⟩, ⟨%a3, %e3, A3⟩, ⟨%a4, %e4, A4⟩, Hr, Hg⟩, Ho, H0, H1, H2, H3, H4, H5⟩
      obtain rfl := e0 h0; obtain rfl := e1 h0; obtain rfl := e2 h0; obtain rfl := e3 h0; obtain rfl := e4 h0
      iapply (run_B c (grid0.coords t) _ _ _ _ _ _ _ _ _ _ _ _ _ _ _ _ _ _ _ _ _ _ (fun h => h0 ((hcond0 t).mp h)) (fun h => h1 ((hcond1 t).mp h)) (xblk c (V c (Pipeline.arrRef spec0 0)) t) Y1 Y2 Y3 Y4 Y5 _ _ _ _ _ Set.univ _)
      isplitl [H0]; · iexact H0
      isplitl [H1]; · iexact H1
      isplitl [H2]; · iexact H2
      isplitl [H3]; · iexact H3
      isplitl [H4]; · iexact H4
      isplitl [H5]; · iexact H5
      isplitl [A0]; · iexact A0
      isplitl [A1]; · iexact A1
      isplitl [A2]; · iexact A2
      isplitl [A3]; · iexact A3
      isplitl [A4]; · iexact A4
      iintro ⟨H0, H1, H2, H3, H4, H5, A0, A1, A2, A3, A4⟩
      isplitl [A0 A1 A2 A3 A4 Hr Hg]
      · isplitl [A0]
        · iexists _; isplitr; swap; · iexact A0
          ipureintro; intro _; rw [acc_succ, if_neg h0]
        isplitl [A1]
        · iexists _; isplitr; swap; · iexact A1
          ipureintro; intro _; rw [acc_succ, if_neg h0]
        isplitl [A2]
        · iexists _; isplitr; swap; · iexact A2
          ipureintro; intro _; rw [acc_succ, if_neg h0]
        isplitl [A3]
        · iexists _; isplitr; swap; · iexact A3
          ipureintro; intro _; rw [acc_succ, if_neg h0]
        isplitl [A4]
        · iexists _; isplitr; swap; · iexact A4
          ipureintro; intro _; rw [acc_succ, if_neg h0]
        isplitl [Hr]; · iexact Hr
        iexact Hg
      isplitl [Ho]; · iexact Ho
      isplitl [H0]
      · iexists _; isplitr; swap; · iexact H0
        ipureintro; rfl
      isplitl [H1]
      · iexists _; isplitr; swap; · iexact H1
        ipureintro; intro h15; exact absurd h15 h1
      isplitl [H2]
      · iexists _; isplitr; swap; · iexact H2
        ipureintro; intro h15; exact absurd h15 h1
      isplitl [H3]
      · iexists _; isplitr; swap; · iexact H3
        ipureintro; intro h15; exact absurd h15 h1
      isplitl [H4]
      · iexists _; isplitr; swap; · iexact H4
        ipureintro; intro h15; exact absurd h15 h1
      · iexists _; isplitr; swap; · iexact H5
        ipureintro; intro h15; exact absurd h15 h1

/-- The body obligation of the statistics pass, at every point and for all contents the windows' buffers may hold. -/
theorem body_obligation0 (c : Dev nD) : (rd0 (F := F) V c).BodyObligation (defs₀ (F := F)) Variants.none () Set.univ :=
  fun t Y hY => by
    rw [bigSep_W0, bigSep_W0]
    exact sound_body V c t (Y 0) (finds_in V c t (Y 0) (hY 0)) (Y 1) (Y 2) (Y 3) (Y 4) (Y 5)

end Cert.KernelIdeal.Hand

end
-- ==== Proof.KI.Data1.lean ====
/-
  Region 1 (the affine pass) as pure data, at the buffer contents `V` the region is entered with: the grid is
  32 × 2, point t = 2·b + hh handles batch element b and rows 64·hh … 64·hh + 63; the block of `x` and of the output is
  [1, 128, 64, 128]; the six coefficient arrays [1, 64, 1, 1] are whole blocks, fetched once. The body stores
  channels 0–63 of the output block as a00·x_re + a01·x_im + bias0 and channels 64–127 as a10·x_re + a11·x_im + bias1,
  each coefficient repeated along rows and lanes.
-/
import proofs.«141001_j43499428774583_2_alg».proof.Proof.Gen.KernelIdeal.Launch
import proofs.«141001_j43499428774583_2_alg».proof.Proof.Gen.KernelIdeal.Skeleton
import proofs.«141001_j43499428774583_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! ## The body's rectangles -/

/-- The whole block of `x`. -/
abbrev qAll : Rect S1x128x64x128 := Rect.unit (s := S1x128x64x128) ![0, 0, 0, 0] S1x128x64x128.size inb_S1x128x64x128_S1x128x64x128_0_0_0_0
/-- A whole coefficient block. -/
abbrev qCo : Rect S1x64x1x1 := Rect.unit (s := S1x64x1x1) ![0, 0, 0, 0] S1x64x1x1.size inb_S1x64x1x1_S1x64x1x1_0_0_0_0
/-- Channels 0–63 of the output block. -/
abbrev qLo : Rect S1x128x64x128 := Rect.unit (s := S1x128x64x128) ![0, 0, 0, 0] S1x64x64x128.size inb_S1x128x64x128_S1x64x64x128_0_0_0_0
/-- Channels 64–127 of the output block. -/
abbrev qHi : Rect S1x128x64x128 := Rect.unit (s := S1x128x64x128) ![0, 64, 0, 0] S1x64x64x128.size inb_S1x128x64x128_S1x64x64x128_0_64_0_0

/-- The output block after the body, from the seven input blocks: its two stores as pieces, LAST FIRST. -/
def out1_7 (x0 : Vec F S1x128x64x128 .f32) (a00 a01 a10 a11 b0 b1 : Vec F S1x64x1x1 .f32) : Vec F S1x128x64x128 .f32 :=
  View.canon [⟨qHi, k1_pay1 (k1_pay5 (View.ld x0 qAll) (View.ld a10 qCo) (View.ld a11 qCo)) (View.ld b1 qCo)⟩,
              ⟨qLo, k1_pay4 (View.ld x0 qAll) (View.ld a00 qCo) (View.ld a01 qCo) (View.ld b0 qCo)⟩]

/-- The proof data of pipeline 1 on core `c`: the arrays as the region finds them; after the body at point `t` each
    input's buffer at its block and the output's at `out1_7` of the input blocks; the scoped rest and the generator
    register untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => out1_7 (iblk1 V c 0 t) (iblk1 V c 1 t) (iblk1 V c 2 t) (iblk1 V c 3 t) (iblk1 V c 4 t) (iblk1 V c 5 t) (iblk1 V c 6 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t
    = out1_7 (iblk1 V c 0 t) (iblk1 V c 1 t) (iblk1 V c 2 t) (iblk1 V c 3 t) (iblk1 V c 4 t) (iblk1 V c 5 t) (iblk1 V c 6 t) := by
  dsimp only [dat1]

end Cert.KernelIdeal.Hand

end
-- ==== Proof.KI.Body1.lean ====
/-
  Region 1 (the affine pass): the body obligation of its proof data. At every point each input window's buffer holds
  that window's block, fetched there or not (a coefficient block's index never moves, so the block fetched at the
  first point is every point's); the body reads the seven input blocks whole and writes the output block in two
  stores, channels 0–63 then channels 64–127, which tile it; so the output buffer after the body is the canonical
  contents of those two pieces, whatever it held before.
-/
import proofs.«141001_j43499428774583_2_alg».proof.Proof.KI.Data1

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## Each input window's buffer holds its block at every point

For any proof data whose array is the region's entry contents and whose body leaves the block in place: fetched at the
point, the buffer holds the block; not fetched, the block index has not moved and the previous point's block is this
point's. The windows are uncut and never idle. -/

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)
theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)

/-! ## The two stores tile the output block -/

/-- Channels 0–63 and channels 64–127 together hold every index of the block. -/
theorem cover1_7 (p0 p1 : Vec F S1x64x64x128 .f32) (y : S1x128x64x128.Idx) :
    ∃ pc ∈ ([⟨qHi, p1⟩, ⟨qLo, p0⟩] : List (View.Piece (Elt F) S1x128x64x128 .f32)), y ∈ pc.1.set :=
  View.cover_of_tiled [⟨qHi, p1⟩, ⟨qLo, p0⟩] S1x64x64x128.size (by rfl) y

/-! ## The body's triple -/

set_option maxHeartbeats 1000000 in
/-- The body on whole buffers, the seven inputs' at read contents `x0 a00 a01 a10 a11 b0 b1` and the output's at
    anything, runs to the continuation holding the inputs' as they were and the output's at `out1_7` of the inputs':
    the two reads of the output buffer that precede its stores are not used, and what the two stores leave reads as
    their canonical contents because they cover the block. -/
theorem sound_kernel1 (c : Dev nD) (E : Set ℕ) (i : grid1.Coords) (arg2 : Memref sig .tc .vmem S1x128x64x128 .f32) (harg2 : arg2.IsWhole) (arg3 : Memref sig .tc .vmem S1x64x1x1 .f32) (harg3 : arg3.IsWhole) (arg4 : Memref sig .tc .vmem S1x64x1x1 .f32) (harg4 : arg4.IsWhole) (arg5 : Memref sig .tc .vmem S1x64x1x1 .f32) (harg5 : arg5.IsWhole) (arg6 : Memref sig .tc .vmem S1x64x1x1 .f32) (harg6 : arg6.IsWhole) (arg7 : Memref sig .tc .vmem S1x64x1x1 .f32) (harg7 : arg7.IsWhole) (arg8 : Memref sig .tc .vmem S1x64x1x1 .f32) (harg8 : arg8.IsWhole) (arg9 : Memref sig .tc .vmem S1x128x64x128 .f32) (harg9 : arg9.IsWhole)
    (x0 : Vec F S1x128x64x128 .f32) (a00 a01 a10 a11 b0 b1 : Vec F S1x64x1x1 .f32) (K : PUnit → sProp 𝕄) :
    iprop(owns (c : Thread nD τ) arg2 fullShare x0 ∗ owns (c : Thread nD τ) arg3 fullShare a00 ∗ owns (c : Thread nD τ) arg4 fullShare a01 ∗ owns (c : Thread nD τ) arg5 fullShare a10 ∗ owns (c : Thread nD τ) arg6 fullShare a11 ∗ owns (c : Thread nD τ) arg7 fullShare b0 ∗ owns (c : Thread nD τ) arg8 fullShare b1 ∗ (∃ d, owns (c : Thread nD τ) arg9 fullShare d)
        ∗ (iprop(owns (c : Thread nD τ) arg2 fullShare x0 ∗ owns (c : Thread nD τ) arg3 fullShare a00 ∗ owns (c : Thread nD τ) arg4 fullShare a01 ∗ owns (c : Thread nD τ) arg5 fullShare a10 ∗ owns (c : Thread nD τ) arg6 fullShare a11 ∗ owns (c : Thread nD τ) arg7 fullShare b0 ∗ owns (c : Thread nD τ) arg8 fullShare b1 ∗ owns (c : Thread nD τ) arg9 fullShare (out1_7 x0 a00 a01 a10 a11 b0 b1)) -∗ K ⟨⟩))
      ⊢ wp frame (wpE (defs₀ (F := F)) Variants.none c none) E (cc1__apply_kernel i arg2 harg2 arg3 harg3 arg4 harg4 arg5 harg5 arg6 harg6 arg7 harg7 arg8 harg8 arg9 harg9) K := by
  simp only [cc1__apply_kernel_eq_skeleton]; unfold cc1__apply_kernel_skel
  simp only [k1_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (cover1_7 _ _)

/-! ## The inputs' buffers under the region's proof data -/

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t))

/-- The body at any point: the inputs' buffers hold their blocks, so the body's triple applies; the invariant and the
    core's owed waits pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel1 c Set.univ _ _ _ _ _ _ _ _ _ _ _ _ _ _ _ _ _ (iblk1 V c 0 t) (iblk1 V c 1 t) (iblk1 V c 2 t) (iblk1 V c 3 t) (iblk1 V c 4 t) (iblk1 V c 5 t) (iblk1 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KI.Aux0.lean ====
/-
  Region 0 (the statistics pass), two auxiliary facts about its proof data.

  The invariant at the ends of the run: before the first point nothing is asked of the five accumulators' contents
  (0 is the first point of a half), so the generator register and the core's scoped buffers outside the staging
  buffers, each whole at some contents, are the invariant; after the last point the invariant gives them back.

  The output arrays after the run: output k's block index at point t is (t / 16, 0), its block rows 8·(t/16) … 8·(t/16) + 7
  of the [16, 64] array, written back at the last point of each half (t ≡ 15 mod 16) only. The write-back of half p puts
  the block's row 0 — the half's lane sums — at row 8·p and leaves row 8·p' of the other half alone; so after the run
  row 8·p of output k's array is half p's lane sums, for p = 0, 1.
-/
import proofs.«141001_j43499428774583_2_alg».proof.Proof.KI.Data0
import Idealize.ShloMosaic.Lib.Pipeline.Value

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)
open Idealize.ShloMosaic.ValueIdx
open Cert.KernelIdeal Cert.KernelIdeal.Gen

variable {F : FTy → Type} [FloatOps F]

local notation "𝕄" => MT nD τ sig Unit (Elt F) ℕ (UR sig nD τ) ℕ

/-! ## The invariant at the first and after the last point -/

section Phi

variable (c : Dev nD) (X : Buf (Elt F) ((cfg0.win 0).arr.view.loc (c.tc : Thread nD τ)))

/-- Accumulator 0 whole at some contents is its invariant before the first point of a half: nothing is asked of
    the contents there. -/
theorem scratch_in0 (n : ℕ) (hn : n % 16 = 0) :
    iprop(∃ f : Buf (Elt F) ((c : Thread nD τ).loc cc0_scratch0), ((c : Thread nD τ).loc cc0_scratch0) ↦{fullShare} f) ⊢ (scratchAt c X 0 n : sProp 𝕄) := by
  unfold scratchAt
  rw [show scM (0 : Fin 5) = Memref.whole cc0_scratch0 from rfl]
  simp only [owns_whole]
  iintro ⟨%f, H⟩
  iexists f
  isplitr
  · ipureintro; intro h; exact absurd hn h
  · iexact H

/-- Accumulator 0's invariant at any point gives it back whole at some contents. -/
theorem scratch_out0 (n : ℕ) :
    (scratchAt c X 0 n : sProp 𝕄) ⊢ iprop(∃ f : Buf (Elt F) ((c : Thread nD τ).loc cc0_scratch0), ((c : Thread nD τ).loc cc0_scratch0) ↦{fullShare} f) := by
  unfold scratchAt
  rw [show scM (0 : Fin 5) = Memref.whole cc0_scratch0 from rfl]
  simp only [owns_whole]
  iintro ⟨%f, -, H⟩
  iexists f
  iexact H

/-- Accumulator 1 whole at some contents is its invariant before the first point of a half: nothing is asked of
    the contents there. -/
theorem scratch_in1 (n : ℕ) (hn : n % 16 = 0) :
    iprop(∃ f : Buf (Elt F) ((c : Thread nD τ).loc cc0_scratch1), ((c : Thread nD τ).loc cc0_scratch1) ↦{fullShare} f) ⊢ (scratchAt c X 1 n : sProp 𝕄) := by
  unfold scratchAt
  rw [show scM (1 : Fin 5) = Memref.whole cc0_scratch1 from rfl]
  simp only [owns_whole]
  iintro ⟨%f, H⟩
  iexists f
  isplitr
  · ipureintro; intro h; exact absurd hn h
  · iexact H

/-- Accumulator 1's invariant at any point gives it back whole at some contents. -/
theorem scratch_out1 (n : ℕ) :
    (scratchAt c X 1 n : sProp 𝕄) ⊢ iprop(∃ f : Buf (Elt F) ((c : Thread nD τ).loc cc0_scratch1), ((c : Thread nD τ).loc cc0_scratch1) ↦{fullShare} f) := by
  unfold scratchAt
  rw [show scM (1 : Fin 5) = Memref.whole cc0_scratch1 from rfl]
  simp only [owns_whole]
  iintro ⟨%f, -, H⟩
  iexists f
  iexact H

/-- Accumulator 2 whole at some contents is its invariant before the first point of a half: nothing is asked of
    the contents there. -/
theorem scratch_in2 (n : ℕ) (hn : n % 16 = 0) :
    iprop(∃ f : Buf (Elt F) ((c : Thread nD τ).loc cc0_scratch2), ((c : Thread nD τ).loc cc0_scratch2) ↦{fullShare} f) ⊢ (scratchAt c X 2 n : sProp 𝕄) := by
  unfold scratchAt
  rw [show scM (2 : Fin 5) = Memref.whole cc0_scratch2 from rfl]
  simp only [owns_whole]
  iintro ⟨%f, H⟩
  iexists f
  isplitr
  · ipureintro; intro h; exact absurd hn h
  · iexact H

/-- Accumulator 2's invariant at any point gives it back whole at some contents. -/
theorem scratch_out2 (n : ℕ) :
    (scratchAt c X 2 n : sProp 𝕄) ⊢ iprop(∃ f : Buf (Elt F) ((c : Thread nD τ).loc cc0_scratch2), ((c : Thread nD τ).loc cc0_scratch2) ↦{fullShare} f) := by
  unfold scratchAt
  rw [show scM (2 : Fin 5) = Memref.whole cc0_scratch2 from rfl]
  simp only [owns_whole]
  iintro ⟨%f, -, H⟩
  iexists f
  iexact H

/-- Accumulator 3 whole at some contents is its invariant before the first point of a half: nothing is asked of
    the contents there. -/
theorem scratch_in3 (n : ℕ) (hn : n % 16 = 0) :
    iprop(∃ f : Buf (Elt F) ((c : Thread nD τ).loc cc0_scratch3), ((c : Thread nD τ).loc cc0_scratch3) ↦{fullShare} f) ⊢ (scratchAt c X 3 n : sProp 𝕄) := by
  unfold scratchAt
  rw [show scM (3 : Fin 5) = Memref.whole cc0_scratch3 from rfl]
  simp only [owns_whole]
  iintro ⟨%f, H⟩
  iexists f
  isplitr
  · ipureintro; intro h; exact absurd hn h
  · iexact H

/-- Accumulator 3's invariant at any point gives it back whole at some contents. -/
theorem scratch_out3 (n : ℕ) :
    (scratchAt c X 3 n : sProp 𝕄) ⊢ iprop(∃ f : Buf (Elt F) ((c : Thread nD τ).loc cc0_scratch3), ((c : Thread nD τ).loc cc0_scratch3) ↦{fullShare} f) := by
  unfold scratchAt
  rw [show scM (3 : Fin 5) = Memref.whole cc0_scratch3 from rfl]
  simp only [owns_whole]
  iintro ⟨%f, -, H⟩
  iexists f
  iexact H

/-- Accumulator 4 whole at some contents is its invariant before the first point of a half: nothing is asked of
    the contents there. -/
theorem scratch_in4 (n : ℕ) (hn : n % 16 = 0) :
    iprop(∃ f : Buf (Elt F) ((c : Thread nD τ).loc cc0_scratch4), ((c : Thread nD τ).loc cc0_scratch4) ↦{fullShare} f) ⊢ (scratchAt c X 4 n : sProp 𝕄) := by
  unfold scratchAt
  rw [show scM (4 : Fin 5) = Memref.whole cc0_scratch4 from rfl]
  simp only [owns_whole]
  iintro ⟨%f, H⟩
  iexists f
  isplitr
  · ipureintro; intro h; exact absurd hn h
  · iexact H

/-- Accumulator 4's invariant at any point gives it back whole at some contents. -/
theorem scratch_out4 (n : ℕ) :
    (scratchAt c X 4 n : sProp 𝕄) ⊢ iprop(∃ f : Buf (Elt F) ((c : Thread nD τ).loc cc0_scratch4), ((c : Thread nD τ).loc cc0_scratch4) ↦{fullShare} f) := by
  unfold scratchAt
  rw [show scM (4 : Fin 5) = Memref.whole cc0_scratch4 from rfl]
  simp only [owns_whole]
  iintro ⟨%f, -, H⟩
  iexists f
  iexact H
/-- The generator register and the core's scoped buffers outside the staging buffers give the invariant before the first point. -/
theorem Phi0_first :
    iprop((∃ r, prngReg c r) ∗ Pipeline.scopedRest (Ix := Unit) (Name := ℕ) (U := UR sig nD τ) (Lvl := ℕ) (Val := Elt F) spec0 c) ⊢ (Phi0 c X 0 : sProp 𝕄) := by
  rw [scopedRest0_eq]
  unfold Phi0 otherScoped
  iintro ⟨Hr, H0, H1, H2, H3, H4, Hrest⟩
  isplitl [H0]; · iapply (scratch_in0 c X 0 rfl); iexact H0
  isplitl [H1]; · iapply (scratch_in1 c X 0 rfl); iexact H1
  isplitl [H2]; · iapply (scratch_in2 c X 0 rfl); iexact H2
  isplitl [H3]; · iapply (scratch_in3 c X 0 rfl); iexact H3
  isplitl [H4]; · iapply (scratch_in4 c X 0 rfl); iexact H4
  isplitl [Hrest]; · iexact Hrest
  iexact Hr

/-- The invariant after the last point gives them back. -/
theorem Phi0_last :
    (Phi0 c X 32 : sProp 𝕄) ⊢ iprop((∃ r, prngReg c r) ∗ Pipeline.scopedRest (Ix := Unit) (Name := ℕ) (U := UR sig nD τ) (Lvl := ℕ) (Val := Elt F) spec0 c) := by
  rw [scopedRest0_eq]
  unfold Phi0 otherScoped
  iintro ⟨H0, H1, H2, H3, H4, Hrest, Hr⟩
  isplitl [Hr]; · iexact Hr
  isplitl [H0]; · iapply (scratch_out0 c X 32); iexact H0
  isplitl [H1]; · iapply (scratch_out1 c X 32); iexact H1
  isplitl [H2]; · iapply (scratch_out2 c X 32); iexact H2
  isplitl [H3]; · iapply (scratch_out3 c X 32); iexact H3
  isplitl [H4]; · iapply (scratch_out4 c X 32); iexact H4
  iexact Hrest

end Phi

/-! ## The output arrays after the run -/

section Arr

variable (V : (c : Dev nD) → (b : Ref sig .tc) → Buf (Elt F) ((c : Thread nD τ).loc b))

/-- Output 0's block index at point `t` is (t / 16, 0). -/
theorem index0_1 : ∀ t : Fin cfg0.N, (cfg0.win 1).index t ⟨0, by decide⟩ = t.val / 16 ∧ (cfg0.win 1).index t ⟨1, by decide⟩ = 0 :=
  (by decide +kernel : ∀ t : Fin grid0.N, win0_1.index t ⟨0, by decide⟩ = t.val / 16 ∧ win0_1.index t ⟨1, by decide⟩ = 0)

/-- A write-back of output 0's block at a point of half `p` puts the block's row 0 at row 8·p of the array, -/
theorem write_hit_1 (c : Dev nD) (t : Fin cfg0.N) (G₀ : Buf (Elt F) ((cfg0.win 1).arr.view.loc (c.tc : Thread nD τ)))
    (X : Vec F S8x64 .f32) (p : Fin 2) (hp : t.val / 16 = p.val) (j : Fin 64) :
    ((cfg0.win 1).blk t).view.write (Elt F) G₀ ((cfg0.win 1).cut (cfg0.grid.coords t) X) Finset.univ (ix2 (⟨8 * p.val, by omega⟩ : Fin 16) j)
      = X (ix2 (0 : Fin 8) j) := by
  obtain ⟨h0, h1⟩ := index0_1 t
  refine (congrFun (View.write_whole_slice_unit (Val := Elt F) main_v0_0 _ _ _ G₀ _) _).trans ?_
  unfold updateSlice
  rw [dif_pos]
  · refine congrArg X (funext fun b => Fin.ext ?_)
    match b with
    | ⟨0, _⟩ => show 8 * p.val - (cfg0.win 1).index t ⟨0, by decide⟩ * 8 = 0; rw [h0]; omega
    | ⟨1, _⟩ => show j.val - (cfg0.win 1).index t ⟨1, by decide⟩ * 64 = j.val; rw [h1]; omega
  · intro a
    match a with
    | ⟨0, _⟩ => show (cfg0.win 1).index t ⟨0, by decide⟩ * 8 ≤ 8 * p.val ∧ 8 * p.val < (cfg0.win 1).index t ⟨0, by decide⟩ * 8 + 8; rw [h0]; omega
    | ⟨1, _⟩ => show (cfg0.win 1).index t ⟨1, by decide⟩ * 64 ≤ j.val ∧ j.val < (cfg0.win 1).index t ⟨1, by decide⟩ * 64 + 64; rw [h1]; omega

/-- and leaves the other half's row alone. -/
theorem write_miss_1 (c : Dev nD) (t : Fin cfg0.N) (G₀ : Buf (Elt F) ((cfg0.win 1).arr.view.loc (c.tc : Thread nD τ)))
    (X : Vec F S8x64 .f32) (p : Fin 2) (hp : t.val / 16 ≠ p.val) (j : Fin 64) :
    ((cfg0.win 1).blk t).view.write (Elt F) G₀ ((cfg0.win 1).cut (cfg0.grid.coords t) X) Finset.univ (ix2 (⟨8 * p.val, by omega⟩ : Fin 16) j)
      = G₀ (ix2 (⟨8 * p.val, by omega⟩ : Fin 16) j) := by
  obtain ⟨h0, h1⟩ := index0_1 t
  refine (congrFun (View.write_whole_slice_unit (Val := Elt F) main_v0_0 _ _ _ G₀ _) _).trans ?_
  unfold updateSlice
  rw [dif_neg]
  intro hin
  have h := hin ⟨0, by decide⟩
  have h' : (cfg0.win 1).index t ⟨0, by decide⟩ * 8 ≤ 8 * p.val ∧ 8 * p.val < (cfg0.win 1).index t ⟨0, by decide⟩ * 8 + 8 := h
  rw [h0] at h'
  omega

/-- After the write-backs of the points below `n`, row 8·p of output 0's array is half `p`'s lane sums, for every
    half whose last point is below `n`: the write-backs are at the last point of each half, a half's write-back puts
    its block's row 0 there, and the other half's leaves it alone. -/
theorem arrAt_rows_1 (c : Dev nD) : ∀ (n : ℕ) (Fk : Buf (Elt F) ((cfg0.win 1).arr.view.loc (c.tc : Thread nD τ))),
    (rd0 V c).ArrAt 1 n Fk → ∀ (p : Fin 2), 16 * p.val + 15 < n → ∀ j : Fin 64,
      Fk (ix2 (⟨8 * p.val, by omega⟩ : Fin 16) j) = pay c (V c (Pipeline.arrRef spec0 0)) 0 p.val (ix2 (0 : Fin 1) j)
  | 0, _, _, p, hp, _ => absurd hp (by omega)
  | n + 1, Fk, h, p, hp, j => by
    have hN : cfg0.N = 32 := N_0
    by_cases hn : n < cfg0.N
    swap
    · have e : (rd0 V c).ArrAt 1 (n + 1) = (rd0 V c).ArrAt 1 n := by
        show (if h : n < cfg0.N then _ else (rd0 V c).ArrAt 1 n) = _
        rw [dif_neg hn]
      rw [e] at h
      exact arrAt_rows_1 c n Fk h p (by have := p.isLt; omega) j
    rw [show n + 1 = (⟨n, hn⟩ : Fin cfg0.N).val + 1 from rfl, RDat.ArrAt_succ] at h
    by_cases hfl : (cfg0.win 1).flush ⟨n, hn⟩ = true
    · rw [if_pos hfl] at h
      obtain ⟨G₀, X, hG₀, ⟨Y, -, hX⟩, rfl⟩ := h
      have hmod : n % 16 = 15 := (flush0_1 ⟨n, hn⟩).mp hfl
      have hrel : outRel c (V c (Pipeline.arrRef spec0 0)) 0 ⟨n, hn⟩ X := hX
      by_cases hpn : n / 16 = p.val
      · rw [write_hit_1 c ⟨n, hn⟩ G₀ X p hpn j, hrel hmod j]
        show pay c (V c (Pipeline.arrRef spec0 0)) 0 (n / 16) _ = _
        rw [hpn]
      · rw [write_miss_1 c ⟨n, hn⟩ G₀ X p hpn j]
        exact arrAt_rows_1 c n G₀ hG₀ p (by omega) j
    · rw [if_neg hfl] at h
      have hmod : n % 16 ≠ 15 := fun e => hfl ((flush0_1 ⟨n, hn⟩).mpr e)
      exact arrAt_rows_1 c n Fk h p (by omega) j

/-- So after the whole run, row 8·p of output 0's array is half `p`'s lane sums. -/
theorem arrAt_out1 (c : Dev nD) (Fk : Buf (Elt F) ((cfg0.win 1).arr.view.loc (c.tc : Thread nD τ)))
    (h : (rd0 V c).ArrAt 1 cfg0.N Fk) (p : Fin 2) (j : Fin 64) :
    Fk (ix2 (⟨8 * p.val, by omega⟩ : Fin 16) j) = pay c (V c (Pipeline.arrRef spec0 0)) 0 p.val (ix2 (0 : Fin 1) j) :=
  arrAt_rows_1 V c cfg0.N Fk h p (by have := p.isLt; have : cfg0.N = 32 := N_0; omega) j

/-- Output 1's block index at point `t` is (t / 16, 0). -/
theorem index0_2 : ∀ t : Fin cfg0.N, (cfg0.win 2).index t ⟨0, by decide⟩ = t.val / 16 ∧ (cfg0.win 2).index t ⟨1, by decide⟩ = 0 :=
  (by decide +kernel : ∀ t : Fin grid0.N, win0_2.index t ⟨0, by decide⟩ = t.val / 16 ∧ win0_2.index t ⟨1, by decide⟩ = 0)

/-- A write-back of output 1's block at a point of half `p` puts the block's row 0 at row 8·p of the array, -/
theorem write_hit_2 (c : Dev nD) (t : Fin cfg0.N) (G₀ : Buf (Elt F) ((cfg0.win 2).arr.view.loc (c.tc : Thread nD τ)))
    (X : Vec F S8x64 .f32) (p : Fin 2) (hp : t.val / 16 = p.val) (j : Fin 64) :
    ((cfg0.win 2).blk t).view.write (Elt F) G₀ ((cfg0.win 2).cut (cfg0.grid.coords t) X) Finset.univ (ix2 (⟨8 * p.val, by omega⟩ : Fin 16) j)
      = X (ix2 (0 : Fin 8) j) := by
  obtain ⟨h0, h1⟩ := index0_2 t
  refine (congrFun (View.write_whole_slice_unit (Val := Elt F) main_v0_1 _ _ _ G₀ _) _).trans ?_
  unfold updateSlice
  rw [dif_pos]
  · refine congrArg X (funext fun b => Fin.ext ?_)
    match b with
    | ⟨0, _⟩ => show 8 * p.val - (cfg0.win 2).index t ⟨0, by decide⟩ * 8 = 0; rw [h0]; omega
    | ⟨1, _⟩ => show j.val - (cfg0.win 2).index t ⟨1, by decide⟩ * 64 = j.val; rw [h1]; omega
  · intro a
    match a with
    | ⟨0, _⟩ => show (cfg0.win 2).index t ⟨0, by decide⟩ * 8 ≤ 8 * p.val ∧ 8 * p.val < (cfg0.win 2).index t ⟨0, by decide⟩ * 8 + 8; rw [h0]; omega
    | ⟨1, _⟩ => show (cfg0.win 2).index t ⟨1, by decide⟩ * 64 ≤ j.val ∧ j.val < (cfg0.win 2).index t ⟨1, by decide⟩ * 64 + 64; rw [h1]; omega

/-- and leaves the other half's row alone. -/
theorem write_miss_2 (c : Dev nD) (t : Fin cfg0.N) (G₀ : Buf (Elt F) ((cfg0.win 2).arr.view.loc (c.tc : Thread nD τ)))
    (X : Vec F S8x64 .f32) (p : Fin 2) (hp : t.val / 16 ≠ p.val) (j : Fin 64) :
    ((cfg0.win 2).blk t).view.write (Elt F) G₀ ((cfg0.win 2).cut (cfg0.grid.coords t) X) Finset.univ (ix2 (⟨8 * p.val, by omega⟩ : Fin 16) j)
      = G₀ (ix2 (⟨8 * p.val, by omega⟩ : Fin 16) j) := by
  obtain ⟨h0, h1⟩ := index0_2 t
  refine (congrFun (View.write_whole_slice_unit (Val := Elt F) main_v0_1 _ _ _ G₀ _) _).trans ?_
  unfold updateSlice
  rw [dif_neg]
  intro hin
  have h := hin ⟨0, by decide⟩
  have h' : (cfg0.win 2).index t ⟨0, by decide⟩ * 8 ≤ 8 * p.val ∧ 8 * p.val < (cfg0.win 2).index t ⟨0, by decide⟩ * 8 + 8 := h
  rw [h0] at h'
  omega

/-- After the write-backs of the points below `n`, row 8·p of output 1's array is half `p`'s lane sums, for every
    half whose last point is below `n`: the write-backs are at the last point of each half, a half's write-back puts
    its block's row 0 there, and the other half's leaves it alone. -/
theorem arrAt_rows_2 (c : Dev nD) : ∀ (n : ℕ) (Fk : Buf (Elt F) ((cfg0.win 2).arr.view.loc (c.tc : Thread nD τ))),
    (rd0 V c).ArrAt 2 n Fk → ∀ (p : Fin 2), 16 * p.val + 15 < n → ∀ j : Fin 64,
      Fk (ix2 (⟨8 * p.val, by omega⟩ : Fin 16) j) = pay c (V c (Pipeline.arrRef spec0 0)) 1 p.val (ix2 (0 : Fin 1) j)
  | 0, _, _, p, hp, _ => absurd hp (by omega)
  | n + 1, Fk, h, p, hp, j => by
    have hN : cfg0.N = 32 := N_0
    by_cases hn : n < cfg0.N
    swap
    · have e : (rd0 V c).ArrAt 2 (n + 1) = (rd0 V c).ArrAt 2 n := by
        show (if h : n < cfg0.N then _ else (rd0 V c).ArrAt 2 n) = _
        rw [dif_neg hn]
      rw [e] at h
      exact arrAt_rows_2 c n Fk h p (by have := p.isLt; omega) j
    rw [show n + 1 = (⟨n, hn⟩ : Fin cfg0.N).val + 1 from rfl, RDat.ArrAt_succ] at h
    by_cases hfl : (cfg0.win 2).flush ⟨n, hn⟩ = true
    · rw [if_pos hfl] at h
      obtain ⟨G₀, X, hG₀, ⟨Y, -, hX⟩, rfl⟩ := h
      have hmod : n % 16 = 15 := (flush0_2 ⟨n, hn⟩).mp hfl
      have hrel : outRel c (V c (Pipeline.arrRef spec0 0)) 1 ⟨n, hn⟩ X := hX
      by_cases hpn : n / 16 = p.val
      · rw [write_hit_2 c ⟨n, hn⟩ G₀ X p hpn j, hrel hmod j]
        show pay c (V c (Pipeline.arrRef spec0 0)) 1 (n / 16) _ = _
        rw [hpn]
      · rw [write_miss_2 c ⟨n, hn⟩ G₀ X p hpn j]
        exact arrAt_rows_2 c n G₀ hG₀ p (by omega) j
    · rw [if_neg hfl] at h
      have hmod : n % 16 ≠ 15 := fun e => hfl ((flush0_2 ⟨n, hn⟩).mpr e)
      exact arrAt_rows_2 c n Fk h p (by omega) j

/-- So after the whole run, row 8·p of output 1's array is half `p`'s lane sums. -/
theorem arrAt_out2 (c : Dev nD) (Fk : Buf (Elt F) ((cfg0.win 2).arr.view.loc (c.tc : Thread nD τ)))
    (h : (rd0 V c).ArrAt 2 cfg0.N Fk) (p : Fin 2) (j : Fin 64) :
    Fk (ix2 (⟨8 * p.val, by omega⟩ : Fin 16) j) = pay c (V c (Pipeline.arrRef spec0 0)) 1 p.val (ix2 (0 : Fin 1) j) :=
  arrAt_rows_2 V c cfg0.N Fk h p (by have := p.isLt; have : cfg0.N = 32 := N_0; omega) j

/-- Output 2's block index at point `t` is (t / 16, 0). -/
theorem index0_3 : ∀ t : Fin cfg0.N, (cfg0.win 3).index t ⟨0, by decide⟩ = t.val / 16 ∧ (cfg0.win 3).index t ⟨1, by decide⟩ = 0 :=
  (by decide +kernel : ∀ t : Fin grid0.N, win0_3.index t ⟨0, by decide⟩ = t.val / 16 ∧ win0_3.index t ⟨1, by decide⟩ = 0)

/-- A write-back of output 2's block at a point of half `p` puts the block's row 0 at row 8·p of the array, -/
theorem write_hit_3 (c : Dev nD) (t : Fin cfg0.N) (G₀ : Buf (Elt F) ((cfg0.win 3).arr.view.loc (c.tc : Thread nD τ)))
    (X : Vec F S8x64 .f32) (p : Fin 2) (hp : t.val / 16 = p.val) (j : Fin 64) :
    ((cfg0.win 3).blk t).view.write (Elt F) G₀ ((cfg0.win 3).cut (cfg0.grid.coords t) X) Finset.univ (ix2 (⟨8 * p.val, by omega⟩ : Fin 16) j)
      = X (ix2 (0 : Fin 8) j) := by
  obtain ⟨h0, h1⟩ := index0_3 t
  refine (congrFun (View.write_whole_slice_unit (Val := Elt F) main_v0_2 _ _ _ G₀ _) _).trans ?_
  unfold updateSlice
  rw [dif_pos]
  · refine congrArg X (funext fun b => Fin.ext ?_)
    match b with
    | ⟨0, _⟩ => show 8 * p.val - (cfg0.win 3).index t ⟨0, by decide⟩ * 8 = 0; rw [h0]; omega
    | ⟨1, _⟩ => show j.val - (cfg0.win 3).index t ⟨1, by decide⟩ * 64 = j.val; rw [h1]; omega
  · intro a
    match a with
    | ⟨0, _⟩ => show (cfg0.win 3).index t ⟨0, by decide⟩ * 8 ≤ 8 * p.val ∧ 8 * p.val < (cfg0.win 3).index t ⟨0, by decide⟩ * 8 + 8; rw [h0]; omega
    | ⟨1, _⟩ => show (cfg0.win 3).index t ⟨1, by decide⟩ * 64 ≤ j.val ∧ j.val < (cfg0.win 3).index t ⟨1, by decide⟩ * 64 + 64; rw [h1]; omega

/-- and leaves the other half's row alone. -/
theorem write_miss_3 (c : Dev nD) (t : Fin cfg0.N) (G₀ : Buf (Elt F) ((cfg0.win 3).arr.view.loc (c.tc : Thread nD τ)))
    (X : Vec F S8x64 .f32) (p : Fin 2) (hp : t.val / 16 ≠ p.val) (j : Fin 64) :
    ((cfg0.win 3).blk t).view.write (Elt F) G₀ ((cfg0.win 3).cut (cfg0.grid.coords t) X) Finset.univ (ix2 (⟨8 * p.val, by omega⟩ : Fin 16) j)
      = G₀ (ix2 (⟨8 * p.val, by omega⟩ : Fin 16) j) := by
  obtain ⟨h0, h1⟩ := index0_3 t
  refine (congrFun (View.write_whole_slice_unit (Val := Elt F) main_v0_2 _ _ _ G₀ _) _).trans ?_
  unfold updateSlice
  rw [dif_neg]
  intro hin
  have h := hin ⟨0, by decide⟩
  have h' : (cfg0.win 3).index t ⟨0, by decide⟩ * 8 ≤ 8 * p.val ∧ 8 * p.val < (cfg0.win 3).index t ⟨0, by decide⟩ * 8 + 8 := h
  rw [h0] at h'
  omega

/-- After the write-backs of the points below `n`, row 8·p of output 2's array is half `p`'s lane sums, for every
    half whose last point is below `n`: the write-backs are at the last point of each half, a half's write-back puts
    its block's row 0 there, and the other half's leaves it alone. -/
theorem arrAt_rows_3 (c : Dev nD) : ∀ (n : ℕ) (Fk : Buf (Elt F) ((cfg0.win 3).arr.view.loc (c.tc : Thread nD τ))),
    (rd0 V c).ArrAt 3 n Fk → ∀ (p : Fin 2), 16 * p.val + 15 < n → ∀ j : Fin 64,
      Fk (ix2 (⟨8 * p.val, by omega⟩ : Fin 16) j) = pay c (V c (Pipeline.arrRef spec0 0)) 2 p.val (ix2 (0 : Fin 1) j)
  | 0, _, _, p, hp, _ => absurd hp (by omega)
  | n + 1, Fk, h, p, hp, j => by
    have hN : cfg0.N = 32 := N_0
    by_cases hn : n < cfg0.N
    swap
    · have e : (rd0 V c).ArrAt 3 (n + 1) = (rd0 V c).ArrAt 3 n := by
        show (if h : n < cfg0.N then _ else (rd0 V c).ArrAt 3 n) = _
        rw [dif_neg hn]
      rw [e] at h
      exact arrAt_rows_3 c n Fk h p (by have := p.isLt; omega) j
    rw [show n + 1 = (⟨n, hn⟩ : Fin cfg0.N).val + 1 from rfl, RDat.ArrAt_succ] at h
    by_cases hfl : (cfg0.win 3).flush ⟨n, hn⟩ = true
    · rw [if_pos hfl] at h
      obtain ⟨G₀, X, hG₀, ⟨Y, -, hX⟩, rfl⟩ := h
      have hmod : n % 16 = 15 := (flush0_3 ⟨n, hn⟩).mp hfl
      have hrel : outRel c (V c (Pipeline.arrRef spec0 0)) 2 ⟨n, hn⟩ X := hX
      by_cases hpn : n / 16 = p.val
      · rw [write_hit_3 c ⟨n, hn⟩ G₀ X p hpn j, hrel hmod j]
        show pay c (V c (Pipeline.arrRef spec0 0)) 2 (n / 16) _ = _
        rw [hpn]
      · rw [write_miss_3 c ⟨n, hn⟩ G₀ X p hpn j]
        exact arrAt_rows_3 c n G₀ hG₀ p (by omega) j
    · rw [if_neg hfl] at h
      have hmod : n % 16 ≠ 15 := fun e => hfl ((flush0_3 ⟨n, hn⟩).mpr e)
      exact arrAt_rows_3 c n Fk h p (by omega) j

/-- So after the whole run, row 8·p of output 2's array is half `p`'s lane sums. -/
theorem arrAt_out3 (c : Dev nD) (Fk : Buf (Elt F) ((cfg0.win 3).arr.view.loc (c.tc : Thread nD τ)))
    (h : (rd0 V c).ArrAt 3 cfg0.N Fk) (p : Fin 2) (j : Fin 64) :
    Fk (ix2 (⟨8 * p.val, by omega⟩ : Fin 16) j) = pay c (V c (Pipeline.arrRef spec0 0)) 2 p.val (ix2 (0 : Fin 1) j) :=
  arrAt_rows_3 V c cfg0.N Fk h p (by have := p.isLt; have : cfg0.N = 32 := N_0; omega) j

/-- Output 3's block index at point `t` is (t / 16, 0). -/
theorem index0_4 : ∀ t : Fin cfg0.N, (cfg0.win 4).index t ⟨0, by decide⟩ = t.val / 16 ∧ (cfg0.win 4).index t ⟨1, by decide⟩ = 0 :=
  (by decide +kernel : ∀ t : Fin grid0.N, win0_4.index t ⟨0, by decide⟩ = t.val / 16 ∧ win0_4.index t ⟨1, by decide⟩ = 0)

/-- A write-back of output 3's block at a point of half `p` puts the block's row 0 at row 8·p of the array, -/
theorem write_hit_4 (c : Dev nD) (t : Fin cfg0.N) (G₀ : Buf (Elt F) ((cfg0.win 4).arr.view.loc (c.tc : Thread nD τ)))
    (X : Vec F S8x64 .f32) (p : Fin 2) (hp : t.val / 16 = p.val) (j : Fin 64) :
    ((cfg0.win 4).blk t).view.write (Elt F) G₀ ((cfg0.win 4).cut (cfg0.grid.coords t) X) Finset.univ (ix2 (⟨8 * p.val, by omega⟩ : Fin 16) j)
      = X (ix2 (0 : Fin 8) j) := by
  obtain ⟨h0, h1⟩ := index0_4 t
  refine (congrFun (View.write_whole_slice_unit (Val := Elt F) main_v0_3 _ _ _ G₀ _) _).trans ?_
  unfold updateSlice
  rw [dif_pos]
  · refine congrArg X (funext fun b => Fin.ext ?_)
    match b with
    | ⟨0, _⟩ => show 8 * p.val - (cfg0.win 4).index t ⟨0, by decide⟩ * 8 = 0; rw [h0]; omega
    | ⟨1, _⟩ => show j.val - (cfg0.win 4).index t ⟨1, by decide⟩ * 64 = j.val; rw [h1]; omega
  · intro a
    match a with
    | ⟨0, _⟩ => show (cfg0.win 4).index t ⟨0, by decide⟩ * 8 ≤ 8 * p.val ∧ 8 * p.val < (cfg0.win 4).index t ⟨0, by decide⟩ * 8 + 8; rw [h0]; omega
    | ⟨1, _⟩ => show (cfg0.win 4).index t ⟨1, by decide⟩ * 64 ≤ j.val ∧ j.val < (cfg0.win 4).index t ⟨1, by decide⟩ * 64 + 64; rw [h1]; omega

/-- and leaves the other half's row alone. -/
theorem write_miss_4 (c : Dev nD) (t : Fin cfg0.N) (G₀ : Buf (Elt F) ((cfg0.win 4).arr.view.loc (c.tc : Thread nD τ)))
    (X : Vec F S8x64 .f32) (p : Fin 2) (hp : t.val / 16 ≠ p.val) (j : Fin 64) :
    ((cfg0.win 4).blk t).view.write (Elt F) G₀ ((cfg0.win 4).cut (cfg0.grid.coords t) X) Finset.univ (ix2 (⟨8 * p.val, by omega⟩ : Fin 16) j)
      = G₀ (ix2 (⟨8 * p.val, by omega⟩ : Fin 16) j) := by
  obtain ⟨h0, h1⟩ := index0_4 t
  refine (congrFun (View.write_whole_slice_unit (Val := Elt F) main_v0_3 _ _ _ G₀ _) _).trans ?_
  unfold updateSlice
  rw [dif_neg]
  intro hin
  have h := hin ⟨0, by decide⟩
  have h' : (cfg0.win 4).index t ⟨0, by decide⟩ * 8 ≤ 8 * p.val ∧ 8 * p.val < (cfg0.win 4).index t ⟨0, by decide⟩ * 8 + 8 := h
  rw [h0] at h'
  omega

/-- After the write-backs of the points below `n`, row 8·p of output 3's array is half `p`'s lane sums, for every
    half whose last point is below `n`: the write-backs are at the last point of each half, a half's write-back puts
    its block's row 0 there, and the other half's leaves it alone. -/
theorem arrAt_rows_4 (c : Dev nD) : ∀ (n : ℕ) (Fk : Buf (Elt F) ((cfg0.win 4).arr.view.loc (c.tc : Thread nD τ))),
    (rd0 V c).ArrAt 4 n Fk → ∀ (p : Fin 2), 16 * p.val + 15 < n → ∀ j : Fin 64,
      Fk (ix2 (⟨8 * p.val, by omega⟩ : Fin 16) j) = pay c (V c (Pipeline.arrRef spec0 0)) 3 p.val (ix2 (0 : Fin 1) j)
  | 0, _, _, p, hp, _ => absurd hp (by omega)
  | n + 1, Fk, h, p, hp, j => by
    have hN : cfg0.N = 32 := N_0
    by_cases hn : n < cfg0.N
    swap
    · have e : (rd0 V c).ArrAt 4 (n + 1) = (rd0 V c).ArrAt 4 n := by
        show (if h : n < cfg0.N then _ else (rd0 V c).ArrAt 4 n) = _
        rw [dif_neg hn]
      rw [e] at h
      exact arrAt_rows_4 c n Fk h p (by have := p.isLt; omega) j
    rw [show n + 1 = (⟨n, hn⟩ : Fin cfg0.N).val + 1 from rfl, RDat.ArrAt_succ] at h
    by_cases hfl : (cfg0.win 4).flush ⟨n, hn⟩ = true
    · rw [if_pos hfl] at h
      obtain ⟨G₀, X, hG₀, ⟨Y, -, hX⟩, rfl⟩ := h
      have hmod : n % 16 = 15 := (flush0_4 ⟨n, hn⟩).mp hfl
      have hrel : outRel c (V c (Pipeline.arrRef spec0 0)) 3 ⟨n, hn⟩ X := hX
      by_cases hpn : n / 16 = p.val
      · rw [write_hit_4 c ⟨n, hn⟩ G₀ X p hpn j, hrel hmod j]
        show pay c (V c (Pipeline.arrRef spec0 0)) 3 (n / 16) _ = _
        rw [hpn]
      · rw [write_miss_4 c ⟨n, hn⟩ G₀ X p hpn j]
        exact arrAt_rows_4 c n G₀ hG₀ p (by omega) j
    · rw [if_neg hfl] at h
      have hmod : n % 16 ≠ 15 := fun e => hfl ((flush0_4 ⟨n, hn⟩).mpr e)
      exact arrAt_rows_4 c n Fk h p (by omega) j

/-- So after the whole run, row 8·p of output 3's array is half `p`'s lane sums. -/
theorem arrAt_out4 (c : Dev nD) (Fk : Buf (Elt F) ((cfg0.win 4).arr.view.loc (c.tc : Thread nD τ)))
    (h : (rd0 V c).ArrAt 4 cfg0.N Fk) (p : Fin 2) (j : Fin 64) :
    Fk (ix2 (⟨8 * p.val, by omega⟩ : Fin 16) j) = pay c (V c (Pipeline.arrRef spec0 0)) 3 p.val (ix2 (0 : Fin 1) j) :=
  arrAt_rows_4 V c cfg0.N Fk h p (by have := p.isLt; have : cfg0.N = 32 := N_0; omega) j

/-- Output 4's block index at point `t` is (t / 16, 0). -/
theorem index0_5 : ∀ t : Fin cfg0.N, (cfg0.win 5).index t ⟨0, by decide⟩ = t.val / 16 ∧ (cfg0.win 5).index t ⟨1, by decide⟩ = 0 :=
  (by decide +kernel : ∀ t : Fin grid0.N, win0_5.index t ⟨0, by decide⟩ = t.val / 16 ∧ win0_5.index t ⟨1, by decide⟩ = 0)

/-- A write-back of output 4's block at a point of half `p` puts the block's row 0 at row 8·p of the array, -/
theorem write_hit_5 (c : Dev nD) (t : Fin cfg0.N) (G₀ : Buf (Elt F) ((cfg0.win 5).arr.view.loc (c.tc : Thread nD τ)))
    (X : Vec F S8x64 .f32) (p : Fin 2) (hp : t.val / 16 = p.val) (j : Fin 64) :
    ((cfg0.win 5).blk t).view.write (Elt F) G₀ ((cfg0.win 5).cut (cfg0.grid.coords t) X) Finset.univ (ix2 (⟨8 * p.val, by omega⟩ : Fin 16) j)
      = X (ix2 (0 : Fin 8) j) := by
  obtain ⟨h0, h1⟩ := index0_5 t
  refine (congrFun (View.write_whole_slice_unit (Val := Elt F) main_v0_4 _ _ _ G₀ _) _).trans ?_
  unfold updateSlice
  rw [dif_pos]
  · refine congrArg X (funext fun b => Fin.ext ?_)
    match b with
    | ⟨0, _⟩ => show 8 * p.val - (cfg0.win 5).index t ⟨0, by decide⟩ * 8 = 0; rw [h0]; omega
    | ⟨1, _⟩ => show j.val - (cfg0.win 5).index t ⟨1, by decide⟩ * 64 = j.val; rw [h1]; omega
  · intro a
    match a with
    | ⟨0, _⟩ => show (cfg0.win 5).index t ⟨0, by decide⟩ * 8 ≤ 8 * p.val ∧ 8 * p.val < (cfg0.win 5).index t ⟨0, by decide⟩ * 8 + 8; rw [h0]; omega
    | ⟨1, _⟩ => show (cfg0.win 5).index t ⟨1, by decide⟩ * 64 ≤ j.val ∧ j.val < (cfg0.win 5).index t ⟨1, by decide⟩ * 64 + 64; rw [h1]; omega

/-- and leaves the other half's row alone. -/
theorem write_miss_5 (c : Dev nD) (t : Fin cfg0.N) (G₀ : Buf (Elt F) ((cfg0.win 5).arr.view.loc (c.tc : Thread nD τ)))
    (X : Vec F S8x64 .f32) (p : Fin 2) (hp : t.val / 16 ≠ p.val) (j : Fin 64) :
    ((cfg0.win 5).blk t).view.write (Elt F) G₀ ((cfg0.win 5).cut (cfg0.grid.coords t) X) Finset.univ (ix2 (⟨8 * p.val, by omega⟩ : Fin 16) j)
      = G₀ (ix2 (⟨8 * p.val, by omega⟩ : Fin 16) j) := by
  obtain ⟨h0, h1⟩ := index0_5 t
  refine (congrFun (View.write_whole_slice_unit (Val := Elt F) main_v0_4 _ _ _ G₀ _) _).trans ?_
  unfold updateSlice
  rw [dif_neg]
  intro hin
  have h := hin ⟨0, by decide⟩
  have h' : (cfg0.win 5).index t ⟨0, by decide⟩ * 8 ≤ 8 * p.val ∧ 8 * p.val < (cfg0.win 5).index t ⟨0, by decide⟩ * 8 + 8 := h
  rw [h0] at h'
  omega

/-- After the write-backs of the points below `n`, row 8·p of output 4's array is half `p`'s lane sums, for every
    half whose last point is below `n`: the write-backs are at the last point of each half, a half's write-back puts
    its block's row 0 there, and the other half's leaves it alone. -/
theorem arrAt_rows_5 (c : Dev nD) : ∀ (n : ℕ) (Fk : Buf (Elt F) ((cfg0.win 5).arr.view.loc (c.tc : Thread nD τ))),
    (rd0 V c).ArrAt 5 n Fk → ∀ (p : Fin 2), 16 * p.val + 15 < n → ∀ j : Fin 64,
      Fk (ix2 (⟨8 * p.val, by omega⟩ : Fin 16) j) = pay c (V c (Pipeline.arrRef spec0 0)) 4 p.val (ix2 (0 : Fin 1) j)
  | 0, _, _, p, hp, _ => absurd hp (by omega)
  | n + 1, Fk, h, p, hp, j => by
    have hN : cfg0.N = 32 := N_0
    by_cases hn : n < cfg0.N
    swap
    · have e : (rd0 V c).ArrAt 5 (n + 1) = (rd0 V c).ArrAt 5 n := by
        show (if h : n < cfg0.N then _ else (rd0 V c).ArrAt 5 n) = _
        rw [dif_neg hn]
      rw [e] at h
      exact arrAt_rows_5 c n Fk h p (by have := p.isLt; omega) j
    rw [show n + 1 = (⟨n, hn⟩ : Fin cfg0.N).val + 1 from rfl, RDat.ArrAt_succ] at h
    by_cases hfl : (cfg0.win 5).flush ⟨n, hn⟩ = true
    · rw [if_pos hfl] at h
      obtain ⟨G₀, X, hG₀, ⟨Y, -, hX⟩, rfl⟩ := h
      have hmod : n % 16 = 15 := (flush0_5 ⟨n, hn⟩).mp hfl
      have hrel : outRel c (V c (Pipeline.arrRef spec0 0)) 4 ⟨n, hn⟩ X := hX
      by_cases hpn : n / 16 = p.val
      · rw [write_hit_5 c ⟨n, hn⟩ G₀ X p hpn j, hrel hmod j]
        show pay c (V c (Pipeline.arrRef spec0 0)) 4 (n / 16) _ = _
        rw [hpn]
      · rw [write_miss_5 c ⟨n, hn⟩ G₀ X p hpn j]
        exact arrAt_rows_5 c n G₀ hG₀ p (by omega) j
    · rw [if_neg hfl] at h
      have hmod : n % 16 ≠ 15 := fun e => hfl ((flush0_5 ⟨n, hn⟩).mpr e)
      exact arrAt_rows_5 c n Fk h p (by omega) j

/-- So after the whole run, row 8·p of output 4's array is half `p`'s lane sums. -/
theorem arrAt_out5 (c : Dev nD) (Fk : Buf (Elt F) ((cfg0.win 5).arr.view.loc (c.tc : Thread nD τ)))
    (h : (rd0 V c).ArrAt 5 cfg0.N Fk) (p : Fin 2) (j : Fin 64) :
    Fk (ix2 (⟨8 * p.val, by omega⟩ : Fin 16) j) = pay c (V c (Pipeline.arrRef spec0 0)) 4 p.val (ix2 (0 : Fin 1) j) :=
  arrAt_rows_5 V c cfg0.N Fk h p (by have := p.isLt; have : cfg0.N = 32 := N_0; omega) j

end Arr

end Cert.KernelIdeal.Hand

end
-- ==== Proof.KI.HostAgree.lean ====
/-
  The host stretch between the two kernel calls reads the five statistics arrays only in their rows 0 and 8.

  Two valuations that agree on every buffer other than the five statistics arrays, and on rows 0 and 8 of each of
  those, give every other buffer the same contents after the stretch: each operation either touches no statistics
  array, and then its result on what it touches depends on the valuation only there; or it is the slice of row 0 or
  row 8 of one statistics array into a buffer of its own, and the two slices are equal. No operation writes a
  statistics array, so the rows stay in agreement along the way.
-/
import proofs.«141001_j43499428774583_2_alg».proof.Proof.Gen.KernelIdeal.Launch
import Idealize.ShloMosaic.Lib.StableHlo.Run
import Idealize.ShloMosaic.Lib.ValueIdx
import Idealize.ShloMosaic.Lib.Pipeline.Value

set_option maxRecDepth 2168

noncomputable section

namespace Cert.KernelIdeal.Hand

open Idealize.ShloMosaic Idealize.ShloMosaic.ValueIdx Cert.KernelIdeal Cert.KernelIdeal.Gen

variable {F : FTy → Type} [FloatOps F]

/-- The five statistics arrays. -/
abbrev statList : List (Ref sig .tc) := [main_v0_0, main_v0_1, main_v0_2, main_v0_3, main_v0_4]

/-- The buffers' contents after the whole host stretch, from contents `V`. -/
def hostAfterF (V : Valuation τ sig (Elt F)) : Valuation τ sig (Elt F) :=
  StableHlo.after main_part2_ops0 (StableHlo.after main_part1_ops0 (StableHlo.after main_part0_ops0 V))

/-- Rows 0 and 8 of two [16, 64] arrays agree. -/
def RowsAgree (A A' : S16x64.Idx → Elt F .f32) : Prop :=
  ∀ j : Fin 64, A (ix2 (0 : Fin 16) j) = A' (ix2 (0 : Fin 16) j) ∧ A (ix2 (8 : Fin 16) j) = A' (ix2 (8 : Fin 16) j)

/-- Agreement off the statistics arrays, and on their rows 0 and 8. -/
structure Inv (V V' : Valuation τ sig (Elt F)) : Prop where
  off : ∀ b : Ref sig .tc, b ∉ statList → V (Proc.devRef .tc b) = V' (Proc.devRef .tc b)
  r0 : RowsAgree (V (Proc.devRef .tc main_v0_0)) (V' (Proc.devRef .tc main_v0_0))
  r1 : RowsAgree (V (Proc.devRef .tc main_v0_1)) (V' (Proc.devRef .tc main_v0_1))
  r2 : RowsAgree (V (Proc.devRef .tc main_v0_2)) (V' (Proc.devRef .tc main_v0_2))
  r3 : RowsAgree (V (Proc.devRef .tc main_v0_3)) (V' (Proc.devRef .tc main_v0_3))
  r4 : RowsAgree (V (Proc.devRef .tc main_v0_4)) (V' (Proc.devRef .tc main_v0_4))

/-- An operation keeps the agreement. -/
def Pres (op : HloOp τ sig (Elt F)) : Prop := ∀ V V' : Valuation τ sig (Elt F), Inv V V' → Inv (op.result V) (op.result V')

/-- A line of operations each keeping the agreement keeps it. -/
theorem after_pres : ∀ (ops : List (HloOp τ sig (Elt F))), ops.Forall Pres →
    ∀ V V' : Valuation τ sig (Elt F), Inv V V' → Inv (StableHlo.after ops V) (StableHlo.after ops V')
  | [], _, _, _, inv => inv
  | op :: ops, h, V, V', inv => by
    rw [List.forall_cons] at h
    exact after_pres ops h.2 _ _ (h.1 V V' inv)

theorem ne_of_stat {s r : Ref sig .tc} (hs : s ∈ statList) (hr : r ∉ statList) :
    (Proc.devRef .tc s : DevRef τ sig) ≠ Proc.devRef .tc r :=
  fun e => hr (Proc.devRef_injective _ e ▸ hs)

/-- An operation on TensorCore references none of which is a statistics array keeps the agreement: its result on its
    buffers depends on the valuation only through them, and it writes no statistics array. -/
theorem pres_of_disjoint (op : HloOp τ sig (Elt F)) (hsub : op.bufs ⊆ StableHlo.tcRefs τ sig)
    (hd : ∀ s ∈ statList, (Proc.devRef .tc s : DevRef τ sig) ∉ op.bufs) : Pres op := by
  intro V V' inv
  have hagree : ∀ b ∈ op.bufs, V b = V' b := by
    intro b hb
    obtain ⟨r, -, rfl⟩ := Finset.mem_map.mp (hsub hb)
    exact inv.off r (fun hr => hd r hr hb)
  have hstat : ∀ s ∈ statList, ∀ W : Valuation τ sig (Elt F),
      op.result W (Proc.devRef .tc s) = W (Proc.devRef .tc s) :=
    fun s hs W => op.result_of_not_mem W (fun hw => hd s hs (op.writes_sub hw))
  refine ⟨?_, ?_, ?_, ?_, ?_, ?_⟩
  · intro b hb
    by_cases hm : (Proc.devRef .tc b : DevRef τ sig) ∈ op.bufs
    · exact op.result_congr hagree _ hm
    · rw [op.result_of_not_mem V (fun hw => hm (op.writes_sub hw)),
        op.result_of_not_mem V' (fun hw => hm (op.writes_sub hw))]
      exact inv.off b hb
  · rw [hstat main_v0_0 (by decide) V, hstat main_v0_0 (by decide) V']; exact inv.r0
  · rw [hstat main_v0_1 (by decide) V, hstat main_v0_1 (by decide) V']; exact inv.r1
  · rw [hstat main_v0_2 (by decide) V, hstat main_v0_2 (by decide) V']; exact inv.r2
  · rw [hstat main_v0_3 (by decide) V, hstat main_v0_3 (by decide) V']; exact inv.r3
  · rw [hstat main_v0_4 (by decide) V, hstat main_v0_4 (by decide) V']; exact inv.r4

theorem pres_nullary (y : Ref sig .tc) (v : y.ty.Contents (Elt F)) (hy) (hy' : y ∉ statList) :
    Pres (StableHlo.nullary (τ := τ) y v hy) :=
  pres_of_disjoint _ (StableHlo.nullary_bufs_sub ..) fun s hs hm => by
    rw [StableHlo.nullary_bufs] at hm
    exact ne_of_stat hs hy' (Finset.mem_singleton.mp hm)

theorem pres_unary (x y : Ref sig .tc) (f : x.ty.Contents (Elt F) → y.ty.Contents (Elt F)) (hx hy)
    (hx' : x ∉ statList) (hy' : y ∉ statList) : Pres (StableHlo.unary (τ := τ) x y f hx hy) :=
  pres_of_disjoint _ (StableHlo.unary_bufs_sub ..) fun s hs hm => by
    rw [StableHlo.unary_bufs] at hm
    rcases Finset.mem_insert.mp hm with h | h
    · exact ne_of_stat hs hx' h
    · exact ne_of_stat hs hy' (Finset.mem_singleton.mp h)

theorem pres_reshape (x y : Ref sig .tc) (he hn hx hy) (hx' : x ∉ statList) (hy' : y ∉ statList) :
    Pres (StableHlo.reshape (τ := τ) (Val := Elt F) x y he hn hx hy) :=
  pres_of_disjoint _ (StableHlo.reshape_bufs_sub ..) fun s hs hm => by
    rw [StableHlo.reshape_bufs] at hm
    rcases Finset.mem_insert.mp hm with h | h
    · exact ne_of_stat hs hx' h
    · exact ne_of_stat hs hy' (Finset.mem_singleton.mp h)

theorem pres_binary (a b y : Ref sig .tc) (f : a.ty.Contents (Elt F) → b.ty.Contents (Elt F) → y.ty.Contents (Elt F))
    (ha hb hy) (ha' : a ∉ statList) (hb' : b ∉ statList) (hy' : y ∉ statList) :
    Pres (StableHlo.binary (τ := τ) a b y f ha hb hy) :=
  pres_of_disjoint _ (StableHlo.binary_bufs_sub ..) fun s hs hm => by
    rw [StableHlo.binary_bufs] at hm
    rcases Finset.mem_insert.mp hm with h | h
    · exact ne_of_stat hs ha' h
    · rcases Finset.mem_insert.mp h with h | h
      · exact ne_of_stat hs hb' h
      · exact ne_of_stat hs hy' (Finset.mem_singleton.mp h)

/-- A one-operand operation reading a statistics array into a buffer that is none keeps the agreement when its
    function gives the same value on the two arrays. -/
theorem pres_unary_stat (s y : Ref sig .tc) (f : s.ty.Contents (Elt F) → y.ty.Contents (Elt F)) (hx hy)
    (hy' : y ∉ statList)
    (hf : ∀ V V' : Valuation τ sig (Elt F), Inv V V' → f (V (Proc.devRef .tc s)) = f (V' (Proc.devRef .tc s))) :
    Pres (StableHlo.unary (τ := τ) s y f hx hy) := by
  intro V V' inv
  have hne : ∀ r ∈ statList, r ≠ y := fun r hr e => hy' (e ▸ hr)
  refine ⟨?_, ?_, ?_, ?_, ?_, ?_⟩
  · intro b hb
    by_cases hby : b = y
    · subst hby
      rw [StableHlo.unary_result', StableHlo.unary_result']
      exact hf V V' inv
    · rw [StableHlo.unary_result_ne' f hx hy V hby, StableHlo.unary_result_ne' f hx hy V' hby]
      exact inv.off b hb
  · rw [StableHlo.unary_result_ne' f hx hy V (hne main_v0_0 (by decide)),
      StableHlo.unary_result_ne' f hx hy V' (hne main_v0_0 (by decide))]; exact inv.r0
  · rw [StableHlo.unary_result_ne' f hx hy V (hne main_v0_1 (by decide)),
      StableHlo.unary_result_ne' f hx hy V' (hne main_v0_1 (by decide))]; exact inv.r1
  · rw [StableHlo.unary_result_ne' f hx hy V (hne main_v0_2 (by decide)),
      StableHlo.unary_result_ne' f hx hy V' (hne main_v0_2 (by decide))]; exact inv.r2
  · rw [StableHlo.unary_result_ne' f hx hy V (hne main_v0_3 (by decide)),
      StableHlo.unary_result_ne' f hx hy V' (hne main_v0_3 (by decide))]; exact inv.r3
  · rw [StableHlo.unary_result_ne' f hx hy V (hne main_v0_4 (by decide)),
      StableHlo.unary_result_ne' f hx hy V' (hne main_v0_4 (by decide))]; exact inv.r4

/-- The slice of row 0 sees row 0 only. -/
theorem slice_row0_congr {α : Type} (A A' : S16x64.Idx → α) (hs : S16x64.Slices ![0, 0] S1x64)
    (h : ∀ c : Fin 64, A (ix2 (0 : Fin 16) c) = A' (ix2 (0 : Fin 16) c)) :
    extractStridedSlice S1x64 ![0, 0] A hs = extractStridedSlice S1x64 ![0, 0] A' hs := by
  funext j
  have h0 : (j 0).val < 1 := (j 0).isLt
  have hk : ∀ a : Fin S16x64.rank, ((ix2 (0 : Fin 16) (⟨(j 1).val, (j 1).isLt⟩ : Fin 64) : S16x64.Idx) a).val
      = (![0, 0] : Fin S16x64.rank → Nat) a + (j (a.cast hs.1.symm)).val := by
    intro a
    match a with
    | ⟨0, _⟩ => show (0 : Nat) = 0 + (j 0).val; omega
    | ⟨1, _⟩ => show (j 1).val = 0 + (j 1).val; omega
  rw [extractStridedSlice_apply _ A hs j _ hk, extractStridedSlice_apply _ A' hs j _ hk]
  exact h _

/-- The slice of row 8 sees row 8 only. -/
theorem slice_row8_congr {α : Type} (A A' : S16x64.Idx → α) (hs : S16x64.Slices ![8, 0] S1x64)
    (h : ∀ c : Fin 64, A (ix2 (8 : Fin 16) c) = A' (ix2 (8 : Fin 16) c)) :
    extractStridedSlice S1x64 ![8, 0] A hs = extractStridedSlice S1x64 ![8, 0] A' hs := by
  funext j
  have h0 : (j 0).val < 1 := (j 0).isLt
  have hk : ∀ a : Fin S16x64.rank, ((ix2 (8 : Fin 16) (⟨(j 1).val, (j 1).isLt⟩ : Fin 64) : S16x64.Idx) a).val
      = (![8, 0] : Fin S16x64.rank → Nat) a + (j (a.cast hs.1.symm)).val := by
    intro a
    match a with
    | ⟨0, _⟩ => show (8 : Nat) = 8 + (j 0).val; omega
    | ⟨1, _⟩ => show (j 1).val = 0 + (j 1).val; omega
  rw [extractStridedSlice_apply _ A hs j _ hk, extractStridedSlice_apply _ A' hs j _ hk]
  exact h _

/-! ## The three lines of the stretch -/

theorem part0_pres : (main_part0_ops0 : List (HloOp τ sig (Elt F))).Forall Pres :=
  ⟨pres_unary_stat _ _ _ _ _ (by decide) (fun _ _ inv => slice_row0_congr _ _ _ fun c => (inv.r0 c).1),
   pres_reshape _ _ _ _ _ _ (by decide) (by decide),
   pres_unary_stat _ _ _ _ _ (by decide) (fun _ _ inv => slice_row8_congr _ _ _ fun c => (inv.r0 c).2),
   pres_reshape _ _ _ _ _ _ (by decide) (by decide),
   pres_binary _ _ _ _ _ _ _ (by decide) (by decide) (by decide),
   pres_unary_stat _ _ _ _ _ (by decide) (fun _ _ inv => slice_row0_congr _ _ _ fun c => (inv.r1 c).1),
   pres_reshape _ _ _ _ _ _ (by decide) (by decide),
   pres_unary_stat _ _ _ _ _ (by decide) (fun _ _ inv => slice_row8_congr _ _ _ fun c => (inv.r1 c).2),
   pres_reshape _ _ _ _ _ _ (by decide) (by decide),
   pres_binary _ _ _ _ _ _ _ (by decide) (by decide) (by decide),
   pres_unary_stat _ _ _ _ _ (by decide) (fun _ _ inv => slice_row0_congr _ _ _ fun c => (inv.r2 c).1),
   pres_reshape _ _ _ _ _ _ (by decide) (by decide),
   pres_unary_stat _ _ _ _ _ (by decide) (fun _ _ inv => slice_row8_congr _ _ _ fun c => (inv.r2 c).2),
   pres_reshape _ _ _ _ _ _ (by decide) (by decide),
   pres_binary _ _ _ _ _ _ _ (by decide) (by decide) (by decide),
   pres_unary_stat _ _ _ _ _ (by decide) (fun _ _ inv => slice_row0_congr _ _ _ fun c => (inv.r3 c).1),
   pres_reshape _ _ _ _ _ _ (by decide) (by decide),
   pres_unary_stat _ _ _ _ _ (by decide) (fun _ _ inv => slice_row8_congr _ _ _ fun c => (inv.r3 c).2),
   pres_reshape _ _ _ _ _ _ (by decide) (by decide),
   pres_binary _ _ _ _ _ _ _ (by decide) (by decide) (by decide),
   pres_unary_stat _ _ _ _ _ (by decide) (fun _ _ inv => slice_row0_congr _ _ _ fun c => (inv.r4 c).1),
   pres_reshape _ _ _ _ _ _ (by decide) (by decide),
   pres_unary_stat _ _ _ _ _ (by decide) (fun _ _ inv => slice_row8_congr _ _ _ fun c => (inv.r4 c).2),
   pres_reshape _ _ _ _ _ _ (by decide) (by decide),
   pres_binary _ _ _ _ _ _ _ (by decide) (by decide) (by decide),
   pres_nullary _ _ _ (by decide),
   pres_unary _ _ _ _ _ (by decide) (by decide),
   pres_binary _ _ _ _ _ _ _ (by decide) (by decide) (by decide),
   pres_nullary _ _ _ (by decide),
   pres_unary _ _ _ _ _ (by decide) (by decide),
   pres_binary _ _ _ _ _ _ _ (by decide) (by decide) (by decide),
   pres_binary _ _ _ _ _ _ _ (by decide) (by decide) (by decide),
   pres_nullary _ _ _ (by decide),
   pres_unary _ _ _ _ _ (by decide) (by decide),
   pres_binary _ _ _ _ _ _ _ (by decide) (by decide) (by decide),
   pres_binary _ _ _ _ _ _ _ (by decide) (by decide) (by decide),
   pres_nullary _ _ _ (by decide),
   pres_unary _ _ _ _ _ (by decide) (by decide),
   pres_binary _ _ _ _ _ _ _ (by decide) (by decide) (by decide),
   pres_binary _ _ _ _ _ _ _ (by decide) (by decide) (by decide),
   pres_nullary _ _ _ (by decide),
   pres_unary _ _ _ _ _ (by decide) (by decide),
   pres_binary _ _ _ _ _ _ _ (by decide) (by decide) (by decide),
   pres_binary _ _ _ _ _ _ _ (by decide) (by decide) (by decide),
   pres_nullary _ _ _ (by decide),
   pres_unary _ _ _ _ _ (by decide) (by decide),
   pres_binary _ _ _ _ _ _ _ (by decide) (by decide) (by decide),
   pres_binary _ _ _ _ _ _ _ (by decide) (by decide) (by decide),
   pres_nullary _ _ _ (by decide),
   pres_unary _ _ _ _ _ (by decide) (by decide),
   pres_binary _ _ _ _ _ _ _ (by decide) (by decide) (by decide),
   pres_binary _ _ _ _ _ _ _ (by decide) (by decide) (by decide),
   pres_nullary _ _ _ (by decide),
   pres_unary _ _ _ _ _ (by decide) (by decide),
   pres_binary _ _ _ _ _ _ _ (by decide) (by decide) (by decide),
   pres_nullary _ _ _ (by decide),
   pres_unary _ _ _ _ _ (by decide) (by decide),
   pres_binary _ _ _ _ _ _ _ (by decide) (by decide) (by decide),
   pres_nullary _ _ _ (by decide)⟩

theorem part1_pres : (main_part1_ops0 : List (HloOp τ sig (Elt F))).Forall Pres :=
  ⟨pres_unary _ _ _ _ _ (by decide) (by decide),
   pres_binary _ _ _ _ _ _ _ (by decide) (by decide) (by decide),
   pres_binary _ _ _ _ _ _ _ (by decide) (by decide) (by decide),
   pres_binary _ _ _ _ _ _ _ (by decide) (by decide) (by decide),
   pres_binary _ _ _ _ _ _ _ (by decide) (by decide) (by decide),
   pres_binary _ _ _ _ _ _ _ (by decide) (by decide) (by decide),
   pres_unary _ _ _ _ _ (by decide) (by decide),
   pres_nullary _ _ _ (by decide),
   pres_unary _ _ _ _ _ (by decide) (by decide),
   pres_binary _ _ _ _ _ _ _ (by decide) (by decide) (by decide),
   pres_binary _ _ _ _ _ _ _ (by decide) (by decide) (by decide),
   pres_unary _ _ _ _ _ (by decide) (by decide),
   pres_binary _ _ _ _ _ _ _ (by decide) (by decide) (by decide),
   pres_binary _ _ _ _ _ _ _ (by decide) (by decide) (by decide),
   pres_binary _ _ _ _ _ _ _ (by decide) (by decide) (by decide),
   pres_binary _ _ _ _ _ _ _ (by decide) (by decide) (by decide),
   pres_binary _ _ _ _ _ _ _ (by decide) (by decide) (by decide),
   pres_binary _ _ _ _ _ _ _ (by decide) (by decide) (by decide),
   pres_binary _ _ _ _ _ _ _ (by decide) (by decide) (by decide),
   pres_binary _ _ _ _ _ _ _ (by decide) (by decide) (by decide),
   pres_binary _ _ _ _ _ _ _ (by decide) (by decide) (by decide),
   pres_binary _ _ _ _ _ _ _ (by decide) (by decide) (by decide),
   pres_binary _ _ _ _ _ _ _ (by decide) (by decide) (by decide),
   pres_binary _ _ _ _ _ _ _ (by decide) (by decide) (by decide),
   pres_unary _ _ _ _ _ (by decide) (by decide),
   pres_binary _ _ _ _ _ _ _ (by decide) (by decide) (by decide),
   pres_unary _ _ _ _ _ (by decide) (by decide),
   pres_binary _ _ _ _ _ _ _ (by decide) (by decide) (by decide),
   pres_binary _ _ _ _ _ _ _ (by decide) (by decide) (by decide),
   pres_unary _ _ _ _ _ (by decide) (by decide),
   pres_reshape _ _ _ _ _ _ (by decide) (by decide),
   pres_unary _ _ _ _ _ (by decide) (by decide),
   pres_reshape _ _ _ _ _ _ (by decide) (by decide),
   pres_unary _ _ _ _ _ (by decide) (by decide),
   pres_reshape _ _ _ _ _ _ (by decide) (by decide),
   pres_unary _ _ _ _ _ (by decide) (by decide),
   pres_reshape _ _ _ _ _ _ (by decide) (by decide),
   pres_binary _ _ _ _ _ _ _ (by decide) (by decide) (by decide),
   pres_binary _ _ _ _ _ _ _ (by decide) (by decide) (by decide),
   pres_binary _ _ _ _ _ _ _ (by decide) (by decide) (by decide),
   pres_binary _ _ _ _ _ _ _ (by decide) (by decide) (by decide),
   pres_binary _ _ _ _ _ _ _ (by decide) (by decide) (by decide),
   pres_binary _ _ _ _ _ _ _ (by decide) (by decide) (by decide),
   pres_binary _ _ _ _ _ _ _ (by decide) (by decide) (by decide),
   pres_binary _ _ _ _ _ _ _ (by decide) (by decide) (by decide),
   pres_binary _ _ _ _ _ _ _ (by decide) (by decide) (by decide),
   pres_binary _ _ _ _ _ _ _ (by decide) (by decide) (by decide),
   pres_binary _ _ _ _ _ _ _ (by decide) (by decide) (by decide),
   pres_binary _ _ _ _ _ _ _ (by decide) (by decide) (by decide),
   pres_unary _ _ _ _ _ (by decide) (by decide),
   pres_reshape _ _ _ _ _ _ (by decide) (by decide),
   pres_unary _ _ _ _ _ (by decide) (by decide),
   pres_reshape _ _ _ _ _ _ (by decide) (by decide),
   pres_binary _ _ _ _ _ _ _ (by decide) (by decide) (by decide),
   pres_binary _ _ _ _ _ _ _ (by decide) (by decide) (by decide),
   pres_binary _ _ _ _ _ _ _ (by decide) (by decide) (by decide),
   pres_binary _ _ _ _ _ _ _ (by decide) (by decide) (by decide),
   pres_binary _ _ _ _ _ _ _ (by decide) (by decide) (by decide),
   pres_binary _ _ _ _ _ _ _ (by decide) (by decide) (by decide),
   pres_binary _ _ _ _ _ _ _ (by decide) (by decide) (by decide)⟩

theorem part2_pres : (main_part2_ops0 : List (HloOp τ sig (Elt F))).Forall Pres :=
  ⟨pres_binary _ _ _ _ _ _ _ (by decide) (by decide) (by decide),
   pres_reshape _ _ _ _ _ _ (by decide) (by decide),
   pres_reshape _ _ _ _ _ _ (by decide) (by decide),
   pres_reshape _ _ _ _ _ _ (by decide) (by decide),
   pres_reshape _ _ _ _ _ _ (by decide) (by decide),
   pres_reshape _ _ _ _ _ _ (by decide) (by decide),
   pres_reshape _ _ _ _ _ _ (by decide) (by decide)⟩

/-- Two valuations that agree off the five statistics arrays and on their rows 0 and 8 give every other buffer the
    same contents after the host stretch. -/
theorem host_agree (V V' : Valuation τ sig (Elt F))
    (hoff : ∀ b : Ref sig .tc, b ∉ statList → V (Proc.devRef .tc b) = V' (Proc.devRef .tc b))
    (h0 : RowsAgree (V (Proc.devRef .tc main_v0_0)) (V' (Proc.devRef .tc main_v0_0)))
    (h1 : RowsAgree (V (Proc.devRef .tc main_v0_1)) (V' (Proc.devRef .tc main_v0_1)))
    (h2 : RowsAgree (V (Proc.devRef .tc main_v0_2)) (V' (Proc.devRef .tc main_v0_2)))
    (h3 : RowsAgree (V (Proc.devRef .tc main_v0_3)) (V' (Proc.devRef .tc main_v0_3)))
    (h4 : RowsAgree (V (Proc.devRef .tc main_v0_4)) (V' (Proc.devRef .tc main_v0_4))) :
    ∀ b : Ref sig .tc, b ∉ statList → hostAfterF V (Proc.devRef .tc b) = hostAfterF V' (Proc.devRef .tc b) :=
  (after_pres _ part2_pres _ _ (after_pres _ part1_pres _ _ (after_pres _ part0_pres V V' ⟨hoff, h0, h1, h2, h3, h4⟩))).off

end Cert.KernelIdeal.Hand

end
-- ==== Proof.KI.Oblig.lean ====
/-
  What the two kernel bodies owe the pipeline, and what the statistics pass's relation says of its arrays at exit,
  gathered for the run.
-/
import proofs.«141001_j43499428774583_2_alg».proof.Proof.KI.Body0
import proofs.«141001_j43499428774583_2_alg».proof.Proof.KI.Body1
import proofs.«141001_j43499428774583_2_alg».proof.Proof.KI.Aux0
import proofs.«141001_j43499428774583_2_alg».proof.Proof.KI.HostAgree

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)
open Idealize.ShloMosaic.ValueIdx
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- What the relation says of output `k`'s array: rows 0 and 8 are the two halves' lane sums. -/
def RowsK (c : Dev nD) (X : Buf (Elt F) ((cfg0.win 0).arr.view.loc (c.tc : Thread nD τ))) (k : Fin 5) (A : S16x64.Idx → Elt F .f32) : Prop :=
  ∀ (p : Fin 2) (j : Fin 64), A (ix2 (⟨8 * p.val, by omega⟩ : Fin 16) j) = pay c X k p.val (ix2 (0 : Fin 1) j)

theorem rowsK_of_arrAt (c : Dev nD) :
    (∀ F1, (rd0 V c).ArrAt 1 cfg0.N F1 → RowsK c (V c (Pipeline.arrRef spec0 0)) 0 F1)
    ∧ (∀ F2, (rd0 V c).ArrAt 2 cfg0.N F2 → RowsK c (V c (Pipeline.arrRef spec0 0)) 1 F2)
    ∧ (∀ F3, (rd0 V c).ArrAt 3 cfg0.N F3 → RowsK c (V c (Pipeline.arrRef spec0 0)) 2 F3)
    ∧ (∀ F4, (rd0 V c).ArrAt 4 cfg0.N F4 → RowsK c (V c (Pipeline.arrRef spec0 0)) 3 F4)
    ∧ (∀ F5, (rd0 V c).ArrAt 5 cfg0.N F5 → RowsK c (V c (Pipeline.arrRef spec0 0)) 4 F5) :=
  ⟨fun F1 h p j => arrAt_out1 V c F1 h p j, fun F2 h p j => arrAt_out2 V c F2 h p j, fun F3 h p j => arrAt_out3 V c F3 h p j,
    fun F4 h p j => arrAt_out4 V c F4 h p j, fun F5 h p j => arrAt_out5 V c F5 h p j⟩

end Cert.KernelIdeal.Hand

end
-- ==== Proof.KI.Run1.lean ====
/-
  The run of the kernel program, first half: the contents of the core's buffers at every boundary of @main
  (the statistics region, three stretches of host operations, the affine region), the thread states, and the host
  stretches as segments. Of the five statistics arrays only rows 0 and 8 are determined (a block's other rows keep
  what a staging buffer happened to hold): what the statistics region leaves is carried as SOME contents satisfying the
  pipeline's relation.
-/
import proofs.«141001_j43499428774583_2_alg».proof.Proof.KI.Oblig

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)
open Idealize.ShloMosaic.ValueIdx
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ)

/-! ## The buffers' contents at each boundary -/

/-- Core `c`'s buffers at launch. -/
abbrev W0 : Dev nD → Valuation τ sig (Elt F) := fun c b => m (c, b)
/-- The same read at the TensorCore's references. -/
abbrev V0 : (c : Dev nD) → (b : Ref sig .tc) → Buf (Elt F) ((c : Thread nD τ).loc b) := fun c b => W0 m c b

/-- Contents for region 0's six arrays. -/
abbrev Arr0 (c : Dev nD) : Type := (w : Fin cfg0.W) → Buf (Elt F) ((cfg0.win w).arr.view.loc (c.tc : Thread nD τ))

/-- After region 0: its arrays at `Fs`, every other buffer as launched. -/
def W1 (c : Dev nD) (Fs : Arr0 (F := F) c) : Valuation τ sig (Elt F) := Pipeline.withArrays spec0 c (W0 m c) Fs
/-- After the first, second and third host stretch. -/
def W2 (c : Dev nD) (Fs : Arr0 (F := F) c) : Valuation τ sig (Elt F) := StableHlo.after main_part0_ops0 (W1 m c Fs)
def W3 (c : Dev nD) (Fs : Arr0 (F := F) c) : Valuation τ sig (Elt F) := StableHlo.after main_part1_ops0 (W2 m c Fs)
def W4 (c : Dev nD) (Fs : Arr0 (F := F) c) : Valuation τ sig (Elt F) := StableHlo.after main_part2_ops0 (W3 m c Fs)

/-- What region 0's relation allows its arrays to hold at its exit. -/
def Rel (c : Dev nD) (Fs : Arr0 (F := F) c) : Prop := ∀ w, (rd0 (V0 m) c).ArrAt w cfg0.N (Fs w)

/-! ## The thread state -/

abbrev 𝒱₀ : Variants := Variants.none
abbrev L : GSem nD τ sig → Finset Unit := fun _ => ∅
abbrev lv : GSem nD τ sig → Unit → ℕ := fun _ _ => 0
/-- The prefetched tables' admissible contents: no pipeline has a table. -/
abbrev adm : (p : Fin 2) → (pcfgs (F := F) p).Adm := fun p => (cfgs p).toPCfg_adm

/-- What rides beside the buffers through every segment: the generator register at some state and nothing owed. -/
abbrev R (c : Dev nD) : sProp 𝕄 := iprop((∃ r, prngReg c r) ∗ ∃ W, owes (c : Thread nD τ) (0 : CellTallies nD τ sig Unit) W)

/-- The thread state after region 0, at the boundary whose contents are `Wf c Fs`: SOME arrays `Fs` the region's
    relation allows, every unscoped buffer at `Wf c Fs`. -/
def St (Wf : (c : Dev nD) → Arr0 (F := F) c → Valuation τ sig (Elt F)) (c : Dev nD) : sProp 𝕄 :=
  iprop(∃ Fs : Arr0 (F := F) c, ⌜Rel m c Fs⌝ ∗ StableHlo.held (c : Thread nD τ) (Pipeline.ucRefs τ sig) (Wf c Fs) ∗ R c)

/-! ## The host stretches as segments -/

theorem part0_fresh : (main_part0_ops0 : List (HloOp τ sig (Elt F))).Forall fun op => op.fresh = ∅ := by
  simp only [List.Forall]; repeat' constructor
theorem part1_fresh : (main_part1_ops0 : List (HloOp τ sig (Elt F))).Forall fun op => op.fresh = ∅ := by
  simp only [List.Forall]; repeat' constructor
theorem part2_fresh : (main_part2_ops0 : List (HloOp τ sig (Elt F))).Forall fun op => op.fresh = ∅ := by
  simp only [List.Forall]; repeat' constructor

set_option backward.isDefEq.respectTransparency.types false in
/-- A host stretch run from the state `St Wf`: it runs to `St` at the stretch's fold over the same contents
    (the operations' rule applied at the contents in hand, whichever they are). -/
def hsegEx (ops : List (HloOp τ sig (Elt F))) (hsub : ops.Forall fun op => op.bufs ⊆ StableHlo.tcRefs τ sig)
    (hfresh : ops.Forall fun op => op.fresh = ∅) (Wf : (c : Dev nD) → Arr0 (F := F) c → Valuation τ sig (Elt F)) :
    Pipeline.HostSeg (Name := ℕ) (U := UR sig nD τ) (pcfgs (F := F)) defs₀ 𝒱₀ L lv where
  prog := StableHlo.seq ops
  pre c := St m Wf c
  post c := St m (fun c Fs => StableHlo.after ops (Wf c Fs)) c
  run c {β} k K := by
    unfold St
    iintro ⟨Hk, Hbd, ⟨%Fs, %hFs, Hh, HR⟩, -⟩
    have hseq := StableHlo.wp_seq (defs := Pipeline.defs (pcfgs (F := F)) defs₀) (Variants.lift 𝒱₀) none Set.univ c (Pipeline.ucRefs τ sig) k (K := K) ops
      (fun op h => Pipeline.sub_ucRefs op ((List.forall_iff_forall_mem.mp hsub) op h))
      (fun op h => (List.forall_iff_forall_mem.mp hfresh) op h) (Wf c Fs)
    iapply hseq $$ [Hbd Hh]
    · isplitl [Hbd] <;> iassumption
    iintro ⟨Hbd, Hh⟩
    iapply Hk
    isplitl [Hbd]; · iexact Hbd
    iexists Fs
    isplitr; · ipureintro; exact hFs
    isplitl [Hh] <;> iassumption

end Cert.KernelIdeal.Hand

end
-- ==== Proof.KI.Run2.lean ====
/-
  The run of the kernel program, second half (a): the canonical contents of the statistics arrays (every row of a
  block holds the block's lane sums), the agreement of everything the host stretches compute from rows 0 and 8 alone,
  and the two pipelines' proof data.
-/
import proofs.«141001_j43499428774583_2_alg».proof.Proof.KI.Run1

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)
open Idealize.ShloMosaic.ValueIdx
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ)

/-- The statistics input as launched. -/
abbrev X0 (c : Dev nD) : Buf (Elt F) ((cfg0.win 0).arr.view.loc (c.tc : Thread nD τ)) := V0 m c (Pipeline.arrRef spec0 0)

/-- A statistics array every row of whose block `p` holds half `p`'s lane sums. -/
def canon (c : Dev nD) (k : Fin 5) : S16x64.Idx → Elt F .f32 :=
  fun i => pay c (X0 m c) k ((i 0).val / 8) (ix2 (0 : Fin 1) (⟨(i 1).val, (i 1).isLt⟩ : Fin 64))

/-- The canonical contents of region 0's arrays at its exit. -/
def Fs₀ (c : Dev nD) : Arr0 (F := F) c
  | ⟨0, _⟩ => X0 m c
  | ⟨1, _⟩ => canon m c 0
  | ⟨2, _⟩ => canon m c 1
  | ⟨3, _⟩ => canon m c 2
  | ⟨4, _⟩ => canon m c 3
  | ⟨5, _⟩ => canon m c 4

/-- What is known of region 0's arrays at its exit: the input as launched, rows 0 and 8 of each output. -/
def Rows (c : Dev nD) (Fs : Arr0 (F := F) c) : Prop :=
  Fs 0 = X0 m c ∧ RowsK c (X0 m c) 0 (Fs 1) ∧ RowsK c (X0 m c) 1 (Fs 2) ∧ RowsK c (X0 m c) 2 (Fs 3)
    ∧ RowsK c (X0 m c) 3 (Fs 4) ∧ RowsK c (X0 m c) 4 (Fs 5)

theorem rowsK_canon (c : Dev nD) (k : Fin 5) : RowsK c (X0 m c) k (canon m c k) := by
  intro p j
  unfold canon
  have e : ((ix2 (⟨8 * p.val, by omega⟩ : Fin 16) j : S16x64.Idx) 0).val / 8 = p.val := by
    show (8 * p.val) / 8 = p.val
    omega
  rw [e]

theorem rows_canon (c : Dev nD) : Rows m c (Fs₀ m c) :=
  ⟨rfl, rowsK_canon m c 0, rowsK_canon m c 1, rowsK_canon m c 2, rowsK_canon m c 3, rowsK_canon m c 4⟩

theorem rows_of_rel (c : Dev nD) (Fs : Arr0 (F := F) c) (h : Rel m c Fs) : Rows m c Fs :=
  ⟨(by have h0 := h 0; rw [(rd0 (V0 m) c).ArrAt_in 0 rfl] at h0; exact h0), (rowsK_of_arrAt (V0 m) c).1 _ (h 1), (rowsK_of_arrAt (V0 m) c).2.1 _ (h 2),
    (rowsK_of_arrAt (V0 m) c).2.2.1 _ (h 3), (rowsK_of_arrAt (V0 m) c).2.2.2.1 _ (h 4), (rowsK_of_arrAt (V0 m) c).2.2.2.2 _ (h 5)⟩

/-! ## Everything the host stretches compute is the same for all admissible contents -/

theorem W1_arr (c : Dev nD) (Fs : Arr0 (F := F) c) (w : Fin cfg0.W) :
    W1 m c Fs (Proc.devRef .tc (Pipeline.arrRef spec0 w)) = Fs w := by
  unfold W1; exact Pipeline.withArrays_arr spec0 launch0.win.arr_inj c _ _ w

theorem W1_of_ne (c : Dev nD) (Fs : Arr0 (F := F) c) (b : Ref sig .tc) (hb : ∀ w, Pipeline.arrRef spec0 w ≠ b) :
    W1 m c Fs (Proc.devRef .tc b) = W0 m c (Proc.devRef .tc b) := by
  unfold W1; exact Pipeline.withArrays_of_ne spec0 c _ _ b hb

theorem rowsAgree_of (c : Dev nD) (k : Fin 5) (A A' : S16x64.Idx → Elt F .f32) (h : RowsK c (X0 m c) k A) (h' : RowsK c (X0 m c) k A') :
    RowsAgree A A' := fun j =>
  ⟨(h 0 j).trans (h' 0 j).symm, (h 1 j).trans (h' 1 j).symm⟩

theorem W4_agree (c : Dev nD) (Fs : Arr0 (F := F) c) (h : Rows m c Fs) (b : Ref sig .tc) (hb : b ∉ (statList : List (Ref sig .tc))) :
    W4 m c Fs (Proc.devRef .tc b) = W4 m c (Fs₀ m c) (Proc.devRef .tc b) := by
  have h' := rows_canon m c
  refine host_agree (W1 m c Fs) (W1 m c (Fs₀ m c)) (fun b hb => ?_) ?_ ?_ ?_ ?_ ?_ b hb
  · by_cases hb0 : b = main_arg0
    · subst hb0
      exact ((W1_arr m c Fs 0).trans h.1).trans ((W1_arr m c (Fs₀ m c) 0).trans h'.1).symm
    · have hne : ∀ w, Pipeline.arrRef spec0 w ≠ b := by
        intro w e
        fin_cases w
        · exact hb0 e.symm
        all_goals exact hb (by rw [← e]; decide)
      rw [W1_of_ne m c Fs b hne, W1_of_ne m c (Fs₀ m c) b hne]
  · rw [W1_arr m c Fs 1, W1_arr m c (Fs₀ m c) 1]; exact rowsAgree_of m c 0 _ _ h.2.1 h'.2.1
  · rw [W1_arr m c Fs 2, W1_arr m c (Fs₀ m c) 2]; exact rowsAgree_of m c 1 _ _ h.2.2.1 h'.2.2.1
  · rw [W1_arr m c Fs 3, W1_arr m c (Fs₀ m c) 3]; exact rowsAgree_of m c 2 _ _ h.2.2.2.1 h'.2.2.2.1
  · rw [W1_arr m c Fs 4, W1_arr m c (Fs₀ m c) 4]; exact rowsAgree_of m c 3 _ _ h.2.2.2.2.1 h'.2.2.2.2.1
  · rw [W1_arr m c Fs 5, W1_arr m c (Fs₀ m c) 5]; exact rowsAgree_of m c 4 _ _ h.2.2.2.2.2 h'.2.2.2.2.2

/-! ## The pipelines' proof data -/

/-- The contents region 1 is entered with, at the canonical statistics arrays. -/
abbrev Vc : (c : Dev nD) → (b : Ref sig .tc) → Buf (Elt F) ((c : Thread nD τ).loc b) := fun c b => W4 m c (Fs₀ m c) (Proc.devRef .tc b)

/-- Every pipeline's proof data: region 0's relational, region 1's exact at the canonical entry contents. -/
def rdats : (p : Fin 2) → (c : Dev nD) → RDat τ (Elt F) Unit ℕ (UR sig nD τ) ℕ (Pipeline.pin (pcfgs (F := F)) adm p) c
  | ⟨0, _⟩ => fun c => rd0 (V0 m) c
  | ⟨1, _⟩ => fun c => (dat1 (Vc m) c).toR

/-- After region 1: its arrays at what its write-backs leave, every other buffer as entered. -/
def W5 (c : Dev nD) (Fs : Arr0 (F := F) c) : Valuation τ sig (Elt F) :=
  Pipeline.withArrays spec1 c (W4 m c Fs) fun w => (dat1 (Vc m) c).arrAt w cfg1.N

end Cert.KernelIdeal.Hand

end
-- ==== Proof.KI.Run3.lean ====
/-
  The run of the kernel program, third part: the two kernel regions as segments of @main.
-/
import proofs.«141001_j43499428774583_2_alg».proof.Proof.KI.Run2

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)
open Idealize.ShloMosaic.ValueIdx
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ)

theorem share0 (c : Dev nD) (w : Fin cfg0.W) : (rdats m 0 c).share w = fullShare := by
  unfold RDat.share; split <;> rfl
theorem share1 (c : Dev nD) (w : Fin cfg1.W) : (rdats m 1 c).share w = fullShare := by
  unfold RDat.share; split <;> rfl

set_option backward.isDefEq.respectTransparency.types false in
/-- Region 0's arrays at contents `Fs` and the unscoped rest as launched are the core's unscoped buffers at `W1 … Fs`. -/
theorem join0 (c : Dev nD) (Fs : Arr0 (F := F) c) :
    iprop((rdats m 0 c).arrays Fs ∗ Pipeline.unscopedRest (Ix := Unit) (Name := ℕ) (U := UR sig nD τ) (Lvl := ℕ) spec0 c (V0 m c))
      ⊢ (StableHlo.held (c : Thread nD τ) (Pipeline.ucRefs τ sig) (W1 m c Fs) : sProp 𝕄) := by
  rw [← Pipeline.unscopedBufs_held c (W1 m c Fs)]
  rw [Pipeline.unscopedBufs_split (Pipeline.pin (pcfgs (F := F)) adm) 0 launch0.win.arr_unscoped launch0.win.arr_inj c (fun b => W1 m c Fs (Proc.devRef .tc b)),
    Pipeline.RDat.arrays_eq (pcfgs (F := F)) adm (rdats m) 0 c launch0.arr_whole (share0 m c)]
  refine BIClass.sep_mono (Entails.of_eq (bigSep_congr fun w _ => by rw [show W1 m c Fs (Proc.devRef .tc (Pipeline.arrRef (Pipeline.pin (pcfgs (F := F)) adm 0).spec w)) = Fs w from W1_arr m c Fs w])) (Entails.of_eq ?_)
  unfold Pipeline.unscopedRest
  exact bigSep_congr fun b hb => by
    dsimp only
    rw [W1_of_ne m c Fs b fun w e => (Finset.mem_sdiff.mp hb).2 (Finset.mem_image.mpr ⟨w, Finset.mem_univ _, e⟩)]

set_option backward.isDefEq.respectTransparency.types false in
/-- REGION 0 (the statistics pass): entered from every unscoped buffer as launched, left at SOME arrays the relation
    allows, every other unscoped buffer as launched. -/
def reg0 : Pipeline.RDat.RegionSeg (pcfgs (F := F)) adm (rdats m) () defs₀ 𝒱₀ L lv 0 where
  win := launch0.win.to₀
  block_pos := launch0.block_pos
  stage_whole := launch0.stage_whole
  K := PEmpty
  osem k := k.elim
  ho := Pipeline.OwnSemFacts.none _
  hbody c := body_obligation0 (V0 m) c
  hwaits := Pipeline.RDat.hwaits_of_owed_zero _ _ _ _ L lv 0 fun _ _ => rfl
  pre c := iprop(StableHlo.held (c : Thread nD τ) (Pipeline.ucRefs τ sig) (W0 m c) ∗ R c)
  post c := St m (W1 m) c
  X c := iprop(∃ r, prngReg c r)
  Y c := iprop(∃ r, prngReg c r)
  Z c := Pipeline.unscopedRest (Ix := Unit) (Name := ℕ) (U := UR sig nD τ) (Lvl := ℕ) spec0 c (V0 m c)
  hentry c := by
    rw [Pipeline.ownSems0_none]
    have hsplit := Pipeline.RDat.arrays_of_unscopedBufs (p := 0) (pcfgs (F := F)) adm (rdats m) launch0.win launch0.arr_whole c
      (share0 m c) (V0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.RDat.owesAt Pipeline.owesWithin
      icases HO with ⟨%W, HO⟩; iexists W; isplitr; · ipureintro; exact fun _ _ => Or.inl trivial
      iexact HO
    isplitl [Hp]; · iexact Hp
    iexact Hrest
  hin c := by
    show _ ⊢ Phi0 c (X0 m c) 0
    iintro ⟨Hp, -, Hr⟩
    iapply (Phi0_first c (X0 m c))
    isplitl [Hp] <;> iassumption
  hout c := by
    rw [Pipeline.ownSems0_none]
    show Phi0 c (X0 m c) 32 ⊢ _
    iintro H
    ihave H' := (Phi0_last c (X0 m c)) $$ H
    icases H' with ⟨Hp, Hr⟩
    isplitl [Hp]; · iexact Hp
    isplitr; · iempintro
    iexact Hr
  hexit c := by
    classical
    unfold St Pipeline.RDat.arraysAt
    iintro ⟨Ha, HO, HY, Hrest⟩
    ihave Ha' := (BI.bigSep_exists_pi Finset.univ (fun w F' => iprop(⌜(rdats m 0 c).ArrAt w cfg0.N F'⌝
        ∗ (cfg0.win w).arr.view.loc (c.tc : Thread nD τ) ↦[(cfg0.win w).arr.view.set]{(rdats m 0 c).share w} F'))) $$ Ha
    icases Ha' with ⟨%Fs, Ha⟩
    ihave Ha2 := (BI.bigSep_pure_sep Finset.univ (fun w => (rdats m 0 c).ArrAt w cfg0.N (Fs w))
        (fun w => (cfg0.win w).arr.view.loc (c.tc : Thread nD τ) ↦[(cfg0.win w).arr.view.set]{(rdats m 0 c).share w} Fs w)) $$ Ha
    icases Ha2 with ⟨%hFs, Ha⟩
    imodintro
    iexists Fs
    isplitr; · ipureintro; exact fun w => hFs w (Finset.mem_univ w)
    isplitl [Ha Hrest]
    · iapply (join0 m c Fs)
      isplitl [Ha]
      · unfold Pipeline.RDat.arrays; iexact Ha
      · iexact Hrest
    isplitl [HY]; · iexact HY
    unfold Pipeline.RDat.owesAt Pipeline.owesWithin
    icases HO with ⟨%W, -, HO⟩; iexists W; iexact HO

end Cert.KernelIdeal.Hand

end
-- ==== Proof.KI.Run4.lean ====
/-
  The run of the kernel program, last part: the affine region as a segment, @main as the list of its five
  segments, and the launch: every weakly fair execution terminates with the result array at what the affine
  region's write-backs leave (a named function of the launch contents) and the arguments as launched.
-/
import proofs.«141001_j43499428774583_2_alg».proof.Proof.KI.Run3

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)
open Idealize.ShloMosaic.ValueIdx
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ)

theorem W5_arr (c : Dev nD) (Fs : Arr0 (F := F) c) (w : Fin cfg1.W) :
    W5 m c Fs (Proc.devRef .tc (Pipeline.arrRef spec1 w)) = (dat1 (Vc m) c).arrAt w cfg1.N := by
  unfold W5; exact Pipeline.withArrays_arr spec1 launch1.win.arr_inj c _ _ w

theorem W5_of_ne (c : Dev nD) (Fs : Arr0 (F := F) c) (b : Ref sig .tc) (hb : ∀ w, Pipeline.arrRef spec1 w ≠ b) :
    W5 m c Fs (Proc.devRef .tc b) = W4 m c Fs (Proc.devRef .tc b) := by
  unfold W5; exact Pipeline.withArrays_of_ne spec1 c _ _ b hb

/-- Region 1's entry contents are what the host stretches leave, whichever admissible statistics arrays they started from. -/
theorem A1_eq (c : Dev nD) (Fs : Arr0 (F := F) c) (h : Rows m c Fs) (w : Fin cfg1.W) :
    (rdats m 1 c).A w = W4 m c Fs (Proc.devRef .tc (Pipeline.arrRef spec1 w)) :=
  (W4_agree m c Fs h (Pipeline.arrRef spec1 w) (by fin_cases w <;> decide)).symm

set_option backward.isDefEq.respectTransparency.types false in
/-- Region 1's arrays at what its write-backs leave and the unscoped rest at `W4 … Fs` are the core's unscoped buffers at `W5 … Fs`. -/
theorem join1 (c : Dev nD) (Fs : Arr0 (F := F) c) :
    iprop((dat1 (Vc m) c).arrays (fun w => (dat1 (Vc m) c).arrAt w cfg1.N)
        ∗ Pipeline.unscopedRest (Ix := Unit) (Name := ℕ) (U := UR sig nD τ) (Lvl := ℕ) spec1 c (fun b => W4 m c Fs (Proc.devRef .tc b)))
      ⊢ (StableHlo.held (c : Thread nD τ) (Pipeline.ucRefs τ sig) (W5 m c Fs) : sProp 𝕄) := by
  rw [← Pipeline.unscopedBufs_held c (W5 m c Fs)]
  rw [show ((dat1 (Vc m) c).arrays (fun w => (dat1 (Vc m) c).arrAt w cfg1.N) : sProp 𝕄) = (rdats m 1 c).arrays (fun w => (dat1 (Vc m) c).arrAt w cfg1.N) from rfl]
  rw [Pipeline.unscopedBufs_split (Pipeline.pin (pcfgs (F := F)) adm) 1 launch1.win.arr_unscoped launch1.win.arr_inj c (fun b => W5 m c Fs (Proc.devRef .tc b)),
    Pipeline.RDat.arrays_eq (pcfgs (F := F)) adm (rdats m) 1 c launch1.arr_whole (share1 m c)]
  refine BIClass.sep_mono (Entails.of_eq (bigSep_congr fun w _ => by
    rw [show W5 m c Fs (Proc.devRef .tc (Pipeline.arrRef (Pipeline.pin (pcfgs (F := F)) adm 1).spec w)) = (dat1 (Vc m) c).arrAt w cfg1.N from W5_arr m c Fs w])) (Entails.of_eq ?_)
  unfold Pipeline.unscopedRest
  exact bigSep_congr fun b hb => by
    dsimp only
    rw [W5_of_ne m c Fs b fun w e => (Finset.mem_sdiff.mp hb).2 (Finset.mem_image.mpr ⟨w, Finset.mem_univ _, e⟩)]

/-- The last thread state without the `owes`. -/
def Tn (c : Dev nD) : sProp 𝕄 :=
  iprop(∃ Fs : Arr0 (F := F) c, ⌜Rel m c Fs⌝ ∗ StableHlo.held (c : Thread nD τ) (Pipeline.ucRefs τ sig) (W5 m c Fs) ∗ ∃ r, prngReg c r)

set_option backward.isDefEq.respectTransparency.types false in
/-- REGION 1 (the affine pass): entered from the state after the host stretches, left with its arrays at what its
    write-backs leave. -/
def reg1 : Pipeline.RDat.RegionSeg (pcfgs (F := F)) adm (rdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (Vc m) c).loose.toR
  hwaits := Pipeline.RDat.hwaits_of_owed_zero _ _ _ _ L lv 1 fun _ _ => rfl
  pre c := St m (W4 m) c
  post c := iprop(Tn m c ∗ ∃ W, owes (c : Thread nD τ) (0 : CellTallies nD τ sig Unit) W)
  X c := iprop(∃ r, prngReg c r)
  Y c := iprop(∃ r, prngReg c r)
  Z c := iprop(∃ Fs : Arr0 (F := F) c, ⌜Rel m c Fs⌝ ∗ Pipeline.unscopedRest (Ix := Unit) (Name := ℕ) (U := UR sig nD τ) (Lvl := ℕ) spec1 c (fun b => W4 m c Fs (Proc.devRef .tc b)))
  hentry c := by
    rw [Pipeline.ownSems0_none]
    unfold St
    iintro ⟨⟨%Fs, %hFs, Hub, Hp, HO⟩, -, -⟩
    have hsplit := Pipeline.RDat.arrays_of_unscopedBufs (p := 1) (pcfgs (F := F)) adm (rdats m) launch1.win launch1.arr_whole c
      (share1 m c) (fun b => W4 m c Fs (Proc.devRef .tc b)) (A1_eq m c Fs (rows_of_rel m c Fs hFs))
    rw [Pipeline.unscopedBufs_held] at hsplit
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.RDat.owesAt Pipeline.owesWithin
      icases HO with ⟨%W, HO⟩; iexists W; isplitr; · ipureintro; exact fun _ _ => Or.inl trivial
      iexact HO
    isplitl [Hp]; · iexact Hp
    iexists Fs
    isplitr; · ipureintro; exact hFs
    iexact Hrest
  hin c := by
    rw [show (rdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (rdats m 1 c).Φ (Fin.last _) = Pipeline.ΦA spec1 c from rfl]; unfold Pipeline.ΦA
    iintro ⟨Hr, Hp⟩
    isplitl [Hp]; · iexact Hp
    isplitr; · iempintro
    iexact Hr
  hexit c := by
    show iprop((dat1 (Vc m) c).toR.arraysAt cfg1.N ∗ _) ⊢ _
    iintro ⟨Ha, HO, HY, ⟨%Fs, %hFs, Hrest⟩⟩
    ihave Ha' := ((dat1 (Vc m) c).toR_arraysAt_post cfg1.N) $$ Ha
    imodintro
    isplitl [Ha' Hrest HY]
    · unfold Tn
      iexists Fs
      isplitr; · ipureintro; exact hFs
      isplitl [Ha' Hrest]
      · iapply (join1 m c Fs)
        isplitl [Ha']
        · iexact Ha'
        · iexact Hrest
      iexact HY
    unfold Pipeline.RDat.owesAt Pipeline.owesWithin
    icases HO with ⟨%W, -, HO⟩; iexists W; iexact HO

end Cert.KernelIdeal.Hand

end
-- ==== Proof.KI.Run5.lean ====
/-
  The run of the kernel program, the launch: @main is its five segments; every weakly fair execution terminates
  with the result array at what the affine region's write-backs leave and the arguments as launched.
-/
import proofs.«141001_j43499428774583_2_alg».proof.Proof.KI.Run4

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)
open Idealize.ShloMosaic.ValueIdx
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- @main's five segments in order. -/
abbrev segs : List (Pipeline.RDat.Seg (pcfgs (F := F)) adm (rdats m) () defs₀ 𝒱₀ L lv) :=
  [ .region (reg0 m),
    .host (hsegEx m main_part0_ops0 main_part0_ops0_sub part0_fresh (W1 m)),
    .host (hsegEx m main_part1_ops0 main_part1_ops0_sub part1_fresh (W2 m)),
    .host (hsegEx m main_part2_ops0 main_part2_ops0_sub part2_fresh (W3 m)),
    .region (reg1 m) ]

/-- @main IS the run of the segments. -/
theorem main_run (c : Dev nD) : main (F := F) c = Pipeline.RDat.Seg.run (segs m) := (main_chain_windows c).trans (by chain_rfl)

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- No host operation writes an argument or the result array. -/
theorem part0_keeps (b : Ref sig .tc) (hb : b ∈ ([main_arg0, main_arg1, main_arg2, main_v116] : List (Ref sig .tc))) (W : Valuation τ sig (Elt F)) :
    StableHlo.after main_part0_ops0 W (Proc.devRef .tc b) = W (Proc.devRef .tc b) :=
  StableHlo.after_of_forall_not_mem (b := Proc.devRef .tc b) _ _ (List.forall_iff_forall_mem.mp (by
    simp only [List.mem_cons, List.mem_nil_iff, or_false] at hb
    rcases hb with rfl | rfl | rfl | rfl <;>
    · simp only [main_part0_ops0, List.Forall, StableHlo.nullary_writes, StableHlo.unary_writes, StableHlo.binary_writes, StableHlo.reshape_writes, Finset.mem_singleton]
      repeat' apply And.intro
      all_goals exact StableHlo.devRef_ne_of_ne (by decide)))
theorem part1_keeps (b : Ref sig .tc) (hb : b ∈ ([main_arg0, main_arg1, main_arg2, main_v116] : List (Ref sig .tc))) (W : Valuation τ sig (Elt F)) :
    StableHlo.after main_part1_ops0 W (Proc.devRef .tc b) = W (Proc.devRef .tc b) :=
  StableHlo.after_of_forall_not_mem (b := Proc.devRef .tc b) _ _ (List.forall_iff_forall_mem.mp (by
    simp only [List.mem_cons, List.mem_nil_iff, or_false] at hb
    rcases hb with rfl | rfl | rfl | rfl <;>
    · simp only [main_part1_ops0, List.Forall, StableHlo.nullary_writes, StableHlo.unary_writes, StableHlo.binary_writes, StableHlo.reshape_writes, Finset.mem_singleton]
      repeat' apply And.intro
      all_goals exact StableHlo.devRef_ne_of_ne (by decide)))
theorem part2_keeps (b : Ref sig .tc) (hb : b ∈ ([main_arg0, main_arg1, main_arg2, main_v116] : List (Ref sig .tc))) (W : Valuation τ sig (Elt F)) :
    StableHlo.after main_part2_ops0 W (Proc.devRef .tc b) = W (Proc.devRef .tc b) :=
  StableHlo.after_of_forall_not_mem (b := Proc.devRef .tc b) _ _ (List.forall_iff_forall_mem.mp (by
    simp only [List.mem_cons, List.mem_nil_iff, or_false] at hb
    rcases hb with rfl | rfl | rfl | rfl <;>
    · simp only [main_part2_ops0, List.Forall, StableHlo.nullary_writes, StableHlo.unary_writes, StableHlo.binary_writes, StableHlo.reshape_writes, Finset.mem_singleton]
      repeat' apply And.intro
      all_goals exact StableHlo.devRef_ne_of_ne (by decide)))

theorem W4_keeps (c : Dev nD) (Fs : Arr0 (F := F) c) (b : Ref sig .tc) (hb : b ∈ ([main_arg0, main_arg1, main_arg2, main_v116] : List (Ref sig .tc))) :
    W4 m c Fs (Proc.devRef .tc b) = W1 m c Fs (Proc.devRef .tc b) := by
  unfold W4 W3 W2
  rw [part2_keeps b hb, part1_keeps b hb, part0_keeps b hb]

/-- The arguments end as launched. -/
theorem W5_arg0 (c : Dev nD) (Fs : Arr0 (F := F) c) (h : Rows m c Fs) : W5 m c Fs (Proc.devRef .tc main_arg0) = m ((c : Thread nD τ).loc main_arg0) :=
  calc W5 m c Fs (Proc.devRef .tc main_arg0)
    _ = (dat1 (Vc m) c).arrAt 0 cfg1.N := W5_arr m c Fs 0
    _ = Vc m c main_arg0 := ((dat1 (Vc m) c).arrAt_in 0 rfl _).trans (A_eq1 (Vc m) c 0)
    _ = W1 m c (Fs₀ m c) (Proc.devRef .tc main_arg0) := W4_keeps m c (Fs₀ m c) main_arg0 (by decide)
    _ = m ((c : Thread nD τ).loc main_arg0) := (W1_arr m c (Fs₀ m c) 0).trans rfl
theorem W5_arg1 (c : Dev nD) (Fs : Arr0 (F := F) c) : W5 m c Fs (Proc.devRef .tc main_arg1) = m ((c : Thread nD τ).loc main_arg1) :=
  calc W5 m c Fs (Proc.devRef .tc main_arg1)
    _ = W4 m c Fs (Proc.devRef .tc main_arg1) := W5_of_ne m c Fs main_arg1 (by decide)
    _ = W1 m c Fs (Proc.devRef .tc main_arg1) := W4_keeps m c Fs main_arg1 (by decide)
    _ = W0 m c (Proc.devRef .tc main_arg1) := W1_of_ne m c Fs main_arg1 (by decide)
    _ = m ((c : Thread nD τ).loc main_arg1) := rfl
theorem W5_arg2 (c : Dev nD) (Fs : Arr0 (F := F) c) : W5 m c Fs (Proc.devRef .tc main_arg2) = m ((c : Thread nD τ).loc main_arg2) :=
  calc W5 m c Fs (Proc.devRef .tc main_arg2)
    _ = W4 m c Fs (Proc.devRef .tc main_arg2) := W5_of_ne m c Fs main_arg2 (by decide)
    _ = W1 m c Fs (Proc.devRef .tc main_arg2) := W4_keeps m c Fs main_arg2 (by decide)
    _ = W0 m c (Proc.devRef .tc main_arg2) := W1_of_ne m c Fs main_arg2 (by decide)
    _ = m ((c : Thread nD τ).loc main_arg2) := rfl

set_option backward.isDefEq.respectTransparency.types false in
/-- THE RUN, at any `F`: from any memory with zero counters, every weakly fair execution of @main terminates, nothing
    faulting, with the result array at what region 1's write-backs leave and each argument array as launched. -/
theorem run_main : θ_run defs (onTc (τ := τ) (main (F := F))) ⟨m, fun _ => 0, ρ⟩ (fun r => ∀ c : Dev nD,
      r.2.mem ((c.tc : Thread nD τ).loc main_v116) = (dat1 (Vc m) c).arrAt 7 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  Pipeline.RDat.θ_run_regions_kit (pcfgs (F := F)) adm (rdats m) () cellOf_inj emb₁ defs₀ 𝒱₀ L lv m ρ main (segs m)
    (fun c Q => by rw [main_run m c])
    (by simp only [segs, Pipeline.RDat.Seg.pipes_host, Pipeline.RDat.Seg.pipes_region, Pipeline.RDat.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tn m)
    (hch := ⟨fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∃ Fs : Arr0 (F := F) c, Rel m c Fs ∧ ∀ b ∈ Pipeline.ucRefs τ sig, s.mem (((c : Thread nD τ)).1, b) = W5 m c Fs b)
    (hfin := fun c s' => by
      unfold Tn StableHlo.held
      iintro ⟨⟨%Fs, %hFs, Hh, -⟩, HSI⟩
      ihave Hr := (pointsTo_read_all (Pipeline.ucRefs τ sig) (fun b => (((c : Thread nD τ)).1, b)) (W5 m c Fs) s') $$ [Hh HSI]
      · isplitl [Hh] <;> iassumption
      icases Hr with ⟨%h, HSI⟩
      imodintro
      isplitr
      · ipureintro; exact ⟨Fs, hFs, h⟩
      · iexact HSI)
    (hQ := fun s h c => by
      obtain ⟨Fs, hFs, hb⟩ := h c
      exact ⟨(hb _ (mem_uc main_v116 (by decide))).trans (W5_arr m c Fs 7),
        (hb _ (mem_uc main_arg0 (by decide))).trans (W5_arg0 m c Fs (rows_of_rel m c Fs hFs)),
        (hb _ (mem_uc main_arg1 (by decide))).trans (W5_arg1 m c Fs),
        (hb _ (mem_uc main_arg2 (by decide))).trans (W5_arg2 m c Fs)⟩)

/-- The frame: the arguments end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => (h c).2) (run_main m ρ)

end Cert.KernelIdeal.Hand

end
-- ==== Proof.Spec.lean ====
/-
  The mathematics of the certificate, with no program in sight.

  The input `x : [32, 128, 128, 128]` carries 64 complex channels: channel `c`'s real part is `x[b, c, h, w]`, its
  imaginary part `x[b, c + 64, h, w]`. Per channel the 2×2 covariance of (real, imaginary) over the batch, rows and
  lanes (n = 32·128·128 = 2^19 samples, unbiased: divided by d = n − 1), plus ε on the diagonal, is square-rooted by
  the closed 2×2 form, inverted by the closed 2×2 form and multiplied by the channel's `gamma`: four coefficients
  `a00 a01 a10 a11` (`chain`). The output is the affine map of the centred sample plus `beta`.

  Two arrangements of that one function are stated: `Kout`, with the covariance from RAW moments
  (Σxy − Σx·Σy/n)/d and the centring folded into a bias, a·x + (β − a·m); and `Rout`, with the covariance of the
  centred samples Σ(x−m)(y−m)/d and the affine map applied to the centred sample, a·(x − m) + β. On real (finite)
  inputs they agree.
-/
import Idealize.ShloMosaic.PureOps.Ideal
import Idealize.ShloMosaic.Lib.ValueIdx

noncomputable section

namespace Cert.BN

open Idealize.ShloMosaic Idealize.ShloMosaic.ValueIdx

abbrev SX : Shape := ⟨4, ![32, 128, 128, 128]⟩
abbrev SG : Shape := ⟨3, ![64, 2, 2]⟩
abbrev SB : Shape := ⟨3, ![64, 2, 1]⟩

/-- The f32 words of the four literals both programs share: n = 524288, d = 524287, ε = 1e-5 (rounded), 2. -/
def nW : EReal := Ideal.ofBits .f32 0x49000000#32
def dW : EReal := Ideal.ofBits .f32 0x48FFFFE0#32
def epsW : EReal := Ideal.ofBits .f32 0x3727C5AC#32
def twoW : EReal := Ideal.ofBits .f32 0x40000000#32

/-- Channel `c`'s real part at batch `b`, row `h`, lane `w`. -/
def xr (x : SX.Idx → EReal) (c : Fin 64) (b : Fin 32) (h w : Fin 128) : EReal :=
  x (ix4 b (⟨c.val, by omega⟩ : Fin 128) h w)
/-- Channel `c`'s imaginary part: channel `c + 64` of the array. -/
def xi (x : SX.Idx → EReal) (c : Fin 64) (b : Fin 32) (h w : Fin 128) : EReal :=
  x (ix4 b (⟨c.val + 64, by omega⟩ : Fin 128) h w)

/-- The sum over a channel's batch, rows and lanes. -/
def tot (f : Fin 32 → Fin 128 → Fin 128 → EReal) : EReal := ∑ b : Fin 32, ∑ h : Fin 128, ∑ w : Fin 128, f b h w

/-- The four coefficients of a channel's affine map. -/
structure Coef where
  a00 : EReal
  a01 : EReal
  a10 : EReal
  a11 : EReal

/-- From the covariance entries and gamma's entries to the coefficients: M = cov + εI, √M by the closed form
    (M + √(det M)·[[1,1],[1,1]]) / √(tr M + 2 det M), its inverse by the adjugate over the determinant, then gamma · that. -/
def chain (cRR cII cRI g00 g01 g10 g11 : EReal) : Coef :=
  let m00 := cRR + epsW
  let m11 := cII + epsW
  let tau := m00 + m11
  let delta := m00 * m11 - cRI * cRI
  let s := Ideal.sqrt delta
  let t := Ideal.sqrt (tau + twoW * delta)
  let q00 := Ideal.div (m00 + s) t
  let q01 := Ideal.div (cRI + s) t
  let q11 := Ideal.div (m11 + s) t
  let det := q00 * q11 - q01 * q01
  let i00 := Ideal.div q11 det
  let i01 := Ideal.div (-q01) det
  let i11 := Ideal.div q00 det
  ⟨g00 * i00 + g01 * i01, g00 * i01 + g01 * i11, g10 * i00 + g11 * i01, g10 * i01 + g11 * i11⟩

/-- A sum divided by n. -/
def mean (S : EReal) : EReal := Ideal.div S nW

/-- Covariance from raw moments: (Σxy − Σx·Σy / n) / d. -/
def covK (Sxy Sx Sy : EReal) : EReal := Ideal.div (Sxy - Ideal.div (Sx * Sy) nW) dW

/-- Covariance of the centred samples: Σ (x − mx)(y − my) / d. -/
def covR (f g : Fin 32 → Fin 128 → Fin 128 → EReal) (mf mg : EReal) : EReal :=
  Ideal.div (tot fun b h w => (f b h w - mf) * (g b h w - mg)) dW

/-- Channel `c`'s coefficients, covariance from raw moments. -/
def coefK (x : SX.Idx → EReal) (γ : SG.Idx → EReal) (c : Fin 64) : Coef :=
  chain (covK (tot fun b h w => xr x c b h w * xr x c b h w) (tot (xr x c)) (tot (xr x c)))
        (covK (tot fun b h w => xi x c b h w * xi x c b h w) (tot (xi x c)) (tot (xi x c)))
        (covK (tot fun b h w => xr x c b h w * xi x c b h w) (tot (xr x c)) (tot (xi x c)))
        (γ (ix3 c (0 : Fin 2) (0 : Fin 2))) (γ (ix3 c (0 : Fin 2) (1 : Fin 2))) (γ (ix3 c (1 : Fin 2) (0 : Fin 2))) (γ (ix3 c (1 : Fin 2) (1 : Fin 2)))

/-- Channel `c`'s coefficients, covariance of the centred samples. -/
def coefR (x : SX.Idx → EReal) (γ : SG.Idx → EReal) (c : Fin 64) : Coef :=
  chain (covR (xr x c) (xr x c) (mean (tot (xr x c))) (mean (tot (xr x c))))
        (covR (xi x c) (xi x c) (mean (tot (xi x c))) (mean (tot (xi x c))))
        (covR (xr x c) (xi x c) (mean (tot (xr x c))) (mean (tot (xi x c))))
        (γ (ix3 c (0 : Fin 2) (0 : Fin 2))) (γ (ix3 c (0 : Fin 2) (1 : Fin 2))) (γ (ix3 c (1 : Fin 2) (0 : Fin 2))) (γ (ix3 c (1 : Fin 2) (1 : Fin 2)))

/-- The output at (b, ch, h, w), bias form: for ch = c < 64 the real row of the map, for ch = c + 64 the imaginary row. -/
def KoutAt (x : SX.Idx → EReal) (γ : SG.Idx → EReal) (β : SB.Idx → EReal) (b : Fin 32) (ch : Fin 128) (h w : Fin 128) : EReal :=
  let c : Fin 64 := ⟨ch.val % 64, Nat.mod_lt _ (by decide)⟩
  let A := coefK x γ c
  let mr := mean (tot (xr x c))
  let mi := mean (tot (xi x c))
  if ch.val < 64 then
    (A.a00 * xr x c b h w + A.a01 * xi x c b h w) + ((β (ix3 c (0 : Fin 2) (0 : Fin 1)) - A.a00 * mr) - A.a01 * mi)
  else
    (A.a10 * xr x c b h w + A.a11 * xi x c b h w) + ((β (ix3 c (1 : Fin 2) (0 : Fin 1)) - A.a10 * mr) - A.a11 * mi)

/-- The output at (b, ch, h, w), centred form. -/
def RoutAt (x : SX.Idx → EReal) (γ : SG.Idx → EReal) (β : SB.Idx → EReal) (b : Fin 32) (ch : Fin 128) (h w : Fin 128) : EReal :=
  let c : Fin 64 := ⟨ch.val % 64, Nat.mod_lt _ (by decide)⟩
  let A := coefR x γ c
  let mr := mean (tot (xr x c))
  let mi := mean (tot (xi x c))
  if ch.val < 64 then
    (A.a00 * (xr x c b h w - mr) + A.a01 * (xi x c b h w - mi)) + β (ix3 c (0 : Fin 2) (0 : Fin 1))
  else
    (A.a10 * (xr x c b h w - mr) + A.a11 * (xi x c b h w - mi)) + β (ix3 c (1 : Fin 2) (0 : Fin 1))

def Kout (x : SX.Idx → EReal) (γ : SG.Idx → EReal) (β : SB.Idx → EReal) : SX.Idx → EReal :=
  fun i => KoutAt x γ β (i 0) (i 1) (i 2) (i 3)

def Rout (x : SX.Idx → EReal) (γ : SG.Idx → EReal) (β : SB.Idx → EReal) : SX.Idx → EReal :=
  fun i => RoutAt x γ β (i 0) (i 1) (i 2) (i 3)

end Cert.BN

end
-- ==== Proof.KI.HostDefs.lean ====
/-
  The host stretch between the two kernel calls, as a function of the buffers' contents when it starts.

  `hostAfter V` is what every buffer holds once the stretch's operations have run, in order, from contents `V`.
  `Ssum V k ch` is channel `ch`'s k-th raw moment: the statistics array number k holds one partial sum per half of
  the batch, in rows 0 and 8, and the moment is their sum (k = 0 … 4: Σ re, Σ re², Σ im, Σ im², Σ re·im).
  `coefH V ch` is the channel's four coefficients: the closed 2×2 chain applied to the covariances from those raw
  moments and to gamma's entries.
-/
import proofs.«141001_j43499428774583_2_alg».proof.Proof.Gen.KernelIdeal.Launch
import proofs.«141001_j43499428774583_2_alg».proof.Proof.Spec
import Idealize.ShloMosaic.Lib.StableHlo.Run

noncomputable section

namespace Cert.KernelIdeal.Hand

open Idealize.ShloMosaic Idealize.ShloMosaic.ValueIdx Cert.KernelIdeal Cert.KernelIdeal.Gen

/-- The buffers' contents after the whole host stretch, from contents `V`. -/
def hostAfter (V : Valuation τ sig (Elt Ideal)) : Valuation τ sig (Elt Ideal) :=
  StableHlo.after (main_part2_ops0 (F := Ideal))
    (StableHlo.after (main_part1_ops0 (F := Ideal)) (StableHlo.after (main_part0_ops0 (F := Ideal)) V))

/-- Statistics array number k, as the stretch finds it. -/
abbrev stat0 (V : Valuation τ sig (Elt Ideal)) : S16x64.Idx → EReal := V (Proc.devRef .tc main_v0_0)
abbrev stat1 (V : Valuation τ sig (Elt Ideal)) : S16x64.Idx → EReal := V (Proc.devRef .tc main_v0_1)
abbrev stat2 (V : Valuation τ sig (Elt Ideal)) : S16x64.Idx → EReal := V (Proc.devRef .tc main_v0_2)
abbrev stat3 (V : Valuation τ sig (Elt Ideal)) : S16x64.Idx → EReal := V (Proc.devRef .tc main_v0_3)
abbrev stat4 (V : Valuation τ sig (Elt Ideal)) : S16x64.Idx → EReal := V (Proc.devRef .tc main_v0_4)

/-- Channel `ch`'s k-th raw moment: the two halves' partial sums, rows 0 and 8 of statistics array k, added. -/
def Ssum (V : Valuation τ sig (Elt Ideal)) : Fin 5 → Fin 64 → EReal
  | 0, ch => stat0 V (ix2 (0 : Fin 16) ch) + stat0 V (ix2 (8 : Fin 16) ch)
  | 1, ch => stat1 V (ix2 (0 : Fin 16) ch) + stat1 V (ix2 (8 : Fin 16) ch)
  | 2, ch => stat2 V (ix2 (0 : Fin 16) ch) + stat2 V (ix2 (8 : Fin 16) ch)
  | 3, ch => stat3 V (ix2 (0 : Fin 16) ch) + stat3 V (ix2 (8 : Fin 16) ch)
  | 4, ch => stat4 V (ix2 (0 : Fin 16) ch) + stat4 V (ix2 (8 : Fin 16) ch)
  | ⟨_ + 5, h⟩, _ => absurd h (Nat.not_lt.2 (Nat.le_add_left _ _))

/-- gamma, as the stretch finds it. -/
abbrev gammaOf (V : Valuation τ sig (Elt Ideal)) : Cert.BN.SG.Idx → EReal := V (Proc.devRef .tc main_arg1)
/-- beta, as the stretch finds it. -/
abbrev betaOf (V : Valuation τ sig (Elt Ideal)) : Cert.BN.SB.Idx → EReal := V (Proc.devRef .tc main_arg2)

/-- Channel `ch`'s coefficients from the raw moments and gamma. -/
def coefH (V : Valuation τ sig (Elt Ideal)) (ch : Fin 64) : Cert.BN.Coef :=
  Cert.BN.chain (Cert.BN.covK (Ssum V 1 ch) (Ssum V 0 ch) (Ssum V 0 ch))
                (Cert.BN.covK (Ssum V 3 ch) (Ssum V 2 ch) (Ssum V 2 ch))
                (Cert.BN.covK (Ssum V 4 ch) (Ssum V 0 ch) (Ssum V 2 ch))
                (gammaOf V (ix3 ch (0 : Fin 2) (0 : Fin 2))) (gammaOf V (ix3 ch (0 : Fin 2) (1 : Fin 2)))
                (gammaOf V (ix3 ch (1 : Fin 2) (0 : Fin 2))) (gammaOf V (ix3 ch (1 : Fin 2) (1 : Fin 2)))

/-- The channel of an index of a [1, 64, 1, 1] array. -/
abbrev chOf (i : S1x64x1x1.Idx) : Fin 64 := ⟨(i 1).val, (i 1).isLt⟩

end Cert.KernelIdeal.Hand

end
-- ==== Proof.OutSpec.lean ====
/-
  The affine pass as a function of whole arrays: the output at (b, ch, h, w) is, for ch = c < 64, the real row
  a00[c]·x_re + a01[c]·x_im + b0[c] of channel c's map, and for ch = c + 64 the imaginary row
  a10[c]·x_re + a11[c]·x_im + b1[c]; each coefficient array is [1, 64, 1, 1], read at (0, c, 0, 0).
-/
import proofs.«141001_j43499428774583_2_alg».proof.Proof.Spec

noncomputable section

namespace Cert.BN

open Idealize.ShloMosaic Idealize.ShloMosaic.ValueIdx

abbrev SC : Shape := ⟨4, ![1, 64, 1, 1]⟩

def affAt (x : SX.Idx → EReal) (a00 a01 a10 a11 b0 b1 : SC.Idx → EReal) (b : Fin 32) (ch : Fin 128) (h w : Fin 128) : EReal :=
  let c : Fin 64 := ⟨ch.val % 64, Nat.mod_lt _ (by decide)⟩
  let z : SC.Idx := ix4 (0 : Fin 1) c (0 : Fin 1) (0 : Fin 1)
  if ch.val < 64 then (a00 z * xr x c b h w + a01 z * xi x c b h w) + b0 z
  else (a10 z * xr x c b h w + a11 z * xi x c b h w) + b1 z

def aff (x : SX.Idx → EReal) (a00 a01 a10 a11 b0 b1 : SC.Idx → EReal) : SX.Idx → EReal :=
  fun i => affAt x a00 a01 a10 a11 b0 b1 (i 0) (i 1) (i 2) (i 3)

end Cert.BN

end
-- ==== Proof.AffSpec.lean ====
/-
  The affine pass, fed the coefficients computed from the five per-channel sums, is the bias arrangement `Kout`:
  the coefficient arrays are read at (0, c, 0, 0), whose channel coordinate is c, and the five sums are the raw
  moments the covariance from raw moments takes.
-/
import proofs.«141001_j43499428774583_2_alg».proof.Proof.Spec
import proofs.«141001_j43499428774583_2_alg».proof.Proof.OutSpec

noncomputable section

namespace Cert.BN

open Idealize.ShloMosaic Idealize.ShloMosaic.ValueIdx

/-- The channel coordinate of a coefficient index. -/
abbrev chOf (i : SC.Idx) : Fin 64 := ⟨(i 1).val, (i 1).isLt⟩

/-- The coefficient index (0, c, 0, 0) has channel coordinate c. -/
theorem chOf_ix4 (c : Fin 64) : chOf (ix4 (0 : Fin 1) c (0 : Fin 1) (0 : Fin 1)) = c := rfl

/-- Channel `ch`'s coefficients from the five sums Σx_re, Σx_re², Σx_im, Σx_im², Σx_re·x_im. -/
def cfOf (S : Fin 5 → Fin 64 → EReal) (γ : SG.Idx → EReal) (ch : Fin 64) : Coef :=
  chain (covK (S 1 ch) (S 0 ch) (S 0 ch)) (covK (S 3 ch) (S 2 ch) (S 2 ch)) (covK (S 4 ch) (S 0 ch) (S 2 ch))
    (γ (ix3 ch (0 : Fin 2) (0 : Fin 2))) (γ (ix3 ch (0 : Fin 2) (1 : Fin 2))) (γ (ix3 ch (1 : Fin 2) (0 : Fin 2)))
    (γ (ix3 ch (1 : Fin 2) (1 : Fin 2)))

/-- Where the five sums are the raw moments, the coefficients are those of the raw-moment arrangement. -/
theorem cfOf_eq_coefK (x : SX.Idx → EReal) (γ : SG.Idx → EReal) (S : Fin 5 → Fin 64 → EReal)
    (h0 : ∀ j, S 0 j = tot (xr x j)) (h1 : ∀ j, S 1 j = tot (fun b h w => xr x j b h w * xr x j b h w))
    (h2 : ∀ j, S 2 j = tot (xi x j)) (h3 : ∀ j, S 3 j = tot (fun b h w => xi x j b h w * xi x j b h w))
    (h4 : ∀ j, S 4 j = tot (fun b h w => xr x j b h w * xi x j b h w)) (c : Fin 64) :
    cfOf S γ c = coefK x γ c := by
  unfold cfOf coefK
  rw [h0, h1, h2, h3, h4]

theorem aff_cfOf_eq_Kout (x : SX.Idx → EReal) (γ : SG.Idx → EReal) (β : SB.Idx → EReal)
    (S : Fin 5 → Fin 64 → EReal)
    (h0 : ∀ j, S 0 j = tot (xr x j)) (h1 : ∀ j, S 1 j = tot (fun b h w => xr x j b h w * xr x j b h w))
    (h2 : ∀ j, S 2 j = tot (xi x j)) (h3 : ∀ j, S 3 j = tot (fun b h w => xi x j b h w * xi x j b h w))
    (h4 : ∀ j, S 4 j = tot (fun b h w => xr x j b h w * xi x j b h w)) :
    aff x (fun i => (cfOf S γ (chOf i)).a00) (fun i => (cfOf S γ (chOf i)).a01) (fun i => (cfOf S γ (chOf i)).a10)
          (fun i => (cfOf S γ (chOf i)).a11)
          (fun i => (β (ix3 (chOf i) (0 : Fin 2) (0 : Fin 1)) - (cfOf S γ (chOf i)).a00 * mean (S 0 (chOf i)))
            - (cfOf S γ (chOf i)).a01 * mean (S 2 (chOf i)))
          (fun i => (β (ix3 (chOf i) (1 : Fin 2) (0 : Fin 1)) - (cfOf S γ (chOf i)).a10 * mean (S 0 (chOf i)))
            - (cfOf S γ (chOf i)).a11 * mean (S 2 (chOf i)))
      = Kout x γ β := by
  funext i
  show affAt x _ _ _ _ _ _ (i 0) (i 1) (i 2) (i 3) = KoutAt x γ β (i 0) (i 1) (i 2) (i 3)
  unfold affAt KoutAt
  dsimp only
  rw [chOf_ix4, cfOf_eq_coefK x γ S h0 h1 h2 h3 h4, h0, h2]

/-- The same, with the coefficients written out. -/
theorem aff_coef_eq_Kout (x : SX.Idx → EReal) (γ : SG.Idx → EReal) (β : SB.Idx → EReal)
    (S : Fin 5 → Fin 64 → EReal)
    (h0 : ∀ j, S 0 j = tot (xr x j)) (h1 : ∀ j, S 1 j = tot (fun b h w => xr x j b h w * xr x j b h w))
    (h2 : ∀ j, S 2 j = tot (xi x j)) (h3 : ∀ j, S 3 j = tot (fun b h w => xi x j b h w * xi x j b h w))
    (h4 : ∀ j, S 4 j = tot (fun b h w => xr x j b h w * xi x j b h w)) :
    let cf : Fin 64 → Coef := fun ch => chain (covK (S 1 ch) (S 0 ch) (S 0 ch)) (covK (S 3 ch) (S 2 ch) (S 2 ch))
      (covK (S 4 ch) (S 0 ch) (S 2 ch)) (γ (ix3 ch (0 : Fin 2) (0 : Fin 2))) (γ (ix3 ch (0 : Fin 2) (1 : Fin 2)))
      (γ (ix3 ch (1 : Fin 2) (0 : Fin 2))) (γ (ix3 ch (1 : Fin 2) (1 : Fin 2)))
    aff x (fun i => (cf (chOf i)).a00) (fun i => (cf (chOf i)).a01) (fun i => (cf (chOf i)).a10)
          (fun i => (cf (chOf i)).a11)
          (fun i => (β (ix3 (chOf i) (0 : Fin 2) (0 : Fin 1)) - (cf (chOf i)).a00 * mean (S 0 (chOf i)))
            - (cf (chOf i)).a01 * mean (S 2 (chOf i)))
          (fun i => (β (ix3 (chOf i) (1 : Fin 2) (0 : Fin 1)) - (cf (chOf i)).a10 * mean (S 0 (chOf i)))
            - (cf (chOf i)).a11 * mean (S 2 (chOf i)))
      = Kout x γ β := by
  intro cf
  exact aff_cfOf_eq_Kout x γ β S h0 h1 h2 h3 h4

end Cert.BN

end
-- ==== Proof.KI.KernelValue.lean ====
/-
  The kernel program's output, as a value: the affine region's output array, entered with what the host stretch
  computes from the canonical statistics arrays, is the bias arrangement `Kout` of the launched input, gamma and beta.

  The host stretch leaves the input, gamma and beta as launched; its six coefficient arrays are the closed chain of the
  raw moments (rows 0 and 8 of each statistics array added: the two halves' lane sums, hence the sums over the whole
  batch) and the biases built from them; so the affine pass over them is `Kout`.
-/
import proofs.«141001_j43499428774583_2_alg».proof.Proof.KI.Run2
import proofs.«141001_j43499428774583_2_alg».proof.Proof.KI.HostDefs
import proofs.«141001_j43499428774583_2_alg».proof.Proof.AffSpec

set_option maxRecDepth 16384

noncomputable section

namespace Cert.KernelIdeal.Hand

open Idealize.ShloMosaic Idealize.ShloMosaic.TcCoe
open Idealize.ShloMosaic.Pipeline (Dat RDat Cfg Window BodyObligation cellOf)
open Idealize.ShloMosaic.ValueIdx
open Cert.KernelIdeal Cert.KernelIdeal.Gen

/-! ## The raw moments from the canonical statistics arrays

Statistics array k, as the host stretch finds it after the statistics region left the canonical contents, holds in
rows 0 and 8 the two halves' lane sums; the k-th raw moment is their sum. -/

theorem Ssum_canon0 (m : (ℓ : Loc nD τ sig) → Buf (Elt Ideal) ℓ) (c : Dev nD) (j : Fin 64) :
    Ssum (W1 m c (Fs₀ m c)) 0 j
      = pay (F := Ideal) c (X0 m c) 0 0 (ix2 (0 : Fin 1) j) + pay (F := Ideal) c (X0 m c) 0 1 (ix2 (0 : Fin 1) j) := by
  show stat0 (W1 m c (Fs₀ m c)) (ix2 (0 : Fin 16) j) + stat0 (W1 m c (Fs₀ m c)) (ix2 (8 : Fin 16) j) = _
  rw [show stat0 (W1 m c (Fs₀ m c)) = canon m c 0 from W1_arr m c (Fs₀ m c) 1]
  have e0 : canon m c 0 (ix2 (0 : Fin 16) j) = pay (F := Ideal) c (X0 m c) 0 0 (ix2 (0 : Fin 1) j) := rowsK_canon m c 0 0 j
  have e8 : canon m c 0 (ix2 (8 : Fin 16) j) = pay (F := Ideal) c (X0 m c) 0 1 (ix2 (0 : Fin 1) j) := rowsK_canon m c 0 1 j
  rw [e0, e8]

theorem Ssum_canon1 (m : (ℓ : Loc nD τ sig) → Buf (Elt Ideal) ℓ) (c : Dev nD) (j : Fin 64) :
    Ssum (W1 m c (Fs₀ m c)) 1 j
      = pay (F := Ideal) c (X0 m c) 1 0 (ix2 (0 : Fin 1) j) + pay (F := Ideal) c (X0 m c) 1 1 (ix2 (0 : Fin 1) j) := by
  show stat1 (W1 m c (Fs₀ m c)) (ix2 (0 : Fin 16) j) + stat1 (W1 m c (Fs₀ m c)) (ix2 (8 : Fin 16) j) = _
  rw [show stat1 (W1 m c (Fs₀ m c)) = canon m c 1 from W1_arr m c (Fs₀ m c) 2]
  have e0 : canon m c 1 (ix2 (0 : Fin 16) j) = pay (F := Ideal) c (X0 m c) 1 0 (ix2 (0 : Fin 1) j) := rowsK_canon m c 1 0 j
  have e8 : canon m c 1 (ix2 (8 : Fin 16) j) = pay (F := Ideal) c (X0 m c) 1 1 (ix2 (0 : Fin 1) j) := rowsK_canon m c 1 1 j
  rw [e0, e8]

theorem Ssum_canon2 (m : (ℓ : Loc nD τ sig) → Buf (Elt Ideal) ℓ) (c : Dev nD) (j : Fin 64) :
    Ssum (W1 m c (Fs₀ m c)) 2 j
      = pay (F := Ideal) c (X0 m c) 2 0 (ix2 (0 : Fin 1) j) + pay (F := Ideal) c (X0 m c) 2 1 (ix2 (0 : Fin 1) j) := by
  show stat2 (W1 m c (Fs₀ m c)) (ix2 (0 : Fin 16) j) + stat2 (W1 m c (Fs₀ m c)) (ix2 (8 : Fin 16) j) = _
  rw [show stat2 (W1 m c (Fs₀ m c)) = canon m c 2 from W1_arr m c (Fs₀ m c) 3]
  have e0 : canon m c 2 (ix2 (0 : Fin 16) j) = pay (F := Ideal) c (X0 m c) 2 0 (ix2 (0 : Fin 1) j) := rowsK_canon m c 2 0 j
  have e8 : canon m c 2 (ix2 (8 : Fin 16) j) = pay (F := Ideal) c (X0 m c) 2 1 (ix2 (0 : Fin 1) j) := rowsK_canon m c 2 1 j
  rw [e0, e8]

theorem Ssum_canon3 (m : (ℓ : Loc nD τ sig) → Buf (Elt Ideal) ℓ) (c : Dev nD) (j : Fin 64) :
    Ssum (W1 m c (Fs₀ m c)) 3 j
      = pay (F := Ideal) c (X0 m c) 3 0 (ix2 (0 : Fin 1) j) + pay (F := Ideal) c (X0 m c) 3 1 (ix2 (0 : Fin 1) j) := by
  show stat3 (W1 m c (Fs₀ m c)) (ix2 (0 : Fin 16) j) + stat3 (W1 m c (Fs₀ m c)) (ix2 (8 : Fin 16) j) = _
  rw [show stat3 (W1 m c (Fs₀ m c)) = canon m c 3 from W1_arr m c (Fs₀ m c) 4]
  have e0 : canon m c 3 (ix2 (0 : Fin 16) j) = pay (F := Ideal) c (X0 m c) 3 0 (ix2 (0 : Fin 1) j) := rowsK_canon m c 3 0 j
  have e8 : canon m c 3 (ix2 (8 : Fin 16) j) = pay (F := Ideal) c (X0 m c) 3 1 (ix2 (0 : Fin 1) j) := rowsK_canon m c 3 1 j
  rw [e0, e8]

theorem Ssum_canon4 (m : (ℓ : Loc nD τ sig) → Buf (Elt Ideal) ℓ) (c : Dev nD) (j : Fin 64) :
    Ssum (W1 m c (Fs₀ m c)) 4 j
      = pay (F := Ideal) c (X0 m c) 4 0 (ix2 (0 : Fin 1) j) + pay (F := Ideal) c (X0 m c) 4 1 (ix2 (0 : Fin 1) j) := by
  show stat4 (W1 m c (Fs₀ m c)) (ix2 (0 : Fin 16) j) + stat4 (W1 m c (Fs₀ m c)) (ix2 (8 : Fin 16) j) = _
  rw [show stat4 (W1 m c (Fs₀ m c)) = canon m c 4 from W1_arr m c (Fs₀ m c) 5]
  have e0 : canon m c 4 (ix2 (0 : Fin 16) j) = pay (F := Ideal) c (X0 m c) 4 0 (ix2 (0 : Fin 1) j) := rowsK_canon m c 4 0 j
  have e8 : canon m c 4 (ix2 (8 : Fin 16) j) = pay (F := Ideal) c (X0 m c) 4 1 (ix2 (0 : Fin 1) j) := rowsK_canon m c 4 1 j
  rw [e0, e8]

/-! ## The value -/

theorem kernel_value (m : (ℓ : Loc nD τ sig) → Buf (Elt Ideal) ℓ) (c : Dev nD)
    (hout : ∀ (V : (c : Dev nD) → (b : Ref sig .tc) → Buf (Elt Ideal) ((c : Thread nD τ).loc b)) (c : Dev nD),
        (dat1 (F := Ideal) V c).arrAt 7 cfg1.N = Cert.BN.aff (V c main_arg0) (V c main_v110) (V c main_v111)
          (V c main_v112) (V c main_v113) (V c main_v114) (V c main_v115))
    (h110 : ∀ V : Valuation τ sig (Elt Ideal), hostAfter V (Proc.devRef .tc main_v110) = fun i => (coefH V (chOf i)).a00)
    (h111 : ∀ V : Valuation τ sig (Elt Ideal), hostAfter V (Proc.devRef .tc main_v111) = fun i => (coefH V (chOf i)).a01)
    (h112 : ∀ V : Valuation τ sig (Elt Ideal), hostAfter V (Proc.devRef .tc main_v112) = fun i => (coefH V (chOf i)).a10)
    (h113 : ∀ V : Valuation τ sig (Elt Ideal), hostAfter V (Proc.devRef .tc main_v113) = fun i => (coefH V (chOf i)).a11)
    (h114 : ∀ V : Valuation τ sig (Elt Ideal), hostAfter V (Proc.devRef .tc main_v114) = fun i =>
      (betaOf V (ix3 (chOf i) (0 : Fin 2) (0 : Fin 1)) - (coefH V (chOf i)).a00 * Cert.BN.mean (Ssum V 0 (chOf i)))
        - (coefH V (chOf i)).a01 * Cert.BN.mean (Ssum V 2 (chOf i)))
    (h115 : ∀ V : Valuation τ sig (Elt Ideal), hostAfter V (Proc.devRef .tc main_v115) = fun i =>
      (betaOf V (ix3 (chOf i) (1 : Fin 2) (0 : Fin 1)) - (coefH V (chOf i)).a10 * Cert.BN.mean (Ssum V 0 (chOf i)))
        - (coefH V (chOf i)).a11 * Cert.BN.mean (Ssum V 2 (chOf i)))
    (hkeep : ∀ (V : Valuation τ sig (Elt Ideal)) (b : Ref sig .tc),
      b ∈ ([main_arg0, main_arg1, main_arg2, main_v116, main_v0_0, main_v0_1, main_v0_2, main_v0_3, main_v0_4] : List (Ref sig .tc)) →
      hostAfter V (Proc.devRef .tc b) = V (Proc.devRef .tc b))
    (hp0 : ∀ (c : Dev nD) (X : Buf (Elt Ideal) ((cfg0.win 0).arr.view.loc (c.tc : Thread nD τ))) (j : Fin 64),
      pay (F := Ideal) c X 0 0 (ix2 (0 : Fin 1) j) + pay (F := Ideal) c X 0 1 (ix2 (0 : Fin 1) j) = Cert.BN.tot (Cert.BN.xr X j))
    (hp1 : ∀ (c : Dev nD) (X : Buf (Elt Ideal) ((cfg0.win 0).arr.view.loc (c.tc : Thread nD τ))) (j : Fin 64),
      pay (F := Ideal) c X 1 0 (ix2 (0 : Fin 1) j) + pay (F := Ideal) c X 1 1 (ix2 (0 : Fin 1) j) = Cert.BN.tot (fun b h w => Cert.BN.xr X j b h w * Cert.BN.xr X j b h w))
    (hp2 : ∀ (c : Dev nD) (X : Buf (Elt Ideal) ((cfg0.win 0).arr.view.loc (c.tc : Thread nD τ))) (j : Fin 64),
      pay (F := Ideal) c X 2 0 (ix2 (0 : Fin 1) j) + pay (F := Ideal) c X 2 1 (ix2 (0 : Fin 1) j) = Cert.BN.tot (Cert.BN.xi X j))
    (hp3 : ∀ (c : Dev nD) (X : Buf (Elt Ideal) ((cfg0.win 0).arr.view.loc (c.tc : Thread nD τ))) (j : Fin 64),
      pay (F := Ideal) c X 3 0 (ix2 (0 : Fin 1) j) + pay (F := Ideal) c X 3 1 (ix2 (0 : Fin 1) j) = Cert.BN.tot (fun b h w => Cert.BN.xi X j b h w * Cert.BN.xi X j b h w))
    (hp4 : ∀ (c : Dev nD) (X : Buf (Elt Ideal) ((cfg0.win 0).arr.view.loc (c.tc : Thread nD τ))) (j : Fin 64),
      pay (F := Ideal) c X 4 0 (ix2 (0 : Fin 1) j) + pay (F := Ideal) c X 4 1 (ix2 (0 : Fin 1) j) = Cert.BN.tot (fun b h w => Cert.BN.xr X j b h w * Cert.BN.xi X j b h w)) :
    (dat1 (F := Ideal) (Vc m) c).arrAt 7 cfg1.N
      = Cert.BN.Kout (m ((c.tc : Thread nD τ).loc main_arg0)) (m ((c.tc : Thread nD τ).loc main_arg1))
          (m ((c.tc : Thread nD τ).loc main_arg2)) := by
  rw [hout (Vc m) c]
  -- what the affine region is entered with is what the host stretch leaves from the canonical statistics arrays
  have hV : ∀ b : Ref sig .tc, Vc m c b = hostAfter (W1 m c (Fs₀ m c)) (Proc.devRef .tc b) := fun b => rfl
  -- the input, gamma and beta are as launched
  have hx : Vc m c main_arg0 = X0 m c := by
    rw [hV, hkeep _ main_arg0 (by decide)]
    exact W1_arr m c (Fs₀ m c) 0
  have hγ : gammaOf (W1 m c (Fs₀ m c)) = m ((c.tc : Thread nD τ).loc main_arg1) :=
    W1_of_ne m c (Fs₀ m c) main_arg1 (by decide)
  have hβ : betaOf (W1 m c (Fs₀ m c)) = m ((c.tc : Thread nD τ).loc main_arg2) :=
    W1_of_ne m c (Fs₀ m c) main_arg2 (by decide)
  rw [hx, hV main_v110, h110, hV main_v111, h111, hV main_v112, h112, hV main_v113, h113, hV main_v114, h114,
    hV main_v115, h115, ← hγ, ← hβ]
  exact Cert.BN.aff_cfOf_eq_Kout (X0 m c) (gammaOf (W1 m c (Fs₀ m c))) (betaOf (W1 m c (Fs₀ m c)))
    (Ssum (W1 m c (Fs₀ m c)))
    (fun j => (Ssum_canon0 m c j).trans (hp0 c (X0 m c) j)) (fun j => (Ssum_canon1 m c j).trans (hp1 c (X0 m c) j))
    (fun j => (Ssum_canon2 m c j).trans (hp2 c (X0 m c) j)) (fun j => (Ssum_canon3 m c j).trans (hp3 c (X0 m c) j))
    (fun j => (Ssum_canon4 m c j).trans (hp4 c (X0 m c) j))

end Cert.KernelIdeal.Hand

end
-- ==== Proof.KI.HostLayout.lean ====
/-
  Layout reads the host stretch needs, at an index written by its coordinates.

  * a row of a [16, 64] array taken as a [1, 64] slice and viewed as a vector of 64 reads, at `ch`, the array at (row, ch);
  * an entry (a, b) of every 2×2 (or 2×1) block of a [64, n2, n3] array taken as a [64, 1, 1] slice and viewed as a
    vector of 64 reads, at `ch`, the array at (ch, a, b);
  * a vector of 64 viewed [1, 64, 1, 1] reads, at `i`, the vector at `i`'s second coordinate.
  A cast keeps the row-major position of an element, and a unit axis contributes nothing to that position.
  Also: the host's pointwise division, square root and negation, and a repeated scalar, read at an index.
-/
import Idealize.ShloMosaic.PureOps.Ideal
import Idealize.ShloMosaic.Lib.Pipeline.Value
import Idealize.ShloMosaic.Lib.ValueIdx

noncomputable section

namespace Cert.HostLayout

open Idealize.ShloMosaic Idealize.ShloMosaic.ValueIdx

variable {α : Type}

/-- Row `r` of a [16, 64] array as a vector of 64. -/
theorem row_read (r : ℕ) (hr : r < 16) (x : (⟨2, ![16, 64]⟩ : Shape).Idx → α)
    (h : (⟨2, ![16, 64]⟩ : Shape).Slices ![r, 0] ⟨2, ![1, 64]⟩)
    (h' : (⟨2, ![1, 64]⟩ : Shape).ShapeCasts ⟨1, ![64]⟩) (ch : Fin 64) :
    shapeCast ⟨1, ![64]⟩ (extractStridedSlice ⟨2, ![1, 64]⟩ ![r, 0] x h) h' (ix1 ch) = x (ix2 (⟨r, hr⟩ : Fin 16) ch) :=
  (shapeCast_apply _ h' (ix1 ch) (ix2 (0 : Fin 1) ch) (by
      rw [Shape.rowMajor_val_two, Shape.rowMajor_val_one]
      show (0 : ℕ) * 64 + ch.val = ch.val
      rw [Nat.zero_mul, Nat.zero_add])).trans
  (extractStridedSlice_apply ![r, 0] x h (ix2 (0 : Fin 1) ch) (ix2 (⟨r, hr⟩ : Fin 16) ch) (fun a => by
    match a with
    | ⟨0, _⟩ => exact (Nat.add_zero _).symm
    | ⟨1, _⟩ => exact (Nat.zero_add _).symm))

/-- Row 0. -/
theorem row0_read (x : (⟨2, ![16, 64]⟩ : Shape).Idx → α)
    (h : (⟨2, ![16, 64]⟩ : Shape).Slices ![0, 0] ⟨2, ![1, 64]⟩)
    (h' : (⟨2, ![1, 64]⟩ : Shape).ShapeCasts ⟨1, ![64]⟩) (ch : Fin 64) :
    shapeCast ⟨1, ![64]⟩ (extractStridedSlice ⟨2, ![1, 64]⟩ ![0, 0] x h) h' (ix1 ch) = x (ix2 (0 : Fin 16) ch) :=
  row_read 0 (by omega) x h h' ch

/-- Row 8. -/
theorem row8_read (x : (⟨2, ![16, 64]⟩ : Shape).Idx → α)
    (h : (⟨2, ![16, 64]⟩ : Shape).Slices ![8, 0] ⟨2, ![1, 64]⟩)
    (h' : (⟨2, ![1, 64]⟩ : Shape).ShapeCasts ⟨1, ![64]⟩) (ch : Fin 64) :
    shapeCast ⟨1, ![64]⟩ (extractStridedSlice ⟨2, ![1, 64]⟩ ![8, 0] x h) h' (ix1 ch) = x (ix2 (8 : Fin 16) ch) :=
  row_read 8 (by omega) x h h' ch

/-- Entry (a, b) of every trailing block of a [64, n2, n3] array, as a vector of 64. -/
theorem entry_read {n2 n3 : ℕ} (a b : ℕ) (ha : a < n2) (hb : b < n3) (x : (⟨3, ![64, n2, n3]⟩ : Shape).Idx → α)
    (h : (⟨3, ![64, n2, n3]⟩ : Shape).Slices ![0, a, b] ⟨3, ![64, 1, 1]⟩)
    (h' : (⟨3, ![64, 1, 1]⟩ : Shape).ShapeCasts ⟨1, ![64]⟩) (ch : Fin 64) :
    shapeCast ⟨1, ![64]⟩ (extractStridedSlice ⟨3, ![64, 1, 1]⟩ ![0, a, b] x h) h' (ix1 ch)
      = x (ix3 ch (⟨a, ha⟩ : Fin n2) (⟨b, hb⟩ : Fin n3)) :=
  (shapeCast_apply _ h' (ix1 ch) (ix3 ch (0 : Fin 1) (0 : Fin 1)) (by
      rw [Shape.rowMajor_val_three, Shape.rowMajor_val_one]
      show (ch.val * 1 + 0) * 1 + 0 = ch.val
      rw [Nat.add_zero, Nat.mul_one, Nat.add_zero, Nat.mul_one])).trans
  (extractStridedSlice_apply ![0, a, b] x h (ix3 ch (0 : Fin 1) (0 : Fin 1)) (ix3 ch (⟨a, ha⟩ : Fin n2) (⟨b, hb⟩ : Fin n3)) (fun d => by
    match d with
    | ⟨0, _⟩ => exact (Nat.zero_add _).symm
    | ⟨1, _⟩ => exact (Nat.add_zero _).symm
    | ⟨2, _⟩ => exact (Nat.add_zero _).symm))

/-! Gamma's four entries and beta's two. -/

theorem entry22_00_read (x : (⟨3, ![64, 2, 2]⟩ : Shape).Idx → α)
    (h : (⟨3, ![64, 2, 2]⟩ : Shape).Slices ![0, 0, 0] ⟨3, ![64, 1, 1]⟩)
    (h' : (⟨3, ![64, 1, 1]⟩ : Shape).ShapeCasts ⟨1, ![64]⟩) (ch : Fin 64) :
    shapeCast ⟨1, ![64]⟩ (extractStridedSlice ⟨3, ![64, 1, 1]⟩ ![0, 0, 0] x h) h' (ix1 ch)
      = x (ix3 ch (0 : Fin 2) (0 : Fin 2)) :=
  entry_read 0 0 (by omega) (by omega) x h h' ch

theorem entry22_01_read (x : (⟨3, ![64, 2, 2]⟩ : Shape).Idx → α)
    (h : (⟨3, ![64, 2, 2]⟩ : Shape).Slices ![0, 0, 1] ⟨3, ![64, 1, 1]⟩)
    (h' : (⟨3, ![64, 1, 1]⟩ : Shape).ShapeCasts ⟨1, ![64]⟩) (ch : Fin 64) :
    shapeCast ⟨1, ![64]⟩ (extractStridedSlice ⟨3, ![64, 1, 1]⟩ ![0, 0, 1] x h) h' (ix1 ch)
      = x (ix3 ch (0 : Fin 2) (1 : Fin 2)) :=
  entry_read 0 1 (by omega) (by omega) x h h' ch

theorem entry22_10_read (x : (⟨3, ![64, 2, 2]⟩ : Shape).Idx → α)
    (h : (⟨3, ![64, 2, 2]⟩ : Shape).Slices ![0, 1, 0] ⟨3, ![64, 1, 1]⟩)
    (h' : (⟨3, ![64, 1, 1]⟩ : Shape).ShapeCasts ⟨1, ![64]⟩) (ch : Fin 64) :
    shapeCast ⟨1, ![64]⟩ (extractStridedSlice ⟨3, ![64, 1, 1]⟩ ![0, 1, 0] x h) h' (ix1 ch)
      = x (ix3 ch (1 : Fin 2) (0 : Fin 2)) :=
  entry_read 1 0 (by omega) (by omega) x h h' ch

theorem entry22_11_read (x : (⟨3, ![64, 2, 2]⟩ : Shape).Idx → α)
    (h : (⟨3, ![64, 2, 2]⟩ : Shape).Slices ![0, 1, 1] ⟨3, ![64, 1, 1]⟩)
    (h' : (⟨3, ![64, 1, 1]⟩ : Shape).ShapeCasts ⟨1, ![64]⟩) (ch : Fin 64) :
    shapeCast ⟨1, ![64]⟩ (extractStridedSlice ⟨3, ![64, 1, 1]⟩ ![0, 1, 1] x h) h' (ix1 ch)
      = x (ix3 ch (1 : Fin 2) (1 : Fin 2)) :=
  entry_read 1 1 (by omega) (by omega) x h h' ch

theorem entry21_00_read (x : (⟨3, ![64, 2, 1]⟩ : Shape).Idx → α)
    (h : (⟨3, ![64, 2, 1]⟩ : Shape).Slices ![0, 0, 0] ⟨3, ![64, 1, 1]⟩)
    (h' : (⟨3, ![64, 1, 1]⟩ : Shape).ShapeCasts ⟨1, ![64]⟩) (ch : Fin 64) :
    shapeCast ⟨1, ![64]⟩ (extractStridedSlice ⟨3, ![64, 1, 1]⟩ ![0, 0, 0] x h) h' (ix1 ch)
      = x (ix3 ch (0 : Fin 2) (0 : Fin 1)) :=
  entry_read 0 0 (by omega) (by omega) x h h' ch

theorem entry21_10_read (x : (⟨3, ![64, 2, 1]⟩ : Shape).Idx → α)
    (h : (⟨3, ![64, 2, 1]⟩ : Shape).Slices ![0, 1, 0] ⟨3, ![64, 1, 1]⟩)
    (h' : (⟨3, ![64, 1, 1]⟩ : Shape).ShapeCasts ⟨1, ![64]⟩) (ch : Fin 64) :
    shapeCast ⟨1, ![64]⟩ (extractStridedSlice ⟨3, ![64, 1, 1]⟩ ![0, 1, 0] x h) h' (ix1 ch)
      = x (ix3 ch (1 : Fin 2) (0 : Fin 1)) :=
  entry_read 1 0 (by omega) (by omega) x h h' ch

/-- A vector of 64 viewed [1, 64, 1, 1]. -/
theorem out_read (x : (⟨1, ![64]⟩ : Shape).Idx → α) (h : (⟨1, ![64]⟩ : Shape).ShapeCasts ⟨4, ![1, 64, 1, 1]⟩)
    (i : (⟨4, ![1, 64, 1, 1]⟩ : Shape).Idx) :
    shapeCast ⟨4, ![1, 64, 1, 1]⟩ x h i = x (ix1 (⟨(i 1).val, (i 1).isLt⟩ : Fin 64)) :=
  shapeCast_apply x h i (ix1 (⟨(i 1).val, (i 1).isLt⟩ : Fin 64)) (by
    have h0 : (i 0).val < 1 := (i 0).isLt
    have h2 : (i 2).val < 1 := (i 2).isLt
    have h3 : (i 3).val < 1 := (i 3).isLt
    rw [Shape.rowMajor_val_one, Shape.rowMajor_val_four]
    show (i 1).val = (((i 0).val * 64 + (i 1).val) * 1 + (i 2).val) * 1 + (i 3).val
    omega)

/-! ### The pointwise operations at an index: at the ideal values each is the real operation at that index -/

theorem hdivf_apply {s : Shape} {φ : FTy} (a b : FVec Ideal s φ) (i : s.Idx) : Host.divf a b i = Ideal.div (a i) (b i) := rfl
theorem hsqrt_apply {s : Shape} {φ : FTy} (a : FVec Ideal s φ) (i : s.Idx) : Host.sqrt a i = Ideal.sqrt (a i) := rfl
theorem hnegf_apply {s : Shape} {φ : FTy} (a : FVec Ideal s φ) (i : s.Idx) : Host.negf a i = -(a i) := rfl
/-- A scalar repeated to any shape reads the scalar's one entry. -/
theorem bscalar_apply {α : Type} {t : Shape} (dims : Fin 0 → Fin t.rank) (h : (⟨0, ![]⟩ : Shape).BroadcastsInDim t dims)
    (x : (⟨0, ![]⟩ : Shape).Idx → α) (i : t.Idx) : broadcastInDim t dims h x i = x ix0 := congrArg x (funext fun a => a.elim0)

end Cert.HostLayout

end
-- ==== Proof.KI.HostVal0.lean ====
/-
  The first part of the host stretch (the raw moments, the means, the covariances, ε on the diagonal), read at a channel.
-/
import proofs.«141001_j43499428774583_2_alg».proof.Proof.KI.HostDefs
import proofs.«141001_j43499428774583_2_alg».proof.Proof.KI.HostLayout

noncomputable section

namespace Cert.KernelIdeal.Hand

open Idealize.ShloMosaic Idealize.ShloMosaic.ValueIdx Idealize.ShloMosaic.StableHlo Cert.KernelIdeal Cert.KernelIdeal.Gen Cert.HostLayout

/-! ### What the first part leaves, at channel `ch` -/

set_option maxHeartbeats 4000000 in
theorem p0_v27 (V : Valuation τ sig (Elt Ideal)) (ch : Fin 64) :
    after (main_part0_ops0 (F := Ideal)) V (Proc.devRef .tc main_v27) (ix1 ch) = Cert.BN.mean (Ssum V 0 ch) := by
  after_results_simp
  simp only [hdivf_apply, addf_apply, subf_apply, mulf_apply, bscalar_apply, constant_apply]
  erw [row0_read, row8_read]
  rfl

set_option maxHeartbeats 4000000 in
theorem p0_v29 (V : Valuation τ sig (Elt Ideal)) (ch : Fin 64) :
    after (main_part0_ops0 (F := Ideal)) V (Proc.devRef .tc main_v29) (ix1 ch) = Cert.BN.mean (Ssum V 2 ch) := by
  after_results_simp
  simp only [hdivf_apply, addf_apply, subf_apply, mulf_apply, bscalar_apply, constant_apply]
  erw [row0_read, row8_read]
  rfl

set_option maxHeartbeats 4000000 in
theorem p0_v41 (V : Valuation τ sig (Elt Ideal)) (ch : Fin 64) :
    after (main_part0_ops0 (F := Ideal)) V (Proc.devRef .tc main_v41) (ix1 ch) = Cert.BN.covK (Ssum V 3 ch) (Ssum V 2 ch) (Ssum V 2 ch) := by
  after_results_simp
  simp only [hdivf_apply, addf_apply, subf_apply, mulf_apply, bscalar_apply, constant_apply]
  erw [row0_read, row8_read]
  erw [row0_read, row8_read]
  rfl

set_option maxHeartbeats 4000000 in
theorem p0_v47 (V : Valuation τ sig (Elt Ideal)) (ch : Fin 64) :
    after (main_part0_ops0 (F := Ideal)) V (Proc.devRef .tc main_v47) (ix1 ch) = Cert.BN.covK (Ssum V 4 ch) (Ssum V 0 ch) (Ssum V 2 ch) := by
  after_results_simp
  simp only [hdivf_apply, addf_apply, subf_apply, mulf_apply, bscalar_apply, constant_apply]
  erw [row0_read, row8_read]
  erw [row0_read, row8_read]
  erw [row0_read, row8_read]
  rfl

set_option maxHeartbeats 4000000 in
theorem p0_v49 (V : Valuation τ sig (Elt Ideal)) (ch : Fin 64) :
    after (main_part0_ops0 (F := Ideal)) V (Proc.devRef .tc main_v49) (ix1 ch) = Cert.BN.covK (Ssum V 1 ch) (Ssum V 0 ch) (Ssum V 0 ch) + Cert.BN.epsW := by
  after_results_simp
  simp only [hdivf_apply, addf_apply, subf_apply, mulf_apply, bscalar_apply, constant_apply]
  erw [row0_read, row8_read]
  erw [row0_read, row8_read]
  rfl

set_option maxHeartbeats 4000000 in
theorem p0_cst8 (V : Valuation τ sig (Elt Ideal)) :
    after (main_part0_ops0 (F := Ideal)) V (Proc.devRef .tc main_cst_8) ix0 = Cert.BN.epsW := by
  after_results_simp
  rfl

set_option maxHeartbeats 4000000 in
/-- The first part writes neither gamma nor beta. -/
theorem p0_arg1 (V : Valuation τ sig (Elt Ideal)) :
    after (main_part0_ops0 (F := Ideal)) V (Proc.devRef .tc main_arg1) = V (Proc.devRef .tc main_arg1) := by
  after_results_simp

set_option maxHeartbeats 4000000 in
theorem p0_arg2 (V : Valuation τ sig (Elt Ideal)) :
    after (main_part0_ops0 (F := Ideal)) V (Proc.devRef .tc main_arg2) = V (Proc.devRef .tc main_arg2) := by
  after_results_simp

end Cert.KernelIdeal.Hand

end
-- ==== Proof.KI.HostVal1.lean ====
/-
  The second part of the host stretch (the closed 2×2 square root and inverse, times gamma, and the bias), read at a
  channel, from what the first part left there: the covariances (ε already on the first), the means, ε, gamma, beta.
-/
import proofs.«141001_j43499428774583_2_alg».proof.Proof.KI.HostDefs
import proofs.«141001_j43499428774583_2_alg».proof.Proof.KI.HostLayout

noncomputable section

namespace Cert.KernelIdeal.Hand

open Idealize.ShloMosaic Idealize.ShloMosaic.ValueIdx Idealize.ShloMosaic.StableHlo Cert.KernelIdeal Cert.KernelIdeal.Gen Cert.HostLayout

/-! ### What the second part leaves at channel `ch`, given what it finds there -/

set_option maxHeartbeats 8000000 in
theorem p1_v88 (W : Valuation τ sig (Elt Ideal)) (ch : Fin 64) (cRR cII cRI mr mi : EReal)
    (γ : Cert.BN.SG.Idx → EReal) (β : Cert.BN.SB.Idx → EReal)
    (h49 : W (Proc.devRef .tc main_v49) (ix1 ch) = cRR + Cert.BN.epsW)
    (h41 : W (Proc.devRef .tc main_v41) (ix1 ch) = cII)
    (h47 : W (Proc.devRef .tc main_v47) (ix1 ch) = cRI)
    (h8 : W (Proc.devRef .tc main_cst_8) ix0 = Cert.BN.epsW)
    (h27 : W (Proc.devRef .tc main_v27) (ix1 ch) = mr)
    (h29 : W (Proc.devRef .tc main_v29) (ix1 ch) = mi)
    (hγ : W (Proc.devRef .tc main_arg1) = γ) (hβ : W (Proc.devRef .tc main_arg2) = β) :
    after (main_part1_ops0 (F := Ideal)) W (Proc.devRef .tc main_v88) (ix1 ch) = (Cert.BN.chain cRR cII cRI (γ (ix3 ch (0 : Fin 2) (0 : Fin 2))) (γ (ix3 ch (0 : Fin 2) (1 : Fin 2))) (γ (ix3 ch (1 : Fin 2) (0 : Fin 2))) (γ (ix3 ch (1 : Fin 2) (1 : Fin 2)))).a00 := by
  after_results_simp
  simp only [hdivf_apply, hsqrt_apply, hnegf_apply, addf_apply, subf_apply, mulf_apply, bscalar_apply, constant_apply]
  repeat (first | erw [entry22_00_read] | erw [entry22_01_read] | erw [entry22_10_read] | erw [entry22_11_read] | erw [entry21_00_read] | erw [entry21_10_read])
  simp only [h49, h41, h47, h8, h27, h29, hγ, hβ]
  rfl

set_option maxHeartbeats 8000000 in
theorem p1_v91 (W : Valuation τ sig (Elt Ideal)) (ch : Fin 64) (cRR cII cRI mr mi : EReal)
    (γ : Cert.BN.SG.Idx → EReal) (β : Cert.BN.SB.Idx → EReal)
    (h49 : W (Proc.devRef .tc main_v49) (ix1 ch) = cRR + Cert.BN.epsW)
    (h41 : W (Proc.devRef .tc main_v41) (ix1 ch) = cII)
    (h47 : W (Proc.devRef .tc main_v47) (ix1 ch) = cRI)
    (h8 : W (Proc.devRef .tc main_cst_8) ix0 = Cert.BN.epsW)
    (h27 : W (Proc.devRef .tc main_v27) (ix1 ch) = mr)
    (h29 : W (Proc.devRef .tc main_v29) (ix1 ch) = mi)
    (hγ : W (Proc.devRef .tc main_arg1) = γ) (hβ : W (Proc.devRef .tc main_arg2) = β) :
    after (main_part1_ops0 (F := Ideal)) W (Proc.devRef .tc main_v91) (ix1 ch) = (Cert.BN.chain cRR cII cRI (γ (ix3 ch (0 : Fin 2) (0 : Fin 2))) (γ (ix3 ch (0 : Fin 2) (1 : Fin 2))) (γ (ix3 ch (1 : Fin 2) (0 : Fin 2))) (γ (ix3 ch (1 : Fin 2) (1 : Fin 2)))).a01 := by
  after_results_simp
  simp only [hdivf_apply, hsqrt_apply, hnegf_apply, addf_apply, subf_apply, mulf_apply, bscalar_apply, constant_apply]
  repeat (first | erw [entry22_00_read] | erw [entry22_01_read] | erw [entry22_10_read] | erw [entry22_11_read] | erw [entry21_00_read] | erw [entry21_10_read])
  simp only [h49, h41, h47, h8, h27, h29, hγ, hβ]
  rfl

set_option maxHeartbeats 8000000 in
theorem p1_v94 (W : Valuation τ sig (Elt Ideal)) (ch : Fin 64) (cRR cII cRI mr mi : EReal)
    (γ : Cert.BN.SG.Idx → EReal) (β : Cert.BN.SB.Idx → EReal)
    (h49 : W (Proc.devRef .tc main_v49) (ix1 ch) = cRR + Cert.BN.epsW)
    (h41 : W (Proc.devRef .tc main_v41) (ix1 ch) = cII)
    (h47 : W (Proc.devRef .tc main_v47) (ix1 ch) = cRI)
    (h8 : W (Proc.devRef .tc main_cst_8) ix0 = Cert.BN.epsW)
    (h27 : W (Proc.devRef .tc main_v27) (ix1 ch) = mr)
    (h29 : W (Proc.devRef .tc main_v29) (ix1 ch) = mi)
    (hγ : W (Proc.devRef .tc main_arg1) = γ) (hβ : W (Proc.devRef .tc main_arg2) = β) :
    after (main_part1_ops0 (F := Ideal)) W (Proc.devRef .tc main_v94) (ix1 ch) = (Cert.BN.chain cRR cII cRI (γ (ix3 ch (0 : Fin 2) (0 : Fin 2))) (γ (ix3 ch (0 : Fin 2) (1 : Fin 2))) (γ (ix3 ch (1 : Fin 2) (0 : Fin 2))) (γ (ix3 ch (1 : Fin 2) (1 : Fin 2)))).a10 := by
  after_results_simp
  simp only [hdivf_apply, hsqrt_apply, hnegf_apply, addf_apply, subf_apply, mulf_apply, bscalar_apply, constant_apply]
  repeat (first | erw [entry22_00_read] | erw [entry22_01_read] | erw [entry22_10_read] | erw [entry22_11_read] | erw [entry21_00_read] | erw [entry21_10_read])
  simp only [h49, h41, h47, h8, h27, h29, hγ, hβ]
  rfl

set_option maxHeartbeats 8000000 in
theorem p1_v97 (W : Valuation τ sig (Elt Ideal)) (ch : Fin 64) (cRR cII cRI mr mi : EReal)
    (γ : Cert.BN.SG.Idx → EReal) (β : Cert.BN.SB.Idx → EReal)
    (h49 : W (Proc.devRef .tc main_v49) (ix1 ch) = cRR + Cert.BN.epsW)
    (h41 : W (Proc.devRef .tc main_v41) (ix1 ch) = cII)
    (h47 : W (Proc.devRef .tc main_v47) (ix1 ch) = cRI)
    (h8 : W (Proc.devRef .tc main_cst_8) ix0 = Cert.BN.epsW)
    (h27 : W (Proc.devRef .tc main_v27) (ix1 ch) = mr)
    (h29 : W (Proc.devRef .tc main_v29) (ix1 ch) = mi)
    (hγ : W (Proc.devRef .tc main_arg1) = γ) (hβ : W (Proc.devRef .tc main_arg2) = β) :
    after (main_part1_ops0 (F := Ideal)) W (Proc.devRef .tc main_v97) (ix1 ch) = (Cert.BN.chain cRR cII cRI (γ (ix3 ch (0 : Fin 2) (0 : Fin 2))) (γ (ix3 ch (0 : Fin 2) (1 : Fin 2))) (γ (ix3 ch (1 : Fin 2) (0 : Fin 2))) (γ (ix3 ch (1 : Fin 2) (1 : Fin 2)))).a11 := by
  after_results_simp
  simp only [hdivf_apply, hsqrt_apply, hnegf_apply, addf_apply, subf_apply, mulf_apply, bscalar_apply, constant_apply]
  repeat (first | erw [entry22_00_read] | erw [entry22_01_read] | erw [entry22_10_read] | erw [entry22_11_read] | erw [entry21_00_read] | erw [entry21_10_read])
  simp only [h49, h41, h47, h8, h27, h29, hγ, hβ]
  rfl

set_option maxHeartbeats 8000000 in
theorem p1_v105 (W : Valuation τ sig (Elt Ideal)) (ch : Fin 64) (cRR cII cRI mr mi : EReal)
    (γ : Cert.BN.SG.Idx → EReal) (β : Cert.BN.SB.Idx → EReal)
    (h49 : W (Proc.devRef .tc main_v49) (ix1 ch) = cRR + Cert.BN.epsW)
    (h41 : W (Proc.devRef .tc main_v41) (ix1 ch) = cII)
    (h47 : W (Proc.devRef .tc main_v47) (ix1 ch) = cRI)
    (h8 : W (Proc.devRef .tc main_cst_8) ix0 = Cert.BN.epsW)
    (h27 : W (Proc.devRef .tc main_v27) (ix1 ch) = mr)
    (h29 : W (Proc.devRef .tc main_v29) (ix1 ch) = mi)
    (hγ : W (Proc.devRef .tc main_arg1) = γ) (hβ : W (Proc.devRef .tc main_arg2) = β) :
    after (main_part1_ops0 (F := Ideal)) W (Proc.devRef .tc main_v105) (ix1 ch) = (β (ix3 ch (0 : Fin 2) (0 : Fin 1)) - (Cert.BN.chain cRR cII cRI (γ (ix3 ch (0 : Fin 2) (0 : Fin 2))) (γ (ix3 ch (0 : Fin 2) (1 : Fin 2))) (γ (ix3 ch (1 : Fin 2) (0 : Fin 2))) (γ (ix3 ch (1 : Fin 2) (1 : Fin 2)))).a00 * mr) - (Cert.BN.chain cRR cII cRI (γ (ix3 ch (0 : Fin 2) (0 : Fin 2))) (γ (ix3 ch (0 : Fin 2) (1 : Fin 2))) (γ (ix3 ch (1 : Fin 2) (0 : Fin 2))) (γ (ix3 ch (1 : Fin 2) (1 : Fin 2)))).a01 * mi := by
  after_results_simp
  simp only [hdivf_apply, hsqrt_apply, hnegf_apply, addf_apply, subf_apply, mulf_apply, bscalar_apply, constant_apply]
  repeat (first | erw [entry22_00_read] | erw [entry22_01_read] | erw [entry22_10_read] | erw [entry22_11_read] | erw [entry21_00_read] | erw [entry21_10_read])
  simp only [h49, h41, h47, h8, h27, h29, hγ, hβ]
  rfl

set_option maxHeartbeats 8000000 in
theorem p1_v107 (W : Valuation τ sig (Elt Ideal)) (ch : Fin 64) (cRR cII cRI mr mi : EReal)
    (γ : Cert.BN.SG.Idx → EReal) (β : Cert.BN.SB.Idx → EReal)
    (h49 : W (Proc.devRef .tc main_v49) (ix1 ch) = cRR + Cert.BN.epsW)
    (h41 : W (Proc.devRef .tc main_v41) (ix1 ch) = cII)
    (h47 : W (Proc.devRef .tc main_v47) (ix1 ch) = cRI)
    (h8 : W (Proc.devRef .tc main_cst_8) ix0 = Cert.BN.epsW)
    (h27 : W (Proc.devRef .tc main_v27) (ix1 ch) = mr)
    (h29 : W (Proc.devRef .tc main_v29) (ix1 ch) = mi)
    (hγ : W (Proc.devRef .tc main_arg1) = γ) (hβ : W (Proc.devRef .tc main_arg2) = β) :
    after (main_part1_ops0 (F := Ideal)) W (Proc.devRef .tc main_v107) (ix1 ch) = β (ix3 ch (1 : Fin 2) (0 : Fin 1)) - (Cert.BN.chain cRR cII cRI (γ (ix3 ch (0 : Fin 2) (0 : Fin 2))) (γ (ix3 ch (0 : Fin 2) (1 : Fin 2))) (γ (ix3 ch (1 : Fin 2) (0 : Fin 2))) (γ (ix3 ch (1 : Fin 2) (1 : Fin 2)))).a10 * mr := by
  after_results_simp
  simp only [hdivf_apply, hsqrt_apply, hnegf_apply, addf_apply, subf_apply, mulf_apply, bscalar_apply, constant_apply]
  repeat (first | erw [entry22_00_read] | erw [entry22_01_read] | erw [entry22_10_read] | erw [entry22_11_read] | erw [entry21_00_read] | erw [entry21_10_read])
  simp only [h49, h41, h47, h8, h27, h29, hγ, hβ]
  rfl

set_option maxHeartbeats 8000000 in
theorem p1_v108 (W : Valuation τ sig (Elt Ideal)) (ch : Fin 64) (cRR cII cRI mr mi : EReal)
    (γ : Cert.BN.SG.Idx → EReal) (β : Cert.BN.SB.Idx → EReal)
    (h49 : W (Proc.devRef .tc main_v49) (ix1 ch) = cRR + Cert.BN.epsW)
    (h41 : W (Proc.devRef .tc main_v41) (ix1 ch) = cII)
    (h47 : W (Proc.devRef .tc main_v47) (ix1 ch) = cRI)
    (h8 : W (Proc.devRef .tc main_cst_8) ix0 = Cert.BN.epsW)
    (h27 : W (Proc.devRef .tc main_v27) (ix1 ch) = mr)
    (h29 : W (Proc.devRef .tc main_v29) (ix1 ch) = mi)
    (hγ : W (Proc.devRef .tc main_arg1) = γ) (hβ : W (Proc.devRef .tc main_arg2) = β) :
    after (main_part1_ops0 (F := Ideal)) W (Proc.devRef .tc main_v108) (ix1 ch) = (Cert.BN.chain cRR cII cRI (γ (ix3 ch (0 : Fin 2) (0 : Fin 2))) (γ (ix3 ch (0 : Fin 2) (1 : Fin 2))) (γ (ix3 ch (1 : Fin 2) (0 : Fin 2))) (γ (ix3 ch (1 : Fin 2) (1 : Fin 2)))).a11 * mi := by
  after_results_simp
  simp only [hdivf_apply, hsqrt_apply, hnegf_apply, addf_apply, subf_apply, mulf_apply, bscalar_apply, constant_apply]
  repeat (first | erw [entry22_00_read] | erw [entry22_01_read] | erw [entry22_10_read] | erw [entry22_11_read] | erw [entry21_00_read] | erw [entry21_10_read])
  simp only [h49, h41, h47, h8, h27, h29, hγ, hβ]
  rfl

end Cert.KernelIdeal.Hand

end
-- ==== Proof.KI.HostVal2.lean ====
/-
  The last part of the host stretch: one subtraction and the six views [64] → [1, 64, 1, 1], read at an index.
-/
import proofs.«141001_j43499428774583_2_alg».proof.Proof.KI.HostDefs
import proofs.«141001_j43499428774583_2_alg».proof.Proof.KI.HostLayout

noncomputable section

namespace Cert.KernelIdeal.Hand

open Idealize.ShloMosaic Idealize.ShloMosaic.ValueIdx Idealize.ShloMosaic.StableHlo Cert.KernelIdeal Cert.KernelIdeal.Gen Cert.HostLayout

/-- A vector of 64 at channel `ch`. -/
abbrev rd64 (x : S64.Idx → EReal) (ch : Fin 64) : EReal := x (ix1 ch)

theorem p2_v110 (W : Valuation τ sig (Elt Ideal)) :
    after (main_part2_ops0 (F := Ideal)) W (Proc.devRef .tc main_v110)
      = fun i : S1x64x1x1.Idx => rd64 (W (Proc.devRef .tc main_v88)) (chOf i) := by
  after_results_simp
  funext i
  exact out_read _ _ i

theorem p2_v111 (W : Valuation τ sig (Elt Ideal)) :
    after (main_part2_ops0 (F := Ideal)) W (Proc.devRef .tc main_v111)
      = fun i : S1x64x1x1.Idx => rd64 (W (Proc.devRef .tc main_v91)) (chOf i) := by
  after_results_simp
  funext i
  exact out_read _ _ i

theorem p2_v112 (W : Valuation τ sig (Elt Ideal)) :
    after (main_part2_ops0 (F := Ideal)) W (Proc.devRef .tc main_v112)
      = fun i : S1x64x1x1.Idx => rd64 (W (Proc.devRef .tc main_v94)) (chOf i) := by
  after_results_simp
  funext i
  exact out_read _ _ i

theorem p2_v113 (W : Valuation τ sig (Elt Ideal)) :
    after (main_part2_ops0 (F := Ideal)) W (Proc.devRef .tc main_v113)
      = fun i : S1x64x1x1.Idx => rd64 (W (Proc.devRef .tc main_v97)) (chOf i) := by
  after_results_simp
  funext i
  exact out_read _ _ i

theorem p2_v114 (W : Valuation τ sig (Elt Ideal)) :
    after (main_part2_ops0 (F := Ideal)) W (Proc.devRef .tc main_v114)
      = fun i : S1x64x1x1.Idx => rd64 (W (Proc.devRef .tc main_v105)) (chOf i) := by
  after_results_simp
  funext i
  exact out_read _ _ i

theorem p2_v115 (W : Valuation τ sig (Elt Ideal)) :
    after (main_part2_ops0 (F := Ideal)) W (Proc.devRef .tc main_v115)
      = fun i : S1x64x1x1.Idx => rd64 (W (Proc.devRef .tc main_v107)) (chOf i) - rd64 (W (Proc.devRef .tc main_v108)) (chOf i) := by
  after_results_simp
  funext i
  exact (out_read _ _ i).trans rfl

end Cert.KernelIdeal.Hand

end
-- ==== Proof.KI.HostKeep.lean ====
/-
  What the host stretch leaves alone: a reference none of its operations writes holds afterwards what it held before —
  the three arguments, the second kernel's result, and the five statistics arrays.
-/
import proofs.«141001_j43499428774583_2_alg».proof.Proof.KI.HostDefs

noncomputable section

namespace Cert.KernelIdeal.Hand

open Idealize.ShloMosaic Idealize.ShloMosaic.ValueIdx Idealize.ShloMosaic.StableHlo Cert.KernelIdeal Cert.KernelIdeal.Gen

/-- The references part 0's operations write. -/
abbrev part0_W : List (Ref sig .tc) :=
  [main_v1, main_v2, main_v3, main_v4, main_v5, main_v6, main_v7, main_v8, main_v9, main_v10, main_v11, main_v12,
    main_v13, main_v14, main_v15, main_v16, main_v17, main_v18, main_v19, main_v20, main_v21, main_v22, main_v23,
    main_v24, main_v25, main_cst, main_v26, main_v27, main_cst_0, main_v28, main_v29, main_v30, main_cst_1, main_v31,
    main_v32, main_v33, main_cst_2, main_v34, main_v35, main_v36, main_cst_3, main_v37, main_v38, main_v39,
    main_cst_4, main_v40, main_v41, main_v42, main_cst_5, main_v43, main_v44, main_v45, main_cst_6, main_v46,
    main_v47, main_cst_7, main_v48, main_v49, main_cst_8]

set_option maxHeartbeats 4000000 in
theorem part0_writes : (main_part0_ops0 (F := Ideal)).Forall fun op => op.writes ⊆ (part0_W.map (Proc.devRef (τ := τ) .tc)).toFinset := by
  simp only [List.Forall, StableHlo.nullary_writes, StableHlo.unary_writes, StableHlo.binary_writes, StableHlo.reshape_writes,
    Finset.singleton_subset_iff, List.mem_toFinset]
  and_intros
  all_goals exact List.mem_map_of_mem (by decide)

/-- The references part 1's operations write. -/
abbrev part1_W : List (Ref sig .tc) :=
  [main_v50, main_v51, main_v52, main_v53, main_v54, main_v55, main_v56, main_cst_9, main_v57, main_v58, main_v59,
    main_v60, main_v61, main_v62, main_v63, main_v64, main_v65, main_v66, main_v67, main_v68, main_v69, main_v70,
    main_v71, main_v72, main_v73, main_v74, main_v75, main_v76, main_v77, main_v78, main_v79, main_v80, main_v81,
    main_v82, main_v83, main_v84, main_v85, main_v86, main_v87, main_v88, main_v89, main_v90, main_v91, main_v92,
    main_v93, main_v94, main_v95, main_v96, main_v97, main_v98, main_v99, main_v100, main_v101, main_v102, main_v103,
    main_v104, main_v105, main_v106, main_v107, main_v108]

set_option maxHeartbeats 4000000 in
theorem part1_writes : (main_part1_ops0 (F := Ideal)).Forall fun op => op.writes ⊆ (part1_W.map (Proc.devRef (τ := τ) .tc)).toFinset := by
  simp only [List.Forall, StableHlo.nullary_writes, StableHlo.unary_writes, StableHlo.binary_writes, StableHlo.reshape_writes,
    Finset.singleton_subset_iff, List.mem_toFinset]
  and_intros
  all_goals exact List.mem_map_of_mem (by decide)

/-- The references part 2's operations write. -/
abbrev part2_W : List (Ref sig .tc) :=
  [main_v109, main_v110, main_v111, main_v112, main_v113, main_v114, main_v115]

set_option maxHeartbeats 4000000 in
theorem part2_writes : (main_part2_ops0 (F := Ideal)).Forall fun op => op.writes ⊆ (part2_W.map (Proc.devRef (τ := τ) .tc)).toFinset := by
  simp only [List.Forall, StableHlo.nullary_writes, StableHlo.unary_writes, StableHlo.binary_writes, StableHlo.reshape_writes,
    Finset.singleton_subset_iff, List.mem_toFinset]
  and_intros
  all_goals exact List.mem_map_of_mem (by decide)

/-- A reference none of the three parts writes keeps its contents. -/
theorem hostAfter_of (V : Valuation τ sig (Elt Ideal)) (r : Ref sig .tc) (h0 : r ∉ part0_W) (h1 : r ∉ part1_W) (h2 : r ∉ part2_W) :
    hostAfter V (Proc.devRef .tc r) = V (Proc.devRef .tc r) :=
  (after_of_writes_sub (main_part2_ops0 (F := Ideal)) _ part2_writes h2).trans
    ((after_of_writes_sub (main_part1_ops0 (F := Ideal)) _ part1_writes h1).trans
      (after_of_writes_sub (main_part0_ops0 (F := Ideal)) V part0_writes h0))

theorem hostAfter_arg0 (V : Valuation τ sig (Elt Ideal)) : hostAfter V (Proc.devRef .tc main_arg0) = V (Proc.devRef .tc main_arg0) :=
  hostAfter_of V main_arg0 (by decide) (by decide) (by decide)

theorem hostAfter_arg1 (V : Valuation τ sig (Elt Ideal)) : hostAfter V (Proc.devRef .tc main_arg1) = V (Proc.devRef .tc main_arg1) :=
  hostAfter_of V main_arg1 (by decide) (by decide) (by decide)

theorem hostAfter_arg2 (V : Valuation τ sig (Elt Ideal)) : hostAfter V (Proc.devRef .tc main_arg2) = V (Proc.devRef .tc main_arg2) :=
  hostAfter_of V main_arg2 (by decide) (by decide) (by decide)

theorem hostAfter_v116 (V : Valuation τ sig (Elt Ideal)) : hostAfter V (Proc.devRef .tc main_v116) = V (Proc.devRef .tc main_v116) :=
  hostAfter_of V main_v116 (by decide) (by decide) (by decide)

theorem hostAfter_v0_0 (V : Valuation τ sig (Elt Ideal)) : hostAfter V (Proc.devRef .tc main_v0_0) = V (Proc.devRef .tc main_v0_0) :=
  hostAfter_of V main_v0_0 (by decide) (by decide) (by decide)

theorem hostAfter_v0_1 (V : Valuation τ sig (Elt Ideal)) : hostAfter V (Proc.devRef .tc main_v0_1) = V (Proc.devRef .tc main_v0_1) :=
  hostAfter_of V main_v0_1 (by decide) (by decide) (by decide)

theorem hostAfter_v0_2 (V : Valuation τ sig (Elt Ideal)) : hostAfter V (Proc.devRef .tc main_v0_2) = V (Proc.devRef .tc main_v0_2) :=
  hostAfter_of V main_v0_2 (by decide) (by decide) (by decide)

theorem hostAfter_v0_3 (V : Valuation τ sig (Elt Ideal)) : hostAfter V (Proc.devRef .tc main_v0_3) = V (Proc.devRef .tc main_v0_3) :=
  hostAfter_of V main_v0_3 (by decide) (by decide) (by decide)

theorem hostAfter_v0_4 (V : Valuation τ sig (Elt Ideal)) : hostAfter V (Proc.devRef .tc main_v0_4) = V (Proc.devRef .tc main_v0_4) :=
  hostAfter_of V main_v0_4 (by decide) (by decide) (by decide)

/-- The arguments, the second kernel's result and the statistics arrays are as the stretch found them. -/
theorem hostAfter_keeps (V : Valuation τ sig (Elt Ideal)) (r : Ref sig .tc)
    (hr : r ∈ ([main_arg0, main_arg1, main_arg2, main_v116, main_v0_0, main_v0_1, main_v0_2, main_v0_3, main_v0_4] : List (Ref sig .tc))) :
    hostAfter V (Proc.devRef .tc r) = V (Proc.devRef .tc r) := by
  simp only [List.mem_cons, List.not_mem_nil, or_false] at hr
  rcases hr with rfl | rfl | rfl | rfl | rfl | rfl | rfl | rfl | rfl
  · exact hostAfter_arg0 V
  · exact hostAfter_arg1 V
  · exact hostAfter_arg2 V
  · exact hostAfter_v116 V
  · exact hostAfter_v0_0 V
  · exact hostAfter_v0_1 V
  · exact hostAfter_v0_2 V
  · exact hostAfter_v0_3 V
  · exact hostAfter_v0_4 V

end Cert.KernelIdeal.Hand

end
-- ==== Proof.KI.HostVal.lean ====
/-
  The host stretch between the two kernel calls, read as values: the six [1, 64, 1, 1] arrays it hands the second kernel are,
  at channel `ch`, the four coefficients of the channel's affine map (the closed 2×2 chain on the covariances from the raw
  moments, times gamma) and the two biases β − a·m.
-/
import proofs.«141001_j43499428774583_2_alg».proof.Proof.KI.HostVal0
import proofs.«141001_j43499428774583_2_alg».proof.Proof.KI.HostVal1
import proofs.«141001_j43499428774583_2_alg».proof.Proof.KI.HostVal2
import proofs.«141001_j43499428774583_2_alg».proof.Proof.KI.HostKeep

noncomputable section

namespace Cert.KernelIdeal.Hand

open Idealize.ShloMosaic Idealize.ShloMosaic.ValueIdx Idealize.ShloMosaic.StableHlo Cert.KernelIdeal Cert.KernelIdeal.Gen Cert.HostLayout

theorem hostVal_110 (V : Valuation τ sig (Elt Ideal)) :
    hostAfter V (Proc.devRef .tc main_v110) = fun i : S1x64x1x1.Idx => (coefH V (chOf i)).a00 :=
  (p2_v110 _).trans (funext fun i => p1_v88 _ (chOf i) _ _ _ _ _ _ _ (p0_v49 V _) (p0_v41 V _) (p0_v47 V _) (p0_cst8 V) (p0_v27 V _) (p0_v29 V _) (p0_arg1 V) (p0_arg2 V))

theorem hostVal_111 (V : Valuation τ sig (Elt Ideal)) :
    hostAfter V (Proc.devRef .tc main_v111) = fun i : S1x64x1x1.Idx => (coefH V (chOf i)).a01 :=
  (p2_v111 _).trans (funext fun i => p1_v91 _ (chOf i) _ _ _ _ _ _ _ (p0_v49 V _) (p0_v41 V _) (p0_v47 V _) (p0_cst8 V) (p0_v27 V _) (p0_v29 V _) (p0_arg1 V) (p0_arg2 V))

theorem hostVal_112 (V : Valuation τ sig (Elt Ideal)) :
    hostAfter V (Proc.devRef .tc main_v112) = fun i : S1x64x1x1.Idx => (coefH V (chOf i)).a10 :=
  (p2_v112 _).trans (funext fun i => p1_v94 _ (chOf i) _ _ _ _ _ _ _ (p0_v49 V _) (p0_v41 V _) (p0_v47 V _) (p0_cst8 V) (p0_v27 V _) (p0_v29 V _) (p0_arg1 V) (p0_arg2 V))

theorem hostVal_113 (V : Valuation τ sig (Elt Ideal)) :
    hostAfter V (Proc.devRef .tc main_v113) = fun i : S1x64x1x1.Idx => (coefH V (chOf i)).a11 :=
  (p2_v113 _).trans (funext fun i => p1_v97 _ (chOf i) _ _ _ _ _ _ _ (p0_v49 V _) (p0_v41 V _) (p0_v47 V _) (p0_cst8 V) (p0_v27 V _) (p0_v29 V _) (p0_arg1 V) (p0_arg2 V))

theorem hostVal_114 (V : Valuation τ sig (Elt Ideal)) :
    hostAfter V (Proc.devRef .tc main_v114) = fun i : S1x64x1x1.Idx =>
      (betaOf V (ix3 (chOf i) (0 : Fin 2) (0 : Fin 1)) - (coefH V (chOf i)).a00 * Cert.BN.mean (Ssum V 0 (chOf i)))
        - (coefH V (chOf i)).a01 * Cert.BN.mean (Ssum V 2 (chOf i)) :=
  (p2_v114 _).trans (funext fun i => p1_v105 _ (chOf i) _ _ _ _ _ _ _ (p0_v49 V _) (p0_v41 V _) (p0_v47 V _) (p0_cst8 V) (p0_v27 V _) (p0_v29 V _) (p0_arg1 V) (p0_arg2 V))

theorem hostVal_115 (V : Valuation τ sig (Elt Ideal)) :
    hostAfter V (Proc.devRef .tc main_v115) = fun i : S1x64x1x1.Idx =>
      (betaOf V (ix3 (chOf i) (1 : Fin 2) (0 : Fin 1)) - (coefH V (chOf i)).a10 * Cert.BN.mean (Ssum V 0 (chOf i)))
        - (coefH V (chOf i)).a11 * Cert.BN.mean (Ssum V 2 (chOf i)) :=
  (p2_v115 _).trans (funext fun i => congrArg₂ (· - ·)
    (p1_v107 _ (chOf i) _ _ _ _ _ _ _ (p0_v49 V _) (p0_v41 V _) (p0_v47 V _) (p0_cst8 V) (p0_v27 V _) (p0_v29 V _) (p0_arg1 V) (p0_arg2 V))
    (p1_v108 _ (chOf i) _ _ _ _ _ _ _ (p0_v49 V _) (p0_v41 V _) (p0_v47 V _) (p0_cst8 V) (p0_v27 V _) (p0_v29 V _) (p0_arg1 V) (p0_arg2 V)))

end Cert.KernelIdeal.Hand

end
-- ==== Proof.KI.StatsOps.lean ====
/-
  The statistics pass's arithmetic read at an index, on the extended reals: a reduction over one axis with the
  zero accumulator is the plain sum over that axis; the two loads of a block are its channels 0–63 and 64–127; so
  one point's store into scratch `k` at (channel, lane) is the old entry plus the sum over the block's rows of
  x_re, x_re², x_im, x_im², x_re·x_im; the reset stores zero; and the row stored at the end of a half is, at a
  channel, the sum over the lanes of that channel's scratch row.
-/
import proofs.«141001_j43499428774583_2_alg».proof.Proof.KI.Data0
import Idealize.ShloMosaic.PureOps.Ideal.Laws
import Idealize.ShloMosaic.Lib.ValueIdx
import Idealize.ShloMosaic.Lib.ValueLayout
import Idealize.ShloMosaic.Lib.Pipeline.Value

set_option maxRecDepth 16384

noncomputable section

open scoped BigOperators

namespace Cert.KernelIdeal.Hand

open Idealize.ShloMosaic Idealize.ShloMosaic.ValueIdx
open Cert.KernelIdeal Cert.KernelIdeal.Gen

/-! ## The reductions, read at an index -/

/-- A sum over the rows of a [64, 128, 128] array, read at (channel, lane). -/
theorem stat_sum_rows (src : FVec Ideal S64x128x128 .f32) (hφ : FKind.Formats .f32)
    (hacc : (0x00000000#32 : BitVec 32) = FKind.add.neutral .f32 hφ) (ch : Fin 64) (l : Fin 128) :
    multiReduction .add [1] S64x128 src 0x00000000#32 reduces_S64x128x128_S64x128 hφ hacc (ix2 ch l)
      = ∑ h : Fin 128, src (ix3 ch h l) := by
  refine (Ideal.multiReduction_add_single src _ reduces_S64x128x128_S64x128 hφ hacc (ix2 ch l)).trans ?_
  show (∑ h : Fin 128, src (reduces_S64x128x128_S64x128.lift (ix2 ch l) h)) = _
  refine Finset.sum_congr rfl fun h _ => congrArg src (funext fun ax => Fin.ext ?_)
  match ax with
  | ⟨0, _⟩ => rfl
  | ⟨1, _⟩ => rfl
  | ⟨2, _⟩ => rfl

/-- A sum over the lanes of a [64, 128] array, read at a channel. -/
theorem stat_sum_lanes (src : FVec Ideal S64x128 .f32) (hφ : FKind.Formats .f32)
    (hacc : (0x00000000#32 : BitVec 32) = FKind.add.neutral .f32 hφ) (j : Fin 64) :
    multiReduction .add [1] S64 src 0x00000000#32 reduces_S64x128_S64 hφ hacc (ix1 j)
      = ∑ l : Fin 128, src (ix2 j l) := by
  refine (Ideal.multiReduction_add_single src _ reduces_S64x128_S64 hφ hacc (ix1 j)).trans ?_
  show (∑ l : Fin 128, src (reduces_S64x128_S64.lift (ix1 j) l)) = _
  refine Finset.sum_congr rfl fun l _ => congrArg src (funext fun ax => Fin.ext ?_)
  match ax with
  | ⟨0, _⟩ => rfl
  | ⟨1, _⟩ => rfl

/-! ## The two halves of a block, read at an index -/

/-- Channel `ch`'s real part in a block: channel `ch` of the block. -/
def statRe (x0 : Vec Ideal S1x128x128x128 .f32) (ch : Fin 64) (h l : Fin 128) : EReal :=
  x0 (ix4 (0 : Fin 1) (⟨ch.val, by omega⟩ : Fin 128) h l)
/-- Channel `ch`'s imaginary part in a block: channel `ch + 64` of the block. -/
def statIm (x0 : Vec Ideal S1x128x128x128 .f32) (ch : Fin 64) (h l : Fin 128) : EReal :=
  x0 (ix4 (0 : Fin 1) (⟨ch.val + 64, by omega⟩ : Fin 128) h l)

/-- The load of channels 0–63, recast to [64, 128, 128], at (channel, row, lane). -/
theorem stat_lo (x0 : Vec Ideal S1x128x128x128 .f32) (ch : Fin 64) (h l : Fin 128) :
    k0_pay13 (View.ld x0 rLo) (ix3 ch h l) = statRe x0 ch h l := by
  unfold k0_pay13
  refine (shapeCast_1abc_abc_apply _ shapeCasts_S1x64x128x128_S64x128x128 ch h l).trans ?_
  show x0 (rLo.idx (ix4 (0 : Fin 1) ch h l)) = _
  unfold statRe
  refine congrArg x0 (funext fun ax => Fin.ext ?_)
  match ax with
  | ⟨0, _⟩ => rfl
  | ⟨1, _⟩ => show 0 + 1 * ch.val = ch.val; omega
  | ⟨2, _⟩ => show 0 + 1 * h.val = h.val; omega
  | ⟨3, _⟩ => show 0 + 1 * l.val = l.val; omega

/-- The load of channels 64–127, recast to [64, 128, 128], at (channel, row, lane). -/
theorem stat_hi (x0 : Vec Ideal S1x128x128x128 .f32) (ch : Fin 64) (h l : Fin 128) :
    k0_pay14 (View.ld x0 rHi) (ix3 ch h l) = statIm x0 ch h l := by
  unfold k0_pay14
  refine (shapeCast_1abc_abc_apply _ shapeCasts_S1x64x128x128_S64x128x128 ch h l).trans ?_
  show x0 (rHi.idx (ix4 (0 : Fin 1) ch h l)) = _
  unfold statIm
  refine congrArg x0 (funext fun ax => Fin.ext ?_)
  match ax with
  | ⟨0, _⟩ => rfl
  | ⟨1, _⟩ => show 64 + 1 * ch.val = ch.val + 64; omega
  | ⟨2, _⟩ => show 0 + 1 * h.val = h.val; omega
  | ⟨3, _⟩ => show 0 + 1 * l.val = l.val; omega

/-! ## One point's arithmetic at an index -/

/-- What one point adds to scratch `k` at (channel, lane), for row `h` of the block. -/
def statTerm : Fin 5 → Vec Ideal S1x128x128x128 .f32 → Fin 64 → Fin 128 → Fin 128 → EReal
  | ⟨0, _⟩ => fun x0 ch h l => statRe x0 ch h l
  | ⟨1, _⟩ => fun x0 ch h l => statRe x0 ch h l * statRe x0 ch h l
  | ⟨2, _⟩ => fun x0 ch h l => statIm x0 ch h l
  | ⟨3, _⟩ => fun x0 ch h l => statIm x0 ch h l * statIm x0 ch h l
  | ⟨4, _⟩ => fun x0 ch h l => statRe x0 ch h l * statIm x0 ch h l

/-- A point's store into scratch `k`, at (channel, lane): the old entry plus the sum over the block's rows. -/
theorem stat_upd_apply (k : Fin 5) (x0 : Vec Ideal S1x128x128x128 .f32) (old : Vec Ideal S64x128 .f32) (ch : Fin 64)
    (l : Fin 128) : upd (F := Ideal) k x0 old (ix2 ch l) = old (ix2 ch l) + ∑ h : Fin 128, statTerm k x0 ch h l := by
  match k with
  | ⟨0, _⟩ =>
    show k0_pay15 (View.ld x0 rLo) old (ix2 ch l) = _
    unfold k0_pay15
    rw [shapeCast_self]
    refine congrArg (fun z : EReal => old (ix2 ch l) + z) ?_
    refine (stat_sum_rows _ _ _ ch l).trans ?_
    exact Finset.sum_congr rfl fun h _ => stat_lo x0 ch h l
  | ⟨1, _⟩ =>
    show k0_pay16 (View.ld x0 rLo) old (ix2 ch l) = _
    unfold k0_pay16
    rw [shapeCast_self]
    refine congrArg (fun z : EReal => old (ix2 ch l) + z) ?_
    refine (stat_sum_rows _ _ _ ch l).trans ?_
    exact Finset.sum_congr rfl fun h _ => congrArg₂ (fun a b : EReal => a * b) (stat_lo x0 ch h l) (stat_lo x0 ch h l)
  | ⟨2, _⟩ =>
    show k0_pay17 (View.ld x0 rHi) old (ix2 ch l) = _
    unfold k0_pay17
    rw [shapeCast_self]
    refine congrArg (fun z : EReal => old (ix2 ch l) + z) ?_
    refine (stat_sum_rows _ _ _ ch l).trans ?_
    exact Finset.sum_congr rfl fun h _ => stat_hi x0 ch h l
  | ⟨3, _⟩ =>
    show k0_pay1 (k0_pay14 (View.ld x0 rHi)) old (ix2 ch l) = _
    unfold k0_pay1
    rw [shapeCast_self]
    refine congrArg (fun z : EReal => old (ix2 ch l) + z) ?_
    refine (stat_sum_rows _ _ _ ch l).trans ?_
    exact Finset.sum_congr rfl fun h _ => congrArg₂ (fun a b : EReal => a * b) (stat_hi x0 ch h l) (stat_hi x0 ch h l)
  | ⟨4, _⟩ =>
    show k0_pay2 (k0_pay13 (View.ld x0 rLo)) (k0_pay14 (View.ld x0 rHi)) old (ix2 ch l) = _
    unfold k0_pay2
    rw [shapeCast_self]
    refine congrArg (fun z : EReal => old (ix2 ch l) + z) ?_
    refine (stat_sum_rows _ _ _ ch l).trans ?_
    exact Finset.sum_congr rfl fun h _ => congrArg₂ (fun a b : EReal => a * b) (stat_lo x0 ch h l) (stat_hi x0 ch h l)

/-- The reset stores zero everywhere. -/
theorem stat_zer_apply (k : Fin 5) (i : S64x128.Idx) : zer (F := Ideal) k i = (0 : EReal) := by
  match k with
  | ⟨0, _⟩ => show k0_pay8 (F := Ideal) i = _; unfold k0_pay8; rw [shapeCast_self]; exact Ideal.ofBits_zero_f32
  | ⟨1, _⟩ => show k0_pay9 (F := Ideal) i = _; unfold k0_pay9; rw [shapeCast_self]; exact Ideal.ofBits_zero_f32
  | ⟨2, _⟩ => show k0_pay10 (F := Ideal) i = _; unfold k0_pay10; rw [shapeCast_self]; exact Ideal.ofBits_zero_f32
  | ⟨3, _⟩ => show k0_pay11 (F := Ideal) i = _; unfold k0_pay11; rw [shapeCast_self]; exact Ideal.ofBits_zero_f32
  | ⟨4, _⟩ => show k0_pay12 (F := Ideal) i = _; unfold k0_pay12; rw [shapeCast_self]; exact Ideal.ofBits_zero_f32

/-- The row stored at the end of a half, at channel `j`: the sum over the lanes of the scratch's row `j`. -/
theorem stat_row_apply (k : Fin 5) (a : Vec Ideal S64x128 .f32) (j : Fin 64) :
    row (F := Ideal) k a (ix2 (0 : Fin 1) j) = ∑ l : Fin 128, (a (ix2 j l) : EReal) := by
  match k with
  | ⟨0, _⟩ =>
    show k0_pay3 a (ix2 (0 : Fin 1) j) = _
    unfold k0_pay3
    refine (shapeCast_a_1a_apply _ shapeCasts_S64_S1x64 (0 : Fin 1) j).trans ?_
    exact stat_sum_lanes a _ _ j
  | ⟨1, _⟩ =>
    show k0_pay4 a (ix2 (0 : Fin 1) j) = _
    unfold k0_pay4
    refine (shapeCast_a_1a_apply _ shapeCasts_S64_S1x64 (0 : Fin 1) j).trans ?_
    exact stat_sum_lanes a _ _ j
  | ⟨2, _⟩ =>
    show k0_pay5 a (ix2 (0 : Fin 1) j) = _
    unfold k0_pay5
    refine (shapeCast_a_1a_apply _ shapeCasts_S64_S1x64 (0 : Fin 1) j).trans ?_
    exact stat_sum_lanes a _ _ j
  | ⟨3, _⟩ =>
    show k0_pay6 a (ix2 (0 : Fin 1) j) = _
    unfold k0_pay6
    refine (shapeCast_a_1a_apply _ shapeCasts_S64_S1x64 (0 : Fin 1) j).trans ?_
    exact stat_sum_lanes a _ _ j
  | ⟨4, _⟩ =>
    show k0_pay7 a (ix2 (0 : Fin 1) j) = _
    unfold k0_pay7
    refine (shapeCast_a_1a_apply _ shapeCasts_S64_S1x64 (0 : Fin 1) j).trans ?_
    exact stat_sum_lanes a _ _ j

end Cert.KernelIdeal.Hand

end
-- ==== Proof.KI.StatsBlk.lean ====
/-
  The input window of the statistics pass, read at an index: grid point `t` reads batch element `t`, so the
  block at point `t` at (0, channel, row, lane) is the array at (t, channel, row, lane).
-/
import proofs.«141001_j43499428774583_2_alg».proof.Proof.KI.Data0
import proofs.«141001_j43499428774583_2_alg».proof.Proof.Spec
import Idealize.ShloMosaic.Lib.ValueIdx
import Idealize.ShloMosaic.Lib.Pipeline.Value

set_option maxRecDepth 16384

noncomputable section

open scoped BigOperators

namespace Cert.KernelIdeal.Hand

open Idealize.ShloMosaic Idealize.ShloMosaic.TcCoe Idealize.ShloMosaic.ValueIdx
open Idealize.ShloMosaic.Pipeline (Dat RDat Cfg Window cellOf)
open Cert.KernelIdeal Cert.KernelIdeal.Gen

/-- The input window's block index over the grid: point `t` reads batch element `t`, whole on the other axes. -/
theorem stat_idx : ∀ t : Fin cfg0.N, win0_0.index t (0 : Fin 4) = t.val ∧ win0_0.index t (1 : Fin 4) = 0
    ∧ win0_0.index t (2 : Fin 4) = 0 ∧ win0_0.index t (3 : Fin 4) = 0 :=
  (by decide +kernel : ∀ t : Fin grid0.N, win0_0.index t (0 : Fin 4) = t.val ∧ win0_0.index t (1 : Fin 4) = 0
    ∧ win0_0.index t (2 : Fin 4) = 0 ∧ win0_0.index t (3 : Fin 4) = 0)

section Blk

variable (c : Dev nD) (X : Buf (Elt Ideal) ((cfg0.win 0).arr.view.loc (c.tc : Thread nD τ)))

/-- The block at point `t`, at (0, channel, row, lane), is the array at (t, channel, row, lane). -/
theorem stat_blk (t : Fin cfg0.N) (ch h l : Fin 128) :
    xblk (F := Ideal) c X t (ix4 (0 : Fin 1) ch h l)
      = (X : Cert.BN.SX.Idx → EReal) (ix4 (⟨t.val, Nat.lt_of_lt_of_eq t.isLt Gen.N_0⟩ : Fin 32) ch h l) := by
  obtain ⟨e0, e1, e2, e3⟩ := stat_idx t
  show (X : Cert.BN.SX.Idx → EReal) (((cfg0.win 0).blk t).view.emb (ix4 (0 : Fin 1) ch h l)) = _
  refine congrArg (X : Cert.BN.SX.Idx → EReal) (funext fun ax => Fin.ext ?_)
  match ax with
  | ⟨0, _⟩ => show win0_0.index t (0 : Fin 4) * 1 + 1 * 0 = t.val; omega
  | ⟨1, _⟩ => show win0_0.index t (1 : Fin 4) * 128 + 1 * ch.val = ch.val; omega
  | ⟨2, _⟩ => show win0_0.index t (2 : Fin 4) * 128 + 1 * h.val = h.val; omega
  | ⟨3, _⟩ => show win0_0.index t (3 : Fin 4) * 128 + 1 * l.val = l.val; omega

end Blk

end Cert.KernelIdeal.Hand

end
-- ==== Proof.KI.StatsVal.lean ====
/-
  The statistics pass's values on the extended reals. Scratch `k` after the first n + 1 points of a half holds, at
  (channel, lane), the sum over those batch elements and over the rows of the statistic's summand (the reset at the
  first point of a half makes the old contents zero); the row stored at the end of a half is the sum of that over
  the lanes; and the two halves' rows added are the sum over the whole batch, the rows and the lanes:
  Σx_re, Σx_re², Σx_im, Σx_im², Σx_re·x_im per channel. Sums on the extended reals are sums in an additive
  commutative monoid, so reordering and regrouping them needs no finiteness.
-/
import proofs.«141001_j43499428774583_2_alg».proof.Proof.KI.StatsOps
import proofs.«141001_j43499428774583_2_alg».proof.Proof.KI.StatsBlk

set_option maxRecDepth 16384

noncomputable section

open scoped BigOperators

namespace Cert.KernelIdeal.Hand

open Idealize.ShloMosaic Idealize.ShloMosaic.TcCoe Idealize.ShloMosaic.ValueIdx
open Idealize.ShloMosaic.Pipeline (Dat RDat Cfg Window cellOf)
open Cert.KernelIdeal Cert.KernelIdeal.Gen

/-! ## The five summands -/

/-- The summand of statistic `k` at (channel, batch element, row, lane): x_re, x_re², x_im, x_im², x_re·x_im. -/
def statS : Fin 5 → (Cert.BN.SX.Idx → EReal) → Fin 64 → Fin 32 → Fin 128 → Fin 128 → EReal
  | ⟨0, _⟩ => fun x j b h w => Cert.BN.xr x j b h w
  | ⟨1, _⟩ => fun x j b h w => Cert.BN.xr x j b h w * Cert.BN.xr x j b h w
  | ⟨2, _⟩ => fun x j b h w => Cert.BN.xi x j b h w
  | ⟨3, _⟩ => fun x j b h w => Cert.BN.xi x j b h w * Cert.BN.xi x j b h w
  | ⟨4, _⟩ => fun x j b h w => Cert.BN.xr x j b h w * Cert.BN.xi x j b h w

/-- The same with the batch element a natural number: zero past the batch. -/
def statN (k : Fin 5) (x : Cert.BN.SX.Idx → EReal) (j : Fin 64) (n : ℕ) (h w : Fin 128) : EReal :=
  if hn : n < 32 then statS k x j ⟨n, hn⟩ h w else 0

section Val

variable (c : Dev nD) (X : Buf (Elt Ideal) ((cfg0.win 0).arr.view.loc (c.tc : Thread nD τ)))

/-! ## One point's summands are the array's -/

theorem stat_re_blk (t : Fin cfg0.N) (j : Fin 64) (h l : Fin 128) :
    statRe (xblk (F := Ideal) c X t) j h l
      = Cert.BN.xr (X : Cert.BN.SX.Idx → EReal) j (⟨t.val, Nat.lt_of_lt_of_eq t.isLt Gen.N_0⟩ : Fin 32) h l :=
  stat_blk c X t _ h l

theorem stat_im_blk (t : Fin cfg0.N) (j : Fin 64) (h l : Fin 128) :
    statIm (xblk (F := Ideal) c X t) j h l
      = Cert.BN.xi (X : Cert.BN.SX.Idx → EReal) j (⟨t.val, Nat.lt_of_lt_of_eq t.isLt Gen.N_0⟩ : Fin 32) h l :=
  stat_blk c X t _ h l

theorem stat_term_blk (k : Fin 5) (t : Fin cfg0.N) (j : Fin 64) (h l : Fin 128) :
    statTerm k (xblk (F := Ideal) c X t) j h l
      = statS k (X : Cert.BN.SX.Idx → EReal) j (⟨t.val, Nat.lt_of_lt_of_eq t.isLt Gen.N_0⟩ : Fin 32) h l := by
  match k with
  | ⟨0, _⟩ => exact stat_re_blk c X t j h l
  | ⟨1, _⟩ => exact congrArg₂ (fun a b : EReal => a * b) (stat_re_blk c X t j h l) (stat_re_blk c X t j h l)
  | ⟨2, _⟩ => exact stat_im_blk c X t j h l
  | ⟨3, _⟩ => exact congrArg₂ (fun a b : EReal => a * b) (stat_im_blk c X t j h l) (stat_im_blk c X t j h l)
  | ⟨4, _⟩ => exact congrArg₂ (fun a b : EReal => a * b) (stat_re_blk c X t j h l) (stat_im_blk c X t j h l)

/-! ## The scratch after n points -/

/-- One more point: the scratch entry (zero at the first point of a half) plus the point's row sums. -/
theorem stat_acc_succ (k : Fin 5) (n : ℕ) (hn : n < 32) (j : Fin 64) (l : Fin 128) :
    acc (F := Ideal) c X k (n + 1) (ix2 j l)
      = (if n % 16 = 0 then (0 : EReal) else acc (F := Ideal) c X k n (ix2 j l))
        + ∑ h : Fin 128, statN k (X : Cert.BN.SX.Idx → EReal) j n h l := by
  have hN : n < cfg0.N := Nat.lt_of_lt_of_eq hn Gen.N_0.symm
  show (if h : n < cfg0.N then upd k (xblk c X ⟨n, h⟩) (if n % 16 = 0 then zer k else acc c X k n) else acc c X k n) (ix2 j l) = _
  rw [dif_pos hN]
  refine (stat_upd_apply k _ _ j l).trans ?_
  refine congrArg₂ (fun a b : EReal => a + b) ?_ ?_
  · by_cases h0 : n % 16 = 0
    · rw [if_pos h0, if_pos h0]; exact stat_zer_apply k _
    · rw [if_neg h0, if_neg h0]
  · refine Finset.sum_congr rfl fun h _ => (stat_term_blk c X k ⟨n, hN⟩ j h l).trans ?_
    unfold statN
    rw [dif_pos hn]

/-- After the first n + 1 points of half p: the sum over those points of their row sums. -/
theorem stat_acc (k : Fin 5) (p : ℕ) (hp : p < 2) (j : Fin 64) (l : Fin 128) : ∀ n : ℕ, n < 16 →
    acc (F := Ideal) c X k (16 * p + (n + 1)) (ix2 j l)
      = ∑ b ∈ Finset.range (n + 1), ∑ h : Fin 128, statN k (X : Cert.BN.SX.Idx → EReal) j (16 * p + b) h l
  | 0, _ => by
    refine (stat_acc_succ c X k (16 * p) (by omega) j l).trans ?_
    rw [if_pos (by omega), zero_add, Finset.sum_range_one]
    rfl
  | n + 1, hn => by
    refine (stat_acc_succ c X k (16 * p + (n + 1)) (by omega) j l).trans ?_
    rw [if_neg (by omega), stat_acc k p hp j l n (by omega), Finset.sum_range_succ _ (n + 1)]

/-- The row a half stores, at channel j: the sum over the half's 16 batch elements, the rows and the lanes. -/
theorem stat_pay (k : Fin 5) (p : ℕ) (hp : p < 2) (j : Fin 64) :
    pay (F := Ideal) c X k p (ix2 (0 : Fin 1) j)
      = ∑ b ∈ Finset.range 16, ∑ h : Fin 128, ∑ l : Fin 128, statN k (X : Cert.BN.SX.Idx → EReal) j (16 * p + b) h l := by
  show row k (acc c X k (16 * p + 16)) (ix2 (0 : Fin 1) j) = _
  refine (stat_row_apply k _ j).trans ?_
  refine (Finset.sum_congr rfl fun l _ => stat_acc c X k p hp j l 15 (by omega)).trans ?_
  rw [Finset.sum_comm]
  exact Finset.sum_congr rfl fun b _ => Finset.sum_comm

/-- The two halves together: the sum over the whole batch. -/
theorem stat_total (k : Fin 5) (j : Fin 64) :
    pay (F := Ideal) c X k 0 (ix2 (0 : Fin 1) j) + pay (F := Ideal) c X k 1 (ix2 (0 : Fin 1) j)
      = Cert.BN.tot (statS k (X : Cert.BN.SX.Idx → EReal) j) := by
  rw [stat_pay c X k 0 (by omega) j, stat_pay c X k 1 (by omega) j]
  unfold Cert.BN.tot
  have e : ∀ b : Fin 32, (∑ h : Fin 128, ∑ w : Fin 128, statS k (X : Cert.BN.SX.Idx → EReal) j b h w)
      = ∑ h : Fin 128, ∑ w : Fin 128, statN k (X : Cert.BN.SX.Idx → EReal) j b.val h w := fun b => by
    unfold statN; simp only [dif_pos b.isLt]
  rw [Finset.sum_congr rfl fun b _ => e b,
    Fin.sum_univ_eq_sum_range (fun n => ∑ h : Fin 128, ∑ w : Fin 128, statN k (X : Cert.BN.SX.Idx → EReal) j n h w) 32,
    show (32 : ℕ) = 16 + 16 from rfl, Finset.sum_range_add]
  refine congrArg₂ (fun a b : EReal => a + b) ?_ ?_
  · exact Finset.sum_congr rfl fun b _ => by rw [Nat.mul_zero, Nat.zero_add]
  · exact Finset.sum_congr rfl fun b _ => by rw [Nat.mul_one]

/-! ## The five statistics -/

theorem pay_sum0 (j : Fin 64) :
    pay (F := Ideal) c X 0 0 (ix2 (0 : Fin 1) j) + pay (F := Ideal) c X 0 1 (ix2 (0 : Fin 1) j)
      = Cert.BN.tot (Cert.BN.xr (X : Cert.BN.SX.Idx → EReal) j) := stat_total c X 0 j

theorem pay_sum1 (j : Fin 64) :
    pay (F := Ideal) c X 1 0 (ix2 (0 : Fin 1) j) + pay (F := Ideal) c X 1 1 (ix2 (0 : Fin 1) j)
      = Cert.BN.tot (fun b h w => Cert.BN.xr (X : Cert.BN.SX.Idx → EReal) j b h w * Cert.BN.xr (X : Cert.BN.SX.Idx → EReal) j b h w) :=
  stat_total c X 1 j

theorem pay_sum2 (j : Fin 64) :
    pay (F := Ideal) c X 2 0 (ix2 (0 : Fin 1) j) + pay (F := Ideal) c X 2 1 (ix2 (0 : Fin 1) j)
      = Cert.BN.tot (Cert.BN.xi (X : Cert.BN.SX.Idx → EReal) j) := stat_total c X 2 j

theorem pay_sum3 (j : Fin 64) :
    pay (F := Ideal) c X 3 0 (ix2 (0 : Fin 1) j) + pay (F := Ideal) c X 3 1 (ix2 (0 : Fin 1) j)
      = Cert.BN.tot (fun b h w => Cert.BN.xi (X : Cert.BN.SX.Idx → EReal) j b h w * Cert.BN.xi (X : Cert.BN.SX.Idx → EReal) j b h w) :=
  stat_total c X 3 j

theorem pay_sum4 (j : Fin 64) :
    pay (F := Ideal) c X 4 0 (ix2 (0 : Fin 1) j) + pay (F := Ideal) c X 4 1 (ix2 (0 : Fin 1) j)
      = Cert.BN.tot (fun b h w => Cert.BN.xr (X : Cert.BN.SX.Idx → EReal) j b h w * Cert.BN.xi (X : Cert.BN.SX.Idx → EReal) j b h w) :=
  stat_total c X 4 j

end Val

end Cert.KernelIdeal.Hand

end
-- ==== Proof.KI.AffVal1.lean ====
/-
  The affine pass's two stored payloads read at one index of the output block, at the ideal instance: at channel
  c < 64, row h, lane w the first store holds a00[c]·x[c] + a01[c]·x[c + 64] + b0[c], the second (channels 64 + c)
  a10[c]·x[c] + a11[c]·x[c + 64] + b1[c], where x[·] is the input block at (0, ·, h, w) and each coefficient is read at
  (0, c, 0, 0): a coefficient block [1, 64, 1, 1] repeated along rows and lanes reads its channel's entry, the two
  slices of the input block are its channels 0–63 and 64–127. Then the output block as its two stores leave it.
-/
import proofs.«141001_j43499428774583_2_alg».proof.Proof.KI.Data1
import Idealize.ShloMosaic.Lib.Pipeline.Value
import Idealize.ShloMosaic.Lib.ValueIdx

set_option maxRecDepth 16384

noncomputable section

namespace Cert.KernelIdeal.Hand

open Idealize.ShloMosaic Idealize.ShloMosaic.TcCoe Idealize.ShloMosaic.ValueIdx
open Idealize.ShloMosaic.Pipeline (Dat Cfg Window)
open Cert.KernelIdeal Cert.KernelIdeal.Gen

/-- A coefficient block repeated along rows and lanes reads, at (0, c, h, w), its entry (0, c, 0, 0). -/
theorem aff_bcast_apply (a : Vec Ideal S1x64x1x1 .f32) (c : Fin 64) (h : Fin 64) (w : Fin 128) :
    broadcastTo S1x64x64x128 (shapeCast S1x64x1x1 a shapeCasts_S1x64x1x1_S1x64x1x1) broadcasts_S1x64x1x1_S1x64x64x128
        (ix4 (0 : Fin 1) c h w)
      = a (ix4 (0 : Fin 1) c (0 : Fin 1) (0 : Fin 1)) := by
  rw [shapeCast_self]
  refine broadcastTo_apply a broadcasts_S1x64x1x1_S1x64x64x128 (ix4 (0 : Fin 1) c h w) (ix4 (0 : Fin 1) c (0 : Fin 1) (0 : Fin 1)) fun d => ?_
  match d with
  | ⟨0, _⟩ => rfl
  | ⟨1, _⟩ => rfl
  | ⟨2, _⟩ => rfl
  | ⟨3, _⟩ => rfl

/-- The channel of the input block that carries channel c's real part … -/
abbrev aff_chRe (c : Fin 64) : Fin 128 := ⟨c.val, by omega⟩
/-- … and the one that carries its imaginary part. -/
abbrev aff_chIm (c : Fin 64) : Fin 128 := ⟨c.val + 64, by omega⟩

/-- The slice of channels 0–63 of the input block, at (0, c, h, w), is the block at channel c. -/
theorem aff_sliceRe_apply (x0 : Vec Ideal S1x128x64x128 .f32) (c : Fin 64) (h : Fin 64) (w : Fin 128) :
    k1_pay2 x0 (ix4 (0 : Fin 1) c h w) = x0 (ix4 (0 : Fin 1) (aff_chRe c) h w) := by
  unfold k1_pay2
  refine extractStridedSlice_apply _ x0 slices_S1x128x64x128_o0_0_0_0_S1x64x64x128 (ix4 (0 : Fin 1) c h w) (ix4 (0 : Fin 1) (aff_chRe c) h w) fun d => ?_
  match d with
  | ⟨0, _⟩ => rfl
  | ⟨1, _⟩ => show c.val = 0 + c.val; omega
  | ⟨2, _⟩ => show h.val = 0 + h.val; omega
  | ⟨3, _⟩ => show w.val = 0 + w.val; omega

/-- The slice of channels 64–127, at (0, c, h, w), is the block at channel c + 64. -/
theorem aff_sliceIm_apply (x0 : Vec Ideal S1x128x64x128 .f32) (c : Fin 64) (h : Fin 64) (w : Fin 128) :
    k1_pay3 x0 (ix4 (0 : Fin 1) c h w) = x0 (ix4 (0 : Fin 1) (aff_chIm c) h w) := by
  unfold k1_pay3
  refine extractStridedSlice_apply _ x0 slices_S1x128x64x128_o0_64_0_0_S1x64x64x128 (ix4 (0 : Fin 1) c h w) (ix4 (0 : Fin 1) (aff_chIm c) h w) fun d => ?_
  match d with
  | ⟨0, _⟩ => rfl
  | ⟨1, _⟩ => show c.val + 64 = 64 + c.val; omega
  | ⟨2, _⟩ => show h.val = 0 + h.val; omega
  | ⟨3, _⟩ => show w.val = 0 + w.val; omega

/-- The first store's payload at (0, c, h, w): the real row of channel c's map. -/
theorem aff_payLo_apply (x0 : Vec Ideal S1x128x64x128 .f32) (a0 a1 b : Vec Ideal S1x64x1x1 .f32) (c : Fin 64) (h : Fin 64) (w : Fin 128) :
    k1_pay4 x0 a0 a1 b (ix4 (0 : Fin 1) c h w)
      = (a0 (ix4 (0 : Fin 1) c (0 : Fin 1) (0 : Fin 1)) * x0 (ix4 (0 : Fin 1) (aff_chRe c) h w)
          + a1 (ix4 (0 : Fin 1) c (0 : Fin 1) (0 : Fin 1)) * x0 (ix4 (0 : Fin 1) (aff_chIm c) h w))
        + b (ix4 (0 : Fin 1) c (0 : Fin 1) (0 : Fin 1)) := by
  unfold k1_pay4
  show (_ * _ + _ * _) + _ = _
  rw [aff_bcast_apply a0 c h w, aff_bcast_apply a1 c h w, aff_bcast_apply b c h w, aff_sliceRe_apply x0 c h w, aff_sliceIm_apply x0 c h w]

/-- The second store's payload at (0, c, h, w): the imaginary row of channel c's map. -/
theorem aff_payHi_apply (x0 : Vec Ideal S1x128x64x128 .f32) (a0 a1 b : Vec Ideal S1x64x1x1 .f32) (c : Fin 64) (h : Fin 64) (w : Fin 128) :
    k1_pay1 (k1_pay5 x0 a0 a1) b (ix4 (0 : Fin 1) c h w)
      = (a0 (ix4 (0 : Fin 1) c (0 : Fin 1) (0 : Fin 1)) * x0 (ix4 (0 : Fin 1) (aff_chRe c) h w)
          + a1 (ix4 (0 : Fin 1) c (0 : Fin 1) (0 : Fin 1)) * x0 (ix4 (0 : Fin 1) (aff_chIm c) h w))
        + b (ix4 (0 : Fin 1) c (0 : Fin 1) (0 : Fin 1)) := by
  unfold k1_pay1 k1_pay5
  show (_ * _ + _ * _) + _ = _
  rw [aff_bcast_apply a0 c h w, aff_bcast_apply a1 c h w, aff_bcast_apply b c h w, aff_sliceRe_apply x0 c h w, aff_sliceIm_apply x0 c h w]

theorem aff_hz4 : (![0, 0, 0, 0] : Fin 4 → Nat) = fun _ => 0 := funext fun a => by fin_cases a <;> rfl

/-- Channel c + 64 of the output block is the second store's rectangle at channel c. -/
theorem aff_qHi_emb (c : Fin 64) (h : Fin 64) (w : Fin 128) :
    qHi.emb (ix4 (0 : Fin 1) c h w) = ix4 (0 : Fin 1) (aff_chIm c) h w := by
  funext d
  apply Fin.ext
  rw [Rect.emb_apply]
  match d with
  | ⟨0, _⟩ => rfl
  | ⟨1, _⟩ => show 64 + 1 * c.val = c.val + 64; omega
  | ⟨2, _⟩ => show 0 + 1 * h.val = h.val; omega
  | ⟨3, _⟩ => show 0 + 1 * w.val = w.val; omega

/-- Channel c of the output block is the first store's rectangle at channel c. -/
theorem aff_qLo_emb (c : Fin 64) (h : Fin 64) (w : Fin 128) :
    qLo.emb (ix4 (0 : Fin 1) c h w) = ix4 (0 : Fin 1) (aff_chRe c) h w := by
  funext d
  apply Fin.ext
  rw [Rect.emb_apply]
  match d with
  | ⟨0, _⟩ => rfl
  | ⟨1, _⟩ => show 0 + 1 * c.val = c.val; omega
  | ⟨2, _⟩ => show 0 + 1 * h.val = h.val; omega
  | ⟨3, _⟩ => show 0 + 1 * w.val = w.val; omega

/-- A channel below 64 is not in the second store's rectangle. -/
theorem aff_not_mem_qHi (c : Fin 64) (h : Fin 64) (w : Fin 128) : ix4 (0 : Fin 1) (aff_chRe c) h w ∉ qHi.set := by
  intro hm
  have h1 := (Rect.mem_set_unit.mp hm) (1 : Fin 4)
  have h2 : 64 ≤ c.val := h1.1
  omega

/-- Two stores, channels 64–127 last: at channel c + 64 the block holds the last store's payload at channel c … -/
theorem aff_canon_hi (pH : qHi.shape.Idx → Elt Ideal .f32) (pL : qLo.shape.Idx → Elt Ideal .f32) (c : Fin 64) (h : Fin 64) (w : Fin 128) :
    View.canon [(⟨qHi, pH⟩ : View.Piece (Elt Ideal) S1x128x64x128 .f32), ⟨qLo, pL⟩] (ix4 (0 : Fin 1) (aff_chIm c) h w)
      = pH (ix4 (0 : Fin 1) c h w) :=
  (congrArg (View.canon [(⟨qHi, pH⟩ : View.Piece (Elt Ideal) S1x128x64x128 .f32), ⟨qLo, pL⟩]) (aff_qHi_emb c h w).symm).trans
    (View.canon_cons_emb qHi pH [⟨qLo, pL⟩] (ix4 (0 : Fin 1) c h w))

/-- … and at channel c < 64 the first store's payload at channel c. -/
theorem aff_canon_lo (pH : qHi.shape.Idx → Elt Ideal .f32) (pL : qLo.shape.Idx → Elt Ideal .f32) (c : Fin 64) (h : Fin 64) (w : Fin 128) :
    View.canon [(⟨qHi, pH⟩ : View.Piece (Elt Ideal) S1x128x64x128 .f32), ⟨qLo, pL⟩] (ix4 (0 : Fin 1) (aff_chRe c) h w)
      = pL (ix4 (0 : Fin 1) c h w) :=
  (View.canon_cons_of_not_mem (⟨qHi, pH⟩ : View.Piece (Elt Ideal) S1x128x64x128 .f32) [⟨qLo, pL⟩] (aff_not_mem_qHi c h w)).trans
    ((congrArg (View.canon [(⟨qLo, pL⟩ : View.Piece (Elt Ideal) S1x128x64x128 .f32)]) (aff_qLo_emb c h w).symm).trans
      (View.canon_cons_emb qLo pL [] (ix4 (0 : Fin 1) c h w)))

variable (x0 : Vec Ideal S1x128x64x128 .f32) (a00 a01 a10 a11 b0 b1 : Vec Ideal S1x64x1x1 .f32)

/-- The output block at channel c + 64: the imaginary row of channel c's map. -/
theorem out1_7_hi (c : Fin 64) (h : Fin 64) (w : Fin 128) :
    out1_7 x0 a00 a01 a10 a11 b0 b1 (ix4 (0 : Fin 1) (aff_chIm c) h w)
      = (a10 (ix4 (0 : Fin 1) c (0 : Fin 1) (0 : Fin 1)) * x0 (ix4 (0 : Fin 1) (aff_chRe c) h w)
          + a11 (ix4 (0 : Fin 1) c (0 : Fin 1) (0 : Fin 1)) * x0 (ix4 (0 : Fin 1) (aff_chIm c) h w))
        + b1 (ix4 (0 : Fin 1) c (0 : Fin 1) (0 : Fin 1)) := by
  unfold out1_7
  refine (aff_canon_hi _ _ c h w).trans ?_
  simp only [View.ld_unit_zero (S := S1x128x64x128) aff_hz4, View.ld_unit_zero (S := S1x64x1x1) aff_hz4]
  exact aff_payHi_apply x0 a10 a11 b1 c h w

/-- The output block at channel c < 64: the real row of channel c's map. -/
theorem out1_7_lo (c : Fin 64) (h : Fin 64) (w : Fin 128) :
    out1_7 x0 a00 a01 a10 a11 b0 b1 (ix4 (0 : Fin 1) (aff_chRe c) h w)
      = (a00 (ix4 (0 : Fin 1) c (0 : Fin 1) (0 : Fin 1)) * x0 (ix4 (0 : Fin 1) (aff_chRe c) h w)
          + a01 (ix4 (0 : Fin 1) c (0 : Fin 1) (0 : Fin 1)) * x0 (ix4 (0 : Fin 1) (aff_chIm c) h w))
        + b0 (ix4 (0 : Fin 1) c (0 : Fin 1) (0 : Fin 1)) := by
  unfold out1_7
  refine (aff_canon_lo _ _ c h w).trans ?_
  simp only [View.ld_unit_zero (S := S1x128x64x128) aff_hz4, View.ld_unit_zero (S := S1x64x1x1) aff_hz4]
  exact aff_payLo_apply x0 a00 a01 b0 c h w

end Cert.KernelIdeal.Hand

end
-- ==== Proof.KI.AffVal2.lean ====
/-
  Where the affine pass's blocks sit in their arrays. Grid point t = 2·b + hh: the block of the input and of the output
  at t is batch element b = t / 2, all 128 channels, rows 64·hh … 64·hh + 63 (hh = t % 2), all lanes; each of the six
  coefficient windows is its whole array at every point. So the input block at (0, ch, h, w) is the array at
  (b, ch, 64·hh + h, w), a coefficient block is its array, an index of the output array lies in point t's block iff its
  batch coordinate is t / 2 and its row is in the half t % 2, and every index lies in the block of point
  2·(batch) + (row / 64).
-/
import proofs.«141001_j43499428774583_2_alg».proof.Proof.KI.Data1
import Idealize.ShloMosaic.Lib.Pipeline.Value
import Idealize.ShloMosaic.Lib.ValueIdx

set_option maxRecDepth 16384

noncomputable section

namespace Cert.KernelIdeal.Hand

open Idealize.ShloMosaic Idealize.ShloMosaic.TcCoe Idealize.ShloMosaic.ValueIdx
open Idealize.ShloMosaic.Pipeline (Dat Cfg Window)
open Cert.KernelIdeal Cert.KernelIdeal.Gen

variable {F : FTy → Type} [FloatOps F]
variable (V : (c : Dev nD) → (b : Ref sig .tc) → Buf (Elt F) ((c : Thread nD τ).loc b))

/-- Row h of half hh of the array's 128 rows. -/
abbrev affRow (hh : Fin 2) (h : Fin 64) : Fin 128 := ⟨64 * hh.val + h.val, by omega⟩

/-- The printed index maps, decided over the 64 grid points: the input's and the output's block index at point t is
    (t / 2, 0, t % 2, 0); every coefficient window's is (0, 0, 0, 0). -/
theorem aff_idx_facts1 : ∀ t : Fin cfg1.N,
    (win1_0.index t (0 : Fin 4) = t.val / 2 ∧ win1_0.index t (1 : Fin 4) = 0 ∧ win1_0.index t (2 : Fin 4) = t.val % 2 ∧ win1_0.index t (3 : Fin 4) = 0)
    ∧ (win1_7.index t (0 : Fin 4) = t.val / 2 ∧ win1_7.index t (1 : Fin 4) = 0 ∧ win1_7.index t (2 : Fin 4) = t.val % 2 ∧ win1_7.index t (3 : Fin 4) = 0)
    ∧ (∀ a : Fin 4, win1_1.index t a = 0) ∧ (∀ a : Fin 4, win1_2.index t a = 0) ∧ (∀ a : Fin 4, win1_3.index t a = 0)
    ∧ (∀ a : Fin 4, win1_4.index t a = 0) ∧ (∀ a : Fin 4, win1_5.index t a = 0) ∧ (∀ a : Fin 4, win1_6.index t a = 0) :=
  (by decide +kernel : ∀ t : Fin grid1.N, _)

/-- Every pair (batch element, half) is some point's. -/
theorem aff_idx_onto1 : ∀ (b : Fin 32) (hh : Fin 2), ∃ t : Fin cfg1.N, t.val = 2 * b.val + hh.val :=
  (by decide +kernel : ∀ (b : Fin 32) (hh : Fin 2), ∃ t : Fin grid1.N, t.val = 2 * b.val + hh.val)

/-- The input block at point t, at (0, ch, h, w), is the array at (t / 2, ch, 64·(t % 2) + h, w). -/
theorem aff_iblk1_x (c : Dev nD) (t : Fin cfg1.N) (b : Fin 32) (hh : Fin 2) (hb : b.val = t.val / 2) (hhh : hh.val = t.val % 2)
    (ch : Fin 128) (h : Fin 64) (w : Fin 128) :
    (iblk1 V c 0 t : Vec F S1x128x64x128 .f32) (ix4 (0 : Fin 1) ch h w)
      = (V c main_arg0 : S32x128x128x128.Idx → Elt F .f32) (ix4 b ch (affRow hh h) w) := by
  obtain ⟨⟨e0, e1, e2, e3⟩, -⟩ := aff_idx_facts1 t
  unfold iblk1
  show V c main_arg0 (((cfg1.win 0).blk t).view.emb (ix4 (0 : Fin 1) ch h w)) = V c main_arg0 _
  refine congrArg _ (funext fun d => Fin.ext ?_)
  match d with
  | ⟨0, _⟩ => show win1_0.index t (0 : Fin 4) * 1 + 1 * 0 = b.val; omega
  | ⟨1, _⟩ => show win1_0.index t (1 : Fin 4) * 128 + 1 * ch.val = ch.val; omega
  | ⟨2, _⟩ => show win1_0.index t (2 : Fin 4) * 64 + 1 * h.val = 64 * hh.val + h.val; omega
  | ⟨3, _⟩ => show win1_0.index t (3 : Fin 4) * 128 + 1 * w.val = w.val; omega

/-- Coefficient window 1's block at any point is its array. -/
theorem aff_iblk1_co1 (c : Dev nD) (t : Fin cfg1.N) (cc : Fin 64) :
    (iblk1 V c 1 t : Vec F S1x64x1x1 .f32) (ix4 (0 : Fin 1) cc (0 : Fin 1) (0 : Fin 1))
      = (V c main_v110 : S1x64x1x1.Idx → Elt F .f32) (ix4 (0 : Fin 1) cc (0 : Fin 1) (0 : Fin 1)) := by
  obtain ⟨-, -, f, -⟩ := aff_idx_facts1 t
  have z0 := f (0 : Fin 4)
  have z1 := f (1 : Fin 4)
  have z2 := f (2 : Fin 4)
  have z3 := f (3 : Fin 4)
  unfold iblk1
  show V c main_v110 (((cfg1.win 1).blk t).view.emb (ix4 (0 : Fin 1) cc (0 : Fin 1) (0 : Fin 1))) = V c main_v110 _
  refine congrArg _ (funext fun d => Fin.ext ?_)
  match d with
  | ⟨0, _⟩ => show win1_1.index t (0 : Fin 4) * 1 + 1 * 0 = 0; omega
  | ⟨1, _⟩ => show win1_1.index t (1 : Fin 4) * 64 + 1 * cc.val = cc.val; omega
  | ⟨2, _⟩ => show win1_1.index t (2 : Fin 4) * 1 + 1 * 0 = 0; omega
  | ⟨3, _⟩ => show win1_1.index t (3 : Fin 4) * 1 + 1 * 0 = 0; omega

/-- Coefficient window 2's block at any point is its array. -/
theorem aff_iblk1_co2 (c : Dev nD) (t : Fin cfg1.N) (cc : Fin 64) :
    (iblk1 V c 2 t : Vec F S1x64x1x1 .f32) (ix4 (0 : Fin 1) cc (0 : Fin 1) (0 : Fin 1))
      = (V c main_v111 : S1x64x1x1.Idx → Elt F .f32) (ix4 (0 : Fin 1) cc (0 : Fin 1) (0 : Fin 1)) := by
  obtain ⟨-, -, -, f, -⟩ := aff_idx_facts1 t
  have z0 := f (0 : Fin 4)
  have z1 := f (1 : Fin 4)
  have z2 := f (2 : Fin 4)
  have z3 := f (3 : Fin 4)
  unfold iblk1
  show V c main_v111 (((cfg1.win 2).blk t).view.emb (ix4 (0 : Fin 1) cc (0 : Fin 1) (0 : Fin 1))) = V c main_v111 _
  refine congrArg _ (funext fun d => Fin.ext ?_)
  match d with
  | ⟨0, _⟩ => show win1_2.index t (0 : Fin 4) * 1 + 1 * 0 = 0; omega
  | ⟨1, _⟩ => show win1_2.index t (1 : Fin 4) * 64 + 1 * cc.val = cc.val; omega
  | ⟨2, _⟩ => show win1_2.index t (2 : Fin 4) * 1 + 1 * 0 = 0; omega
  | ⟨3, _⟩ => show win1_2.index t (3 : Fin 4) * 1 + 1 * 0 = 0; omega

/-- Coefficient window 3's block at any point is its array. -/
theorem aff_iblk1_co3 (c : Dev nD) (t : Fin cfg1.N) (cc : Fin 64) :
    (iblk1 V c 3 t : Vec F S1x64x1x1 .f32) (ix4 (0 : Fin 1) cc (0 : Fin 1) (0 : Fin 1))
      = (V c main_v112 : S1x64x1x1.Idx → Elt F .f32) (ix4 (0 : Fin 1) cc (0 : Fin 1) (0 : Fin 1)) := by
  obtain ⟨-, -, -, -, f, -⟩ := aff_idx_facts1 t
  have z0 := f (0 : Fin 4)
  have z1 := f (1 : Fin 4)
  have z2 := f (2 : Fin 4)
  have z3 := f (3 : Fin 4)
  unfold iblk1
  show V c main_v112 (((cfg1.win 3).blk t).view.emb (ix4 (0 : Fin 1) cc (0 : Fin 1) (0 : Fin 1))) = V c main_v112 _
  refine congrArg _ (funext fun d => Fin.ext ?_)
  match d with
  | ⟨0, _⟩ => show win1_3.index t (0 : Fin 4) * 1 + 1 * 0 = 0; omega
  | ⟨1, _⟩ => show win1_3.index t (1 : Fin 4) * 64 + 1 * cc.val = cc.val; omega
  | ⟨2, _⟩ => show win1_3.index t (2 : Fin 4) * 1 + 1 * 0 = 0; omega
  | ⟨3, _⟩ => show win1_3.index t (3 : Fin 4) * 1 + 1 * 0 = 0; omega

/-- Coefficient window 4's block at any point is its array. -/
theorem aff_iblk1_co4 (c : Dev nD) (t : Fin cfg1.N) (cc : Fin 64) :
    (iblk1 V c 4 t : Vec F S1x64x1x1 .f32) (ix4 (0 : Fin 1) cc (0 : Fin 1) (0 : Fin 1))
      = (V c main_v113 : S1x64x1x1.Idx → Elt F .f32) (ix4 (0 : Fin 1) cc (0 : Fin 1) (0 : Fin 1)) := by
  obtain ⟨-, -, -, -, -, f, -⟩ := aff_idx_facts1 t
  have z0 := f (0 : Fin 4)
  have z1 := f (1 : Fin 4)
  have z2 := f (2 : Fin 4)
  have z3 := f (3 : Fin 4)
  unfold iblk1
  show V c main_v113 (((cfg1.win 4).blk t).view.emb (ix4 (0 : Fin 1) cc (0 : Fin 1) (0 : Fin 1))) = V c main_v113 _
  refine congrArg _ (funext fun d => Fin.ext ?_)
  match d with
  | ⟨0, _⟩ => show win1_4.index t (0 : Fin 4) * 1 + 1 * 0 = 0; omega
  | ⟨1, _⟩ => show win1_4.index t (1 : Fin 4) * 64 + 1 * cc.val = cc.val; omega
  | ⟨2, _⟩ => show win1_4.index t (2 : Fin 4) * 1 + 1 * 0 = 0; omega
  | ⟨3, _⟩ => show win1_4.index t (3 : Fin 4) * 1 + 1 * 0 = 0; omega

/-- Coefficient window 5's block at any point is its array. -/
theorem aff_iblk1_co5 (c : Dev nD) (t : Fin cfg1.N) (cc : Fin 64) :
    (iblk1 V c 5 t : Vec F S1x64x1x1 .f32) (ix4 (0 : Fin 1) cc (0 : Fin 1) (0 : Fin 1))
      = (V c main_v114 : S1x64x1x1.Idx → Elt F .f32) (ix4 (0 : Fin 1) cc (0 : Fin 1) (0 : Fin 1)) := by
  obtain ⟨-, -, -, -, -, -, f, -⟩ := aff_idx_facts1 t
  have z0 := f (0 : Fin 4)
  have z1 := f (1 : Fin 4)
  have z2 := f (2 : Fin 4)
  have z3 := f (3 : Fin 4)
  unfold iblk1
  show V c main_v114 (((cfg1.win 5).blk t).view.emb (ix4 (0 : Fin 1) cc (0 : Fin 1) (0 : Fin 1))) = V c main_v114 _
  refine congrArg _ (funext fun d => Fin.ext ?_)
  match d with
  | ⟨0, _⟩ => show win1_5.index t (0 : Fin 4) * 1 + 1 * 0 = 0; omega
  | ⟨1, _⟩ => show win1_5.index t (1 : Fin 4) * 64 + 1 * cc.val = cc.val; omega
  | ⟨2, _⟩ => show win1_5.index t (2 : Fin 4) * 1 + 1 * 0 = 0; omega
  | ⟨3, _⟩ => show win1_5.index t (3 : Fin 4) * 1 + 1 * 0 = 0; omega

/-- Coefficient window 6's block at any point is its array. -/
theorem aff_iblk1_co6 (c : Dev nD) (t : Fin cfg1.N) (cc : Fin 64) :
    (iblk1 V c 6 t : Vec F S1x64x1x1 .f32) (ix4 (0 : Fin 1) cc (0 : Fin 1) (0 : Fin 1))
      = (V c main_v115 : S1x64x1x1.Idx → Elt F .f32) (ix4 (0 : Fin 1) cc (0 : Fin 1) (0 : Fin 1)) := by
  obtain ⟨-, -, -, -, -, -, -, f⟩ := aff_idx_facts1 t
  have z0 := f (0 : Fin 4)
  have z1 := f (1 : Fin 4)
  have z2 := f (2 : Fin 4)
  have z3 := f (3 : Fin 4)
  unfold iblk1
  show V c main_v115 (((cfg1.win 6).blk t).view.emb (ix4 (0 : Fin 1) cc (0 : Fin 1) (0 : Fin 1))) = V c main_v115 _
  refine congrArg _ (funext fun d => Fin.ext ?_)
  match d with
  | ⟨0, _⟩ => show win1_6.index t (0 : Fin 4) * 1 + 1 * 0 = 0; omega
  | ⟨1, _⟩ => show win1_6.index t (1 : Fin 4) * 64 + 1 * cc.val = cc.val; omega
  | ⟨2, _⟩ => show win1_6.index t (2 : Fin 4) * 1 + 1 * 0 = 0; omega
  | ⟨3, _⟩ => show win1_6.index t (3 : Fin 4) * 1 + 1 * 0 = 0; omega

/-- An index of the output array is in point t's block iff each coordinate is in the block's range on its axis. -/
theorem aff_mem_blk1 (t : Fin cfg1.N) (i : S32x128x128x128.Idx) :
    i ∈ ((cfg1.win 7).blk t).view.set ↔ ∀ a : Fin 4, win1_7.index t a * S1x128x64x128.size a ≤ (i a).val ∧ (i a).val < win1_7.index t a * S1x128x64x128.size a + S1x128x64x128.size a := by
  show i ∈ ((View.whole main_v116).slice (win1_7.rect t)).set ↔ _
  rw [View.set_slice_whole, Rect.mem_set_unit]
  exact Iff.rfl

/-- Every index of the output array is in the block of the point 2·(batch element) + (row / 64), which writes back. -/
theorem aff_cover1 (i : S32x128x128x128.Idx) :
    ∃ t : Fin cfg1.N, (cfg1.win 7).flush t = true ∧ i ∈ ((cfg1.win 7).blk t).view.set := by
  have hi0 : (i 0).val < 32 := (i 0).isLt
  have hi1 : (i 1).val < 128 := (i 1).isLt
  have hi2 : (i 2).val < 128 := (i 2).isLt
  have hi3 : (i 3).val < 128 := (i 3).isLt
  obtain ⟨t, ht⟩ := aff_idx_onto1 ⟨(i 0).val, hi0⟩ ⟨(i 2).val / 64, by omega⟩
  have ht' : t.val = 2 * (i 0).val + (i 2).val / 64 := ht
  obtain ⟨-, ⟨e0, e1, e2, e3⟩, -⟩ := aff_idx_facts1 t
  refine ⟨t, flush1_7 t, ?_⟩
  rw [aff_mem_blk1]
  intro a
  match a with
  | ⟨0, _⟩ => show win1_7.index t (0 : Fin 4) * 1 ≤ (i 0).val ∧ (i 0).val < win1_7.index t (0 : Fin 4) * 1 + 1; omega
  | ⟨1, _⟩ => show win1_7.index t (1 : Fin 4) * 128 ≤ (i 1).val ∧ (i 1).val < win1_7.index t (1 : Fin 4) * 128 + 128; omega
  | ⟨2, _⟩ => show win1_7.index t (2 : Fin 4) * 64 ≤ (i 2).val ∧ (i 2).val < win1_7.index t (2 : Fin 4) * 64 + 64; omega
  | ⟨3, _⟩ => show win1_7.index t (3 : Fin 4) * 128 ≤ (i 3).val ∧ (i 3).val < win1_7.index t (3 : Fin 4) * 128 + 128; omega

/-- An element of point t's output block, at (0, ch, h, w), sits in the array at (t / 2, ch, 64·(t % 2) + h, w). -/
theorem aff_blk7_emb (t : Fin cfg1.N) (b : Fin 32) (hh : Fin 2) (hb : b.val = t.val / 2) (hhh : hh.val = t.val % 2)
    (ch : Fin 128) (h : Fin 64) (w : Fin 128) :
    (((cfg1.win 7).blk t).view.emb (ix4 (0 : Fin 1) ch h w) : S32x128x128x128.Idx) = ix4 b ch (affRow hh h) w := by
  obtain ⟨-, ⟨e0, e1, e2, e3⟩, -⟩ := aff_idx_facts1 t
  refine funext fun d => Fin.ext ?_
  match d with
  | ⟨0, _⟩ => show win1_7.index t (0 : Fin 4) * 1 + 1 * 0 = b.val; omega
  | ⟨1, _⟩ => show win1_7.index t (1 : Fin 4) * 128 + 1 * ch.val = ch.val; omega
  | ⟨2, _⟩ => show win1_7.index t (2 : Fin 4) * 64 + 1 * h.val = 64 * hh.val + h.val; omega
  | ⟨3, _⟩ => show win1_7.index t (3 : Fin 4) * 128 + 1 * w.val = w.val; omega

end Cert.KernelIdeal.Hand

end
-- ==== Proof.KI.AffVal.lean ====
/-
  What the affine pass writes, as one function of whole arrays: after the pass the output array is
  Cert.BN.aff of the input array and the six coefficient arrays. At grid point t = 2·b + hh the body's output block at
  (0, ch, h, w) is the real (ch < 64) or imaginary (ch ≥ 64) row of channel (ch mod 64)'s map applied to the input
  block's two channels at (h, w); the input block there is the array at (b, ·, 64·hh + h, w), the coefficient blocks
  are their arrays, and the output block's element sits at (b, ch, 64·hh + h, w): so each point writes back its block
  of that one function, and the blocks cover the array.
-/
import proofs.«141001_j43499428774583_2_alg».proof.Proof.KI.AffVal1
import proofs.«141001_j43499428774583_2_alg».proof.Proof.KI.AffVal2
import proofs.«141001_j43499428774583_2_alg».proof.Proof.OutSpec

set_option maxRecDepth 16384

noncomputable section

namespace Cert.KernelIdeal.Hand

open Idealize.ShloMosaic Idealize.ShloMosaic.TcCoe Idealize.ShloMosaic.ValueIdx
open Idealize.ShloMosaic.Pipeline (Dat Cfg Window)
open Cert.KernelIdeal Cert.KernelIdeal.Gen

open Cert.BN

/-- The specification at a channel below 64: the real row of channel c's map. -/
theorem affAt_lo (X : SX.Idx → EReal) (A00 A01 A10 A11 B0 B1 : SC.Idx → EReal) (b : Fin 32) (c : Fin 64) (h w : Fin 128) :
    affAt X A00 A01 A10 A11 B0 B1 b (aff_chRe c) h w
      = (A00 (ix4 (0 : Fin 1) c (0 : Fin 1) (0 : Fin 1)) * X (ix4 b (aff_chRe c) h w) + A01 (ix4 (0 : Fin 1) c (0 : Fin 1) (0 : Fin 1)) * X (ix4 b (aff_chIm c) h w)) + B0 (ix4 (0 : Fin 1) c (0 : Fin 1) (0 : Fin 1)) := by
  have key : ∀ c' : Fin 64, c' = c →
      (if (aff_chRe c).val < 64 then (A00 (ix4 (0 : Fin 1) c' (0 : Fin 1) (0 : Fin 1)) * xr X c' b h w + A01 (ix4 (0 : Fin 1) c' (0 : Fin 1) (0 : Fin 1)) * xi X c' b h w) + B0 (ix4 (0 : Fin 1) c' (0 : Fin 1) (0 : Fin 1))
        else (A10 (ix4 (0 : Fin 1) c' (0 : Fin 1) (0 : Fin 1)) * xr X c' b h w + A11 (ix4 (0 : Fin 1) c' (0 : Fin 1) (0 : Fin 1)) * xi X c' b h w) + B1 (ix4 (0 : Fin 1) c' (0 : Fin 1) (0 : Fin 1)))
      = (A00 (ix4 (0 : Fin 1) c (0 : Fin 1) (0 : Fin 1)) * X (ix4 b (aff_chRe c) h w) + A01 (ix4 (0 : Fin 1) c (0 : Fin 1) (0 : Fin 1)) * X (ix4 b (aff_chIm c) h w)) + B0 (ix4 (0 : Fin 1) c (0 : Fin 1) (0 : Fin 1)) := by
    intro c' hc
    rw [hc, if_pos (show (aff_chRe c).val < 64 from c.isLt)]
    rfl
  exact key _ (Fin.ext (Nat.mod_eq_of_lt c.isLt))

/-- The specification at channel c + 64: the imaginary row of channel c's map. -/
theorem affAt_hi (X : SX.Idx → EReal) (A00 A01 A10 A11 B0 B1 : SC.Idx → EReal) (b : Fin 32) (c : Fin 64) (h w : Fin 128) :
    affAt X A00 A01 A10 A11 B0 B1 b (aff_chIm c) h w
      = (A10 (ix4 (0 : Fin 1) c (0 : Fin 1) (0 : Fin 1)) * X (ix4 b (aff_chRe c) h w) + A11 (ix4 (0 : Fin 1) c (0 : Fin 1) (0 : Fin 1)) * X (ix4 b (aff_chIm c) h w)) + B1 (ix4 (0 : Fin 1) c (0 : Fin 1) (0 : Fin 1)) := by
  have key : ∀ c' : Fin 64, c' = c →
      (if (aff_chIm c).val < 64 then (A00 (ix4 (0 : Fin 1) c' (0 : Fin 1) (0 : Fin 1)) * xr X c' b h w + A01 (ix4 (0 : Fin 1) c' (0 : Fin 1) (0 : Fin 1)) * xi X c' b h w) + B0 (ix4 (0 : Fin 1) c' (0 : Fin 1) (0 : Fin 1))
        else (A10 (ix4 (0 : Fin 1) c' (0 : Fin 1) (0 : Fin 1)) * xr X c' b h w + A11 (ix4 (0 : Fin 1) c' (0 : Fin 1) (0 : Fin 1)) * xi X c' b h w) + B1 (ix4 (0 : Fin 1) c' (0 : Fin 1) (0 : Fin 1)))
      = (A10 (ix4 (0 : Fin 1) c (0 : Fin 1) (0 : Fin 1)) * X (ix4 b (aff_chRe c) h w) + A11 (ix4 (0 : Fin 1) c (0 : Fin 1) (0 : Fin 1)) * X (ix4 b (aff_chIm c) h w)) + B1 (ix4 (0 : Fin 1) c (0 : Fin 1) (0 : Fin 1)) := by
    intro c' hc
    rw [hc, if_neg (show ¬ (aff_chIm c).val < 64 from by show ¬ c.val + 64 < 64; omega)]
    rfl
  exact key _ (Fin.ext (by show (c.val + 64) % 64 = c.val; omega))

/-- The body's output block is the specification's block: if the input block is the array's rows of batch element b,
    half hh, and the coefficient blocks are the arrays, the output block at (0, ch, h, w) is the specification at
    (b, ch, 64·hh + h, w). -/
theorem out_eq_affAt (X : SX.Idx → EReal) (A00 A01 A10 A11 B0 B1 : SC.Idx → EReal)
    (x0 : Vec Ideal S1x128x64x128 .f32) (a00 a01 a10 a11 b0 b1 : Vec Ideal S1x64x1x1 .f32) (b : Fin 32) (hh : Fin 2)
    (hx : ∀ (ch : Fin 128) (h : Fin 64) (w : Fin 128), x0 (ix4 (0 : Fin 1) ch h w) = X (ix4 b ch (affRow hh h) w))
    (h00 : ∀ cc : Fin 64, a00 (ix4 (0 : Fin 1) cc (0 : Fin 1) (0 : Fin 1)) = A00 (ix4 (0 : Fin 1) cc (0 : Fin 1) (0 : Fin 1))) (h01 : ∀ cc : Fin 64, a01 (ix4 (0 : Fin 1) cc (0 : Fin 1) (0 : Fin 1)) = A01 (ix4 (0 : Fin 1) cc (0 : Fin 1) (0 : Fin 1)))
    (h10 : ∀ cc : Fin 64, a10 (ix4 (0 : Fin 1) cc (0 : Fin 1) (0 : Fin 1)) = A10 (ix4 (0 : Fin 1) cc (0 : Fin 1) (0 : Fin 1))) (h11 : ∀ cc : Fin 64, a11 (ix4 (0 : Fin 1) cc (0 : Fin 1) (0 : Fin 1)) = A11 (ix4 (0 : Fin 1) cc (0 : Fin 1) (0 : Fin 1)))
    (hb0 : ∀ cc : Fin 64, b0 (ix4 (0 : Fin 1) cc (0 : Fin 1) (0 : Fin 1)) = B0 (ix4 (0 : Fin 1) cc (0 : Fin 1) (0 : Fin 1))) (hb1 : ∀ cc : Fin 64, b1 (ix4 (0 : Fin 1) cc (0 : Fin 1) (0 : Fin 1)) = B1 (ix4 (0 : Fin 1) cc (0 : Fin 1) (0 : Fin 1)))
    (ch : Fin 128) (h : Fin 64) (w : Fin 128) :
    out1_7 x0 a00 a01 a10 a11 b0 b1 (ix4 (0 : Fin 1) ch h w) = affAt X A00 A01 A10 A11 B0 B1 b ch (affRow hh h) w := by
  by_cases hlt : ch.val < 64
  · obtain ⟨c, rfl⟩ : ∃ c : Fin 64, ch = aff_chRe c := ⟨⟨ch.val, hlt⟩, rfl⟩
    rw [out1_7_lo, affAt_lo, hx, hx, h00, h01, hb0]
  · obtain ⟨c, rfl⟩ : ∃ c : Fin 64, ch = aff_chIm c := ⟨⟨ch.val - 64, by omega⟩, Fin.ext (by show ch.val = ch.val - 64 + 64; omega)⟩
    rw [out1_7_hi, affAt_hi, hx, hx, h10, h11, hb1]

variable (V : (c : Dev nD) → (b : Ref sig .tc) → Buf (Elt Ideal) ((c : Thread nD τ).loc b))

/-- What point t writes back is its block of the specification applied to the arrays as the pass finds them. -/
theorem aff_flushed1_eq (c : Dev nD) (t : Fin cfg1.N) :
    (dat1 (F := Ideal) V c).flushed 7 t = ((cfg1.win 7).blk t).view.read (Elt Ideal)
      (aff (V c main_arg0) (V c main_v110) (V c main_v111) (V c main_v112) (V c main_v113) (V c main_v114) (V c main_v115)) := by
  show (cfg1.win 7).cut (grid1.coords t) ((dat1 V c).after 7 t) = _
  rw [after1_7]
  have ht : t.val < 64 := Nat.lt_of_lt_of_eq t.isLt N_1
  funext y
  obtain ⟨y0, ch, h, w, rfl⟩ : ∃ (y0 : Fin 1) (ch : Fin 128) (h : Fin 64) (w : Fin 128), y = ix4 y0 ch h w :=
    ⟨y 0, y 1, y 2, y 3, @eq_ix4 1 128 64 128 y⟩
  obtain rfl : y0 = 0 := Subsingleton.elim _ _
  show out1_7 (F := Ideal) _ _ _ _ _ _ _ (ix4 (0 : Fin 1) ch h w)
    = aff (V c main_arg0) (V c main_v110) (V c main_v111) (V c main_v112) (V c main_v113) (V c main_v114) (V c main_v115)
        (((cfg1.win 7).blk t).view.emb (ix4 (0 : Fin 1) ch h w))
  rw [aff_blk7_emb t ⟨t.val / 2, by omega⟩ ⟨t.val % 2, by omega⟩ rfl rfl ch h w]
  exact out_eq_affAt (V c main_arg0) (V c main_v110) (V c main_v111) (V c main_v112) (V c main_v113) (V c main_v114) (V c main_v115)
    (iblk1 V c 0 t) (iblk1 V c 1 t) (iblk1 V c 2 t) (iblk1 V c 3 t) (iblk1 V c 4 t) (iblk1 V c 5 t) (iblk1 V c 6 t)
    ⟨t.val / 2, by omega⟩ ⟨t.val % 2, by omega⟩
    (fun ch h w => aff_iblk1_x V c t ⟨t.val / 2, by omega⟩ ⟨t.val % 2, by omega⟩ rfl rfl ch h w)
    (fun cc => aff_iblk1_co1 V c t cc) (fun cc => aff_iblk1_co2 V c t cc) (fun cc => aff_iblk1_co3 V c t cc) (fun cc => aff_iblk1_co4 V c t cc)
    (fun cc => aff_iblk1_co5 V c t cc) (fun cc => aff_iblk1_co6 V c t cc) ch h w

/-- The output array after the affine pass is the specification of the arrays the pass was entered with. -/
theorem arrAt1_out (c : Dev nD) :
    (dat1 (F := Ideal) V c).arrAt 7 cfg1.N
      = aff (V c main_arg0) (V c main_v110) (V c main_v111) (V c main_v112) (V c main_v113) (V c main_v114) (V c main_v115) :=
  (dat1 (F := Ideal) V c).arrAt_eq_of_cover 7
    (aff (V c main_arg0) (V c main_v110) (V c main_v111) (V c main_v112) (V c main_v113) (V c main_v114) (V c main_v115))
    (fun t _ => aff_flushed1_eq V c t) aff_cover1

end Cert.KernelIdeal.Hand

end
-- ==== Proof.KI.Final.lean ====
/-
  The kernel program's value at the ideal instance: every weakly fair execution terminates with the result array
  at the bias form of the affine map (`Cert.BN.Kout`) of the launch contents, the arguments as launched — the run,
  then: what the affine region writes is the affine map of its coefficient arrays; those are what the host
  stretches compute from rows 0 and 8 of the statistics arrays; and those rows, added, are the sums over the whole batch.
-/
import proofs.«141001_j43499428774583_2_alg».proof.Proof.KI.Run5
import proofs.«141001_j43499428774583_2_alg».proof.Proof.KI.KernelValue
import proofs.«141001_j43499428774583_2_alg».proof.Proof.KI.HostVal
import proofs.«141001_j43499428774583_2_alg».proof.Proof.KI.StatsVal
import proofs.«141001_j43499428774583_2_alg».proof.Proof.KI.AffVal

noncomputable section

namespace Cert.KernelIdeal.Hand

open Idealize.ShloMosaic Idealize.ShloMosaic.TcCoe Idealize.SL.Sem
open Cert.KernelIdeal Cert.KernelIdeal.Gen

theorem run_Kout (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v116)
          = Cert.BN.Kout (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run (defs (F := Ideal)) _ _).mono (fun _ h c => ⟨(h c).1.trans
      (kernel_value m c (fun V c => arrAt1_out V c) hostVal_110 hostVal_111 hostVal_112 hostVal_113 hostVal_114 hostVal_115
        (fun V b hb => hostAfter_keeps V b hb)
        (fun c X j => pay_sum0 c X j) (fun c X j => pay_sum1 c X j) (fun c X j => pay_sum2 c X j)
        (fun c X j => pay_sum3 c X j) (fun c X j => pay_sum4 c X j)), (h c).2⟩)
    (run_main (F := Ideal) m ρ)

end Cert.KernelIdeal.Hand

end
-- ==== Proof.KB.Data0.lean ====
/-
  Region 0 (the statistics pass) as pure data: what one grid point does to the five running sums kept in scratch,
  what the scratch holds after any number of points, the row each output block receives at the last point of a
  core's half, and the pipeline's proof data stated as a RELATION on each output block (only its first row is
  stored, the other seven rows keep whatever the staging buffer held).

  The grid is 2 × 16: point t = 16·p + b handles batch element 16·p + b. The block of `x` at a point is one batch
  element, [1, 128, 128, 128]; its channels 0–63 are the real parts, 64–127 the imaginary parts. Scratch k holds, per
  (channel, lane), the running sum over the batch elements seen so far in this half and over the rows h of
  x_re, x_re², x_im, x_im², x_re·x_im (k = 0 … 4); it is reset at b = 0. At b = 15 the lanes are summed and the
  resulting [64] vector is stored as row 0 of output k's [8, 64] block p.
-/
import proofs.«141001_j43499428774583_2_alg».proof.Proof.Gen.Kernel.Launch
import proofs.«141001_j43499428774583_2_alg».proof.Proof.Gen.Kernel.Skeleton
import proofs.«141001_j43499428774583_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.ValueIdx

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)
open Cert.Kernel Cert.Kernel.Gen

variable {F : FTy → Type} [FloatOps F]

local notation "𝕄" => MT nD τ sig Unit (Elt F) ℕ (UR sig nD τ) ℕ

/-! ## The body's rectangles -/

/-- Channels 0–63 of the block: the real parts. -/
abbrev rLo : Rect S1x128x128x128 := Rect.unit (s := S1x128x128x128) ![0, 0, 0, 0] S1x64x128x128.size inb_S1x128x128x128_S1x64x128x128_0_0_0_0
/-- Channels 64–127 of the block: the imaginary parts. -/
abbrev rHi : Rect S1x128x128x128 := Rect.unit (s := S1x128x128x128) ![0, 64, 0, 0] S1x64x128x128.size inb_S1x128x128x128_S1x64x128x128_0_64_0_0
/-- A whole scratch accumulator. -/
abbrev rAcc : Rect S64x128 := Rect.unit (s := S64x128) ![0, 0] S64x128.size inb_S64x128_S64x128_0_0
/-- Row 0 of an output block. -/
abbrev rRow : Rect S8x64 := Rect.unit (s := S8x64) ![0, 0] S1x64.size inb_S8x64_S1x64_0_0

/-! ## One point's arithmetic, through the skeleton's payload names -/

/-- What the reset at the first point of a half stores into scratch `k`: zeros. -/
def zer : Fin 5 → Vec F S64x128 .f32
  | ⟨0, _⟩ => k0_pay8
  | ⟨1, _⟩ => k0_pay9
  | ⟨2, _⟩ => k0_pay10
  | ⟨3, _⟩ => k0_pay11
  | ⟨4, _⟩ => k0_pay12

/-- What a point stores into scratch `k`: the old contents plus the block's row sums of
    x_re, x_re², x_im, x_im², x_re·x_im. -/
def upd : Fin 5 → Vec F S1x128x128x128 .f32 → Vec F S64x128 .f32 → Vec F S64x128 .f32
  | ⟨0, _⟩, x0, old => k0_pay15 (View.ld x0 rLo) old
  | ⟨1, _⟩, x0, old => k0_pay16 (View.ld x0 rLo) old
  | ⟨2, _⟩, x0, old => k0_pay17 (View.ld x0 rHi) old
  | ⟨3, _⟩, x0, old => k0_pay1 (k0_pay14 (View.ld x0 rHi)) old
  | ⟨4, _⟩, x0, old => k0_pay2 (k0_pay13 (View.ld x0 rLo)) (k0_pay14 (View.ld x0 rHi)) old

/-- The row the last point of a half stores into output `k`'s block: scratch `k` summed over its lanes. -/
def row : Fin 5 → Vec F S64x128 .f32 → Vec F S1x64 .f32
  | ⟨0, _⟩, a => k0_pay3 a
  | ⟨1, _⟩, a => k0_pay4 a
  | ⟨2, _⟩, a => k0_pay5 a
  | ⟨3, _⟩, a => k0_pay6 a
  | ⟨4, _⟩, a => k0_pay7 a

/-! ## The scratch after n points -/

section Data

variable (c : Dev nD) (X : Buf (Elt F) ((cfg0.win 0).arr.view.loc (c.tc : Thread nD τ)))

/-- The block of `x` at point `t`: batch element `t`. -/
def xblk (t : Fin cfg0.N) : Vec F S1x128x128x128 .f32 := ((cfg0.win 0).blk t).view.read (Elt F) X

/-- Scratch `k` after the points below `n`: reset at every multiple of 16 (the first point of a half), then one
    `upd` per point. -/
def acc (k : Fin 5) : ℕ → Vec F S64x128 .f32
  | 0 => zer k
  | n + 1 => if h : n < cfg0.N then upd k (xblk c X ⟨n, h⟩) (if n % 16 = 0 then zer k else acc k n) else acc k n

/-- The row output `k`'s block `p` receives: the lane sums of scratch `k` after the 16 points of half `p`. -/
def pay (k : Fin 5) (p : ℕ) : Vec F S1x64 .f32 := row k (acc c X k (16 * p + 16))

end Data

/-! ## The pipeline's proof data, relational -/

section RData

open Idealize.ShloMosaic.ValueIdx

variable (V : (c : Dev nD) → (b : Ref sig .tc) → Buf (Elt F) ((c : Thread nD τ).loc b))

/-- The five scratch accumulators as whole memrefs. -/
abbrev scM : Fin 5 → Memref sig .tc .vmem S64x128 .f32
  | ⟨0, _⟩ => Memref.whole cc0_scratch0
  | ⟨1, _⟩ => Memref.whole cc0_scratch1
  | ⟨2, _⟩ => Memref.whole cc0_scratch2
  | ⟨3, _⟩ => Memref.whole cc0_scratch3
  | ⟨4, _⟩ => Memref.whole cc0_scratch4

/-- Scratch `k` between points: at some contents, which after at least one point of the current half are the running sums. -/
def scratchAt (c : Dev nD) (X : Buf (Elt F) ((cfg0.win 0).arr.view.loc (c.tc : Thread nD τ))) (k : Fin 5) (n : ℕ) : sProp 𝕄 :=
  iprop(∃ f : Vec F S64x128 .f32, ⌜n % 16 ≠ 0 → f = acc c X k n⌝ ∗ owns (c : Thread nD τ) (scM k) fullShare f)

/-- The core's scoped buffers that region 0 never touches (the other pallas_call's staging buffers), each whole at some contents. -/
def otherScoped (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg5_0), ((c : Thread nD τ).loc cc1_stg5_0) ↦{fullShare} f) ∗ (∃ f : Buf (Elt F) ((c : Thread nD τ).loc cc1_stg6_0), ((c : Thread nD τ).loc cc1_stg6_0) ↦{fullShare} f) ∗ (∃ f : Buf (Elt F) ((c : Thread nD τ).loc cc1_stg7_0), ((c : Thread nD τ).loc cc1_stg7_0) ↦{fullShare} f) ∗ (∃ f : Buf (Elt F) ((c : Thread nD τ).loc cc1_stg7_1), ((c : Thread nD τ).loc cc1_stg7_1) ↦{fullShare} f))

/-- The body's invariant before point `n`: the five accumulators, the untouched scoped buffers, the generator register. -/
def Phi0 (c : Dev nD) (X : Buf (Elt F) ((cfg0.win 0).arr.view.loc (c.tc : Thread nD τ))) (n : ℕ) : sProp 𝕄 :=
  iprop(scratchAt c X 0 n ∗ scratchAt c X 1 n ∗ scratchAt c X 2 n ∗ scratchAt c X 3 n ∗ scratchAt c X 4 n ∗ otherScoped c ∗ ∃ r, prngReg c r)

/-- What a point may leave in output `k`'s block: at the last point of a half its first row is the half's lane sums;
    nothing is said of the other rows, nor at the other points. -/
def outRel (c : Dev nD) (X : Buf (Elt F) ((cfg0.win 0).arr.view.loc (c.tc : Thread nD τ))) (k : Fin 5) (t : Fin cfg0.N)
    (X' : Vec F S8x64 .f32) : Prop :=
  t.val % 16 = 15 → ∀ j : Fin 64, X' (ix2 (0 : Fin 8) j) = pay c X k (t.val / 16) (ix2 (0 : Fin 1) j)

/-- The proof data of pipeline 0 on core `c`, at the entry contents `V`: the input block left in place; each output block
    constrained by `outRel`; the invariant `Phi0`; nothing owed; full shares. -/
def rd0 (c : Dev nD) : RDat τ (Elt F) Unit ℕ (UR sig nD τ) ℕ cfg0 c where
  A w := V c (Pipeline.arrRef spec0 w)
  after w t := match w with
    | ⟨0, _⟩ => fun Y X' => X' = Y
    | ⟨1, _⟩ => fun _ X' => outRel c (V c (Pipeline.arrRef spec0 0)) 0 t X'
    | ⟨2, _⟩ => fun _ X' => outRel c (V c (Pipeline.arrRef spec0 0)) 1 t X'
    | ⟨3, _⟩ => fun _ X' => outRel c (V c (Pipeline.arrRef spec0 0)) 2 t X'
    | ⟨4, _⟩ => fun _ X' => outRel c (V c (Pipeline.arrRef spec0 0)) 3 t X'
    | ⟨5, _⟩ => fun _ X' => outRel c (V c (Pipeline.arrRef spec0 0)) 4 t X'
  Φ t := Phi0 c (V c (Pipeline.arrRef spec0 0)) t.val
  q _ := fullShare
  owed _ := 0

end RData

end Cert.Kernel.Hand

end
-- ==== Proof.KB.Body0h.lean ====
/-
  Region 0, the body at one grid point: the two conditions of the body in closed form over the grid, and what a
  whole accumulator and the first row of an output block read after the body's stores.
-/
import proofs.«141001_j43499428774583_2_alg».proof.Proof.KB.Data0
import Idealize.ShloMosaic.Lib.Pipeline.Value
import Idealize.ShloMosaic.Lib.WritesUnit

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)
open Cert.Kernel Cert.Kernel.Gen

variable {F : FTy → Type} [FloatOps F]

local notation "𝕄" => MT nD τ sig Unit (Elt F) ℕ (UR sig nD τ) ℕ

/-! ## The two conditions of the body, in closed form over the grid -/

/-- The condition of the reset (`b = 0`), from the grid coordinates. -/
abbrev cond0 (i : grid0.Coords) : Prop := (Scalar.cmpi .ne (Scalar.extui (Scalar.cmpi .eq (BitVec.ofNat 32 (i 1).val) 0#32)) 0#32) = 1#1
/-- The condition of the final stores (`b = 15`), from the grid coordinates. -/
abbrev cond1 (i : grid0.Coords) : Prop := k0_cond2 i = 1#1
/-- The reset runs at the first point of each half. -/
theorem hcond0 : ∀ t : Fin cfg0.N, cond0 (grid0.coords t) ↔ t.val % 16 = 0 :=
  (by decide +kernel : ∀ t : Fin grid0.N, cond0 (grid0.coords t) ↔ t.val % 16 = 0)
/-- The final stores run at the last point of each half. -/
theorem hcond1 : ∀ t : Fin cfg0.N, cond1 (grid0.coords t) ↔ t.val % 16 = 15 :=
  (by decide +kernel : ∀ t : Fin grid0.N, cond1 (grid0.coords t) ↔ t.val % 16 = 15)

/-! ## Reading back a whole accumulator and a row of an output block -/

theorem hz2 : (![0, 0] : Fin 2 → ℕ) = fun _ => 0 := funext fun a => by fin_cases a <;> rfl

/-- A store through the whole accumulator, last, leaves its payload. -/
theorem read_store_acc {m : Memref sig .tc .vmem S64x128 .f32} (f : m.view.ty.Contents (Elt F)) (w : Vec F S64x128 .f32)
    (L : List (View.Piece (Elt F) S64x128 .f32)) :
    m.view.read (Elt F) (m.view.writes (Elt F) f ((⟨rAcc, w⟩ : View.Piece (Elt F) S64x128 .f32) :: L)) = w := by
  refine (View.read_writes_eq_canon m.view f _ (fun y => ⟨_, List.mem_cons_self, ?_⟩)).trans ?_
  · exact View.mem_set_unit_zero (S := S64x128) hz2 inb_S64x128_S64x128_0_0 y
  · exact View.canon_cons_unit_zero (S := S64x128) hz2 inb_S64x128_S64x128_0_0 w L

/-- A load of the whole accumulator reads its contents. -/
theorem load_acc {m : Memref sig .tc .vmem S64x128 .f32} (h : m.IsWhole) (f : Vec F S64x128 .f32) :
    View.readAt (Elt F) m.view rAcc.toLoadRect (h.unread f) = f := by
  rw [View.readAt_eq_ld, h.read_unread]; exact View.ld_unit_zero hz2 _ f

/-- A load through a rectangle of the input block reads the block there. -/
theorem load_x {m : Memref sig .tc .vmem S1x128x128x128 .f32} (h : m.IsWhole) (x : Vec F S1x128x128x128 .f32) (r : Rect S1x128x128x128) :
    View.readAt (Elt F) m.view r.toLoadRect (h.unread x) = View.ld x r := by
  rw [View.readAt_eq_ld, h.read_unread]

open Idealize.ShloMosaic.ValueIdx in
/-- A store through row 0 of an output block, last, leaves its payload in that row. -/
theorem read_store_row {m : Memref sig .tc .vmem S8x64 .f32} (f : m.view.ty.Contents (Elt F)) (w : Vec F S1x64 .f32)
    (L : List (View.Piece (Elt F) S8x64 .f32)) (j : Fin 64) :
    m.view.read (Elt F) (m.view.writes (Elt F) f ((⟨rRow, w⟩ : View.Piece (Elt F) S8x64 .f32) :: L)) (ix2 (0 : Fin 8) j)
      = w (ix2 (0 : Fin 1) j) :=
  View.read_writes_cons_unit_of_mem m.view f inb_S8x64_S1x64_0_0 w L (ix2 (0 : Fin 8) j) (ix2 (0 : Fin 1) j) rfl (fun a => by
    match a with
    | ⟨0, _⟩ => rfl
    | ⟨1, _⟩ => show j.val = 0 + j.val; omega)

/-- A load of the whole accumulator after a store through the whole accumulator reads the stored payload. -/
theorem load_store_acc {m : Memref sig .tc .vmem S64x128 .f32} (w : Vec F S64x128 .f32) :
    m.view.readCov [(⟨rAcc, w⟩ : View.Piece (Elt F) S64x128 .f32)] rAcc.toLoadRect = w :=
  View.readCov_unit_zero (S := S64x128) m.view hz2 inb_S64x128_S64x128_0_0 w

end Cert.Kernel.Hand

end
-- ==== Proof.KB.Body0a.lean ====
/-
  Region 0, the body's run in case A: the first point of a half (b = 0).
-/
import proofs.«141001_j43499428774583_2_alg».proof.Proof.KB.Body0h

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)
open Cert.Kernel Cert.Kernel.Gen

variable {F : FTy → Type} [FloatOps F]

local notation "𝕄" => MT nD τ sig Unit (Elt F) ℕ (UR sig nD τ) ℕ

set_option maxHeartbeats 1000000 in
/-- The first point of a half: each accumulator is zeroed, then takes the block's row sums; the output blocks are untouched. -/
theorem run_A (c : Dev nD) (i : grid0.Coords) (arg2 : Memref sig .tc .vmem S1x128x128x128 .f32) (harg2 : arg2.IsWhole) (arg3 : Memref sig .tc .vmem S8x64 .f32) (harg3 : arg3.IsWhole) (arg4 : Memref sig .tc .vmem S8x64 .f32) (harg4 : arg4.IsWhole) (arg5 : Memref sig .tc .vmem S8x64 .f32) (harg5 : arg5.IsWhole) (arg6 : Memref sig .tc .vmem S8x64 .f32) (harg6 : arg6.IsWhole) (arg7 : Memref sig .tc .vmem S8x64 .f32) (harg7 : arg7.IsWhole) (arg8 : Memref sig .tc .vmem S64x128 .f32) (harg8 : arg8.IsWhole) (arg9 : Memref sig .tc .vmem S64x128 .f32) (harg9 : arg9.IsWhole) (arg10 : Memref sig .tc .vmem S64x128 .f32) (harg10 : arg10.IsWhole) (arg11 : Memref sig .tc .vmem S64x128 .f32) (harg11 : arg11.IsWhole) (arg12 : Memref sig .tc .vmem S64x128 .f32) (harg12 : arg12.IsWhole) (hc0 : cond0 i) (hc1 : ¬cond1 i)
    (x0 : Vec F S1x128x128x128 .f32) (y1 y2 y3 y4 y5 : Vec F S8x64 .f32) (f0 f1 f2 f3 f4 : Vec F S64x128 .f32) (E : Set ℕ) (K : PUnit → sProp 𝕄) :
    iprop(owns (c : Thread nD τ) arg2 fullShare x0 ∗ owns (c : Thread nD τ) arg3 fullShare y1 ∗ owns (c : Thread nD τ) arg4 fullShare y2 ∗ owns (c : Thread nD τ) arg5 fullShare y3 ∗ owns (c : Thread nD τ) arg6 fullShare y4 ∗ owns (c : Thread nD τ) arg7 fullShare y5 ∗ owns (c : Thread nD τ) arg8 fullShare f0 ∗ owns (c : Thread nD τ) arg9 fullShare f1 ∗ owns (c : Thread nD τ) arg10 fullShare f2 ∗ owns (c : Thread nD τ) arg11 fullShare f3 ∗ owns (c : Thread nD τ) arg12 fullShare f4
        ∗ (iprop(owns (c : Thread nD τ) arg2 fullShare x0 ∗ owns (c : Thread nD τ) arg3 fullShare y1 ∗ owns (c : Thread nD τ) arg4 fullShare y2 ∗ owns (c : Thread nD τ) arg5 fullShare y3 ∗ owns (c : Thread nD τ) arg6 fullShare y4 ∗ owns (c : Thread nD τ) arg7 fullShare y5 ∗ owns (c : Thread nD τ) arg8 fullShare (upd 0 x0 (zer 0)) ∗ owns (c : Thread nD τ) arg9 fullShare (upd 1 x0 (zer 1)) ∗ owns (c : Thread nD τ) arg10 fullShare (upd 2 x0 (zer 2)) ∗ owns (c : Thread nD τ) arg11 fullShare (upd 3 x0 (zer 3)) ∗ owns (c : Thread nD τ) arg12 fullShare (upd 4 x0 (zer 4))) -∗ K ⟨⟩))
      ⊢ wp frame (wpE (defs₀ (F := F)) Variants.none c none) E (cc0__stats_kernel i arg2 harg2 arg3 harg3 arg4 harg4 arg5 harg5 arg6 harg6 arg7 harg7 arg8 harg8 arg9 harg9 arg10 harg10 arg11 harg11 arg12 harg12) K := by
  simp only [cc0__stats_kernel_eq_skeleton]; unfold cc0__stats_kernel_skel
  unfold owns
  iintro ⟨⟨%g0, %hg0, H0⟩, ⟨%g1, %hg1, H1⟩, ⟨%g2, %hg2, H2⟩, ⟨%g3, %hg3, H3⟩, ⟨%g4, %hg4, H4⟩, ⟨%g5, %hg5, H5⟩, ⟨%s0, %hs0, S0⟩, ⟨%s1, %hs1, S1⟩, ⟨%s2, %hs2, S2⟩, ⟨%s3, %hs3, S3⟩, ⟨%s4, %hs4, S4⟩, Hk⟩
  obtain rfl := harg2.eq_unread hg0; obtain rfl := harg3.eq_unread hg1; obtain rfl := harg4.eq_unread hg2; obtain rfl := harg5.eq_unread hg3; obtain rfl := harg6.eq_unread hg4; obtain rfl := harg7.eq_unread hg5
  obtain rfl := harg8.eq_unread hs0; obtain rfl := harg9.eq_unread hs1; obtain rfl := harg10.eq_unread hs2; obtain rfl := harg11.eq_unread hs3; obtain rfl := harg12.eq_unread hs4
  sl_exec (disch := first | exact hc0 | exact hc1)
  sl_step
  iapply Hk
  isplitl [H0]; · iexists _; isplitr; · ipureintro; exact hg0
                  iexact H0
  isplitl [H1]; · iexists _; isplitr; · ipureintro; exact hg1
                  iexact H1
  isplitl [H2]; · iexists _; isplitr; · ipureintro; exact hg2
                  iexact H2
  isplitl [H3]; · iexists _; isplitr; · ipureintro; exact hg3
                  iexact H3
  isplitl [H4]; · iexists _; isplitr; · ipureintro; exact hg4
                  iexact H4
  isplitl [H5]; · iexists _; isplitr; · ipureintro; exact hg5
                  iexact H5
  isplitl [S0]
  · iexists _; isplitr; swap; · iexact S0
    ipureintro; rw [read_store_acc]; sl_unfold_run_names; rw [load_store_acc, load_x harg2]; rfl
  isplitl [S1]
  · iexists _; isplitr; swap; · iexact S1
    ipureintro; rw [read_store_acc]; sl_unfold_run_names; rw [load_store_acc, load_x harg2]; rfl
  isplitl [S2]
  · iexists _; isplitr; swap; · iexact S2
    ipureintro; rw [read_store_acc]; sl_unfold_run_names; rw [load_store_acc, load_x harg2]; rfl
  isplitl [S3]
  · iexists _; isplitr; swap; · iexact S3
    ipureintro; rw [read_store_acc]; sl_unfold_run_names; rw [load_store_acc, load_x harg2]; rfl
  · iexists _; isplitr; swap; · iexact S4
    ipureintro; rw [read_store_acc]; sl_unfold_run_names; rw [load_store_acc, load_x harg2, load_x harg2]; rfl

end Cert.Kernel.Hand

end
-- ==== Proof.KB.Body0b.lean ====
/-
  Region 0, the body's run in case B: a point that is neither the first nor the last of its half (0 < b < 15).
-/
import proofs.«141001_j43499428774583_2_alg».proof.Proof.KB.Body0a

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)
open Cert.Kernel Cert.Kernel.Gen

variable {F : FTy → Type} [FloatOps F]

local notation "𝕄" => MT nD τ sig Unit (Elt F) ℕ (UR sig nD τ) ℕ

set_option maxHeartbeats 1000000 in
/-- A point that is neither the first nor the last of its half: each accumulator takes the block's row sums; the output blocks are untouched. -/
theorem run_B (c : Dev nD) (i : grid0.Coords) (arg2 : Memref sig .tc .vmem S1x128x128x128 .f32) (harg2 : arg2.IsWhole) (arg3 : Memref sig .tc .vmem S8x64 .f32) (harg3 : arg3.IsWhole) (arg4 : Memref sig .tc .vmem S8x64 .f32) (harg4 : arg4.IsWhole) (arg5 : Memref sig .tc .vmem S8x64 .f32) (harg5 : arg5.IsWhole) (arg6 : Memref sig .tc .vmem S8x64 .f32) (harg6 : arg6.IsWhole) (arg7 : Memref sig .tc .vmem S8x64 .f32) (harg7 : arg7.IsWhole) (arg8 : Memref sig .tc .vmem S64x128 .f32) (harg8 : arg8.IsWhole) (arg9 : Memref sig .tc .vmem S64x128 .f32) (harg9 : arg9.IsWhole) (arg10 : Memref sig .tc .vmem S64x128 .f32) (harg10 : arg10.IsWhole) (arg11 : Memref sig .tc .vmem S64x128 .f32) (harg11 : arg11.IsWhole) (arg12 : Memref sig .tc .vmem S64x128 .f32) (harg12 : arg12.IsWhole) (hc0 : ¬cond0 i) (hc1 : ¬cond1 i)
    (x0 : Vec F S1x128x128x128 .f32) (y1 y2 y3 y4 y5 : Vec F S8x64 .f32) (f0 f1 f2 f3 f4 : Vec F S64x128 .f32) (E : Set ℕ) (K : PUnit → sProp 𝕄) :
    iprop(owns (c : Thread nD τ) arg2 fullShare x0 ∗ owns (c : Thread nD τ) arg3 fullShare y1 ∗ owns (c : Thread nD τ) arg4 fullShare y2 ∗ owns (c : Thread nD τ) arg5 fullShare y3 ∗ owns (c : Thread nD τ) arg6 fullShare y4 ∗ owns (c : Thread nD τ) arg7 fullShare y5 ∗ owns (c : Thread nD τ) arg8 fullShare f0 ∗ owns (c : Thread nD τ) arg9 fullShare f1 ∗ owns (c : Thread nD τ) arg10 fullShare f2 ∗ owns (c : Thread nD τ) arg11 fullShare f3 ∗ owns (c : Thread nD τ) arg12 fullShare f4
        ∗ (iprop(owns (c : Thread nD τ) arg2 fullShare x0 ∗ owns (c : Thread nD τ) arg3 fullShare y1 ∗ owns (c : Thread nD τ) arg4 fullShare y2 ∗ owns (c : Thread nD τ) arg5 fullShare y3 ∗ owns (c : Thread nD τ) arg6 fullShare y4 ∗ owns (c : Thread nD τ) arg7 fullShare y5 ∗ owns (c : Thread nD τ) arg8 fullShare (upd 0 x0 f0) ∗ owns (c : Thread nD τ) arg9 fullShare (upd 1 x0 f1) ∗ owns (c : Thread nD τ) arg10 fullShare (upd 2 x0 f2) ∗ owns (c : Thread nD τ) arg11 fullShare (upd 3 x0 f3) ∗ owns (c : Thread nD τ) arg12 fullShare (upd 4 x0 f4)) -∗ K ⟨⟩))
      ⊢ wp frame (wpE (defs₀ (F := F)) Variants.none c none) E (cc0__stats_kernel i arg2 harg2 arg3 harg3 arg4 harg4 arg5 harg5 arg6 harg6 arg7 harg7 arg8 harg8 arg9 harg9 arg10 harg10 arg11 harg11 arg12 harg12) K := by
  simp only [cc0__stats_kernel_eq_skeleton]; unfold cc0__stats_kernel_skel
  unfold owns
  iintro ⟨⟨%g0, %hg0, H0⟩, ⟨%g1, %hg1, H1⟩, ⟨%g2, %hg2, H2⟩, ⟨%g3, %hg3, H3⟩, ⟨%g4, %hg4, H4⟩, ⟨%g5, %hg5, H5⟩, ⟨%s0, %hs0, S0⟩, ⟨%s1, %hs1, S1⟩, ⟨%s2, %hs2, S2⟩, ⟨%s3, %hs3, S3⟩, ⟨%s4, %hs4, S4⟩, Hk⟩
  obtain rfl := harg2.eq_unread hg0; obtain rfl := harg3.eq_unread hg1; obtain rfl := harg4.eq_unread hg2; obtain rfl := harg5.eq_unread hg3; obtain rfl := harg6.eq_unread hg4; obtain rfl := harg7.eq_unread hg5
  obtain rfl := harg8.eq_unread hs0; obtain rfl := harg9.eq_unread hs1; obtain rfl := harg10.eq_unread hs2; obtain rfl := harg11.eq_unread hs3; obtain rfl := harg12.eq_unread hs4
  sl_exec (disch := first | exact hc0 | exact hc1)
  sl_step
  iapply Hk
  isplitl [H0]; · iexists _; isplitr; · ipureintro; exact hg0
                  iexact H0
  isplitl [H1]; · iexists _; isplitr; · ipureintro; exact hg1
                  iexact H1
  isplitl [H2]; · iexists _; isplitr; · ipureintro; exact hg2
                  iexact H2
  isplitl [H3]; · iexists _; isplitr; · ipureintro; exact hg3
                  iexact H3
  isplitl [H4]; · iexists _; isplitr; · ipureintro; exact hg4
                  iexact H4
  isplitl [H5]; · iexists _; isplitr; · ipureintro; exact hg5
                  iexact H5
  isplitl [S0]
  · iexists _; isplitr; swap; · iexact S0
    ipureintro; rw [read_store_acc, load_x harg2, load_acc harg8]; rfl
  isplitl [S1]
  · iexists _; isplitr; swap; · iexact S1
    ipureintro; rw [read_store_acc, load_x harg2, load_acc harg9]; rfl
  isplitl [S2]
  · iexists _; isplitr; swap; · iexact S2
    ipureintro; rw [read_store_acc, load_x harg2, load_acc harg10]; rfl
  isplitl [S3]
  · iexists _; isplitr; swap; · iexact S3
    ipureintro; rw [read_store_acc]; sl_unfold_run_names; rw [load_x harg2, load_acc harg11]; rfl
  · iexists _; isplitr; swap; · iexact S4
    ipureintro; rw [read_store_acc]; sl_unfold_run_names; rw [load_x harg2, load_x harg2, load_acc harg12]; rfl

end Cert.Kernel.Hand

end
-- ==== Proof.KB.Body0c.lean ====
/-
  Region 0, the body's run in case C: the last point of a half (b = 15).
-/
import proofs.«141001_j43499428774583_2_alg».proof.Proof.KB.Body0b

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)
open Cert.Kernel Cert.Kernel.Gen

variable {F : FTy → Type} [FloatOps F]

local notation "𝕄" => MT nD τ sig Unit (Elt F) ℕ (UR sig nD τ) ℕ

set_option maxHeartbeats 1000000 in
open Idealize.ShloMosaic.ValueIdx in
/-- The last point of a half: each accumulator takes the block's row sums, and its lane sums are stored as the first row
    of the matching output block, whose other rows keep what they held. -/
theorem run_C (c : Dev nD) (i : grid0.Coords) (arg2 : Memref sig .tc .vmem S1x128x128x128 .f32) (harg2 : arg2.IsWhole) (arg3 : Memref sig .tc .vmem S8x64 .f32) (harg3 : arg3.IsWhole) (arg4 : Memref sig .tc .vmem S8x64 .f32) (harg4 : arg4.IsWhole) (arg5 : Memref sig .tc .vmem S8x64 .f32) (harg5 : arg5.IsWhole) (arg6 : Memref sig .tc .vmem S8x64 .f32) (harg6 : arg6.IsWhole) (arg7 : Memref sig .tc .vmem S8x64 .f32) (harg7 : arg7.IsWhole) (arg8 : Memref sig .tc .vmem S64x128 .f32) (harg8 : arg8.IsWhole) (arg9 : Memref sig .tc .vmem S64x128 .f32) (harg9 : arg9.IsWhole) (arg10 : Memref sig .tc .vmem S64x128 .f32) (harg10 : arg10.IsWhole) (arg11 : Memref sig .tc .vmem S64x128 .f32) (harg11 : arg11.IsWhole) (arg12 : Memref sig .tc .vmem S64x128 .f32) (harg12 : arg12.IsWhole) (hc0 : ¬cond0 i) (hc1 : cond1 i)
    (x0 : Vec F S1x128x128x128 .f32) (y1 y2 y3 y4 y5 : Vec F S8x64 .f32) (f0 f1 f2 f3 f4 : Vec F S64x128 .f32) (E : Set ℕ) (K : PUnit → sProp 𝕄) :
    iprop(owns (c : Thread nD τ) arg2 fullShare x0 ∗ owns (c : Thread nD τ) arg3 fullShare y1 ∗ owns (c : Thread nD τ) arg4 fullShare y2 ∗ owns (c : Thread nD τ) arg5 fullShare y3 ∗ owns (c : Thread nD τ) arg6 fullShare y4 ∗ owns (c : Thread nD τ) arg7 fullShare y5 ∗ owns (c : Thread nD τ) arg8 fullShare f0 ∗ owns (c : Thread nD τ) arg9 fullShare f1 ∗ owns (c : Thread nD τ) arg10 fullShare f2 ∗ owns (c : Thread nD τ) arg11 fullShare f3 ∗ owns (c : Thread nD τ) arg12 fullShare f4
        ∗ (iprop(owns (c : Thread nD τ) arg2 fullShare x0 ∗ (∃ X : Vec F S8x64 .f32, ⌜∀ j : Fin 64, X (ix2 (0 : Fin 8) j) = row 0 (upd 0 x0 f0) (ix2 (0 : Fin 1) j)⌝ ∗ owns (c : Thread nD τ) arg3 fullShare X) ∗ (∃ X : Vec F S8x64 .f32, ⌜∀ j : Fin 64, X (ix2 (0 : Fin 8) j) = row 1 (upd 1 x0 f1) (ix2 (0 : Fin 1) j)⌝ ∗ owns (c : Thread nD τ) arg4 fullShare X) ∗ (∃ X : Vec F S8x64 .f32, ⌜∀ j : Fin 64, X (ix2 (0 : Fin 8) j) = row 2 (upd 2 x0 f2) (ix2 (0 : Fin 1) j)⌝ ∗ owns (c : Thread nD τ) arg5 fullShare X) ∗ (∃ X : Vec F S8x64 .f32, ⌜∀ j : Fin 64, X (ix2 (0 : Fin 8) j) = row 3 (upd 3 x0 f3) (ix2 (0 : Fin 1) j)⌝ ∗ owns (c : Thread nD τ) arg6 fullShare X) ∗ (∃ X : Vec F S8x64 .f32, ⌜∀ j : Fin 64, X (ix2 (0 : Fin 8) j) = row 4 (upd 4 x0 f4) (ix2 (0 : Fin 1) j)⌝ ∗ owns (c : Thread nD τ) arg7 fullShare X) ∗ owns (c : Thread nD τ) arg8 fullShare (upd 0 x0 f0) ∗ owns (c : Thread nD τ) arg9 fullShare (upd 1 x0 f1) ∗ owns (c : Thread nD τ) arg10 fullShare (upd 2 x0 f2) ∗ owns (c : Thread nD τ) arg11 fullShare (upd 3 x0 f3) ∗ owns (c : Thread nD τ) arg12 fullShare (upd 4 x0 f4)) -∗ K ⟨⟩))
      ⊢ wp frame (wpE (defs₀ (F := F)) Variants.none c none) E (cc0__stats_kernel i arg2 harg2 arg3 harg3 arg4 harg4 arg5 harg5 arg6 harg6 arg7 harg7 arg8 harg8 arg9 harg9 arg10 harg10 arg11 harg11 arg12 harg12) K := by
  simp only [cc0__stats_kernel_eq_skeleton]; unfold cc0__stats_kernel_skel
  unfold owns
  iintro ⟨⟨%g0, %hg0, H0⟩, ⟨%g1, %hg1, H1⟩, ⟨%g2, %hg2, H2⟩, ⟨%g3, %hg3, H3⟩, ⟨%g4, %hg4, H4⟩, ⟨%g5, %hg5, H5⟩, ⟨%s0, %hs0, S0⟩, ⟨%s1, %hs1, S1⟩, ⟨%s2, %hs2, S2⟩, ⟨%s3, %hs3, S3⟩, ⟨%s4, %hs4, S4⟩, Hk⟩
  obtain rfl := harg2.eq_unread hg0; obtain rfl := harg3.eq_unread hg1; obtain rfl := harg4.eq_unread hg2; obtain rfl := harg5.eq_unread hg3; obtain rfl := harg6.eq_unread hg4; obtain rfl := harg7.eq_unread hg5
  obtain rfl := harg8.eq_unread hs0; obtain rfl := harg9.eq_unread hs1; obtain rfl := harg10.eq_unread hs2; obtain rfl := harg11.eq_unread hs3; obtain rfl := harg12.eq_unread hs4
  sl_exec (disch := first | exact hc0 | exact hc1)
  sl_step
  iapply Hk
  isplitl [H0]; · iexists _; isplitr; · ipureintro; exact hg0
                  iexact H0
  isplitl [H1]
  · iexists _; isplitr; swap
    · iexists _; isplitr; swap; · iexact H1
      ipureintro; rfl
    ipureintro; intro j; rw [read_store_row]; sl_unfold_run_names; rw [load_store_acc, load_x harg2, load_acc harg8]; rfl
  isplitl [H2]
  · iexists _; isplitr; swap
    · iexists _; isplitr; swap; · iexact H2
      ipureintro; rfl
    ipureintro; intro j; rw [read_store_row]; sl_unfold_run_names; rw [load_store_acc, load_x harg2, load_acc harg9]; rfl
  isplitl [H3]
  · iexists _; isplitr; swap
    · iexists _; isplitr; swap; · iexact H3
      ipureintro; rfl
    ipureintro; intro j; rw [read_store_row]; sl_unfold_run_names; rw [load_store_acc, load_x harg2, load_acc harg10]; rfl
  isplitl [H4]
  · iexists _; isplitr; swap
    · iexists _; isplitr; swap; · iexact H4
      ipureintro; rfl
    ipureintro; intro j; rw [read_store_row]; sl_unfold_run_names; rw [load_store_acc, load_x harg2, load_acc harg11]; rfl
  isplitl [H5]
  · iexists _; isplitr; swap
    · iexists _; isplitr; swap; · iexact H5
      ipureintro; rfl
    ipureintro; intro j; rw [read_store_row]; sl_unfold_run_names; rw [load_store_acc, load_x harg2, load_x harg2, load_acc harg12]; rfl
  isplitl [S0]
  · iexists _; isplitr; swap; · iexact S0
    ipureintro; sl_unfold_run_names; rw [read_store_acc, load_x harg2, load_acc harg8]; rfl
  isplitl [S1]
  · iexists _; isplitr; swap; · iexact S1
    ipureintro; sl_unfold_run_names; rw [read_store_acc, load_x harg2, load_acc harg9]; rfl
  isplitl [S2]
  · iexists _; isplitr; swap; · iexact S2
    ipureintro; sl_unfold_run_names; rw [read_store_acc, load_x harg2, load_acc harg10]; rfl
  isplitl [S3]
  · iexists _; isplitr; swap; · iexact S3
    ipureintro; sl_unfold_run_names; rw [read_store_acc, load_x harg2, load_acc harg11]; rfl
  · iexists _; isplitr; swap; · iexact S4
    ipureintro; sl_unfold_run_names; rw [read_store_acc, load_x harg2, load_x harg2, load_acc harg12]; rfl

end Cert.Kernel.Hand

end
-- ==== Proof.KB.Body0.lean ====
/-
  Region 0, the body obligation of the statistics pass: at every grid point, from the five accumulators at the running
  sums of the points before it (or at anything, at the first point of a half), the input block and the output blocks at
  whatever they hold, the body leaves the accumulators at the running sums including this point, the input block in
  place, and — at the last point of a half — the lane sums in the first row of each output block.
-/
import proofs.«141001_j43499428774583_2_alg».proof.Proof.KB.Body0c

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- One more point: the running sums after the points up to `t` are those before it, reset if `t` starts a half,
    plus the block's row sums at `t`. -/
theorem acc_succ (c : Dev nD) (X : Buf (Elt F) ((cfg0.win 0).arr.view.loc (c.tc : Thread nD τ))) (k : Fin 5) (t : Fin cfg0.N) :
    acc c X k (t.val + 1) = upd k (xblk c X t) (if t.val % 16 = 0 then zer k else acc c X k t.val) := by
  show (if h : t.val < cfg0.N then upd k (xblk c X ⟨t.val, h⟩) (if t.val % 16 = 0 then zer k else acc c X k t.val) else acc c X k t.val) = _
  rw [dif_pos t.isLt]

/-- The input window is fetched at every point: its staging buffer holds the block of `x` there. -/
theorem finds_in (c : Dev nD) (t : Fin cfg0.N) (Y0 : Vec F S1x128x128x128 .f32) (h : (rd0 V c).Finds 0 t Y0) :
    Y0 = xblk c (V c (Pipeline.arrRef spec0 0)) t := by
  obtain ⟨d, rfl⟩ := ((rd0 V c).finds_of_fetch (fetch0_0 t) Y0).mp h
  rfl

open Idealize.ShloMosaic.ValueIdx in
set_option maxHeartbeats 4000000 in
/-- The body at any point, the windows one by one: by the point's place in its half. -/
theorem sound_body (c : Dev nD) (t : Fin cfg0.N) (Y0 : Vec F S1x128x128x128 .f32) (hY0 : Y0 = xblk c (V c (Pipeline.arrRef spec0 0)) t)
    (Y1 Y2 Y3 Y4 Y5 : Vec F S8x64 .f32) :
    iprop(Phi0 c (V c (Pipeline.arrRef spec0 0)) t.val ∗ (rd0 V c).owesAt () t.castSucc
        ∗ owns (c : Thread nD τ) (win0_0.stage (cfg0.slots t 0)) fullShare Y0 ∗ owns (c : Thread nD τ) (win0_1.stage (cfg0.slots t 1)) fullShare Y1 ∗ owns (c : Thread nD τ) (win0_2.stage (cfg0.slots t 2)) fullShare Y2 ∗ owns (c : Thread nD τ) (win0_3.stage (cfg0.slots t 3)) fullShare Y3 ∗ owns (c : Thread nD τ) (win0_4.stage (cfg0.slots t 4)) fullShare Y4 ∗ owns (c : Thread nD τ) (win0_5.stage (cfg0.slots t 5)) fullShare Y5)
      ⊢ wp frame (wpE (defs₀ (F := F)) Variants.none c none) Set.univ (bodyAt0 t) (fun _ =>
          iprop(Phi0 c (V c (Pipeline.arrRef spec0 0)) (t.val + 1) ∗ (rd0 V c).owesAt () t.castSucc
            ∗ (∃ X, ⌜X = Y0⌝ ∗ owns (c : Thread nD τ) (win0_0.stage (cfg0.slots t 0)) fullShare X) ∗ (∃ X, ⌜outRel c (V c (Pipeline.arrRef spec0 0)) 0 t X⌝ ∗ owns (c : Thread nD τ) (win0_1.stage (cfg0.slots t 1)) fullShare X) ∗ (∃ X, ⌜outRel c (V c (Pipeline.arrRef spec0 0)) 1 t X⌝ ∗ owns (c : Thread nD τ) (win0_2.stage (cfg0.slots t 2)) fullShare X) ∗ (∃ X, ⌜outRel c (V c (Pipeline.arrRef spec0 0)) 2 t X⌝ ∗ owns (c : Thread nD τ) (win0_3.stage (cfg0.slots t 3)) fullShare X) ∗ (∃ X, ⌜outRel c (V c (Pipeline.arrRef spec0 0)) 3 t X⌝ ∗ owns (c : Thread nD τ) (win0_4.stage (cfg0.slots t 4)) fullShare X) ∗ (∃ X, ⌜outRel c (V c (Pipeline.arrRef spec0 0)) 4 t X⌝ ∗ owns (c : Thread nD τ) (win0_5.stage (cfg0.slots t 5)) fullShare X))) := by
  subst hY0
  unfold Phi0 scratchAt
  by_cases h0 : t.val % 16 = 0
  · have h1 : ¬t.val % 16 = 15 := by omega
    iintro ⟨⟨⟨%a0, %e0, A0⟩, ⟨%a1, %e1, A1⟩, ⟨%a2, %e2, A2⟩, ⟨%a3, %e3, A3⟩, ⟨%a4, %e4, A4⟩, Hr, Hg⟩, Ho, H0, H1, H2, H3, H4, H5⟩
    iapply (run_A c (grid0.coords t) _ _ _ _ _ _ _ _ _ _ _ _ _ _ _ _ _ _ _ _ _ _ ((hcond0 t).mpr h0) (fun h => h1 ((hcond1 t).mp h)) (xblk c (V c (Pipeline.arrRef spec0 0)) t) Y1 Y2 Y3 Y4 Y5 a0 a1 a2 a3 a4 Set.univ _)
    isplitl [H0]; · iexact H0
    isplitl [H1]; · iexact H1
    isplitl [H2]; · iexact H2
    isplitl [H3]; · iexact H3
    isplitl [H4]; · iexact H4
    isplitl [H5]; · iexact H5
    isplitl [A0]; · iexact A0
    isplitl [A1]; · iexact A1
    isplitl [A2]; · iexact A2
    isplitl [A3]; · iexact A3
    isplitl [A4]; · iexact A4
    iintro ⟨H0, H1, H2, H3, H4, H5, A0, A1, A2, A3, A4⟩
    isplitl [A0 A1 A2 A3 A4 Hr Hg]
    · isplitl [A0]
      · iexists _; isplitr; swap; · iexact A0
        ipureintro; intro _; rw [acc_succ, if_pos h0]
      isplitl [A1]
      · iexists _; isplitr; swap; · iexact A1
        ipureintro; intro _; rw [acc_succ, if_pos h0]
      isplitl [A2]
      · iexists _; isplitr; swap; · iexact A2
        ipureintro; intro _; rw [acc_succ, if_pos h0]
      isplitl [A3]
      · iexists _; isplitr; swap; · iexact A3
        ipureintro; intro _; rw [acc_succ, if_pos h0]
      isplitl [A4]
      · iexists _; isplitr; swap; · iexact A4
        ipureintro; intro _; rw [acc_succ, if_pos h0]
      isplitl [Hr]; · iexact Hr
      iexact Hg
    isplitl [Ho]; · iexact Ho
    isplitl [H0]
    · iexists _; isplitr; swap; · iexact H0
      ipureintro; rfl
    isplitl [H1]
    · iexists _; isplitr; swap; · iexact H1
      ipureintro; intro h15; exact absurd h15 h1
    isplitl [H2]
    · iexists _; isplitr; swap; · iexact H2
      ipureintro; intro h15; exact absurd h15 h1
    isplitl [H3]
    · iexists _; isplitr; swap; · iexact H3
      ipureintro; intro h15; exact absurd h15 h1
    isplitl [H4]
    · iexists _; isplitr; swap; · iexact H4
      ipureintro; intro h15; exact absurd h15 h1
    · iexists _; isplitr; swap; · iexact H5
      ipureintro; intro h15; exact absurd h15 h1
  · by_cases h1 : t.val % 16 = 15
    · have e16 : 16 * (t.val / 16) + 16 = t.val + 1 := by omega
      iintro ⟨⟨⟨%a0, %e0, A0⟩, ⟨%a1, %e1, A1⟩, ⟨%a2, %e2, A2⟩, ⟨%a3, %e3, A3⟩, ⟨%a4, %e4, A4⟩, Hr, Hg⟩, Ho, H0, H1, H2, H3, H4, H5⟩
      obtain rfl := e0 h0; obtain rfl := e1 h0; obtain rfl := e2 h0; obtain rfl := e3 h0; obtain rfl := e4 h0
      iapply (run_C c (grid0.coords t) _ _ _ _ _ _ _ _ _ _ _ _ _ _ _ _ _ _ _ _ _ _ (fun h => h0 ((hcond0 t).mp h)) ((hcond1 t).mpr h1) (xblk c (V c (Pipeline.arrRef spec0 0)) t) Y1 Y2 Y3 Y4 Y5 _ _ _ _ _ Set.univ _)
      isplitl [H0]; · iexact H0
      isplitl [H1]; · iexact H1
      isplitl [H2]; · iexact H2
      isplitl [H3]; · iexact H3
      isplitl [H4]; · iexact H4
      isplitl [H5]; · iexact H5
      isplitl [A0]; · iexact A0
      isplitl [A1]; · iexact A1
      isplitl [A2]; · iexact A2
      isplitl [A3]; · iexact A3
      isplitl [A4]; · iexact A4
      iintro ⟨H0, ⟨%X1, %r1, H1⟩, ⟨%X2, %r2, H2⟩, ⟨%X3, %r3, H3⟩, ⟨%X4, %r4, H4⟩, ⟨%X5, %r5, H5⟩, A0, A1, A2, A3, A4⟩
      isplitl [A0 A1 A2 A3 A4 Hr Hg]
      · isplitl [A0]
        · iexists _; isplitr; swap; · iexact A0
          ipureintro; intro _; rw [acc_succ, if_neg h0]
        isplitl [A1]
        · iexists _; isplitr; swap; · iexact A1
          ipureintro; intro _; rw [acc_succ, if_neg h0]
        isplitl [A2]
        · iexists _; isplitr; swap; · iexact A2
          ipureintro; intro _; rw [acc_succ, if_neg h0]
        isplitl [A3]
        · iexists _; isplitr; swap; · iexact A3
          ipureintro; intro _; rw [acc_succ, if_neg h0]
        isplitl [A4]
        · iexists _; isplitr; swap; · iexact A4
          ipureintro; intro _; rw [acc_succ, if_neg h0]
        isplitl [Hr]; · iexact Hr
        iexact Hg
      isplitl [Ho]; · iexact Ho
      isplitl [H0]
      · iexists _; isplitr; swap; · iexact H0
        ipureintro; rfl
      isplitl [H1]
      · iexists X1; isplitr; swap; · iexact H1
        ipureintro; intro _ j; rw [r1 j]; unfold pay; rw [e16, acc_succ, if_neg h0]
      isplitl [H2]
      · iexists X2; isplitr; swap; · iexact H2
        ipureintro; intro _ j; rw [r2 j]; unfold pay; rw [e16, acc_succ, if_neg h0]
      isplitl [H3]
      · iexists X3; isplitr; swap; · iexact H3
        ipureintro; intro _ j; rw [r3 j]; unfold pay; rw [e16, acc_succ, if_neg h0]
      isplitl [H4]
      · iexists X4; isplitr; swap; · iexact H4
        ipureintro; intro _ j; rw [r4 j]; unfold pay; rw [e16, acc_succ, if_neg h0]
      · iexists X5; isplitr; swap; · iexact H5
        ipureintro; intro _ j; rw [r5 j]; unfold pay; rw [e16, acc_succ, if_neg h0]
    · iintro ⟨⟨⟨%a0, %e0, A0⟩, ⟨%a1, %e1, A1⟩, ⟨%a2, %e2, A2⟩, ⟨%a3, %e3, A3⟩, ⟨%a4, %e4, A4⟩, Hr, Hg⟩, Ho, H0, H1, H2, H3, H4, H5⟩
      obtain rfl := e0 h0; obtain rfl := e1 h0; obtain rfl := e2 h0; obtain rfl := e3 h0; obtain rfl := e4 h0
      iapply (run_B c (grid0.coords t) _ _ _ _ _ _ _ _ _ _ _ _ _ _ _ _ _ _ _ _ _ _ (fun h => h0 ((hcond0 t).mp h)) (fun h => h1 ((hcond1 t).mp h)) (xblk c (V c (Pipeline.arrRef spec0 0)) t) Y1 Y2 Y3 Y4 Y5 _ _ _ _ _ Set.univ _)
      isplitl [H0]; · iexact H0
      isplitl [H1]; · iexact H1
      isplitl [H2]; · iexact H2
      isplitl [H3]; · iexact H3
      isplitl [H4]; · iexact H4
      isplitl [H5]; · iexact H5
      isplitl [A0]; · iexact A0
      isplitl [A1]; · iexact A1
      isplitl [A2]; · iexact A2
      isplitl [A3]; · iexact A3
      isplitl [A4]; · iexact A4
      iintro ⟨H0, H1, H2, H3, H4, H5, A0, A1, A2, A3, A4⟩
      isplitl [A0 A1 A2 A3 A4 Hr Hg]
      · isplitl [A0]
        · iexists _; isplitr; swap; · iexact A0
          ipureintro; intro _; rw [acc_succ, if_neg h0]
        isplitl [A1]
        · iexists _; isplitr; swap; · iexact A1
          ipureintro; intro _; rw [acc_succ, if_neg h0]
        isplitl [A2]
        · iexists _; isplitr; swap; · iexact A2
          ipureintro; intro _; rw [acc_succ, if_neg h0]
        isplitl [A3]
        · iexists _; isplitr; swap; · iexact A3
          ipureintro; intro _; rw [acc_succ, if_neg h0]
        isplitl [A4]
        · iexists _; isplitr; swap; · iexact A4
          ipureintro; intro _; rw [acc_succ, if_neg h0]
        isplitl [Hr]; · iexact Hr
        iexact Hg
      isplitl [Ho]; · iexact Ho
      isplitl [H0]
      · iexists _; isplitr; swap; · iexact H0
        ipureintro; rfl
      isplitl [H1]
      · iexists _; isplitr; swap; · iexact H1
        ipureintro; intro h15; exact absurd h15 h1
      isplitl [H2]
      · iexists _; isplitr; swap; · iexact H2
        ipureintro; intro h15; exact absurd h15 h1
      isplitl [H3]
      · iexists _; isplitr; swap; · iexact H3
        ipureintro; intro h15; exact absurd h15 h1
      isplitl [H4]
      · iexists _; isplitr; swap; · iexact H4
        ipureintro; intro h15; exact absurd h15 h1
      · iexists _; isplitr; swap; · iexact H5
        ipureintro; intro h15; exact absurd h15 h1

/-- The body obligation of the statistics pass, at every point and for all contents the windows' buffers may hold. -/
theorem body_obligation0 (c : Dev nD) : (rd0 (F := F) V c).BodyObligation (defs₀ (F := F)) Variants.none () Set.univ :=
  fun t Y hY => by
    rw [bigSep_W0, bigSep_W0]
    exact sound_body V c t (Y 0) (finds_in V c t (Y 0) (hY 0)) (Y 1) (Y 2) (Y 3) (Y 4) (Y 5)

end Cert.Kernel.Hand

end
-- ==== Proof.KB.Data1.lean ====
/-
  Region 1 (the affine pass) as pure data, at the buffer contents `V` the region is entered with: the grid is
  32 × 2, point t = 2·b + hh handles batch element b and rows 64·hh … 64·hh + 63; the block of `x` and of the output is
  [1, 128, 64, 128]; the six coefficient arrays [1, 64, 1, 1] are whole blocks, fetched once. The body stores
  channels 0–63 of the output block as a00·x_re + a01·x_im + bias0 and channels 64–127 as a10·x_re + a11·x_im + bias1,
  each coefficient repeated along rows and lanes.
-/
import proofs.«141001_j43499428774583_2_alg».proof.Proof.Gen.Kernel.Launch
import proofs.«141001_j43499428774583_2_alg».proof.Proof.Gen.Kernel.Skeleton
import proofs.«141001_j43499428774583_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! ## The body's rectangles -/

/-- The whole block of `x`. -/
abbrev qAll : Rect S1x128x64x128 := Rect.unit (s := S1x128x64x128) ![0, 0, 0, 0] S1x128x64x128.size inb_S1x128x64x128_S1x128x64x128_0_0_0_0
/-- A whole coefficient block. -/
abbrev qCo : Rect S1x64x1x1 := Rect.unit (s := S1x64x1x1) ![0, 0, 0, 0] S1x64x1x1.size inb_S1x64x1x1_S1x64x1x1_0_0_0_0
/-- Channels 0–63 of the output block. -/
abbrev qLo : Rect S1x128x64x128 := Rect.unit (s := S1x128x64x128) ![0, 0, 0, 0] S1x64x64x128.size inb_S1x128x64x128_S1x64x64x128_0_0_0_0
/-- Channels 64–127 of the output block. -/
abbrev qHi : Rect S1x128x64x128 := Rect.unit (s := S1x128x64x128) ![0, 64, 0, 0] S1x64x64x128.size inb_S1x128x64x128_S1x64x64x128_0_64_0_0

/-- The output block after the body, from the seven input blocks: its two stores as pieces, LAST FIRST. -/
def out1_7 (x0 : Vec F S1x128x64x128 .f32) (a00 a01 a10 a11 b0 b1 : Vec F S1x64x1x1 .f32) : Vec F S1x128x64x128 .f32 :=
  View.canon [⟨qHi, k1_pay1 (k1_pay5 (View.ld x0 qAll) (View.ld a10 qCo) (View.ld a11 qCo)) (View.ld b1 qCo)⟩,
              ⟨qLo, k1_pay4 (View.ld x0 qAll) (View.ld a00 qCo) (View.ld a01 qCo) (View.ld b0 qCo)⟩]

/-- The proof data of pipeline 1 on core `c`: the arrays as the region finds them; after the body at point `t` each
    input's buffer at its block and the output's at `out1_7` of the input blocks; the scoped rest and the generator
    register untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => out1_7 (iblk1 V c 0 t) (iblk1 V c 1 t) (iblk1 V c 2 t) (iblk1 V c 3 t) (iblk1 V c 4 t) (iblk1 V c 5 t) (iblk1 V c 6 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t
    = out1_7 (iblk1 V c 0 t) (iblk1 V c 1 t) (iblk1 V c 2 t) (iblk1 V c 3 t) (iblk1 V c 4 t) (iblk1 V c 5 t) (iblk1 V c 6 t) := by
  dsimp only [dat1]

end Cert.Kernel.Hand

end
-- ==== Proof.KB.Body1.lean ====
/-
  Region 1 (the affine pass): the body obligation of its proof data. At every point each input window's buffer holds
  that window's block, fetched there or not (a coefficient block's index never moves, so the block fetched at the
  first point is every point's); the body reads the seven input blocks whole and writes the output block in two
  stores, channels 0–63 then channels 64–127, which tile it; so the output buffer after the body is the canonical
  contents of those two pieces, whatever it held before.
-/
import proofs.«141001_j43499428774583_2_alg».proof.Proof.KB.Data1

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## Each input window's buffer holds its block at every point

For any proof data whose array is the region's entry contents and whose body leaves the block in place: fetched at the
point, the buffer holds the block; not fetched, the block index has not moved and the previous point's block is this
point's. The windows are uncut and never idle. -/

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)
theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)

/-! ## The two stores tile the output block -/

/-- Channels 0–63 and channels 64–127 together hold every index of the block. -/
theorem cover1_7 (p0 p1 : Vec F S1x64x64x128 .f32) (y : S1x128x64x128.Idx) :
    ∃ pc ∈ ([⟨qHi, p1⟩, ⟨qLo, p0⟩] : List (View.Piece (Elt F) S1x128x64x128 .f32)), y ∈ pc.1.set :=
  View.cover_of_tiled [⟨qHi, p1⟩, ⟨qLo, p0⟩] S1x64x64x128.size (by rfl) y

/-! ## The body's triple -/

set_option maxHeartbeats 1000000 in
/-- The body on whole buffers, the seven inputs' at read contents `x0 a00 a01 a10 a11 b0 b1` and the output's at
    anything, runs to the continuation holding the inputs' as they were and the output's at `out1_7` of the inputs':
    the two reads of the output buffer that precede its stores are not used, and what the two stores leave reads as
    their canonical contents because they cover the block. -/
theorem sound_kernel1 (c : Dev nD) (E : Set ℕ) (i : grid1.Coords) (arg2 : Memref sig .tc .vmem S1x128x64x128 .f32) (harg2 : arg2.IsWhole) (arg3 : Memref sig .tc .vmem S1x64x1x1 .f32) (harg3 : arg3.IsWhole) (arg4 : Memref sig .tc .vmem S1x64x1x1 .f32) (harg4 : arg4.IsWhole) (arg5 : Memref sig .tc .vmem S1x64x1x1 .f32) (harg5 : arg5.IsWhole) (arg6 : Memref sig .tc .vmem S1x64x1x1 .f32) (harg6 : arg6.IsWhole) (arg7 : Memref sig .tc .vmem S1x64x1x1 .f32) (harg7 : arg7.IsWhole) (arg8 : Memref sig .tc .vmem S1x64x1x1 .f32) (harg8 : arg8.IsWhole) (arg9 : Memref sig .tc .vmem S1x128x64x128 .f32) (harg9 : arg9.IsWhole)
    (x0 : Vec F S1x128x64x128 .f32) (a00 a01 a10 a11 b0 b1 : Vec F S1x64x1x1 .f32) (K : PUnit → sProp 𝕄) :
    iprop(owns (c : Thread nD τ) arg2 fullShare x0 ∗ owns (c : Thread nD τ) arg3 fullShare a00 ∗ owns (c : Thread nD τ) arg4 fullShare a01 ∗ owns (c : Thread nD τ) arg5 fullShare a10 ∗ owns (c : Thread nD τ) arg6 fullShare a11 ∗ owns (c : Thread nD τ) arg7 fullShare b0 ∗ owns (c : Thread nD τ) arg8 fullShare b1 ∗ (∃ d, owns (c : Thread nD τ) arg9 fullShare d)
        ∗ (iprop(owns (c : Thread nD τ) arg2 fullShare x0 ∗ owns (c : Thread nD τ) arg3 fullShare a00 ∗ owns (c : Thread nD τ) arg4 fullShare a01 ∗ owns (c : Thread nD τ) arg5 fullShare a10 ∗ owns (c : Thread nD τ) arg6 fullShare a11 ∗ owns (c : Thread nD τ) arg7 fullShare b0 ∗ owns (c : Thread nD τ) arg8 fullShare b1 ∗ owns (c : Thread nD τ) arg9 fullShare (out1_7 x0 a00 a01 a10 a11 b0 b1)) -∗ K ⟨⟩))
      ⊢ wp frame (wpE (defs₀ (F := F)) Variants.none c none) E (cc1__apply_kernel i arg2 harg2 arg3 harg3 arg4 harg4 arg5 harg5 arg6 harg6 arg7 harg7 arg8 harg8 arg9 harg9) K := by
  simp only [cc1__apply_kernel_eq_skeleton]; unfold cc1__apply_kernel_skel
  simp only [k1_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (cover1_7 _ _)

/-! ## The inputs' buffers under the region's proof data -/

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t))

/-- The body at any point: the inputs' buffers hold their blocks, so the body's triple applies; the invariant and the
    core's owed waits pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel1 c Set.univ _ _ _ _ _ _ _ _ _ _ _ _ _ _ _ _ _ (iblk1 V c 0 t) (iblk1 V c 1 t) (iblk1 V c 2 t) (iblk1 V c 3 t) (iblk1 V c 4 t) (iblk1 V c 5 t) (iblk1 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.KB.Aux0.lean ====
/-
  Region 0 (the statistics pass), two auxiliary facts about its proof data.

  The invariant at the ends of the run: before the first point nothing is asked of the five accumulators' contents
  (0 is the first point of a half), so the generator register and the core's scoped buffers outside the staging
  buffers, each whole at some contents, are the invariant; after the last point the invariant gives them back.

  The output arrays after the run: output k's block index at point t is (t / 16, 0), its block rows 8·(t/16) … 8·(t/16) + 7
  of the [16, 64] array, written back at the last point of each half (t ≡ 15 mod 16) only. The write-back of half p puts
  the block's row 0 — the half's lane sums — at row 8·p and leaves row 8·p' of the other half alone; so after the run
  row 8·p of output k's array is half p's lane sums, for p = 0, 1.
-/
import proofs.«141001_j43499428774583_2_alg».proof.Proof.KB.Data0
import Idealize.ShloMosaic.Lib.Pipeline.Value

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)
open Idealize.ShloMosaic.ValueIdx
open Cert.Kernel Cert.Kernel.Gen

variable {F : FTy → Type} [FloatOps F]

local notation "𝕄" => MT nD τ sig Unit (Elt F) ℕ (UR sig nD τ) ℕ

/-! ## The invariant at the first and after the last point -/

section Phi

variable (c : Dev nD) (X : Buf (Elt F) ((cfg0.win 0).arr.view.loc (c.tc : Thread nD τ)))

/-- Accumulator 0 whole at some contents is its invariant before the first point of a half: nothing is asked of
    the contents there. -/
theorem scratch_in0 (n : ℕ) (hn : n % 16 = 0) :
    iprop(∃ f : Buf (Elt F) ((c : Thread nD τ).loc cc0_scratch0), ((c : Thread nD τ).loc cc0_scratch0) ↦{fullShare} f) ⊢ (scratchAt c X 0 n : sProp 𝕄) := by
  unfold scratchAt
  rw [show scM (0 : Fin 5) = Memref.whole cc0_scratch0 from rfl]
  simp only [owns_whole]
  iintro ⟨%f, H⟩
  iexists f
  isplitr
  · ipureintro; intro h; exact absurd hn h
  · iexact H

/-- Accumulator 0's invariant at any point gives it back whole at some contents. -/
theorem scratch_out0 (n : ℕ) :
    (scratchAt c X 0 n : sProp 𝕄) ⊢ iprop(∃ f : Buf (Elt F) ((c : Thread nD τ).loc cc0_scratch0), ((c : Thread nD τ).loc cc0_scratch0) ↦{fullShare} f) := by
  unfold scratchAt
  rw [show scM (0 : Fin 5) = Memref.whole cc0_scratch0 from rfl]
  simp only [owns_whole]
  iintro ⟨%f, -, H⟩
  iexists f
  iexact H

/-- Accumulator 1 whole at some contents is its invariant before the first point of a half: nothing is asked of
    the contents there. -/
theorem scratch_in1 (n : ℕ) (hn : n % 16 = 0) :
    iprop(∃ f : Buf (Elt F) ((c : Thread nD τ).loc cc0_scratch1), ((c : Thread nD τ).loc cc0_scratch1) ↦{fullShare} f) ⊢ (scratchAt c X 1 n : sProp 𝕄) := by
  unfold scratchAt
  rw [show scM (1 : Fin 5) = Memref.whole cc0_scratch1 from rfl]
  simp only [owns_whole]
  iintro ⟨%f, H⟩
  iexists f
  isplitr
  · ipureintro; intro h; exact absurd hn h
  · iexact H

/-- Accumulator 1's invariant at any point gives it back whole at some contents. -/
theorem scratch_out1 (n : ℕ) :
    (scratchAt c X 1 n : sProp 𝕄) ⊢ iprop(∃ f : Buf (Elt F) ((c : Thread nD τ).loc cc0_scratch1), ((c : Thread nD τ).loc cc0_scratch1) ↦{fullShare} f) := by
  unfold scratchAt
  rw [show scM (1 : Fin 5) = Memref.whole cc0_scratch1 from rfl]
  simp only [owns_whole]
  iintro ⟨%f, -, H⟩
  iexists f
  iexact H

/-- Accumulator 2 whole at some contents is its invariant before the first point of a half: nothing is asked of
    the contents there. -/
theorem scratch_in2 (n : ℕ) (hn : n % 16 = 0) :
    iprop(∃ f : Buf (Elt F) ((c : Thread nD τ).loc cc0_scratch2), ((c : Thread nD τ).loc cc0_scratch2) ↦{fullShare} f) ⊢ (scratchAt c X 2 n : sProp 𝕄) := by
  unfold scratchAt
  rw [show scM (2 : Fin 5) = Memref.whole cc0_scratch2 from rfl]
  simp only [owns_whole]
  iintro ⟨%f, H⟩
  iexists f
  isplitr
  · ipureintro; intro h; exact absurd hn h
  · iexact H

/-- Accumulator 2's invariant at any point gives it back whole at some contents. -/
theorem scratch_out2 (n : ℕ) :
    (scratchAt c X 2 n : sProp 𝕄) ⊢ iprop(∃ f : Buf (Elt F) ((c : Thread nD τ).loc cc0_scratch2), ((c : Thread nD τ).loc cc0_scratch2) ↦{fullShare} f) := by
  unfold scratchAt
  rw [show scM (2 : Fin 5) = Memref.whole cc0_scratch2 from rfl]
  simp only [owns_whole]
  iintro ⟨%f, -, H⟩
  iexists f
  iexact H

/-- Accumulator 3 whole at some contents is its invariant before the first point of a half: nothing is asked of
    the contents there. -/
theorem scratch_in3 (n : ℕ) (hn : n % 16 = 0) :
    iprop(∃ f : Buf (Elt F) ((c : Thread nD τ).loc cc0_scratch3), ((c : Thread nD τ).loc cc0_scratch3) ↦{fullShare} f) ⊢ (scratchAt c X 3 n : sProp 𝕄) := by
  unfold scratchAt
  rw [show scM (3 : Fin 5) = Memref.whole cc0_scratch3 from rfl]
  simp only [owns_whole]
  iintro ⟨%f, H⟩
  iexists f
  isplitr
  · ipureintro; intro h; exact absurd hn h
  · iexact H

/-- Accumulator 3's invariant at any point gives it back whole at some contents. -/
theorem scratch_out3 (n : ℕ) :
    (scratchAt c X 3 n : sProp 𝕄) ⊢ iprop(∃ f : Buf (Elt F) ((c : Thread nD τ).loc cc0_scratch3), ((c : Thread nD τ).loc cc0_scratch3) ↦{fullShare} f) := by
  unfold scratchAt
  rw [show scM (3 : Fin 5) = Memref.whole cc0_scratch3 from rfl]
  simp only [owns_whole]
  iintro ⟨%f, -, H⟩
  iexists f
  iexact H

/-- Accumulator 4 whole at some contents is its invariant before the first point of a half: nothing is asked of
    the contents there. -/
theorem scratch_in4 (n : ℕ) (hn : n % 16 = 0) :
    iprop(∃ f : Buf (Elt F) ((c : Thread nD τ).loc cc0_scratch4), ((c : Thread nD τ).loc cc0_scratch4) ↦{fullShare} f) ⊢ (scratchAt c X 4 n : sProp 𝕄) := by
  unfold scratchAt
  rw [show scM (4 : Fin 5) = Memref.whole cc0_scratch4 from rfl]
  simp only [owns_whole]
  iintro ⟨%f, H⟩
  iexists f
  isplitr
  · ipureintro; intro h; exact absurd hn h
  · iexact H

/-- Accumulator 4's invariant at any point gives it back whole at some contents. -/
theorem scratch_out4 (n : ℕ) :
    (scratchAt c X 4 n : sProp 𝕄) ⊢ iprop(∃ f : Buf (Elt F) ((c : Thread nD τ).loc cc0_scratch4), ((c : Thread nD τ).loc cc0_scratch4) ↦{fullShare} f) := by
  unfold scratchAt
  rw [show scM (4 : Fin 5) = Memref.whole cc0_scratch4 from rfl]
  simp only [owns_whole]
  iintro ⟨%f, -, H⟩
  iexists f
  iexact H
/-- The generator register and the core's scoped buffers outside the staging buffers give the invariant before the first point. -/
theorem Phi0_first :
    iprop((∃ r, prngReg c r) ∗ Pipeline.scopedRest (Ix := Unit) (Name := ℕ) (U := UR sig nD τ) (Lvl := ℕ) (Val := Elt F) spec0 c) ⊢ (Phi0 c X 0 : sProp 𝕄) := by
  rw [scopedRest0_eq]
  unfold Phi0 otherScoped
  iintro ⟨Hr, H0, H1, H2, H3, H4, Hrest⟩
  isplitl [H0]; · iapply (scratch_in0 c X 0 rfl); iexact H0
  isplitl [H1]; · iapply (scratch_in1 c X 0 rfl); iexact H1
  isplitl [H2]; · iapply (scratch_in2 c X 0 rfl); iexact H2
  isplitl [H3]; · iapply (scratch_in3 c X 0 rfl); iexact H3
  isplitl [H4]; · iapply (scratch_in4 c X 0 rfl); iexact H4
  isplitl [Hrest]; · iexact Hrest
  iexact Hr

/-- The invariant after the last point gives them back. -/
theorem Phi0_last :
    (Phi0 c X 32 : sProp 𝕄) ⊢ iprop((∃ r, prngReg c r) ∗ Pipeline.scopedRest (Ix := Unit) (Name := ℕ) (U := UR sig nD τ) (Lvl := ℕ) (Val := Elt F) spec0 c) := by
  rw [scopedRest0_eq]
  unfold Phi0 otherScoped
  iintro ⟨H0, H1, H2, H3, H4, Hrest, Hr⟩
  isplitl [Hr]; · iexact Hr
  isplitl [H0]; · iapply (scratch_out0 c X 32); iexact H0
  isplitl [H1]; · iapply (scratch_out1 c X 32); iexact H1
  isplitl [H2]; · iapply (scratch_out2 c X 32); iexact H2
  isplitl [H3]; · iapply (scratch_out3 c X 32); iexact H3
  isplitl [H4]; · iapply (scratch_out4 c X 32); iexact H4
  iexact Hrest

end Phi

/-! ## The output arrays after the run -/

section Arr

variable (V : (c : Dev nD) → (b : Ref sig .tc) → Buf (Elt F) ((c : Thread nD τ).loc b))

/-- Output 0's block index at point `t` is (t / 16, 0). -/
theorem index0_1 : ∀ t : Fin cfg0.N, (cfg0.win 1).index t ⟨0, by decide⟩ = t.val / 16 ∧ (cfg0.win 1).index t ⟨1, by decide⟩ = 0 :=
  (by decide +kernel : ∀ t : Fin grid0.N, win0_1.index t ⟨0, by decide⟩ = t.val / 16 ∧ win0_1.index t ⟨1, by decide⟩ = 0)

/-- A write-back of output 0's block at a point of half `p` puts the block's row 0 at row 8·p of the array, -/
theorem write_hit_1 (c : Dev nD) (t : Fin cfg0.N) (G₀ : Buf (Elt F) ((cfg0.win 1).arr.view.loc (c.tc : Thread nD τ)))
    (X : Vec F S8x64 .f32) (p : Fin 2) (hp : t.val / 16 = p.val) (j : Fin 64) :
    ((cfg0.win 1).blk t).view.write (Elt F) G₀ ((cfg0.win 1).cut (cfg0.grid.coords t) X) Finset.univ (ix2 (⟨8 * p.val, by omega⟩ : Fin 16) j)
      = X (ix2 (0 : Fin 8) j) := by
  obtain ⟨h0, h1⟩ := index0_1 t
  refine (congrFun (View.write_whole_slice_unit (Val := Elt F) main_v0_0 _ _ _ G₀ _) _).trans ?_
  unfold updateSlice
  rw [dif_pos]
  · refine congrArg X (funext fun b => Fin.ext ?_)
    match b with
    | ⟨0, _⟩ => show 8 * p.val - (cfg0.win 1).index t ⟨0, by decide⟩ * 8 = 0; rw [h0]; omega
    | ⟨1, _⟩ => show j.val - (cfg0.win 1).index t ⟨1, by decide⟩ * 64 = j.val; rw [h1]; omega
  · intro a
    match a with
    | ⟨0, _⟩ => show (cfg0.win 1).index t ⟨0, by decide⟩ * 8 ≤ 8 * p.val ∧ 8 * p.val < (cfg0.win 1).index t ⟨0, by decide⟩ * 8 + 8; rw [h0]; omega
    | ⟨1, _⟩ => show (cfg0.win 1).index t ⟨1, by decide⟩ * 64 ≤ j.val ∧ j.val < (cfg0.win 1).index t ⟨1, by decide⟩ * 64 + 64; rw [h1]; omega

/-- and leaves the other half's row alone. -/
theorem write_miss_1 (c : Dev nD) (t : Fin cfg0.N) (G₀ : Buf (Elt F) ((cfg0.win 1).arr.view.loc (c.tc : Thread nD τ)))
    (X : Vec F S8x64 .f32) (p : Fin 2) (hp : t.val / 16 ≠ p.val) (j : Fin 64) :
    ((cfg0.win 1).blk t).view.write (Elt F) G₀ ((cfg0.win 1).cut (cfg0.grid.coords t) X) Finset.univ (ix2 (⟨8 * p.val, by omega⟩ : Fin 16) j)
      = G₀ (ix2 (⟨8 * p.val, by omega⟩ : Fin 16) j) := by
  obtain ⟨h0, h1⟩ := index0_1 t
  refine (congrFun (View.write_whole_slice_unit (Val := Elt F) main_v0_0 _ _ _ G₀ _) _).trans ?_
  unfold updateSlice
  rw [dif_neg]
  intro hin
  have h := hin ⟨0, by decide⟩
  have h' : (cfg0.win 1).index t ⟨0, by decide⟩ * 8 ≤ 8 * p.val ∧ 8 * p.val < (cfg0.win 1).index t ⟨0, by decide⟩ * 8 + 8 := h
  rw [h0] at h'
  omega

/-- After the write-backs of the points below `n`, row 8·p of output 0's array is half `p`'s lane sums, for every
    half whose last point is below `n`: the write-backs are at the last point of each half, a half's write-back puts
    its block's row 0 there, and the other half's leaves it alone. -/
theorem arrAt_rows_1 (c : Dev nD) : ∀ (n : ℕ) (Fk : Buf (Elt F) ((cfg0.win 1).arr.view.loc (c.tc : Thread nD τ))),
    (rd0 V c).ArrAt 1 n Fk → ∀ (p : Fin 2), 16 * p.val + 15 < n → ∀ j : Fin 64,
      Fk (ix2 (⟨8 * p.val, by omega⟩ : Fin 16) j) = pay c (V c (Pipeline.arrRef spec0 0)) 0 p.val (ix2 (0 : Fin 1) j)
  | 0, _, _, p, hp, _ => absurd hp (by omega)
  | n + 1, Fk, h, p, hp, j => by
    have hN : cfg0.N = 32 := N_0
    by_cases hn : n < cfg0.N
    swap
    · have e : (rd0 V c).ArrAt 1 (n + 1) = (rd0 V c).ArrAt 1 n := by
        show (if h : n < cfg0.N then _ else (rd0 V c).ArrAt 1 n) = _
        rw [dif_neg hn]
      rw [e] at h
      exact arrAt_rows_1 c n Fk h p (by have := p.isLt; omega) j
    rw [show n + 1 = (⟨n, hn⟩ : Fin cfg0.N).val + 1 from rfl, RDat.ArrAt_succ] at h
    by_cases hfl : (cfg0.win 1).flush ⟨n, hn⟩ = true
    · rw [if_pos hfl] at h
      obtain ⟨G₀, X, hG₀, ⟨Y, -, hX⟩, rfl⟩ := h
      have hmod : n % 16 = 15 := (flush0_1 ⟨n, hn⟩).mp hfl
      have hrel : outRel c (V c (Pipeline.arrRef spec0 0)) 0 ⟨n, hn⟩ X := hX
      by_cases hpn : n / 16 = p.val
      · rw [write_hit_1 c ⟨n, hn⟩ G₀ X p hpn j, hrel hmod j]
        show pay c (V c (Pipeline.arrRef spec0 0)) 0 (n / 16) _ = _
        rw [hpn]
      · rw [write_miss_1 c ⟨n, hn⟩ G₀ X p hpn j]
        exact arrAt_rows_1 c n G₀ hG₀ p (by omega) j
    · rw [if_neg hfl] at h
      have hmod : n % 16 ≠ 15 := fun e => hfl ((flush0_1 ⟨n, hn⟩).mpr e)
      exact arrAt_rows_1 c n Fk h p (by omega) j

/-- So after the whole run, row 8·p of output 0's array is half `p`'s lane sums. -/
theorem arrAt_out1 (c : Dev nD) (Fk : Buf (Elt F) ((cfg0.win 1).arr.view.loc (c.tc : Thread nD τ)))
    (h : (rd0 V c).ArrAt 1 cfg0.N Fk) (p : Fin 2) (j : Fin 64) :
    Fk (ix2 (⟨8 * p.val, by omega⟩ : Fin 16) j) = pay c (V c (Pipeline.arrRef spec0 0)) 0 p.val (ix2 (0 : Fin 1) j) :=
  arrAt_rows_1 V c cfg0.N Fk h p (by have := p.isLt; have : cfg0.N = 32 := N_0; omega) j

/-- Output 1's block index at point `t` is (t / 16, 0). -/
theorem index0_2 : ∀ t : Fin cfg0.N, (cfg0.win 2).index t ⟨0, by decide⟩ = t.val / 16 ∧ (cfg0.win 2).index t ⟨1, by decide⟩ = 0 :=
  (by decide +kernel : ∀ t : Fin grid0.N, win0_2.index t ⟨0, by decide⟩ = t.val / 16 ∧ win0_2.index t ⟨1, by decide⟩ = 0)

/-- A write-back of output 1's block at a point of half `p` puts the block's row 0 at row 8·p of the array, -/
theorem write_hit_2 (c : Dev nD) (t : Fin cfg0.N) (G₀ : Buf (Elt F) ((cfg0.win 2).arr.view.loc (c.tc : Thread nD τ)))
    (X : Vec F S8x64 .f32) (p : Fin 2) (hp : t.val / 16 = p.val) (j : Fin 64) :
    ((cfg0.win 2).blk t).view.write (Elt F) G₀ ((cfg0.win 2).cut (cfg0.grid.coords t) X) Finset.univ (ix2 (⟨8 * p.val, by omega⟩ : Fin 16) j)
      = X (ix2 (0 : Fin 8) j) := by
  obtain ⟨h0, h1⟩ := index0_2 t
  refine (congrFun (View.write_whole_slice_unit (Val := Elt F) main_v0_1 _ _ _ G₀ _) _).trans ?_
  unfold updateSlice
  rw [dif_pos]
  · refine congrArg X (funext fun b => Fin.ext ?_)
    match b with
    | ⟨0, _⟩ => show 8 * p.val - (cfg0.win 2).index t ⟨0, by decide⟩ * 8 = 0; rw [h0]; omega
    | ⟨1, _⟩ => show j.val - (cfg0.win 2).index t ⟨1, by decide⟩ * 64 = j.val; rw [h1]; omega
  · intro a
    match a with
    | ⟨0, _⟩ => show (cfg0.win 2).index t ⟨0, by decide⟩ * 8 ≤ 8 * p.val ∧ 8 * p.val < (cfg0.win 2).index t ⟨0, by decide⟩ * 8 + 8; rw [h0]; omega
    | ⟨1, _⟩ => show (cfg0.win 2).index t ⟨1, by decide⟩ * 64 ≤ j.val ∧ j.val < (cfg0.win 2).index t ⟨1, by decide⟩ * 64 + 64; rw [h1]; omega

/-- and leaves the other half's row alone. -/
theorem write_miss_2 (c : Dev nD) (t : Fin cfg0.N) (G₀ : Buf (Elt F) ((cfg0.win 2).arr.view.loc (c.tc : Thread nD τ)))
    (X : Vec F S8x64 .f32) (p : Fin 2) (hp : t.val / 16 ≠ p.val) (j : Fin 64) :
    ((cfg0.win 2).blk t).view.write (Elt F) G₀ ((cfg0.win 2).cut (cfg0.grid.coords t) X) Finset.univ (ix2 (⟨8 * p.val, by omega⟩ : Fin 16) j)
      = G₀ (ix2 (⟨8 * p.val, by omega⟩ : Fin 16) j) := by
  obtain ⟨h0, h1⟩ := index0_2 t
  refine (congrFun (View.write_whole_slice_unit (Val := Elt F) main_v0_1 _ _ _ G₀ _) _).trans ?_
  unfold updateSlice
  rw [dif_neg]
  intro hin
  have h := hin ⟨0, by decide⟩
  have h' : (cfg0.win 2).index t ⟨0, by decide⟩ * 8 ≤ 8 * p.val ∧ 8 * p.val < (cfg0.win 2).index t ⟨0, by decide⟩ * 8 + 8 := h
  rw [h0] at h'
  omega

/-- After the write-backs of the points below `n`, row 8·p of output 1's array is half `p`'s lane sums, for every
    half whose last point is below `n`: the write-backs are at the last point of each half, a half's write-back puts
    its block's row 0 there, and the other half's leaves it alone. -/
theorem arrAt_rows_2 (c : Dev nD) : ∀ (n : ℕ) (Fk : Buf (Elt F) ((cfg0.win 2).arr.view.loc (c.tc : Thread nD τ))),
    (rd0 V c).ArrAt 2 n Fk → ∀ (p : Fin 2), 16 * p.val + 15 < n → ∀ j : Fin 64,
      Fk (ix2 (⟨8 * p.val, by omega⟩ : Fin 16) j) = pay c (V c (Pipeline.arrRef spec0 0)) 1 p.val (ix2 (0 : Fin 1) j)
  | 0, _, _, p, hp, _ => absurd hp (by omega)
  | n + 1, Fk, h, p, hp, j => by
    have hN : cfg0.N = 32 := N_0
    by_cases hn : n < cfg0.N
    swap
    · have e : (rd0 V c).ArrAt 2 (n + 1) = (rd0 V c).ArrAt 2 n := by
        show (if h : n < cfg0.N then _ else (rd0 V c).ArrAt 2 n) = _
        rw [dif_neg hn]
      rw [e] at h
      exact arrAt_rows_2 c n Fk h p (by have := p.isLt; omega) j
    rw [show n + 1 = (⟨n, hn⟩ : Fin cfg0.N).val + 1 from rfl, RDat.ArrAt_succ] at h
    by_cases hfl : (cfg0.win 2).flush ⟨n, hn⟩ = true
    · rw [if_pos hfl] at h
      obtain ⟨G₀, X, hG₀, ⟨Y, -, hX⟩, rfl⟩ := h
      have hmod : n % 16 = 15 := (flush0_2 ⟨n, hn⟩).mp hfl
      have hrel : outRel c (V c (Pipeline.arrRef spec0 0)) 1 ⟨n, hn⟩ X := hX
      by_cases hpn : n / 16 = p.val
      · rw [write_hit_2 c ⟨n, hn⟩ G₀ X p hpn j, hrel hmod j]
        show pay c (V c (Pipeline.arrRef spec0 0)) 1 (n / 16) _ = _
        rw [hpn]
      · rw [write_miss_2 c ⟨n, hn⟩ G₀ X p hpn j]
        exact arrAt_rows_2 c n G₀ hG₀ p (by omega) j
    · rw [if_neg hfl] at h
      have hmod : n % 16 ≠ 15 := fun e => hfl ((flush0_2 ⟨n, hn⟩).mpr e)
      exact arrAt_rows_2 c n Fk h p (by omega) j

/-- So after the whole run, row 8·p of output 1's array is half `p`'s lane sums. -/
theorem arrAt_out2 (c : Dev nD) (Fk : Buf (Elt F) ((cfg0.win 2).arr.view.loc (c.tc : Thread nD τ)))
    (h : (rd0 V c).ArrAt 2 cfg0.N Fk) (p : Fin 2) (j : Fin 64) :
    Fk (ix2 (⟨8 * p.val, by omega⟩ : Fin 16) j) = pay c (V c (Pipeline.arrRef spec0 0)) 1 p.val (ix2 (0 : Fin 1) j) :=
  arrAt_rows_2 V c cfg0.N Fk h p (by have := p.isLt; have : cfg0.N = 32 := N_0; omega) j

/-- Output 2's block index at point `t` is (t / 16, 0). -/
theorem index0_3 : ∀ t : Fin cfg0.N, (cfg0.win 3).index t ⟨0, by decide⟩ = t.val / 16 ∧ (cfg0.win 3).index t ⟨1, by decide⟩ = 0 :=
  (by decide +kernel : ∀ t : Fin grid0.N, win0_3.index t ⟨0, by decide⟩ = t.val / 16 ∧ win0_3.index t ⟨1, by decide⟩ = 0)

/-- A write-back of output 2's block at a point of half `p` puts the block's row 0 at row 8·p of the array, -/
theorem write_hit_3 (c : Dev nD) (t : Fin cfg0.N) (G₀ : Buf (Elt F) ((cfg0.win 3).arr.view.loc (c.tc : Thread nD τ)))
    (X : Vec F S8x64 .f32) (p : Fin 2) (hp : t.val / 16 = p.val) (j : Fin 64) :
    ((cfg0.win 3).blk t).view.write (Elt F) G₀ ((cfg0.win 3).cut (cfg0.grid.coords t) X) Finset.univ (ix2 (⟨8 * p.val, by omega⟩ : Fin 16) j)
      = X (ix2 (0 : Fin 8) j) := by
  obtain ⟨h0, h1⟩ := index0_3 t
  refine (congrFun (View.write_whole_slice_unit (Val := Elt F) main_v0_2 _ _ _ G₀ _) _).trans ?_
  unfold updateSlice
  rw [dif_pos]
  · refine congrArg X (funext fun b => Fin.ext ?_)
    match b with
    | ⟨0, _⟩ => show 8 * p.val - (cfg0.win 3).index t ⟨0, by decide⟩ * 8 = 0; rw [h0]; omega
    | ⟨1, _⟩ => show j.val - (cfg0.win 3).index t ⟨1, by decide⟩ * 64 = j.val; rw [h1]; omega
  · intro a
    match a with
    | ⟨0, _⟩ => show (cfg0.win 3).index t ⟨0, by decide⟩ * 8 ≤ 8 * p.val ∧ 8 * p.val < (cfg0.win 3).index t ⟨0, by decide⟩ * 8 + 8; rw [h0]; omega
    | ⟨1, _⟩ => show (cfg0.win 3).index t ⟨1, by decide⟩ * 64 ≤ j.val ∧ j.val < (cfg0.win 3).index t ⟨1, by decide⟩ * 64 + 64; rw [h1]; omega

/-- and leaves the other half's row alone. -/
theorem write_miss_3 (c : Dev nD) (t : Fin cfg0.N) (G₀ : Buf (Elt F) ((cfg0.win 3).arr.view.loc (c.tc : Thread nD τ)))
    (X : Vec F S8x64 .f32) (p : Fin 2) (hp : t.val / 16 ≠ p.val) (j : Fin 64) :
    ((cfg0.win 3).blk t).view.write (Elt F) G₀ ((cfg0.win 3).cut (cfg0.grid.coords t) X) Finset.univ (ix2 (⟨8 * p.val, by omega⟩ : Fin 16) j)
      = G₀ (ix2 (⟨8 * p.val, by omega⟩ : Fin 16) j) := by
  obtain ⟨h0, h1⟩ := index0_3 t
  refine (congrFun (View.write_whole_slice_unit (Val := Elt F) main_v0_2 _ _ _ G₀ _) _).trans ?_
  unfold updateSlice
  rw [dif_neg]
  intro hin
  have h := hin ⟨0, by decide⟩
  have h' : (cfg0.win 3).index t ⟨0, by decide⟩ * 8 ≤ 8 * p.val ∧ 8 * p.val < (cfg0.win 3).index t ⟨0, by decide⟩ * 8 + 8 := h
  rw [h0] at h'
  omega

/-- After the write-backs of the points below `n`, row 8·p of output 2's array is half `p`'s lane sums, for every
    half whose last point is below `n`: the write-backs are at the last point of each half, a half's write-back puts
    its block's row 0 there, and the other half's leaves it alone. -/
theorem arrAt_rows_3 (c : Dev nD) : ∀ (n : ℕ) (Fk : Buf (Elt F) ((cfg0.win 3).arr.view.loc (c.tc : Thread nD τ))),
    (rd0 V c).ArrAt 3 n Fk → ∀ (p : Fin 2), 16 * p.val + 15 < n → ∀ j : Fin 64,
      Fk (ix2 (⟨8 * p.val, by omega⟩ : Fin 16) j) = pay c (V c (Pipeline.arrRef spec0 0)) 2 p.val (ix2 (0 : Fin 1) j)
  | 0, _, _, p, hp, _ => absurd hp (by omega)
  | n + 1, Fk, h, p, hp, j => by
    have hN : cfg0.N = 32 := N_0
    by_cases hn : n < cfg0.N
    swap
    · have e : (rd0 V c).ArrAt 3 (n + 1) = (rd0 V c).ArrAt 3 n := by
        show (if h : n < cfg0.N then _ else (rd0 V c).ArrAt 3 n) = _
        rw [dif_neg hn]
      rw [e] at h
      exact arrAt_rows_3 c n Fk h p (by have := p.isLt; omega) j
    rw [show n + 1 = (⟨n, hn⟩ : Fin cfg0.N).val + 1 from rfl, RDat.ArrAt_succ] at h
    by_cases hfl : (cfg0.win 3).flush ⟨n, hn⟩ = true
    · rw [if_pos hfl] at h
      obtain ⟨G₀, X, hG₀, ⟨Y, -, hX⟩, rfl⟩ := h
      have hmod : n % 16 = 15 := (flush0_3 ⟨n, hn⟩).mp hfl
      have hrel : outRel c (V c (Pipeline.arrRef spec0 0)) 2 ⟨n, hn⟩ X := hX
      by_cases hpn : n / 16 = p.val
      · rw [write_hit_3 c ⟨n, hn⟩ G₀ X p hpn j, hrel hmod j]
        show pay c (V c (Pipeline.arrRef spec0 0)) 2 (n / 16) _ = _
        rw [hpn]
      · rw [write_miss_3 c ⟨n, hn⟩ G₀ X p hpn j]
        exact arrAt_rows_3 c n G₀ hG₀ p (by omega) j
    · rw [if_neg hfl] at h
      have hmod : n % 16 ≠ 15 := fun e => hfl ((flush0_3 ⟨n, hn⟩).mpr e)
      exact arrAt_rows_3 c n Fk h p (by omega) j

/-- So after the whole run, row 8·p of output 2's array is half `p`'s lane sums. -/
theorem arrAt_out3 (c : Dev nD) (Fk : Buf (Elt F) ((cfg0.win 3).arr.view.loc (c.tc : Thread nD τ)))
    (h : (rd0 V c).ArrAt 3 cfg0.N Fk) (p : Fin 2) (j : Fin 64) :
    Fk (ix2 (⟨8 * p.val, by omega⟩ : Fin 16) j) = pay c (V c (Pipeline.arrRef spec0 0)) 2 p.val (ix2 (0 : Fin 1) j) :=
  arrAt_rows_3 V c cfg0.N Fk h p (by have := p.isLt; have : cfg0.N = 32 := N_0; omega) j

/-- Output 3's block index at point `t` is (t / 16, 0). -/
theorem index0_4 : ∀ t : Fin cfg0.N, (cfg0.win 4).index t ⟨0, by decide⟩ = t.val / 16 ∧ (cfg0.win 4).index t ⟨1, by decide⟩ = 0 :=
  (by decide +kernel : ∀ t : Fin grid0.N, win0_4.index t ⟨0, by decide⟩ = t.val / 16 ∧ win0_4.index t ⟨1, by decide⟩ = 0)

/-- A write-back of output 3's block at a point of half `p` puts the block's row 0 at row 8·p of the array, -/
theorem write_hit_4 (c : Dev nD) (t : Fin cfg0.N) (G₀ : Buf (Elt F) ((cfg0.win 4).arr.view.loc (c.tc : Thread nD τ)))
    (X : Vec F S8x64 .f32) (p : Fin 2) (hp : t.val / 16 = p.val) (j : Fin 64) :
    ((cfg0.win 4).blk t).view.write (Elt F) G₀ ((cfg0.win 4).cut (cfg0.grid.coords t) X) Finset.univ (ix2 (⟨8 * p.val, by omega⟩ : Fin 16) j)
      = X (ix2 (0 : Fin 8) j) := by
  obtain ⟨h0, h1⟩ := index0_4 t
  refine (congrFun (View.write_whole_slice_unit (Val := Elt F) main_v0_3 _ _ _ G₀ _) _).trans ?_
  unfold updateSlice
  rw [dif_pos]
  · refine congrArg X (funext fun b => Fin.ext ?_)
    match b with
    | ⟨0, _⟩ => show 8 * p.val - (cfg0.win 4).index t ⟨0, by decide⟩ * 8 = 0; rw [h0]; omega
    | ⟨1, _⟩ => show j.val - (cfg0.win 4).index t ⟨1, by decide⟩ * 64 = j.val; rw [h1]; omega
  · intro a
    match a with
    | ⟨0, _⟩ => show (cfg0.win 4).index t ⟨0, by decide⟩ * 8 ≤ 8 * p.val ∧ 8 * p.val < (cfg0.win 4).index t ⟨0, by decide⟩ * 8 + 8; rw [h0]; omega
    | ⟨1, _⟩ => show (cfg0.win 4).index t ⟨1, by decide⟩ * 64 ≤ j.val ∧ j.val < (cfg0.win 4).index t ⟨1, by decide⟩ * 64 + 64; rw [h1]; omega

/-- and leaves the other half's row alone. -/
theorem write_miss_4 (c : Dev nD) (t : Fin cfg0.N) (G₀ : Buf (Elt F) ((cfg0.win 4).arr.view.loc (c.tc : Thread nD τ)))
    (X : Vec F S8x64 .f32) (p : Fin 2) (hp : t.val / 16 ≠ p.val) (j : Fin 64) :
    ((cfg0.win 4).blk t).view.write (Elt F) G₀ ((cfg0.win 4).cut (cfg0.grid.coords t) X) Finset.univ (ix2 (⟨8 * p.val, by omega⟩ : Fin 16) j)
      = G₀ (ix2 (⟨8 * p.val, by omega⟩ : Fin 16) j) := by
  obtain ⟨h0, h1⟩ := index0_4 t
  refine (congrFun (View.write_whole_slice_unit (Val := Elt F) main_v0_3 _ _ _ G₀ _) _).trans ?_
  unfold updateSlice
  rw [dif_neg]
  intro hin
  have h := hin ⟨0, by decide⟩
  have h' : (cfg0.win 4).index t ⟨0, by decide⟩ * 8 ≤ 8 * p.val ∧ 8 * p.val < (cfg0.win 4).index t ⟨0, by decide⟩ * 8 + 8 := h
  rw [h0] at h'
  omega

/-- After the write-backs of the points below `n`, row 8·p of output 3's array is half `p`'s lane sums, for every
    half whose last point is below `n`: the write-backs are at the last point of each half, a half's write-back puts
    its block's row 0 there, and the other half's leaves it alone. -/
theorem arrAt_rows_4 (c : Dev nD) : ∀ (n : ℕ) (Fk : Buf (Elt F) ((cfg0.win 4).arr.view.loc (c.tc : Thread nD τ))),
    (rd0 V c).ArrAt 4 n Fk → ∀ (p : Fin 2), 16 * p.val + 15 < n → ∀ j : Fin 64,
      Fk (ix2 (⟨8 * p.val, by omega⟩ : Fin 16) j) = pay c (V c (Pipeline.arrRef spec0 0)) 3 p.val (ix2 (0 : Fin 1) j)
  | 0, _, _, p, hp, _ => absurd hp (by omega)
  | n + 1, Fk, h, p, hp, j => by
    have hN : cfg0.N = 32 := N_0
    by_cases hn : n < cfg0.N
    swap
    · have e : (rd0 V c).ArrAt 4 (n + 1) = (rd0 V c).ArrAt 4 n := by
        show (if h : n < cfg0.N then _ else (rd0 V c).ArrAt 4 n) = _
        rw [dif_neg hn]
      rw [e] at h
      exact arrAt_rows_4 c n Fk h p (by have := p.isLt; omega) j
    rw [show n + 1 = (⟨n, hn⟩ : Fin cfg0.N).val + 1 from rfl, RDat.ArrAt_succ] at h
    by_cases hfl : (cfg0.win 4).flush ⟨n, hn⟩ = true
    · rw [if_pos hfl] at h
      obtain ⟨G₀, X, hG₀, ⟨Y, -, hX⟩, rfl⟩ := h
      have hmod : n % 16 = 15 := (flush0_4 ⟨n, hn⟩).mp hfl
      have hrel : outRel c (V c (Pipeline.arrRef spec0 0)) 3 ⟨n, hn⟩ X := hX
      by_cases hpn : n / 16 = p.val
      · rw [write_hit_4 c ⟨n, hn⟩ G₀ X p hpn j, hrel hmod j]
        show pay c (V c (Pipeline.arrRef spec0 0)) 3 (n / 16) _ = _
        rw [hpn]
      · rw [write_miss_4 c ⟨n, hn⟩ G₀ X p hpn j]
        exact arrAt_rows_4 c n G₀ hG₀ p (by omega) j
    · rw [if_neg hfl] at h
      have hmod : n % 16 ≠ 15 := fun e => hfl ((flush0_4 ⟨n, hn⟩).mpr e)
      exact arrAt_rows_4 c n Fk h p (by omega) j

/-- So after the whole run, row 8·p of output 3's array is half `p`'s lane sums. -/
theorem arrAt_out4 (c : Dev nD) (Fk : Buf (Elt F) ((cfg0.win 4).arr.view.loc (c.tc : Thread nD τ)))
    (h : (rd0 V c).ArrAt 4 cfg0.N Fk) (p : Fin 2) (j : Fin 64) :
    Fk (ix2 (⟨8 * p.val, by omega⟩ : Fin 16) j) = pay c (V c (Pipeline.arrRef spec0 0)) 3 p.val (ix2 (0 : Fin 1) j) :=
  arrAt_rows_4 V c cfg0.N Fk h p (by have := p.isLt; have : cfg0.N = 32 := N_0; omega) j

/-- Output 4's block index at point `t` is (t / 16, 0). -/
theorem index0_5 : ∀ t : Fin cfg0.N, (cfg0.win 5).index t ⟨0, by decide⟩ = t.val / 16 ∧ (cfg0.win 5).index t ⟨1, by decide⟩ = 0 :=
  (by decide +kernel : ∀ t : Fin grid0.N, win0_5.index t ⟨0, by decide⟩ = t.val / 16 ∧ win0_5.index t ⟨1, by decide⟩ = 0)

/-- A write-back of output 4's block at a point of half `p` puts the block's row 0 at row 8·p of the array, -/
theorem write_hit_5 (c : Dev nD) (t : Fin cfg0.N) (G₀ : Buf (Elt F) ((cfg0.win 5).arr.view.loc (c.tc : Thread nD τ)))
    (X : Vec F S8x64 .f32) (p : Fin 2) (hp : t.val / 16 = p.val) (j : Fin 64) :
    ((cfg0.win 5).blk t).view.write (Elt F) G₀ ((cfg0.win 5).cut (cfg0.grid.coords t) X) Finset.univ (ix2 (⟨8 * p.val, by omega⟩ : Fin 16) j)
      = X (ix2 (0 : Fin 8) j) := by
  obtain ⟨h0, h1⟩ := index0_5 t
  refine (congrFun (View.write_whole_slice_unit (Val := Elt F) main_v0_4 _ _ _ G₀ _) _).trans ?_
  unfold updateSlice
  rw [dif_pos]
  · refine congrArg X (funext fun b => Fin.ext ?_)
    match b with
    | ⟨0, _⟩ => show 8 * p.val - (cfg0.win 5).index t ⟨0, by decide⟩ * 8 = 0; rw [h0]; omega
    | ⟨1, _⟩ => show j.val - (cfg0.win 5).index t ⟨1, by decide⟩ * 64 = j.val; rw [h1]; omega
  · intro a
    match a with
    | ⟨0, _⟩ => show (cfg0.win 5).index t ⟨0, by decide⟩ * 8 ≤ 8 * p.val ∧ 8 * p.val < (cfg0.win 5).index t ⟨0, by decide⟩ * 8 + 8; rw [h0]; omega
    | ⟨1, _⟩ => show (cfg0.win 5).index t ⟨1, by decide⟩ * 64 ≤ j.val ∧ j.val < (cfg0.win 5).index t ⟨1, by decide⟩ * 64 + 64; rw [h1]; omega

/-- and leaves the other half's row alone. -/
theorem write_miss_5 (c : Dev nD) (t : Fin cfg0.N) (G₀ : Buf (Elt F) ((cfg0.win 5).arr.view.loc (c.tc : Thread nD τ)))
    (X : Vec F S8x64 .f32) (p : Fin 2) (hp : t.val / 16 ≠ p.val) (j : Fin 64) :
    ((cfg0.win 5).blk t).view.write (Elt F) G₀ ((cfg0.win 5).cut (cfg0.grid.coords t) X) Finset.univ (ix2 (⟨8 * p.val, by omega⟩ : Fin 16) j)
      = G₀ (ix2 (⟨8 * p.val, by omega⟩ : Fin 16) j) := by
  obtain ⟨h0, h1⟩ := index0_5 t
  refine (congrFun (View.write_whole_slice_unit (Val := Elt F) main_v0_4 _ _ _ G₀ _) _).trans ?_
  unfold updateSlice
  rw [dif_neg]
  intro hin
  have h := hin ⟨0, by decide⟩
  have h' : (cfg0.win 5).index t ⟨0, by decide⟩ * 8 ≤ 8 * p.val ∧ 8 * p.val < (cfg0.win 5).index t ⟨0, by decide⟩ * 8 + 8 := h
  rw [h0] at h'
  omega

/-- After the write-backs of the points below `n`, row 8·p of output 4's array is half `p`'s lane sums, for every
    half whose last point is below `n`: the write-backs are at the last point of each half, a half's write-back puts
    its block's row 0 there, and the other half's leaves it alone. -/
theorem arrAt_rows_5 (c : Dev nD) : ∀ (n : ℕ) (Fk : Buf (Elt F) ((cfg0.win 5).arr.view.loc (c.tc : Thread nD τ))),
    (rd0 V c).ArrAt 5 n Fk → ∀ (p : Fin 2), 16 * p.val + 15 < n → ∀ j : Fin 64,
      Fk (ix2 (⟨8 * p.val, by omega⟩ : Fin 16) j) = pay c (V c (Pipeline.arrRef spec0 0)) 4 p.val (ix2 (0 : Fin 1) j)
  | 0, _, _, p, hp, _ => absurd hp (by omega)
  | n + 1, Fk, h, p, hp, j => by
    have hN : cfg0.N = 32 := N_0
    by_cases hn : n < cfg0.N
    swap
    · have e : (rd0 V c).ArrAt 5 (n + 1) = (rd0 V c).ArrAt 5 n := by
        show (if h : n < cfg0.N then _ else (rd0 V c).ArrAt 5 n) = _
        rw [dif_neg hn]
      rw [e] at h
      exact arrAt_rows_5 c n Fk h p (by have := p.isLt; omega) j
    rw [show n + 1 = (⟨n, hn⟩ : Fin cfg0.N).val + 1 from rfl, RDat.ArrAt_succ] at h
    by_cases hfl : (cfg0.win 5).flush ⟨n, hn⟩ = true
    · rw [if_pos hfl] at h
      obtain ⟨G₀, X, hG₀, ⟨Y, -, hX⟩, rfl⟩ := h
      have hmod : n % 16 = 15 := (flush0_5 ⟨n, hn⟩).mp hfl
      have hrel : outRel c (V c (Pipeline.arrRef spec0 0)) 4 ⟨n, hn⟩ X := hX
      by_cases hpn : n / 16 = p.val
      · rw [write_hit_5 c ⟨n, hn⟩ G₀ X p hpn j, hrel hmod j]
        show pay c (V c (Pipeline.arrRef spec0 0)) 4 (n / 16) _ = _
        rw [hpn]
      · rw [write_miss_5 c ⟨n, hn⟩ G₀ X p hpn j]
        exact arrAt_rows_5 c n G₀ hG₀ p (by omega) j
    · rw [if_neg hfl] at h
      have hmod : n % 16 ≠ 15 := fun e => hfl ((flush0_5 ⟨n, hn⟩).mpr e)
      exact arrAt_rows_5 c n Fk h p (by omega) j

/-- So after the whole run, row 8·p of output 4's array is half `p`'s lane sums. -/
theorem arrAt_out5 (c : Dev nD) (Fk : Buf (Elt F) ((cfg0.win 5).arr.view.loc (c.tc : Thread nD τ)))
    (h : (rd0 V c).ArrAt 5 cfg0.N Fk) (p : Fin 2) (j : Fin 64) :
    Fk (ix2 (⟨8 * p.val, by omega⟩ : Fin 16) j) = pay c (V c (Pipeline.arrRef spec0 0)) 4 p.val (ix2 (0 : Fin 1) j) :=
  arrAt_rows_5 V c cfg0.N Fk h p (by have := p.isLt; have : cfg0.N = 32 := N_0; omega) j

end Arr

end Cert.Kernel.Hand

end
-- ==== Proof.KB.HostAgree.lean ====
/-
  The host stretch between the two kernel calls reads the five statistics arrays only in their rows 0 and 8.

  Two valuations that agree on every buffer other than the five statistics arrays, and on rows 0 and 8 of each of
  those, give every other buffer the same contents after the stretch: each operation either touches no statistics
  array, and then its result on what it touches depends on the valuation only there; or it is the slice of row 0 or
  row 8 of one statistics array into a buffer of its own, and the two slices are equal. No operation writes a
  statistics array, so the rows stay in agreement along the way.
-/
import proofs.«141001_j43499428774583_2_alg».proof.Proof.Gen.Kernel.Launch
import Idealize.ShloMosaic.Lib.StableHlo.Run
import Idealize.ShloMosaic.Lib.ValueIdx
import Idealize.ShloMosaic.Lib.Pipeline.Value

set_option maxRecDepth 2168

noncomputable section

namespace Cert.Kernel.Hand

open Idealize.ShloMosaic Idealize.ShloMosaic.ValueIdx Cert.Kernel Cert.Kernel.Gen

variable {F : FTy → Type} [FloatOps F]

/-- The five statistics arrays. -/
abbrev statList : List (Ref sig .tc) := [main_v0_0, main_v0_1, main_v0_2, main_v0_3, main_v0_4]

/-- The buffers' contents after the whole host stretch, from contents `V`. -/
def hostAfterF (V : Valuation τ sig (Elt F)) : Valuation τ sig (Elt F) :=
  StableHlo.after main_part2_ops0 (StableHlo.after main_part1_ops0 (StableHlo.after main_part0_ops0 V))

/-- Rows 0 and 8 of two [16, 64] arrays agree. -/
def RowsAgree (A A' : S16x64.Idx → Elt F .f32) : Prop :=
  ∀ j : Fin 64, A (ix2 (0 : Fin 16) j) = A' (ix2 (0 : Fin 16) j) ∧ A (ix2 (8 : Fin 16) j) = A' (ix2 (8 : Fin 16) j)

/-- Agreement off the statistics arrays, and on their rows 0 and 8. -/
structure Inv (V V' : Valuation τ sig (Elt F)) : Prop where
  off : ∀ b : Ref sig .tc, b ∉ statList → V (Proc.devRef .tc b) = V' (Proc.devRef .tc b)
  r0 : RowsAgree (V (Proc.devRef .tc main_v0_0)) (V' (Proc.devRef .tc main_v0_0))
  r1 : RowsAgree (V (Proc.devRef .tc main_v0_1)) (V' (Proc.devRef .tc main_v0_1))
  r2 : RowsAgree (V (Proc.devRef .tc main_v0_2)) (V' (Proc.devRef .tc main_v0_2))
  r3 : RowsAgree (V (Proc.devRef .tc main_v0_3)) (V' (Proc.devRef .tc main_v0_3))
  r4 : RowsAgree (V (Proc.devRef .tc main_v0_4)) (V' (Proc.devRef .tc main_v0_4))

/-- An operation keeps the agreement. -/
def Pres (op : HloOp τ sig (Elt F)) : Prop := ∀ V V' : Valuation τ sig (Elt F), Inv V V' → Inv (op.result V) (op.result V')

/-- A line of operations each keeping the agreement keeps it. -/
theorem after_pres : ∀ (ops : List (HloOp τ sig (Elt F))), ops.Forall Pres →
    ∀ V V' : Valuation τ sig (Elt F), Inv V V' → Inv (StableHlo.after ops V) (StableHlo.after ops V')
  | [], _, _, _, inv => inv
  | op :: ops, h, V, V', inv => by
    rw [List.forall_cons] at h
    exact after_pres ops h.2 _ _ (h.1 V V' inv)

theorem ne_of_stat {s r : Ref sig .tc} (hs : s ∈ statList) (hr : r ∉ statList) :
    (Proc.devRef .tc s : DevRef τ sig) ≠ Proc.devRef .tc r :=
  fun e => hr (Proc.devRef_injective _ e ▸ hs)

/-- An operation on TensorCore references none of which is a statistics array keeps the agreement: its result on its
    buffers depends on the valuation only through them, and it writes no statistics array. -/
theorem pres_of_disjoint (op : HloOp τ sig (Elt F)) (hsub : op.bufs ⊆ StableHlo.tcRefs τ sig)
    (hd : ∀ s ∈ statList, (Proc.devRef .tc s : DevRef τ sig) ∉ op.bufs) : Pres op := by
  intro V V' inv
  have hagree : ∀ b ∈ op.bufs, V b = V' b := by
    intro b hb
    obtain ⟨r, -, rfl⟩ := Finset.mem_map.mp (hsub hb)
    exact inv.off r (fun hr => hd r hr hb)
  have hstat : ∀ s ∈ statList, ∀ W : Valuation τ sig (Elt F),
      op.result W (Proc.devRef .tc s) = W (Proc.devRef .tc s) :=
    fun s hs W => op.result_of_not_mem W (fun hw => hd s hs (op.writes_sub hw))
  refine ⟨?_, ?_, ?_, ?_, ?_, ?_⟩
  · intro b hb
    by_cases hm : (Proc.devRef .tc b : DevRef τ sig) ∈ op.bufs
    · exact op.result_congr hagree _ hm
    · rw [op.result_of_not_mem V (fun hw => hm (op.writes_sub hw)),
        op.result_of_not_mem V' (fun hw => hm (op.writes_sub hw))]
      exact inv.off b hb
  · rw [hstat main_v0_0 (by decide) V, hstat main_v0_0 (by decide) V']; exact inv.r0
  · rw [hstat main_v0_1 (by decide) V, hstat main_v0_1 (by decide) V']; exact inv.r1
  · rw [hstat main_v0_2 (by decide) V, hstat main_v0_2 (by decide) V']; exact inv.r2
  · rw [hstat main_v0_3 (by decide) V, hstat main_v0_3 (by decide) V']; exact inv.r3
  · rw [hstat main_v0_4 (by decide) V, hstat main_v0_4 (by decide) V']; exact inv.r4

theorem pres_nullary (y : Ref sig .tc) (v : y.ty.Contents (Elt F)) (hy) (hy' : y ∉ statList) :
    Pres (StableHlo.nullary (τ := τ) y v hy) :=
  pres_of_disjoint _ (StableHlo.nullary_bufs_sub ..) fun s hs hm => by
    rw [StableHlo.nullary_bufs] at hm
    exact ne_of_stat hs hy' (Finset.mem_singleton.mp hm)

theorem pres_unary (x y : Ref sig .tc) (f : x.ty.Contents (Elt F) → y.ty.Contents (Elt F)) (hx hy)
    (hx' : x ∉ statList) (hy' : y ∉ statList) : Pres (StableHlo.unary (τ := τ) x y f hx hy) :=
  pres_of_disjoint _ (StableHlo.unary_bufs_sub ..) fun s hs hm => by
    rw [StableHlo.unary_bufs] at hm
    rcases Finset.mem_insert.mp hm with h | h
    · exact ne_of_stat hs hx' h
    · exact ne_of_stat hs hy' (Finset.mem_singleton.mp h)

theorem pres_reshape (x y : Ref sig .tc) (he hn hx hy) (hx' : x ∉ statList) (hy' : y ∉ statList) :
    Pres (StableHlo.reshape (τ := τ) (Val := Elt F) x y he hn hx hy) :=
  pres_of_disjoint _ (StableHlo.reshape_bufs_sub ..) fun s hs hm => by
    rw [StableHlo.reshape_bufs] at hm
    rcases Finset.mem_insert.mp hm with h | h
    · exact ne_of_stat hs hx' h
    · exact ne_of_stat hs hy' (Finset.mem_singleton.mp h)

theorem pres_binary (a b y : Ref sig .tc) (f : a.ty.Contents (Elt F) → b.ty.Contents (Elt F) → y.ty.Contents (Elt F))
    (ha hb hy) (ha' : a ∉ statList) (hb' : b ∉ statList) (hy' : y ∉ statList) :
    Pres (StableHlo.binary (τ := τ) a b y f ha hb hy) :=
  pres_of_disjoint _ (StableHlo.binary_bufs_sub ..) fun s hs hm => by
    rw [StableHlo.binary_bufs] at hm
    rcases Finset.mem_insert.mp hm with h | h
    · exact ne_of_stat hs ha' h
    · rcases Finset.mem_insert.mp h with h | h
      · exact ne_of_stat hs hb' h
      · exact ne_of_stat hs hy' (Finset.mem_singleton.mp h)

/-- A one-operand operation reading a statistics array into a buffer that is none keeps the agreement when its
    function gives the same value on the two arrays. -/
theorem pres_unary_stat (s y : Ref sig .tc) (f : s.ty.Contents (Elt F) → y.ty.Contents (Elt F)) (hx hy)
    (hy' : y ∉ statList)
    (hf : ∀ V V' : Valuation τ sig (Elt F), Inv V V' → f (V (Proc.devRef .tc s)) = f (V' (Proc.devRef .tc s))) :
    Pres (StableHlo.unary (τ := τ) s y f hx hy) := by
  intro V V' inv
  have hne : ∀ r ∈ statList, r ≠ y := fun r hr e => hy' (e ▸ hr)
  refine ⟨?_, ?_, ?_, ?_, ?_, ?_⟩
  · intro b hb
    by_cases hby : b = y
    · subst hby
      rw [StableHlo.unary_result', StableHlo.unary_result']
      exact hf V V' inv
    · rw [StableHlo.unary_result_ne' f hx hy V hby, StableHlo.unary_result_ne' f hx hy V' hby]
      exact inv.off b hb
  · rw [StableHlo.unary_result_ne' f hx hy V (hne main_v0_0 (by decide)),
      StableHlo.unary_result_ne' f hx hy V' (hne main_v0_0 (by decide))]; exact inv.r0
  · rw [StableHlo.unary_result_ne' f hx hy V (hne main_v0_1 (by decide)),
      StableHlo.unary_result_ne' f hx hy V' (hne main_v0_1 (by decide))]; exact inv.r1
  · rw [StableHlo.unary_result_ne' f hx hy V (hne main_v0_2 (by decide)),
      StableHlo.unary_result_ne' f hx hy V' (hne main_v0_2 (by decide))]; exact inv.r2
  · rw [StableHlo.unary_result_ne' f hx hy V (hne main_v0_3 (by decide)),
      StableHlo.unary_result_ne' f hx hy V' (hne main_v0_3 (by decide))]; exact inv.r3
  · rw [StableHlo.unary_result_ne' f hx hy V (hne main_v0_4 (by decide)),
      StableHlo.unary_result_ne' f hx hy V' (hne main_v0_4 (by decide))]; exact inv.r4

/-- The slice of row 0 sees row 0 only. -/
theorem slice_row0_congr {α : Type} (A A' : S16x64.Idx → α) (hs : S16x64.Slices ![0, 0] S1x64)
    (h : ∀ c : Fin 64, A (ix2 (0 : Fin 16) c) = A' (ix2 (0 : Fin 16) c)) :
    extractStridedSlice S1x64 ![0, 0] A hs = extractStridedSlice S1x64 ![0, 0] A' hs := by
  funext j
  have h0 : (j 0).val < 1 := (j 0).isLt
  have hk : ∀ a : Fin S16x64.rank, ((ix2 (0 : Fin 16) (⟨(j 1).val, (j 1).isLt⟩ : Fin 64) : S16x64.Idx) a).val
      = (![0, 0] : Fin S16x64.rank → Nat) a + (j (a.cast hs.1.symm)).val := by
    intro a
    match a with
    | ⟨0, _⟩ => show (0 : Nat) = 0 + (j 0).val; omega
    | ⟨1, _⟩ => show (j 1).val = 0 + (j 1).val; omega
  rw [extractStridedSlice_apply _ A hs j _ hk, extractStridedSlice_apply _ A' hs j _ hk]
  exact h _

/-- The slice of row 8 sees row 8 only. -/
theorem slice_row8_congr {α : Type} (A A' : S16x64.Idx → α) (hs : S16x64.Slices ![8, 0] S1x64)
    (h : ∀ c : Fin 64, A (ix2 (8 : Fin 16) c) = A' (ix2 (8 : Fin 16) c)) :
    extractStridedSlice S1x64 ![8, 0] A hs = extractStridedSlice S1x64 ![8, 0] A' hs := by
  funext j
  have h0 : (j 0).val < 1 := (j 0).isLt
  have hk : ∀ a : Fin S16x64.rank, ((ix2 (8 : Fin 16) (⟨(j 1).val, (j 1).isLt⟩ : Fin 64) : S16x64.Idx) a).val
      = (![8, 0] : Fin S16x64.rank → Nat) a + (j (a.cast hs.1.symm)).val := by
    intro a
    match a with
    | ⟨0, _⟩ => show (8 : Nat) = 8 + (j 0).val; omega
    | ⟨1, _⟩ => show (j 1).val = 0 + (j 1).val; omega
  rw [extractStridedSlice_apply _ A hs j _ hk, extractStridedSlice_apply _ A' hs j _ hk]
  exact h _

/-! ## The three lines of the stretch -/

theorem part0_pres : (main_part0_ops0 : List (HloOp τ sig (Elt F))).Forall Pres :=
  ⟨pres_unary_stat _ _ _ _ _ (by decide) (fun _ _ inv => slice_row0_congr _ _ _ fun c => (inv.r0 c).1),
   pres_reshape _ _ _ _ _ _ (by decide) (by decide),
   pres_unary_stat _ _ _ _ _ (by decide) (fun _ _ inv => slice_row8_congr _ _ _ fun c => (inv.r0 c).2),
   pres_reshape _ _ _ _ _ _ (by decide) (by decide),
   pres_binary _ _ _ _ _ _ _ (by decide) (by decide) (by decide),
   pres_unary_stat _ _ _ _ _ (by decide) (fun _ _ inv => slice_row0_congr _ _ _ fun c => (inv.r1 c).1),
   pres_reshape _ _ _ _ _ _ (by decide) (by decide),
   pres_unary_stat _ _ _ _ _ (by decide) (fun _ _ inv => slice_row8_congr _ _ _ fun c => (inv.r1 c).2),
   pres_reshape _ _ _ _ _ _ (by decide) (by decide),
   pres_binary _ _ _ _ _ _ _ (by decide) (by decide) (by decide),
   pres_unary_stat _ _ _ _ _ (by decide) (fun _ _ inv => slice_row0_congr _ _ _ fun c => (inv.r2 c).1),
   pres_reshape _ _ _ _ _ _ (by decide) (by decide),
   pres_unary_stat _ _ _ _ _ (by decide) (fun _ _ inv => slice_row8_congr _ _ _ fun c => (inv.r2 c).2),
   pres_reshape _ _ _ _ _ _ (by decide) (by decide),
   pres_binary _ _ _ _ _ _ _ (by decide) (by decide) (by decide),
   pres_unary_stat _ _ _ _ _ (by decide) (fun _ _ inv => slice_row0_congr _ _ _ fun c => (inv.r3 c).1),
   pres_reshape _ _ _ _ _ _ (by decide) (by decide),
   pres_unary_stat _ _ _ _ _ (by decide) (fun _ _ inv => slice_row8_congr _ _ _ fun c => (inv.r3 c).2),
   pres_reshape _ _ _ _ _ _ (by decide) (by decide),
   pres_binary _ _ _ _ _ _ _ (by decide) (by decide) (by decide),
   pres_unary_stat _ _ _ _ _ (by decide) (fun _ _ inv => slice_row0_congr _ _ _ fun c => (inv.r4 c).1),
   pres_reshape _ _ _ _ _ _ (by decide) (by decide),
   pres_unary_stat _ _ _ _ _ (by decide) (fun _ _ inv => slice_row8_congr _ _ _ fun c => (inv.r4 c).2),
   pres_reshape _ _ _ _ _ _ (by decide) (by decide),
   pres_binary _ _ _ _ _ _ _ (by decide) (by decide) (by decide),
   pres_nullary _ _ _ (by decide),
   pres_unary _ _ _ _ _ (by decide) (by decide),
   pres_binary _ _ _ _ _ _ _ (by decide) (by decide) (by decide),
   pres_nullary _ _ _ (by decide),
   pres_unary _ _ _ _ _ (by decide) (by decide),
   pres_binary _ _ _ _ _ _ _ (by decide) (by decide) (by decide),
   pres_binary _ _ _ _ _ _ _ (by decide) (by decide) (by decide),
   pres_nullary _ _ _ (by decide),
   pres_unary _ _ _ _ _ (by decide) (by decide),
   pres_binary _ _ _ _ _ _ _ (by decide) (by decide) (by decide),
   pres_binary _ _ _ _ _ _ _ (by decide) (by decide) (by decide),
   pres_nullary _ _ _ (by decide),
   pres_unary _ _ _ _ _ (by decide) (by decide),
   pres_binary _ _ _ _ _ _ _ (by decide) (by decide) (by decide),
   pres_binary _ _ _ _ _ _ _ (by decide) (by decide) (by decide),
   pres_nullary _ _ _ (by decide),
   pres_unary _ _ _ _ _ (by decide) (by decide),
   pres_binary _ _ _ _ _ _ _ (by decide) (by decide) (by decide),
   pres_binary _ _ _ _ _ _ _ (by decide) (by decide) (by decide),
   pres_nullary _ _ _ (by decide),
   pres_unary _ _ _ _ _ (by decide) (by decide),
   pres_binary _ _ _ _ _ _ _ (by decide) (by decide) (by decide),
   pres_binary _ _ _ _ _ _ _ (by decide) (by decide) (by decide),
   pres_nullary _ _ _ (by decide),
   pres_unary _ _ _ _ _ (by decide) (by decide),
   pres_binary _ _ _ _ _ _ _ (by decide) (by decide) (by decide),
   pres_binary _ _ _ _ _ _ _ (by decide) (by decide) (by decide),
   pres_nullary _ _ _ (by decide),
   pres_unary _ _ _ _ _ (by decide) (by decide),
   pres_binary _ _ _ _ _ _ _ (by decide) (by decide) (by decide),
   pres_nullary _ _ _ (by decide),
   pres_unary _ _ _ _ _ (by decide) (by decide),
   pres_binary _ _ _ _ _ _ _ (by decide) (by decide) (by decide),
   pres_nullary _ _ _ (by decide)⟩

theorem part1_pres : (main_part1_ops0 : List (HloOp τ sig (Elt F))).Forall Pres :=
  ⟨pres_unary _ _ _ _ _ (by decide) (by decide),
   pres_binary _ _ _ _ _ _ _ (by decide) (by decide) (by decide),
   pres_binary _ _ _ _ _ _ _ (by decide) (by decide) (by decide),
   pres_binary _ _ _ _ _ _ _ (by decide) (by decide) (by decide),
   pres_binary _ _ _ _ _ _ _ (by decide) (by decide) (by decide),
   pres_binary _ _ _ _ _ _ _ (by decide) (by decide) (by decide),
   pres_unary _ _ _ _ _ (by decide) (by decide),
   pres_nullary _ _ _ (by decide),
   pres_unary _ _ _ _ _ (by decide) (by decide),
   pres_binary _ _ _ _ _ _ _ (by decide) (by decide) (by decide),
   pres_binary _ _ _ _ _ _ _ (by decide) (by decide) (by decide),
   pres_unary _ _ _ _ _ (by decide) (by decide),
   pres_binary _ _ _ _ _ _ _ (by decide) (by decide) (by decide),
   pres_binary _ _ _ _ _ _ _ (by decide) (by decide) (by decide),
   pres_binary _ _ _ _ _ _ _ (by decide) (by decide) (by decide),
   pres_binary _ _ _ _ _ _ _ (by decide) (by decide) (by decide),
   pres_binary _ _ _ _ _ _ _ (by decide) (by decide) (by decide),
   pres_binary _ _ _ _ _ _ _ (by decide) (by decide) (by decide),
   pres_binary _ _ _ _ _ _ _ (by decide) (by decide) (by decide),
   pres_binary _ _ _ _ _ _ _ (by decide) (by decide) (by decide),
   pres_binary _ _ _ _ _ _ _ (by decide) (by decide) (by decide),
   pres_binary _ _ _ _ _ _ _ (by decide) (by decide) (by decide),
   pres_binary _ _ _ _ _ _ _ (by decide) (by decide) (by decide),
   pres_binary _ _ _ _ _ _ _ (by decide) (by decide) (by decide),
   pres_unary _ _ _ _ _ (by decide) (by decide),
   pres_binary _ _ _ _ _ _ _ (by decide) (by decide) (by decide),
   pres_unary _ _ _ _ _ (by decide) (by decide),
   pres_binary _ _ _ _ _ _ _ (by decide) (by decide) (by decide),
   pres_binary _ _ _ _ _ _ _ (by decide) (by decide) (by decide),
   pres_unary _ _ _ _ _ (by decide) (by decide),
   pres_reshape _ _ _ _ _ _ (by decide) (by decide),
   pres_unary _ _ _ _ _ (by decide) (by decide),
   pres_reshape _ _ _ _ _ _ (by decide) (by decide),
   pres_unary _ _ _ _ _ (by decide) (by decide),
   pres_reshape _ _ _ _ _ _ (by decide) (by decide),
   pres_unary _ _ _ _ _ (by decide) (by decide),
   pres_reshape _ _ _ _ _ _ (by decide) (by decide),
   pres_binary _ _ _ _ _ _ _ (by decide) (by decide) (by decide),
   pres_binary _ _ _ _ _ _ _ (by decide) (by decide) (by decide),
   pres_binary _ _ _ _ _ _ _ (by decide) (by decide) (by decide),
   pres_binary _ _ _ _ _ _ _ (by decide) (by decide) (by decide),
   pres_binary _ _ _ _ _ _ _ (by decide) (by decide) (by decide),
   pres_binary _ _ _ _ _ _ _ (by decide) (by decide) (by decide),
   pres_binary _ _ _ _ _ _ _ (by decide) (by decide) (by decide),
   pres_binary _ _ _ _ _ _ _ (by decide) (by decide) (by decide),
   pres_binary _ _ _ _ _ _ _ (by decide) (by decide) (by decide),
   pres_binary _ _ _ _ _ _ _ (by decide) (by decide) (by decide),
   pres_binary _ _ _ _ _ _ _ (by decide) (by decide) (by decide),
   pres_binary _ _ _ _ _ _ _ (by decide) (by decide) (by decide),
   pres_unary _ _ _ _ _ (by decide) (by decide),
   pres_reshape _ _ _ _ _ _ (by decide) (by decide),
   pres_unary _ _ _ _ _ (by decide) (by decide),
   pres_reshape _ _ _ _ _ _ (by decide) (by decide),
   pres_binary _ _ _ _ _ _ _ (by decide) (by decide) (by decide),
   pres_binary _ _ _ _ _ _ _ (by decide) (by decide) (by decide),
   pres_binary _ _ _ _ _ _ _ (by decide) (by decide) (by decide),
   pres_binary _ _ _ _ _ _ _ (by decide) (by decide) (by decide),
   pres_binary _ _ _ _ _ _ _ (by decide) (by decide) (by decide),
   pres_binary _ _ _ _ _ _ _ (by decide) (by decide) (by decide),
   pres_binary _ _ _ _ _ _ _ (by decide) (by decide) (by decide)⟩

theorem part2_pres : (main_part2_ops0 : List (HloOp τ sig (Elt F))).Forall Pres :=
  ⟨pres_binary _ _ _ _ _ _ _ (by decide) (by decide) (by decide),
   pres_reshape _ _ _ _ _ _ (by decide) (by decide),
   pres_reshape _ _ _ _ _ _ (by decide) (by decide),
   pres_reshape _ _ _ _ _ _ (by decide) (by decide),
   pres_reshape _ _ _ _ _ _ (by decide) (by decide),
   pres_reshape _ _ _ _ _ _ (by decide) (by decide),
   pres_reshape _ _ _ _ _ _ (by decide) (by decide)⟩

/-- Two valuations that agree off the five statistics arrays and on their rows 0 and 8 give every other buffer the
    same contents after the host stretch. -/
theorem host_agree (V V' : Valuation τ sig (Elt F))
    (hoff : ∀ b : Ref sig .tc, b ∉ statList → V (Proc.devRef .tc b) = V' (Proc.devRef .tc b))
    (h0 : RowsAgree (V (Proc.devRef .tc main_v0_0)) (V' (Proc.devRef .tc main_v0_0)))
    (h1 : RowsAgree (V (Proc.devRef .tc main_v0_1)) (V' (Proc.devRef .tc main_v0_1)))
    (h2 : RowsAgree (V (Proc.devRef .tc main_v0_2)) (V' (Proc.devRef .tc main_v0_2)))
    (h3 : RowsAgree (V (Proc.devRef .tc main_v0_3)) (V' (Proc.devRef .tc main_v0_3)))
    (h4 : RowsAgree (V (Proc.devRef .tc main_v0_4)) (V' (Proc.devRef .tc main_v0_4))) :
    ∀ b : Ref sig .tc, b ∉ statList → hostAfterF V (Proc.devRef .tc b) = hostAfterF V' (Proc.devRef .tc b) :=
  (after_pres _ part2_pres _ _ (after_pres _ part1_pres _ _ (after_pres _ part0_pres V V' ⟨hoff, h0, h1, h2, h3, h4⟩))).off

end Cert.Kernel.Hand

end
-- ==== Proof.KB.Oblig.lean ====
/-
  What the two kernel bodies owe the pipeline, and what the statistics pass's relation says of its arrays at exit,
  gathered for the run.
-/
import proofs.«141001_j43499428774583_2_alg».proof.Proof.KB.Body0
import proofs.«141001_j43499428774583_2_alg».proof.Proof.KB.Body1
import proofs.«141001_j43499428774583_2_alg».proof.Proof.KB.Aux0
import proofs.«141001_j43499428774583_2_alg».proof.Proof.KB.HostAgree

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)
open Idealize.ShloMosaic.ValueIdx
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- What the relation says of output `k`'s array: rows 0 and 8 are the two halves' lane sums. -/
def RowsK (c : Dev nD) (X : Buf (Elt F) ((cfg0.win 0).arr.view.loc (c.tc : Thread nD τ))) (k : Fin 5) (A : S16x64.Idx → Elt F .f32) : Prop :=
  ∀ (p : Fin 2) (j : Fin 64), A (ix2 (⟨8 * p.val, by omega⟩ : Fin 16) j) = pay c X k p.val (ix2 (0 : Fin 1) j)

theorem rowsK_of_arrAt (c : Dev nD) :
    (∀ F1, (rd0 V c).ArrAt 1 cfg0.N F1 → RowsK c (V c (Pipeline.arrRef spec0 0)) 0 F1)
    ∧ (∀ F2, (rd0 V c).ArrAt 2 cfg0.N F2 → RowsK c (V c (Pipeline.arrRef spec0 0)) 1 F2)
    ∧ (∀ F3, (rd0 V c).ArrAt 3 cfg0.N F3 → RowsK c (V c (Pipeline.arrRef spec0 0)) 2 F3)
    ∧ (∀ F4, (rd0 V c).ArrAt 4 cfg0.N F4 → RowsK c (V c (Pipeline.arrRef spec0 0)) 3 F4)
    ∧ (∀ F5, (rd0 V c).ArrAt 5 cfg0.N F5 → RowsK c (V c (Pipeline.arrRef spec0 0)) 4 F5) :=
  ⟨fun F1 h p j => arrAt_out1 V c F1 h p j, fun F2 h p j => arrAt_out2 V c F2 h p j, fun F3 h p j => arrAt_out3 V c F3 h p j,
    fun F4 h p j => arrAt_out4 V c F4 h p j, fun F5 h p j => arrAt_out5 V c F5 h p j⟩

end Cert.Kernel.Hand

end
-- ==== Proof.KB.Run1.lean ====
/-
  The run of the kernel program, first half: the contents of the core's buffers at every boundary of @main
  (the statistics region, three stretches of host operations, the affine region), the thread states, and the host
  stretches as segments. Of the five statistics arrays only rows 0 and 8 are determined (a block's other rows keep
  what a staging buffer happened to hold): what the statistics region leaves is carried as SOME contents satisfying the
  pipeline's relation.
-/
import proofs.«141001_j43499428774583_2_alg».proof.Proof.KB.Oblig

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)
open Idealize.ShloMosaic.ValueIdx
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ)

/-! ## The buffers' contents at each boundary -/

/-- Core `c`'s buffers at launch. -/
abbrev W0 : Dev nD → Valuation τ sig (Elt F) := fun c b => m (c, b)
/-- The same read at the TensorCore's references. -/
abbrev V0 : (c : Dev nD) → (b : Ref sig .tc) → Buf (Elt F) ((c : Thread nD τ).loc b) := fun c b => W0 m c b

/-- Contents for region 0's six arrays. -/
abbrev Arr0 (c : Dev nD) : Type := (w : Fin cfg0.W) → Buf (Elt F) ((cfg0.win w).arr.view.loc (c.tc : Thread nD τ))

/-- After region 0: its arrays at `Fs`, every other buffer as launched. -/
def W1 (c : Dev nD) (Fs : Arr0 (F := F) c) : Valuation τ sig (Elt F) := Pipeline.withArrays spec0 c (W0 m c) Fs
/-- After the first, second and third host stretch. -/
def W2 (c : Dev nD) (Fs : Arr0 (F := F) c) : Valuation τ sig (Elt F) := StableHlo.after main_part0_ops0 (W1 m c Fs)
def W3 (c : Dev nD) (Fs : Arr0 (F := F) c) : Valuation τ sig (Elt F) := StableHlo.after main_part1_ops0 (W2 m c Fs)
def W4 (c : Dev nD) (Fs : Arr0 (F := F) c) : Valuation τ sig (Elt F) := StableHlo.after main_part2_ops0 (W3 m c Fs)

/-- What region 0's relation allows its arrays to hold at its exit. -/
def Rel (c : Dev nD) (Fs : Arr0 (F := F) c) : Prop := ∀ w, (rd0 (V0 m) c).ArrAt w cfg0.N (Fs w)

/-! ## The thread state -/

abbrev 𝒱₀ : Variants := Variants.none
abbrev L : GSem nD τ sig → Finset Unit := fun _ => ∅
abbrev lv : GSem nD τ sig → Unit → ℕ := fun _ _ => 0
/-- The prefetched tables' admissible contents: no pipeline has a table. -/
abbrev adm : (p : Fin 2) → (pcfgs (F := F) p).Adm := fun p => (cfgs p).toPCfg_adm

/-- What rides beside the buffers through every segment: the generator register at some state and nothing owed. -/
abbrev R (c : Dev nD) : sProp 𝕄 := iprop((∃ r, prngReg c r) ∗ ∃ W, owes (c : Thread nD τ) (0 : CellTallies nD τ sig Unit) W)

/-- The thread state after region 0, at the boundary whose contents are `Wf c Fs`: SOME arrays `Fs` the region's
    relation allows, every unscoped buffer at `Wf c Fs`. -/
def St (Wf : (c : Dev nD) → Arr0 (F := F) c → Valuation τ sig (Elt F)) (c : Dev nD) : sProp 𝕄 :=
  iprop(∃ Fs : Arr0 (F := F) c, ⌜Rel m c Fs⌝ ∗ StableHlo.held (c : Thread nD τ) (Pipeline.ucRefs τ sig) (Wf c Fs) ∗ R c)

/-! ## The host stretches as segments -/

theorem part0_fresh : (main_part0_ops0 : List (HloOp τ sig (Elt F))).Forall fun op => op.fresh = ∅ := by
  simp only [List.Forall]; repeat' constructor
theorem part1_fresh : (main_part1_ops0 : List (HloOp τ sig (Elt F))).Forall fun op => op.fresh = ∅ := by
  simp only [List.Forall]; repeat' constructor
theorem part2_fresh : (main_part2_ops0 : List (HloOp τ sig (Elt F))).Forall fun op => op.fresh = ∅ := by
  simp only [List.Forall]; repeat' constructor

set_option backward.isDefEq.respectTransparency.types false in
/-- A host stretch run from the state `St Wf`: it runs to `St` at the stretch's fold over the same contents
    (the operations' rule applied at the contents in hand, whichever they are). -/
def hsegEx (ops : List (HloOp τ sig (Elt F))) (hsub : ops.Forall fun op => op.bufs ⊆ StableHlo.tcRefs τ sig)
    (hfresh : ops.Forall fun op => op.fresh = ∅) (Wf : (c : Dev nD) → Arr0 (F := F) c → Valuation τ sig (Elt F)) :
    Pipeline.HostSeg (Name := ℕ) (U := UR sig nD τ) (pcfgs (F := F)) defs₀ 𝒱₀ L lv where
  prog := StableHlo.seq ops
  pre c := St m Wf c
  post c := St m (fun c Fs => StableHlo.after ops (Wf c Fs)) c
  run c {β} k K := by
    unfold St
    iintro ⟨Hk, Hbd, ⟨%Fs, %hFs, Hh, HR⟩, -⟩
    have hseq := StableHlo.wp_seq (defs := Pipeline.defs (pcfgs (F := F)) defs₀) (Variants.lift 𝒱₀) none Set.univ c (Pipeline.ucRefs τ sig) k (K := K) ops
      (fun op h => Pipeline.sub_ucRefs op ((List.forall_iff_forall_mem.mp hsub) op h))
      (fun op h => (List.forall_iff_forall_mem.mp hfresh) op h) (Wf c Fs)
    iapply hseq $$ [Hbd Hh]
    · isplitl [Hbd] <;> iassumption
    iintro ⟨Hbd, Hh⟩
    iapply Hk
    isplitl [Hbd]; · iexact Hbd
    iexists Fs
    isplitr; · ipureintro; exact hFs
    isplitl [Hh] <;> iassumption

end Cert.Kernel.Hand

end
-- ==== Proof.KB.Run2.lean ====
/-
  The run of the kernel program, second half (a): the canonical contents of the statistics arrays (every row of a
  block holds the block's lane sums), the agreement of everything the host stretches compute from rows 0 and 8 alone,
  and the two pipelines' proof data.
-/
import proofs.«141001_j43499428774583_2_alg».proof.Proof.KB.Run1

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)
open Idealize.ShloMosaic.ValueIdx
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ)

/-- The statistics input as launched. -/
abbrev X0 (c : Dev nD) : Buf (Elt F) ((cfg0.win 0).arr.view.loc (c.tc : Thread nD τ)) := V0 m c (Pipeline.arrRef spec0 0)

/-- A statistics array every row of whose block `p` holds half `p`'s lane sums. -/
def canon (c : Dev nD) (k : Fin 5) : S16x64.Idx → Elt F .f32 :=
  fun i => pay c (X0 m c) k ((i 0).val / 8) (ix2 (0 : Fin 1) (⟨(i 1).val, (i 1).isLt⟩ : Fin 64))

/-- The canonical contents of region 0's arrays at its exit. -/
def Fs₀ (c : Dev nD) : Arr0 (F := F) c
  | ⟨0, _⟩ => X0 m c
  | ⟨1, _⟩ => canon m c 0
  | ⟨2, _⟩ => canon m c 1
  | ⟨3, _⟩ => canon m c 2
  | ⟨4, _⟩ => canon m c 3
  | ⟨5, _⟩ => canon m c 4

/-- What is known of region 0's arrays at its exit: the input as launched, rows 0 and 8 of each output. -/
def Rows (c : Dev nD) (Fs : Arr0 (F := F) c) : Prop :=
  Fs 0 = X0 m c ∧ RowsK c (X0 m c) 0 (Fs 1) ∧ RowsK c (X0 m c) 1 (Fs 2) ∧ RowsK c (X0 m c) 2 (Fs 3)
    ∧ RowsK c (X0 m c) 3 (Fs 4) ∧ RowsK c (X0 m c) 4 (Fs 5)

theorem rowsK_canon (c : Dev nD) (k : Fin 5) : RowsK c (X0 m c) k (canon m c k) := by
  intro p j
  unfold canon
  have e : ((ix2 (⟨8 * p.val, by omega⟩ : Fin 16) j : S16x64.Idx) 0).val / 8 = p.val := by
    show (8 * p.val) / 8 = p.val
    omega
  rw [e]

theorem rows_canon (c : Dev nD) : Rows m c (Fs₀ m c) :=
  ⟨rfl, rowsK_canon m c 0, rowsK_canon m c 1, rowsK_canon m c 2, rowsK_canon m c 3, rowsK_canon m c 4⟩

theorem rows_of_rel (c : Dev nD) (Fs : Arr0 (F := F) c) (h : Rel m c Fs) : Rows m c Fs :=
  ⟨(by have h0 := h 0; rw [(rd0 (V0 m) c).ArrAt_in 0 rfl] at h0; exact h0), (rowsK_of_arrAt (V0 m) c).1 _ (h 1), (rowsK_of_arrAt (V0 m) c).2.1 _ (h 2),
    (rowsK_of_arrAt (V0 m) c).2.2.1 _ (h 3), (rowsK_of_arrAt (V0 m) c).2.2.2.1 _ (h 4), (rowsK_of_arrAt (V0 m) c).2.2.2.2 _ (h 5)⟩

/-! ## Everything the host stretches compute is the same for all admissible contents -/

theorem W1_arr (c : Dev nD) (Fs : Arr0 (F := F) c) (w : Fin cfg0.W) :
    W1 m c Fs (Proc.devRef .tc (Pipeline.arrRef spec0 w)) = Fs w := by
  unfold W1; exact Pipeline.withArrays_arr spec0 launch0.win.arr_inj c _ _ w

theorem W1_of_ne (c : Dev nD) (Fs : Arr0 (F := F) c) (b : Ref sig .tc) (hb : ∀ w, Pipeline.arrRef spec0 w ≠ b) :
    W1 m c Fs (Proc.devRef .tc b) = W0 m c (Proc.devRef .tc b) := by
  unfold W1; exact Pipeline.withArrays_of_ne spec0 c _ _ b hb

theorem rowsAgree_of (c : Dev nD) (k : Fin 5) (A A' : S16x64.Idx → Elt F .f32) (h : RowsK c (X0 m c) k A) (h' : RowsK c (X0 m c) k A') :
    RowsAgree A A' := fun j =>
  ⟨(h 0 j).trans (h' 0 j).symm, (h 1 j).trans (h' 1 j).symm⟩

theorem W4_agree (c : Dev nD) (Fs : Arr0 (F := F) c) (h : Rows m c Fs) (b : Ref sig .tc) (hb : b ∉ (statList : List (Ref sig .tc))) :
    W4 m c Fs (Proc.devRef .tc b) = W4 m c (Fs₀ m c) (Proc.devRef .tc b) := by
  have h' := rows_canon m c
  refine host_agree (W1 m c Fs) (W1 m c (Fs₀ m c)) (fun b hb => ?_) ?_ ?_ ?_ ?_ ?_ b hb
  · by_cases hb0 : b = main_arg0
    · subst hb0
      exact ((W1_arr m c Fs 0).trans h.1).trans ((W1_arr m c (Fs₀ m c) 0).trans h'.1).symm
    · have hne : ∀ w, Pipeline.arrRef spec0 w ≠ b := by
        intro w e
        fin_cases w
        · exact hb0 e.symm
        all_goals exact hb (by rw [← e]; decide)
      rw [W1_of_ne m c Fs b hne, W1_of_ne m c (Fs₀ m c) b hne]
  · rw [W1_arr m c Fs 1, W1_arr m c (Fs₀ m c) 1]; exact rowsAgree_of m c 0 _ _ h.2.1 h'.2.1
  · rw [W1_arr m c Fs 2, W1_arr m c (Fs₀ m c) 2]; exact rowsAgree_of m c 1 _ _ h.2.2.1 h'.2.2.1
  · rw [W1_arr m c Fs 3, W1_arr m c (Fs₀ m c) 3]; exact rowsAgree_of m c 2 _ _ h.2.2.2.1 h'.2.2.2.1
  · rw [W1_arr m c Fs 4, W1_arr m c (Fs₀ m c) 4]; exact rowsAgree_of m c 3 _ _ h.2.2.2.2.1 h'.2.2.2.2.1
  · rw [W1_arr m c Fs 5, W1_arr m c (Fs₀ m c) 5]; exact rowsAgree_of m c 4 _ _ h.2.2.2.2.2 h'.2.2.2.2.2

/-! ## The pipelines' proof data -/

/-- The contents region 1 is entered with, at the canonical statistics arrays. -/
abbrev Vc : (c : Dev nD) → (b : Ref sig .tc) → Buf (Elt F) ((c : Thread nD τ).loc b) := fun c b => W4 m c (Fs₀ m c) (Proc.devRef .tc b)

/-- Every pipeline's proof data: region 0's relational, region 1's exact at the canonical entry contents. -/
def rdats : (p : Fin 2) → (c : Dev nD) → RDat τ (Elt F) Unit ℕ (UR sig nD τ) ℕ (Pipeline.pin (pcfgs (F := F)) adm p) c
  | ⟨0, _⟩ => fun c => rd0 (V0 m) c
  | ⟨1, _⟩ => fun c => (dat1 (Vc m) c).toR

/-- After region 1: its arrays at what its write-backs leave, every other buffer as entered. -/
def W5 (c : Dev nD) (Fs : Arr0 (F := F) c) : Valuation τ sig (Elt F) :=
  Pipeline.withArrays spec1 c (W4 m c Fs) fun w => (dat1 (Vc m) c).arrAt w cfg1.N

end Cert.Kernel.Hand

end
-- ==== Proof.KB.Run3.lean ====
/-
  The run of the kernel program, third part: the two kernel regions as segments of @main.
-/
import proofs.«141001_j43499428774583_2_alg».proof.Proof.KB.Run2

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)
open Idealize.ShloMosaic.ValueIdx
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ)

theorem share0 (c : Dev nD) (w : Fin cfg0.W) : (rdats m 0 c).share w = fullShare := by
  unfold RDat.share; split <;> rfl
theorem share1 (c : Dev nD) (w : Fin cfg1.W) : (rdats m 1 c).share w = fullShare := by
  unfold RDat.share; split <;> rfl

set_option backward.isDefEq.respectTransparency.types false in
/-- Region 0's arrays at contents `Fs` and the unscoped rest as launched are the core's unscoped buffers at `W1 … Fs`. -/
theorem join0 (c : Dev nD) (Fs : Arr0 (F := F) c) :
    iprop((rdats m 0 c).arrays Fs ∗ Pipeline.unscopedRest (Ix := Unit) (Name := ℕ) (U := UR sig nD τ) (Lvl := ℕ) spec0 c (V0 m c))
      ⊢ (StableHlo.held (c : Thread nD τ) (Pipeline.ucRefs τ sig) (W1 m c Fs) : sProp 𝕄) := by
  rw [← Pipeline.unscopedBufs_held c (W1 m c Fs)]
  rw [Pipeline.unscopedBufs_split (Pipeline.pin (pcfgs (F := F)) adm) 0 launch0.win.arr_unscoped launch0.win.arr_inj c (fun b => W1 m c Fs (Proc.devRef .tc b)),
    Pipeline.RDat.arrays_eq (pcfgs (F := F)) adm (rdats m) 0 c launch0.arr_whole (share0 m c)]
  refine BIClass.sep_mono (Entails.of_eq (bigSep_congr fun w _ => by rw [show W1 m c Fs (Proc.devRef .tc (Pipeline.arrRef (Pipeline.pin (pcfgs (F := F)) adm 0).spec w)) = Fs w from W1_arr m c Fs w])) (Entails.of_eq ?_)
  unfold Pipeline.unscopedRest
  exact bigSep_congr fun b hb => by
    dsimp only
    rw [W1_of_ne m c Fs b fun w e => (Finset.mem_sdiff.mp hb).2 (Finset.mem_image.mpr ⟨w, Finset.mem_univ _, e⟩)]

set_option backward.isDefEq.respectTransparency.types false in
/-- REGION 0 (the statistics pass): entered from every unscoped buffer as launched, left at SOME arrays the relation
    allows, every other unscoped buffer as launched. -/
def reg0 : Pipeline.RDat.RegionSeg (pcfgs (F := F)) adm (rdats m) () defs₀ 𝒱₀ L lv 0 where
  win := launch0.win.to₀
  block_pos := launch0.block_pos
  stage_whole := launch0.stage_whole
  K := PEmpty
  osem k := k.elim
  ho := Pipeline.OwnSemFacts.none _
  hbody c := body_obligation0 (V0 m) c
  hwaits := Pipeline.RDat.hwaits_of_owed_zero _ _ _ _ L lv 0 fun _ _ => rfl
  pre c := iprop(StableHlo.held (c : Thread nD τ) (Pipeline.ucRefs τ sig) (W0 m c) ∗ R c)
  post c := St m (W1 m) c
  X c := iprop(∃ r, prngReg c r)
  Y c := iprop(∃ r, prngReg c r)
  Z c := Pipeline.unscopedRest (Ix := Unit) (Name := ℕ) (U := UR sig nD τ) (Lvl := ℕ) spec0 c (V0 m c)
  hentry c := by
    rw [Pipeline.ownSems0_none]
    have hsplit := Pipeline.RDat.arrays_of_unscopedBufs (p := 0) (pcfgs (F := F)) adm (rdats m) launch0.win launch0.arr_whole c
      (share0 m c) (V0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.RDat.owesAt Pipeline.owesWithin
      icases HO with ⟨%W, HO⟩; iexists W; isplitr; · ipureintro; exact fun _ _ => Or.inl trivial
      iexact HO
    isplitl [Hp]; · iexact Hp
    iexact Hrest
  hin c := by
    show _ ⊢ Phi0 c (X0 m c) 0
    iintro ⟨Hp, -, Hr⟩
    iapply (Phi0_first c (X0 m c))
    isplitl [Hp] <;> iassumption
  hout c := by
    rw [Pipeline.ownSems0_none]
    show Phi0 c (X0 m c) 32 ⊢ _
    iintro H
    ihave H' := (Phi0_last c (X0 m c)) $$ H
    icases H' with ⟨Hp, Hr⟩
    isplitl [Hp]; · iexact Hp
    isplitr; · iempintro
    iexact Hr
  hexit c := by
    classical
    unfold St Pipeline.RDat.arraysAt
    iintro ⟨Ha, HO, HY, Hrest⟩
    ihave Ha' := (BI.bigSep_exists_pi Finset.univ (fun w F' => iprop(⌜(rdats m 0 c).ArrAt w cfg0.N F'⌝
        ∗ (cfg0.win w).arr.view.loc (c.tc : Thread nD τ) ↦[(cfg0.win w).arr.view.set]{(rdats m 0 c).share w} F'))) $$ Ha
    icases Ha' with ⟨%Fs, Ha⟩
    ihave Ha2 := (BI.bigSep_pure_sep Finset.univ (fun w => (rdats m 0 c).ArrAt w cfg0.N (Fs w))
        (fun w => (cfg0.win w).arr.view.loc (c.tc : Thread nD τ) ↦[(cfg0.win w).arr.view.set]{(rdats m 0 c).share w} Fs w)) $$ Ha
    icases Ha2 with ⟨%hFs, Ha⟩
    imodintro
    iexists Fs
    isplitr; · ipureintro; exact fun w => hFs w (Finset.mem_univ w)
    isplitl [Ha Hrest]
    · iapply (join0 m c Fs)
      isplitl [Ha]
      · unfold Pipeline.RDat.arrays; iexact Ha
      · iexact Hrest
    isplitl [HY]; · iexact HY
    unfold Pipeline.RDat.owesAt Pipeline.owesWithin
    icases HO with ⟨%W, -, HO⟩; iexists W; iexact HO

end Cert.Kernel.Hand

end
-- ==== Proof.KB.Run4.lean ====
/-
  The run of the kernel program, last part: the affine region as a segment, @main as the list of its five
  segments, and the launch: every weakly fair execution terminates with the result array at what the affine
  region's write-backs leave (a named function of the launch contents) and the arguments as launched.
-/
import proofs.«141001_j43499428774583_2_alg».proof.Proof.KB.Run3

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)
open Idealize.ShloMosaic.ValueIdx
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ)

theorem W5_arr (c : Dev nD) (Fs : Arr0 (F := F) c) (w : Fin cfg1.W) :
    W5 m c Fs (Proc.devRef .tc (Pipeline.arrRef spec1 w)) = (dat1 (Vc m) c).arrAt w cfg1.N := by
  unfold W5; exact Pipeline.withArrays_arr spec1 launch1.win.arr_inj c _ _ w

theorem W5_of_ne (c : Dev nD) (Fs : Arr0 (F := F) c) (b : Ref sig .tc) (hb : ∀ w, Pipeline.arrRef spec1 w ≠ b) :
    W5 m c Fs (Proc.devRef .tc b) = W4 m c Fs (Proc.devRef .tc b) := by
  unfold W5; exact Pipeline.withArrays_of_ne spec1 c _ _ b hb

/-- Region 1's entry contents are what the host stretches leave, whichever admissible statistics arrays they started from. -/
theorem A1_eq (c : Dev nD) (Fs : Arr0 (F := F) c) (h : Rows m c Fs) (w : Fin cfg1.W) :
    (rdats m 1 c).A w = W4 m c Fs (Proc.devRef .tc (Pipeline.arrRef spec1 w)) :=
  (W4_agree m c Fs h (Pipeline.arrRef spec1 w) (by fin_cases w <;> decide)).symm

set_option backward.isDefEq.respectTransparency.types false in
/-- Region 1's arrays at what its write-backs leave and the unscoped rest at `W4 … Fs` are the core's unscoped buffers at `W5 … Fs`. -/
theorem join1 (c : Dev nD) (Fs : Arr0 (F := F) c) :
    iprop((dat1 (Vc m) c).arrays (fun w => (dat1 (Vc m) c).arrAt w cfg1.N)
        ∗ Pipeline.unscopedRest (Ix := Unit) (Name := ℕ) (U := UR sig nD τ) (Lvl := ℕ) spec1 c (fun b => W4 m c Fs (Proc.devRef .tc b)))
      ⊢ (StableHlo.held (c : Thread nD τ) (Pipeline.ucRefs τ sig) (W5 m c Fs) : sProp 𝕄) := by
  rw [← Pipeline.unscopedBufs_held c (W5 m c Fs)]
  rw [show ((dat1 (Vc m) c).arrays (fun w => (dat1 (Vc m) c).arrAt w cfg1.N) : sProp 𝕄) = (rdats m 1 c).arrays (fun w => (dat1 (Vc m) c).arrAt w cfg1.N) from rfl]
  rw [Pipeline.unscopedBufs_split (Pipeline.pin (pcfgs (F := F)) adm) 1 launch1.win.arr_unscoped launch1.win.arr_inj c (fun b => W5 m c Fs (Proc.devRef .tc b)),
    Pipeline.RDat.arrays_eq (pcfgs (F := F)) adm (rdats m) 1 c launch1.arr_whole (share1 m c)]
  refine BIClass.sep_mono (Entails.of_eq (bigSep_congr fun w _ => by
    rw [show W5 m c Fs (Proc.devRef .tc (Pipeline.arrRef (Pipeline.pin (pcfgs (F := F)) adm 1).spec w)) = (dat1 (Vc m) c).arrAt w cfg1.N from W5_arr m c Fs w])) (Entails.of_eq ?_)
  unfold Pipeline.unscopedRest
  exact bigSep_congr fun b hb => by
    dsimp only
    rw [W5_of_ne m c Fs b fun w e => (Finset.mem_sdiff.mp hb).2 (Finset.mem_image.mpr ⟨w, Finset.mem_univ _, e⟩)]

/-- The last thread state without the `owes`. -/
def Tn (c : Dev nD) : sProp 𝕄 :=
  iprop(∃ Fs : Arr0 (F := F) c, ⌜Rel m c Fs⌝ ∗ StableHlo.held (c : Thread nD τ) (Pipeline.ucRefs τ sig) (W5 m c Fs) ∗ ∃ r, prngReg c r)

set_option backward.isDefEq.respectTransparency.types false in
/-- REGION 1 (the affine pass): entered from the state after the host stretches, left with its arrays at what its
    write-backs leave. -/
def reg1 : Pipeline.RDat.RegionSeg (pcfgs (F := F)) adm (rdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (Vc m) c).loose.toR
  hwaits := Pipeline.RDat.hwaits_of_owed_zero _ _ _ _ L lv 1 fun _ _ => rfl
  pre c := St m (W4 m) c
  post c := iprop(Tn m c ∗ ∃ W, owes (c : Thread nD τ) (0 : CellTallies nD τ sig Unit) W)
  X c := iprop(∃ r, prngReg c r)
  Y c := iprop(∃ r, prngReg c r)
  Z c := iprop(∃ Fs : Arr0 (F := F) c, ⌜Rel m c Fs⌝ ∗ Pipeline.unscopedRest (Ix := Unit) (Name := ℕ) (U := UR sig nD τ) (Lvl := ℕ) spec1 c (fun b => W4 m c Fs (Proc.devRef .tc b)))
  hentry c := by
    rw [Pipeline.ownSems0_none]
    unfold St
    iintro ⟨⟨%Fs, %hFs, Hub, Hp, HO⟩, -, -⟩
    have hsplit := Pipeline.RDat.arrays_of_unscopedBufs (p := 1) (pcfgs (F := F)) adm (rdats m) launch1.win launch1.arr_whole c
      (share1 m c) (fun b => W4 m c Fs (Proc.devRef .tc b)) (A1_eq m c Fs (rows_of_rel m c Fs hFs))
    rw [Pipeline.unscopedBufs_held] at hsplit
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.RDat.owesAt Pipeline.owesWithin
      icases HO with ⟨%W, HO⟩; iexists W; isplitr; · ipureintro; exact fun _ _ => Or.inl trivial
      iexact HO
    isplitl [Hp]; · iexact Hp
    iexists Fs
    isplitr; · ipureintro; exact hFs
    iexact Hrest
  hin c := by
    rw [show (rdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (rdats m 1 c).Φ (Fin.last _) = Pipeline.ΦA spec1 c from rfl]; unfold Pipeline.ΦA
    iintro ⟨Hr, Hp⟩
    isplitl [Hp]; · iexact Hp
    isplitr; · iempintro
    iexact Hr
  hexit c := by
    show iprop((dat1 (Vc m) c).toR.arraysAt cfg1.N ∗ _) ⊢ _
    iintro ⟨Ha, HO, HY, ⟨%Fs, %hFs, Hrest⟩⟩
    ihave Ha' := ((dat1 (Vc m) c).toR_arraysAt_post cfg1.N) $$ Ha
    imodintro
    isplitl [Ha' Hrest HY]
    · unfold Tn
      iexists Fs
      isplitr; · ipureintro; exact hFs
      isplitl [Ha' Hrest]
      · iapply (join1 m c Fs)
        isplitl [Ha']
        · iexact Ha'
        · iexact Hrest
      iexact HY
    unfold Pipeline.RDat.owesAt Pipeline.owesWithin
    icases HO with ⟨%W, -, HO⟩; iexists W; iexact HO

end Cert.Kernel.Hand

end
-- ==== Proof.KB.Run5.lean ====
/-
  The run of the kernel program, the launch: @main is its five segments; every weakly fair execution terminates
  with the result array at what the affine region's write-backs leave and the arguments as launched.
-/
import proofs.«141001_j43499428774583_2_alg».proof.Proof.KB.Run4

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)
open Idealize.ShloMosaic.ValueIdx
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- @main's five segments in order. -/
abbrev segs : List (Pipeline.RDat.Seg (pcfgs (F := F)) adm (rdats m) () defs₀ 𝒱₀ L lv) :=
  [ .region (reg0 m),
    .host (hsegEx m main_part0_ops0 main_part0_ops0_sub part0_fresh (W1 m)),
    .host (hsegEx m main_part1_ops0 main_part1_ops0_sub part1_fresh (W2 m)),
    .host (hsegEx m main_part2_ops0 main_part2_ops0_sub part2_fresh (W3 m)),
    .region (reg1 m) ]

/-- @main IS the run of the segments. -/
theorem main_run (c : Dev nD) : main (F := F) c = Pipeline.RDat.Seg.run (segs m) := (main_chain_windows c).trans (by chain_rfl)

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- No host operation writes an argument or the result array. -/
theorem part0_keeps (b : Ref sig .tc) (hb : b ∈ ([main_arg0, main_arg1, main_arg2, main_v116] : List (Ref sig .tc))) (W : Valuation τ sig (Elt F)) :
    StableHlo.after main_part0_ops0 W (Proc.devRef .tc b) = W (Proc.devRef .tc b) :=
  StableHlo.after_of_forall_not_mem (b := Proc.devRef .tc b) _ _ (List.forall_iff_forall_mem.mp (by
    simp only [List.mem_cons, List.mem_nil_iff, or_false] at hb
    rcases hb with rfl | rfl | rfl | rfl <;>
    · simp only [main_part0_ops0, List.Forall, StableHlo.nullary_writes, StableHlo.unary_writes, StableHlo.binary_writes, StableHlo.reshape_writes, Finset.mem_singleton]
      repeat' apply And.intro
      all_goals exact StableHlo.devRef_ne_of_ne (by decide)))
theorem part1_keeps (b : Ref sig .tc) (hb : b ∈ ([main_arg0, main_arg1, main_arg2, main_v116] : List (Ref sig .tc))) (W : Valuation τ sig (Elt F)) :
    StableHlo.after main_part1_ops0 W (Proc.devRef .tc b) = W (Proc.devRef .tc b) :=
  StableHlo.after_of_forall_not_mem (b := Proc.devRef .tc b) _ _ (List.forall_iff_forall_mem.mp (by
    simp only [List.mem_cons, List.mem_nil_iff, or_false] at hb
    rcases hb with rfl | rfl | rfl | rfl <;>
    · simp only [main_part1_ops0, List.Forall, StableHlo.nullary_writes, StableHlo.unary_writes, StableHlo.binary_writes, StableHlo.reshape_writes, Finset.mem_singleton]
      repeat' apply And.intro
      all_goals exact StableHlo.devRef_ne_of_ne (by decide)))
theorem part2_keeps (b : Ref sig .tc) (hb : b ∈ ([main_arg0, main_arg1, main_arg2, main_v116] : List (Ref sig .tc))) (W : Valuation τ sig (Elt F)) :
    StableHlo.after main_part2_ops0 W (Proc.devRef .tc b) = W (Proc.devRef .tc b) :=
  StableHlo.after_of_forall_not_mem (b := Proc.devRef .tc b) _ _ (List.forall_iff_forall_mem.mp (by
    simp only [List.mem_cons, List.mem_nil_iff, or_false] at hb
    rcases hb with rfl | rfl | rfl | rfl <;>
    · simp only [main_part2_ops0, List.Forall, StableHlo.nullary_writes, StableHlo.unary_writes, StableHlo.binary_writes, StableHlo.reshape_writes, Finset.mem_singleton]
      repeat' apply And.intro
      all_goals exact StableHlo.devRef_ne_of_ne (by decide)))

theorem W4_keeps (c : Dev nD) (Fs : Arr0 (F := F) c) (b : Ref sig .tc) (hb : b ∈ ([main_arg0, main_arg1, main_arg2, main_v116] : List (Ref sig .tc))) :
    W4 m c Fs (Proc.devRef .tc b) = W1 m c Fs (Proc.devRef .tc b) := by
  unfold W4 W3 W2
  rw [part2_keeps b hb, part1_keeps b hb, part0_keeps b hb]

/-- The arguments end as launched. -/
theorem W5_arg0 (c : Dev nD) (Fs : Arr0 (F := F) c) (h : Rows m c Fs) : W5 m c Fs (Proc.devRef .tc main_arg0) = m ((c : Thread nD τ).loc main_arg0) :=
  calc W5 m c Fs (Proc.devRef .tc main_arg0)
    _ = (dat1 (Vc m) c).arrAt 0 cfg1.N := W5_arr m c Fs 0
    _ = Vc m c main_arg0 := ((dat1 (Vc m) c).arrAt_in 0 rfl _).trans (A_eq1 (Vc m) c 0)
    _ = W1 m c (Fs₀ m c) (Proc.devRef .tc main_arg0) := W4_keeps m c (Fs₀ m c) main_arg0 (by decide)
    _ = m ((c : Thread nD τ).loc main_arg0) := (W1_arr m c (Fs₀ m c) 0).trans rfl
theorem W5_arg1 (c : Dev nD) (Fs : Arr0 (F := F) c) : W5 m c Fs (Proc.devRef .tc main_arg1) = m ((c : Thread nD τ).loc main_arg1) :=
  calc W5 m c Fs (Proc.devRef .tc main_arg1)
    _ = W4 m c Fs (Proc.devRef .tc main_arg1) := W5_of_ne m c Fs main_arg1 (by decide)
    _ = W1 m c Fs (Proc.devRef .tc main_arg1) := W4_keeps m c Fs main_arg1 (by decide)
    _ = W0 m c (Proc.devRef .tc main_arg1) := W1_of_ne m c Fs main_arg1 (by decide)
    _ = m ((c : Thread nD τ).loc main_arg1) := rfl
theorem W5_arg2 (c : Dev nD) (Fs : Arr0 (F := F) c) : W5 m c Fs (Proc.devRef .tc main_arg2) = m ((c : Thread nD τ).loc main_arg2) :=
  calc W5 m c Fs (Proc.devRef .tc main_arg2)
    _ = W4 m c Fs (Proc.devRef .tc main_arg2) := W5_of_ne m c Fs main_arg2 (by decide)
    _ = W1 m c Fs (Proc.devRef .tc main_arg2) := W4_keeps m c Fs main_arg2 (by decide)
    _ = W0 m c (Proc.devRef .tc main_arg2) := W1_of_ne m c Fs main_arg2 (by decide)
    _ = m ((c : Thread nD τ).loc main_arg2) := rfl

set_option backward.isDefEq.respectTransparency.types false in
/-- THE RUN, at any `F`: from any memory with zero counters, every weakly fair execution of @main terminates, nothing
    faulting, with the result array at what region 1's write-backs leave and each argument array as launched. -/
theorem run_main : θ_run defs (onTc (τ := τ) (main (F := F))) ⟨m, fun _ => 0, ρ⟩ (fun r => ∀ c : Dev nD,
      r.2.mem ((c.tc : Thread nD τ).loc main_v116) = (dat1 (Vc m) c).arrAt 7 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  Pipeline.RDat.θ_run_regions_kit (pcfgs (F := F)) adm (rdats m) () cellOf_inj emb₁ defs₀ 𝒱₀ L lv m ρ main (segs m)
    (fun c Q => by rw [main_run m c])
    (by simp only [segs, Pipeline.RDat.Seg.pipes_host, Pipeline.RDat.Seg.pipes_region, Pipeline.RDat.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tn m)
    (hch := ⟨fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∃ Fs : Arr0 (F := F) c, Rel m c Fs ∧ ∀ b ∈ Pipeline.ucRefs τ sig, s.mem (((c : Thread nD τ)).1, b) = W5 m c Fs b)
    (hfin := fun c s' => by
      unfold Tn StableHlo.held
      iintro ⟨⟨%Fs, %hFs, Hh, -⟩, HSI⟩
      ihave Hr := (pointsTo_read_all (Pipeline.ucRefs τ sig) (fun b => (((c : Thread nD τ)).1, b)) (W5 m c Fs) s') $$ [Hh HSI]
      · isplitl [Hh] <;> iassumption
      icases Hr with ⟨%h, HSI⟩
      imodintro
      isplitr
      · ipureintro; exact ⟨Fs, hFs, h⟩
      · iexact HSI)
    (hQ := fun s h c => by
      obtain ⟨Fs, hFs, hb⟩ := h c
      exact ⟨(hb _ (mem_uc main_v116 (by decide))).trans (W5_arr m c Fs 7),
        (hb _ (mem_uc main_arg0 (by decide))).trans (W5_arg0 m c Fs (rows_of_rel m c Fs hFs)),
        (hb _ (mem_uc main_arg1 (by decide))).trans (W5_arg1 m c Fs),
        (hb _ (mem_uc main_arg2 (by decide))).trans (W5_arg2 m c Fs)⟩)

/-- The frame: the arguments end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => (h c).2) (run_main m ρ)

end Cert.Kernel.Hand

end
-- ==== Proof.RefTerms.lean ====
/-
  The reference program's result as ONE composed term of its three argument arrays, written over named intermediate
  terms: the two channel halves, the centred halves, the three covariance entries (ε on the diagonal), the determinant
  and the two roots, the four entries of the closed 2×2 square root, and the per-channel product of gamma with its
  inverse. Each is a term over the contents `V0` of the buffers the program starts from.
-/
import proofs.«141001_j43499428774583_2_alg».proof.Proof.Gen.ReferenceIdeal
import Idealize.ShloMosaic.Lib.StableHlo.Run

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

set_option maxRecDepth 8192 in
/-- The term of buffer `main_v0`. -/
def res_main_v0 (V0 : Valuation τ sig (Elt F)) : (Proc.devRef .tc main_v0 : DevRef τ sig).ty.Contents (Elt F) :=
  extractStridedSlice S32x64x128x128 ![0, 0, 0, 0] (V0 (Proc.devRef .tc main_arg0)) slices_S32x128x128x128_S32x64x128x128_0_0_0_0

set_option maxRecDepth 8192 in
/-- The term of buffer `main_v1`. -/
def res_main_v1 (V0 : Valuation τ sig (Elt F)) : (Proc.devRef .tc main_v1 : DevRef τ sig).ty.Contents (Elt F) :=
  extractStridedSlice S32x64x128x128 ![0, 64, 0, 0] (V0 (Proc.devRef .tc main_arg0)) slices_S32x128x128x128_S32x64x128x128_0_64_0_0

set_option maxRecDepth 8192 in
/-- The term of buffer `main_v11`. -/
def res_main_v11 (V0 : Valuation τ sig (Elt F)) : (Proc.devRef .tc main_v11 : DevRef τ sig).ty.Contents (Elt F) :=
  subf (res_main_v0 V0) (broadcastInDim S32x64x128x128 ![0, 1, 2, 3] bcast_S1x64x1x1_S32x64x128x128_0_1_2_3 (Host.divf (broadcastInDim S1x64x1x1 ![1] bcast_S64_S1x64x1x1_1 (Host.reduceAdd (res_main_v0 V0) (constant S_ .f32 0x00000000#32) reducesTo_S32x64x128x128_S64_d0_2_3 h_S_)) (broadcastInDim S1x64x1x1 ![] bcast_S_S1x64x1x1 (constant S_ .f32 0x49000000#32))))

set_option maxRecDepth 8192 in
/-- The term of buffer `main_v13`. -/
def res_main_v13 (V0 : Valuation τ sig (Elt F)) : (Proc.devRef .tc main_v13 : DevRef τ sig).ty.Contents (Elt F) :=
  subf (res_main_v1 V0) (broadcastInDim S32x64x128x128 ![0, 1, 2, 3] bcast_S1x64x1x1_S32x64x128x128_0_1_2_3 (Host.divf (broadcastInDim S1x64x1x1 ![1] bcast_S64_S1x64x1x1_1 (Host.reduceAdd (res_main_v1 V0) (constant S_ .f32 0x00000000#32) reducesTo_S32x64x128x128_S64_d0_2_3 h_S_)) (broadcastInDim S1x64x1x1 ![] bcast_S_S1x64x1x1 (constant S_ .f32 0x49000000#32))))

set_option maxRecDepth 8192 in
/-- The term of buffer `main_v25`. -/
def res_main_v25 (V0 : Valuation τ sig (Elt F)) : (Proc.devRef .tc main_v25 : DevRef τ sig).ty.Contents (Elt F) :=
  Host.divf (Host.reduceAdd (mulf (res_main_v11 V0) (res_main_v13 V0)) (constant S_ .f32 0x00000000#32) reducesTo_S32x64x128x128_S64_d0_2_3 h_S_) (broadcastInDim S64 ![] bcast_S_S64 (constant S_ .f32 0x48FFFFE0#32))

set_option maxRecDepth 8192 in
/-- The term of buffer `main_v27`. -/
def res_main_v27 (V0 : Valuation τ sig (Elt F)) : (Proc.devRef .tc main_v27 : DevRef τ sig).ty.Contents (Elt F) :=
  addf (Host.divf (Host.reduceAdd (mulf (res_main_v11 V0) (res_main_v11 V0)) (constant S_ .f32 0x00000000#32) reducesTo_S32x64x128x128_S64_d0_2_3 h_S_) (broadcastInDim S64 ![] bcast_S_S64 (constant S_ .f32 0x48FFFFE0#32))) (broadcastInDim S64 ![] bcast_S_S64 (constant S_ .f32 0x3727C5AC#32))

set_option maxRecDepth 8192 in
/-- The term of buffer `main_v29`. -/
def res_main_v29 (V0 : Valuation τ sig (Elt F)) : (Proc.devRef .tc main_v29 : DevRef τ sig).ty.Contents (Elt F) :=
  addf (Host.divf (Host.reduceAdd (mulf (res_main_v13 V0) (res_main_v13 V0)) (constant S_ .f32 0x00000000#32) reducesTo_S32x64x128x128_S64_d0_2_3 h_S_) (broadcastInDim S64 ![] bcast_S_S64 (constant S_ .f32 0x48FFFFE0#32))) (broadcastInDim S64 ![] bcast_S_S64 (constant S_ .f32 0x3727C5AC#32))

set_option maxRecDepth 8192 in
/-- The term of buffer `main_v33`. -/
def res_main_v33 (V0 : Valuation τ sig (Elt F)) : (Proc.devRef .tc main_v33 : DevRef τ sig).ty.Contents (Elt F) :=
  subf (mulf (res_main_v27 V0) (res_main_v29 V0)) (mulf (res_main_v25 V0) (res_main_v25 V0))

set_option maxRecDepth 8192 in
/-- The term of buffer `main_v34`. -/
def res_main_v34 (V0 : Valuation τ sig (Elt F)) : (Proc.devRef .tc main_v34 : DevRef τ sig).ty.Contents (Elt F) :=
  Host.sqrt (res_main_v33 V0)

set_option maxRecDepth 8192 in
/-- The term of buffer `main_v38`. -/
def res_main_v38 (V0 : Valuation τ sig (Elt F)) : (Proc.devRef .tc main_v38 : DevRef τ sig).ty.Contents (Elt F) :=
  Host.sqrt (addf (addf (res_main_v27 V0) (res_main_v29 V0)) (mulf (broadcastInDim S64 ![] bcast_S_S64 (constant S_ .f32 0x40000000#32)) (res_main_v33 V0)))

set_option maxRecDepth 8192 in
/-- The term of buffer `main_v40`. -/
def res_main_v40 (V0 : Valuation τ sig (Elt F)) : (Proc.devRef .tc main_v40 : DevRef τ sig).ty.Contents (Elt F) :=
  Host.divf (addf (res_main_v27 V0) (res_main_v34 V0)) (res_main_v38 V0)

set_option maxRecDepth 8192 in
/-- The term of buffer `main_v42`. -/
def res_main_v42 (V0 : Valuation τ sig (Elt F)) : (Proc.devRef .tc main_v42 : DevRef τ sig).ty.Contents (Elt F) :=
  Host.divf (addf (res_main_v25 V0) (res_main_v34 V0)) (res_main_v38 V0)

set_option maxRecDepth 8192 in
/-- The term of buffer `main_v44`. -/
def res_main_v44 (V0 : Valuation τ sig (Elt F)) : (Proc.devRef .tc main_v44 : DevRef τ sig).ty.Contents (Elt F) :=
  Host.divf (addf (res_main_v25 V0) (res_main_v34 V0)) (res_main_v38 V0)

set_option maxRecDepth 8192 in
/-- The term of buffer `main_v46`. -/
def res_main_v46 (V0 : Valuation τ sig (Elt F)) : (Proc.devRef .tc main_v46 : DevRef τ sig).ty.Contents (Elt F) :=
  Host.divf (addf (res_main_v29 V0) (res_main_v34 V0)) (res_main_v38 V0)

set_option maxRecDepth 8192 in
/-- The term of buffer `main_v64`. -/
def res_main_v64 (V0 : Valuation τ sig (Elt F)) : (Proc.devRef .tc main_v64 : DevRef τ sig).ty.Contents (Elt F) :=
  Host.dotGeneral dot_S64x2x2_S64x2x2_S64x2x2_2_1_1_2_0_0 none (V0 (Proc.devRef .tc main_arg1)) (Host.divf (concatenate S64x2x2 1 [⟨S64x1x2, (broadcastInDim S64x1x2 ![0, 2] bcast_S64x2_S64x1x2_0_2 (concatenate S64x2 1 [⟨S64x1, (broadcastInDim S64x1 ![0] bcast_S64_S64x1_0 (res_main_v46 V0))⟩, ⟨S64x1, (broadcastInDim S64x1 ![0] bcast_S64_S64x1_0 (Host.negf (res_main_v42 V0)))⟩] concatenates_S64x1_S64x1_S64x2_d1))⟩, ⟨S64x1x2, (broadcastInDim S64x1x2 ![0, 2] bcast_S64x2_S64x1x2_0_2 (concatenate S64x2 1 [⟨S64x1, (broadcastInDim S64x1 ![0] bcast_S64_S64x1_0 (Host.negf (res_main_v44 V0)))⟩, ⟨S64x1, (broadcastInDim S64x1 ![0] bcast_S64_S64x1_0 (res_main_v40 V0))⟩] concatenates_S64x1_S64x1_S64x2_d1))⟩] concatenates_S64x1x2_S64x1x2_S64x2x2_d1) (broadcastInDim S64x2x2 ![0, 1, 2] bcast_S64x1x1_S64x2x2_0_1_2 (broadcastInDim S64x1x1 ![0] bcast_S64_S64x1x1_0 (subf (mulf (res_main_v40 V0) (res_main_v46 V0)) (mulf (res_main_v42 V0) (res_main_v44 V0))))))

set_option maxRecDepth 8192 in
/-- The result: the affine map of the centred halves with the product's entries as coefficients, plus beta's entries,
    the two rows joined along the channel axis. -/
def outTerm (V0 : Valuation τ sig (Elt F)) : (Proc.devRef .tc main_v97 : DevRef τ sig).ty.Contents (Elt F) :=
  concatenate S32x128x128x128 1 [⟨S32x64x128x128, (addf (addf (mulf (broadcastInDim S32x64x128x128 ![0, 1, 2, 3] bcast_S1x64x1x1_S32x64x128x128_0_1_2_3 (broadcastInDim S1x64x1x1 ![1] bcast_S64_S1x64x1x1_1 (shapeCast _ (extractStridedSlice S64x1x1 ![0, 0, 0] (res_main_v64 V0) slices_S64x2x2_S64x1x1_0_0_0) shapeCasts_S64x1x1_S64))) (res_main_v11 V0)) (mulf (broadcastInDim S32x64x128x128 ![0, 1, 2, 3] bcast_S1x64x1x1_S32x64x128x128_0_1_2_3 (broadcastInDim S1x64x1x1 ![1] bcast_S64_S1x64x1x1_1 (shapeCast _ (extractStridedSlice S64x1x1 ![0, 0, 1] (res_main_v64 V0) slices_S64x2x2_S64x1x1_0_0_1) shapeCasts_S64x1x1_S64))) (res_main_v13 V0))) (broadcastInDim S32x64x128x128 ![0, 1, 2, 3] bcast_S1x64x1x1_S32x64x128x128_0_1_2_3 (broadcastInDim S1x64x1x1 ![1] bcast_S64_S1x64x1x1_1 (shapeCast _ (extractStridedSlice S64x1x1 ![0, 0, 0] (V0 (Proc.devRef .tc main_arg2)) slices_S64x2x1_S64x1x1_0_0_0) shapeCasts_S64x1x1_S64))))⟩, ⟨S32x64x128x128, (addf (addf (mulf (broadcastInDim S32x64x128x128 ![0, 1, 2, 3] bcast_S1x64x1x1_S32x64x128x128_0_1_2_3 (broadcastInDim S1x64x1x1 ![1] bcast_S64_S1x64x1x1_1 (shapeCast _ (extractStridedSlice S64x1x1 ![0, 1, 0] (res_main_v64 V0) slices_S64x2x2_S64x1x1_0_1_0) shapeCasts_S64x1x1_S64))) (res_main_v11 V0)) (mulf (broadcastInDim S32x64x128x128 ![0, 1, 2, 3] bcast_S1x64x1x1_S32x64x128x128_0_1_2_3 (broadcastInDim S1x64x1x1 ![1] bcast_S64_S1x64x1x1_1 (shapeCast _ (extractStridedSlice S64x1x1 ![0, 1, 1] (res_main_v64 V0) slices_S64x2x2_S64x1x1_0_1_1) shapeCasts_S64x1x1_S64))) (res_main_v13 V0))) (broadcastInDim S32x64x128x128 ![0, 1, 2, 3] bcast_S1x64x1x1_S32x64x128x128_0_1_2_3 (broadcastInDim S1x64x1x1 ![1] bcast_S64_S1x64x1x1_1 (shapeCast _ (extractStridedSlice S64x1x1 ![0, 1, 0] (V0 (Proc.devRef .tc main_arg2)) slices_S64x2x1_S64x1x1_0_1_0) shapeCasts_S64x1x1_S64))))⟩] concatenates_S32x64x128x128_S32x64x128x128_S32x128x128x128_d1

end Cert.ReferenceIdeal.RefValue

end
-- ==== Proof.RefRead.lean ====
/-
  The reference program's operations, run in order from any contents `V` of the buffers, leave in the result buffer the
  composed term `outTerm V`, and leave the three argument buffers as they were.

  The 111 operations are read in nine consecutive stretches, cut so that every joining of two arrays is the first
  operation of its stretch. Each stretch is read from ARBITRARY contents `W`: what it leaves in the buffers later
  stretches read, as a term of what `W` holds in the buffers it reads itself; and that it leaves alone the buffers it
  does not write. Chaining the nine readings gives the composed term.
-/
import proofs.«141001_j43499428774583_2_alg».proof.Proof.RefRunP
import proofs.«141001_j43499428774583_2_alg».proof.Proof.RefTerms

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

/-- Contents after two lists of operations run one after the other. -/
theorem after_append {Val : EltTy → Type} (l₁ l₂ : List (HloOp τ sig Val)) (V : Valuation τ sig Val) :
    after (l₁ ++ l₂) V = after l₂ (after l₁ V) := by
  induction l₁ generalizing V with
  | nil => rfl
  | cons op l ih => simp only [List.cons_append, after_cons, ih]

/-! ## The stretches -/

/-- Operations 1 … 18: the two halves, their sums and means, the centred halves. -/
abbrev S1 : List (HloOp τ sig (Elt F)) :=
  [ unary main_arg0 main_v0 ((extractStridedSlice S32x64x128x128 ![0, 0, 0, 0] · slices_S32x128x128x128_S32x64x128x128_0_0_0_0) : (⟨S32x128x128x128, .f32⟩ : BufTy).Contents (Elt F) → (⟨S32x64x128x128, .f32⟩ : BufTy).Contents (Elt F)),
    unary main_arg0 main_v1 ((extractStridedSlice S32x64x128x128 ![0, 64, 0, 0] · slices_S32x128x128x128_S32x64x128x128_0_64_0_0) : (⟨S32x128x128x128, .f32⟩ : BufTy).Contents (Elt F) → (⟨S32x64x128x128, .f32⟩ : BufTy).Contents (Elt F)),
    nullary main_cst (constant S_ .f32 0x00000000#32),
    binary main_v0 main_cst main_v2 ((fun x v => Host.reduceAdd x v reducesTo_S32x64x128x128_S64_d0_2_3 h_S_) : (⟨S32x64x128x128, .f32⟩ : BufTy).Contents (Elt F) → (⟨S_, .f32⟩ : BufTy).Contents (Elt F) → (⟨S64, .f32⟩ : BufTy).Contents (Elt F)),
    unary main_v2 main_v3 (broadcastInDim S1x64x1x1 ![1] bcast_S64_S1x64x1x1_1 : (⟨S64, .f32⟩ : BufTy).Contents (Elt F) → (⟨S1x64x1x1, .f32⟩ : BufTy).Contents (Elt F)),
    nullary main_cst_0 (constant S_ .f32 0x49000000#32),
    unary main_cst_0 main_v4 (broadcastInDim S1x64x1x1 ![] bcast_S_S1x64x1x1 : (⟨S_, .f32⟩ : BufTy).Contents (Elt F) → (⟨S1x64x1x1, .f32⟩ : BufTy).Contents (Elt F)),
    binary main_v3 main_v4 main_v5 (Host.divf : (⟨S1x64x1x1, .f32⟩ : BufTy).Contents (Elt F) → (⟨S1x64x1x1, .f32⟩ : BufTy).Contents (Elt F) → (⟨S1x64x1x1, .f32⟩ : BufTy).Contents (Elt F)),
    nullary main_cst_1 (constant S_ .f32 0x00000000#32),
    binary main_v1 main_cst_1 main_v6 ((fun x v => Host.reduceAdd x v reducesTo_S32x64x128x128_S64_d0_2_3 h_S_) : (⟨S32x64x128x128, .f32⟩ : BufTy).Contents (Elt F) → (⟨S_, .f32⟩ : BufTy).Contents (Elt F) → (⟨S64, .f32⟩ : BufTy).Contents (Elt F)),
    unary main_v6 main_v7 (broadcastInDim S1x64x1x1 ![1] bcast_S64_S1x64x1x1_1 : (⟨S64, .f32⟩ : BufTy).Contents (Elt F) → (⟨S1x64x1x1, .f32⟩ : BufTy).Contents (Elt F)),
    nullary main_cst_2 (constant S_ .f32 0x49000000#32),
    unary main_cst_2 main_v8 (broadcastInDim S1x64x1x1 ![] bcast_S_S1x64x1x1 : (⟨S_, .f32⟩ : BufTy).Contents (Elt F) → (⟨S1x64x1x1, .f32⟩ : BufTy).Contents (Elt F)),
    binary main_v7 main_v8 main_v9 (Host.divf : (⟨S1x64x1x1, .f32⟩ : BufTy).Contents (Elt F) → (⟨S1x64x1x1, .f32⟩ : BufTy).Contents (Elt F) → (⟨S1x64x1x1, .f32⟩ : BufTy).Contents (Elt F)),
    unary main_v5 main_v10 (broadcastInDim S32x64x128x128 ![0, 1, 2, 3] bcast_S1x64x1x1_S32x64x128x128_0_1_2_3 : (⟨S1x64x1x1, .f32⟩ : BufTy).Contents (Elt F) → (⟨S32x64x128x128, .f32⟩ : BufTy).Contents (Elt F)),
    binary main_v0 main_v10 main_v11 (subf : (⟨S32x64x128x128, .f32⟩ : BufTy).Contents (Elt F) → (⟨S32x64x128x128, .f32⟩ : BufTy).Contents (Elt F) → (⟨S32x64x128x128, .f32⟩ : BufTy).Contents (Elt F)),
    unary main_v9 main_v12 (broadcastInDim S32x64x128x128 ![0, 1, 2, 3] bcast_S1x64x1x1_S32x64x128x128_0_1_2_3 : (⟨S1x64x1x1, .f32⟩ : BufTy).Contents (Elt F) → (⟨S32x64x128x128, .f32⟩ : BufTy).Contents (Elt F)),
    binary main_v1 main_v12 main_v13 (subf : (⟨S32x64x128x128, .f32⟩ : BufTy).Contents (Elt F) → (⟨S32x64x128x128, .f32⟩ : BufTy).Contents (Elt F) → (⟨S32x64x128x128, .f32⟩ : BufTy).Contents (Elt F)) ]

/-- Operations 19 … 42: the three sums of products of centred samples, divided by n − 1, ε added on the diagonal. -/
abbrev S2 : List (HloOp τ sig (Elt F)) :=
  [ binary main_v11 main_v11 main_v14 (mulf : (⟨S32x64x128x128, .f32⟩ : BufTy).Contents (Elt F) → (⟨S32x64x128x128, .f32⟩ : BufTy).Contents (Elt F) → (⟨S32x64x128x128, .f32⟩ : BufTy).Contents (Elt F)),
    nullary main_cst_3 (constant S_ .f32 0x00000000#32),
    binary main_v14 main_cst_3 main_v15 ((fun x v => Host.reduceAdd x v reducesTo_S32x64x128x128_S64_d0_2_3 h_S_) : (⟨S32x64x128x128, .f32⟩ : BufTy).Contents (Elt F) → (⟨S_, .f32⟩ : BufTy).Contents (Elt F) → (⟨S64, .f32⟩ : BufTy).Contents (Elt F)),
    nullary main_cst_4 (constant S_ .f32 0x48FFFFE0#32),
    unary main_cst_4 main_v16 (broadcastInDim S64 ![] bcast_S_S64 : (⟨S_, .f32⟩ : BufTy).Contents (Elt F) → (⟨S64, .f32⟩ : BufTy).Contents (Elt F)),
    binary main_v15 main_v16 main_v17 (Host.divf : (⟨S64, .f32⟩ : BufTy).Contents (Elt F) → (⟨S64, .f32⟩ : BufTy).Contents (Elt F) → (⟨S64, .f32⟩ : BufTy).Contents (Elt F)),
    binary main_v13 main_v13 main_v18 (mulf : (⟨S32x64x128x128, .f32⟩ : BufTy).Contents (Elt F) → (⟨S32x64x128x128, .f32⟩ : BufTy).Contents (Elt F) → (⟨S32x64x128x128, .f32⟩ : BufTy).Contents (Elt F)),
    nullary main_cst_5 (constant S_ .f32 0x00000000#32),
    binary main_v18 main_cst_5 main_v19 ((fun x v => Host.reduceAdd x v reducesTo_S32x64x128x128_S64_d0_2_3 h_S_) : (⟨S32x64x128x128, .f32⟩ : BufTy).Contents (Elt F) → (⟨S_, .f32⟩ : BufTy).Contents (Elt F) → (⟨S64, .f32⟩ : BufTy).Contents (Elt F)),
    nullary main_cst_6 (constant S_ .f32 0x48FFFFE0#32),
    unary main_cst_6 main_v20 (broadcastInDim S64 ![] bcast_S_S64 : (⟨S_, .f32⟩ : BufTy).Contents (Elt F) → (⟨S64, .f32⟩ : BufTy).Contents (Elt F)),
    binary main_v19 main_v20 main_v21 (Host.divf : (⟨S64, .f32⟩ : BufTy).Contents (Elt F) → (⟨S64, .f32⟩ : BufTy).Contents (Elt F) → (⟨S64, .f32⟩ : BufTy).Contents (Elt F)),
    binary main_v11 main_v13 main_v22 (mulf : (⟨S32x64x128x128, .f32⟩ : BufTy).Contents (Elt F) → (⟨S32x64x128x128, .f32⟩ : BufTy).Contents (Elt F) → (⟨S32x64x128x128, .f32⟩ : BufTy).Contents (Elt F)),
    nullary main_cst_7 (constant S_ .f32 0x00000000#32),
    binary main_v22 main_cst_7 main_v23 ((fun x v => Host.reduceAdd x v reducesTo_S32x64x128x128_S64_d0_2_3 h_S_) : (⟨S32x64x128x128, .f32⟩ : BufTy).Contents (Elt F) → (⟨S_, .f32⟩ : BufTy).Contents (Elt F) → (⟨S64, .f32⟩ : BufTy).Contents (Elt F)),
    nullary main_cst_8 (constant S_ .f32 0x48FFFFE0#32),
    unary main_cst_8 main_v24 (broadcastInDim S64 ![] bcast_S_S64 : (⟨S_, .f32⟩ : BufTy).Contents (Elt F) → (⟨S64, .f32⟩ : BufTy).Contents (Elt F)),
    binary main_v23 main_v24 main_v25 (Host.divf : (⟨S64, .f32⟩ : BufTy).Contents (Elt F) → (⟨S64, .f32⟩ : BufTy).Contents (Elt F) → (⟨S64, .f32⟩ : BufTy).Contents (Elt F)),
    nullary main_cst_9 (constant S_ .f32 0x3727C5AC#32),
    unary main_cst_9 main_v26 (broadcastInDim S64 ![] bcast_S_S64 : (⟨S_, .f32⟩ : BufTy).Contents (Elt F) → (⟨S64, .f32⟩ : BufTy).Contents (Elt F)),
    binary main_v17 main_v26 main_v27 (addf : (⟨S64, .f32⟩ : BufTy).Contents (Elt F) → (⟨S64, .f32⟩ : BufTy).Contents (Elt F) → (⟨S64, .f32⟩ : BufTy).Contents (Elt F)),
    nullary main_cst_10 (constant S_ .f32 0x3727C5AC#32),
    unary main_cst_10 main_v28 (broadcastInDim S64 ![] bcast_S_S64 : (⟨S_, .f32⟩ : BufTy).Contents (Elt F) → (⟨S64, .f32⟩ : BufTy).Contents (Elt F)),
    binary main_v21 main_v28 main_v29 (addf : (⟨S64, .f32⟩ : BufTy).Contents (Elt F) → (⟨S64, .f32⟩ : BufTy).Contents (Elt F) → (⟨S64, .f32⟩ : BufTy).Contents (Elt F)) ]

/-- Operations 43 … 60: trace, determinant, the two roots, the four entries of the square root. -/
abbrev S3 : List (HloOp τ sig (Elt F)) :=
  [ binary main_v27 main_v29 main_v30 (addf : (⟨S64, .f32⟩ : BufTy).Contents (Elt F) → (⟨S64, .f32⟩ : BufTy).Contents (Elt F) → (⟨S64, .f32⟩ : BufTy).Contents (Elt F)),
    binary main_v27 main_v29 main_v31 (mulf : (⟨S64, .f32⟩ : BufTy).Contents (Elt F) → (⟨S64, .f32⟩ : BufTy).Contents (Elt F) → (⟨S64, .f32⟩ : BufTy).Contents (Elt F)),
    binary main_v25 main_v25 main_v32 (mulf : (⟨S64, .f32⟩ : BufTy).Contents (Elt F) → (⟨S64, .f32⟩ : BufTy).Contents (Elt F) → (⟨S64, .f32⟩ : BufTy).Contents (Elt F)),
    binary main_v31 main_v32 main_v33 (subf : (⟨S64, .f32⟩ : BufTy).Contents (Elt F) → (⟨S64, .f32⟩ : BufTy).Contents (Elt F) → (⟨S64, .f32⟩ : BufTy).Contents (Elt F)),
    unary main_v33 main_v34 (Host.sqrt : (⟨S64, .f32⟩ : BufTy).Contents (Elt F) → (⟨S64, .f32⟩ : BufTy).Contents (Elt F)),
    nullary main_cst_11 (constant S_ .f32 0x40000000#32),
    unary main_cst_11 main_v35 (broadcastInDim S64 ![] bcast_S_S64 : (⟨S_, .f32⟩ : BufTy).Contents (Elt F) → (⟨S64, .f32⟩ : BufTy).Contents (Elt F)),
    binary main_v35 main_v33 main_v36 (mulf : (⟨S64, .f32⟩ : BufTy).Contents (Elt F) → (⟨S64, .f32⟩ : BufTy).Contents (Elt F) → (⟨S64, .f32⟩ : BufTy).Contents (Elt F)),
    binary main_v30 main_v36 main_v37 (addf : (⟨S64, .f32⟩ : BufTy).Contents (Elt F) → (⟨S64, .f32⟩ : BufTy).Contents (Elt F) → (⟨S64, .f32⟩ : BufTy).Contents (Elt F)),
    unary main_v37 main_v38 (Host.sqrt : (⟨S64, .f32⟩ : BufTy).Contents (Elt F) → (⟨S64, .f32⟩ : BufTy).Contents (Elt F)),
    binary main_v27 main_v34 main_v39 (addf : (⟨S64, .f32⟩ : BufTy).Contents (Elt F) → (⟨S64, .f32⟩ : BufTy).Contents (Elt F) → (⟨S64, .f32⟩ : BufTy).Contents (Elt F)),
    binary main_v39 main_v38 main_v40 (Host.divf : (⟨S64, .f32⟩ : BufTy).Contents (Elt F) → (⟨S64, .f32⟩ : BufTy).Contents (Elt F) → (⟨S64, .f32⟩ : BufTy).Contents (Elt F)),
    binary main_v25 main_v34 main_v41 (addf : (⟨S64, .f32⟩ : BufTy).Contents (Elt F) → (⟨S64, .f32⟩ : BufTy).Contents (Elt F) → (⟨S64, .f32⟩ : BufTy).Contents (Elt F)),
    binary main_v41 main_v38 main_v42 (Host.divf : (⟨S64, .f32⟩ : BufTy).Contents (Elt F) → (⟨S64, .f32⟩ : BufTy).Contents (Elt F) → (⟨S64, .f32⟩ : BufTy).Contents (Elt F)),
    binary main_v25 main_v34 main_v43 (addf : (⟨S64, .f32⟩ : BufTy).Contents (Elt F) → (⟨S64, .f32⟩ : BufTy).Contents (Elt F) → (⟨S64, .f32⟩ : BufTy).Contents (Elt F)),
    binary main_v43 main_v38 main_v44 (Host.divf : (⟨S64, .f32⟩ : BufTy).Contents (Elt F) → (⟨S64, .f32⟩ : BufTy).Contents (Elt F) → (⟨S64, .f32⟩ : BufTy).Contents (Elt F)),
    binary main_v29 main_v34 main_v45 (addf : (⟨S64, .f32⟩ : BufTy).Contents (Elt F) → (⟨S64, .f32⟩ : BufTy).Contents (Elt F) → (⟨S64, .f32⟩ : BufTy).Contents (Elt F)),
    binary main_v45 main_v38 main_v46 (Host.divf : (⟨S64, .f32⟩ : BufTy).Contents (Elt F) → (⟨S64, .f32⟩ : BufTy).Contents (Elt F) → (⟨S64, .f32⟩ : BufTy).Contents (Elt F)) ]

/-- Operations 61 … 66: the determinant of the square root; the first row's two entries as columns. -/
abbrev S4a : List (HloOp τ sig (Elt F)) :=
  [ binary main_v40 main_v46 main_v47 (mulf : (⟨S64, .f32⟩ : BufTy).Contents (Elt F) → (⟨S64, .f32⟩ : BufTy).Contents (Elt F) → (⟨S64, .f32⟩ : BufTy).Contents (Elt F)),
    binary main_v42 main_v44 main_v48 (mulf : (⟨S64, .f32⟩ : BufTy).Contents (Elt F) → (⟨S64, .f32⟩ : BufTy).Contents (Elt F) → (⟨S64, .f32⟩ : BufTy).Contents (Elt F)),
    binary main_v47 main_v48 main_v49 (subf : (⟨S64, .f32⟩ : BufTy).Contents (Elt F) → (⟨S64, .f32⟩ : BufTy).Contents (Elt F) → (⟨S64, .f32⟩ : BufTy).Contents (Elt F)),
    unary main_v42 main_v50 (Host.negf : (⟨S64, .f32⟩ : BufTy).Contents (Elt F) → (⟨S64, .f32⟩ : BufTy).Contents (Elt F)),
    unary main_v46 main_v51 (broadcastInDim S64x1 ![0] bcast_S64_S64x1_0 : (⟨S64, .f32⟩ : BufTy).Contents (Elt F) → (⟨S64x1, .f32⟩ : BufTy).Contents (Elt F)),
    unary main_v50 main_v52 (broadcastInDim S64x1 ![0] bcast_S64_S64x1_0 : (⟨S64, .f32⟩ : BufTy).Contents (Elt F) → (⟨S64x1, .f32⟩ : BufTy).Contents (Elt F)) ]

/-- Operations 67 … 70: the first row joined; the second row's two entries as columns. -/
abbrev S4b : List (HloOp τ sig (Elt F)) :=
  [ binary main_v51 main_v52 main_v53 ((fun a b => concatenate S64x2 1 [⟨S64x1, a⟩, ⟨S64x1, b⟩] concatenates_S64x1_S64x1_S64x2_d1) : (⟨S64x1, .f32⟩ : BufTy).Contents (Elt F) → (⟨S64x1, .f32⟩ : BufTy).Contents (Elt F) → (⟨S64x2, .f32⟩ : BufTy).Contents (Elt F)),
    unary main_v44 main_v54 (Host.negf : (⟨S64, .f32⟩ : BufTy).Contents (Elt F) → (⟨S64, .f32⟩ : BufTy).Contents (Elt F)),
    unary main_v54 main_v55 (broadcastInDim S64x1 ![0] bcast_S64_S64x1_0 : (⟨S64, .f32⟩ : BufTy).Contents (Elt F) → (⟨S64x1, .f32⟩ : BufTy).Contents (Elt F)),
    unary main_v40 main_v56 (broadcastInDim S64x1 ![0] bcast_S64_S64x1_0 : (⟨S64, .f32⟩ : BufTy).Contents (Elt F) → (⟨S64x1, .f32⟩ : BufTy).Contents (Elt F)) ]

/-- Operations 71 … 73: the second row joined; both rows as row blocks. -/
abbrev S4c : List (HloOp τ sig (Elt F)) :=
  [ binary main_v55 main_v56 main_v57 ((fun a b => concatenate S64x2 1 [⟨S64x1, a⟩, ⟨S64x1, b⟩] concatenates_S64x1_S64x1_S64x2_d1) : (⟨S64x1, .f32⟩ : BufTy).Contents (Elt F) → (⟨S64x1, .f32⟩ : BufTy).Contents (Elt F) → (⟨S64x2, .f32⟩ : BufTy).Contents (Elt F)),
    unary main_v53 main_v58 (broadcastInDim S64x1x2 ![0, 2] bcast_S64x2_S64x1x2_0_2 : (⟨S64x2, .f32⟩ : BufTy).Contents (Elt F) → (⟨S64x1x2, .f32⟩ : BufTy).Contents (Elt F)),
    unary main_v57 main_v59 (broadcastInDim S64x1x2 ![0, 2] bcast_S64x2_S64x1x2_0_2 : (⟨S64x2, .f32⟩ : BufTy).Contents (Elt F) → (⟨S64x1x2, .f32⟩ : BufTy).Contents (Elt F)) ]

/-- Operations 74 … 78: the adjugate joined, divided by the determinant, and the product with gamma. -/
abbrev S4d : List (HloOp τ sig (Elt F)) :=
  [ binary main_v58 main_v59 main_v60 ((fun a b => concatenate S64x2x2 1 [⟨S64x1x2, a⟩, ⟨S64x1x2, b⟩] concatenates_S64x1x2_S64x1x2_S64x2x2_d1) : (⟨S64x1x2, .f32⟩ : BufTy).Contents (Elt F) → (⟨S64x1x2, .f32⟩ : BufTy).Contents (Elt F) → (⟨S64x2x2, .f32⟩ : BufTy).Contents (Elt F)),
    unary main_v49 main_v61 (broadcastInDim S64x1x1 ![0] bcast_S64_S64x1x1_0 : (⟨S64, .f32⟩ : BufTy).Contents (Elt F) → (⟨S64x1x1, .f32⟩ : BufTy).Contents (Elt F)),
    unary main_v61 main_v62 (broadcastInDim S64x2x2 ![0, 1, 2] bcast_S64x1x1_S64x2x2_0_1_2 : (⟨S64x1x1, .f32⟩ : BufTy).Contents (Elt F) → (⟨S64x2x2, .f32⟩ : BufTy).Contents (Elt F)),
    binary main_v60 main_v62 main_v63 (Host.divf : (⟨S64x2x2, .f32⟩ : BufTy).Contents (Elt F) → (⟨S64x2x2, .f32⟩ : BufTy).Contents (Elt F) → (⟨S64x2x2, .f32⟩ : BufTy).Contents (Elt F)),
    binary main_arg1 main_v63 main_v64 ((fun l r => Host.dotGeneral dot_S64x2x2_S64x2x2_S64x2x2_2_1_1_2_0_0 none l r) : (⟨S64x2x2, .f32⟩ : BufTy).Contents (Elt F) → (⟨S64x2x2, .f32⟩ : BufTy).Contents (Elt F) → (⟨S64x2x2, .f32⟩ : BufTy).Contents (Elt F)) ]

/-- Operations 79 … 110: the product's four entries and beta's two spread over batch, rows and lanes; the two rows of the affine map. -/
abbrev S5a : List (HloOp τ sig (Elt F)) :=
  [ unary main_v64 main_v65 ((extractStridedSlice S64x1x1 ![0, 0, 0] · slices_S64x2x2_S64x1x1_0_0_0) : (⟨S64x2x2, .f32⟩ : BufTy).Contents (Elt F) → (⟨S64x1x1, .f32⟩ : BufTy).Contents (Elt F)),
    reshape main_v65 main_v66 rfl shapeCasts_S64x1x1_S64,
    unary main_v66 main_v67 (broadcastInDim S1x64x1x1 ![1] bcast_S64_S1x64x1x1_1 : (⟨S64, .f32⟩ : BufTy).Contents (Elt F) → (⟨S1x64x1x1, .f32⟩ : BufTy).Contents (Elt F)),
    unary main_v64 main_v68 ((extractStridedSlice S64x1x1 ![0, 0, 1] · slices_S64x2x2_S64x1x1_0_0_1) : (⟨S64x2x2, .f32⟩ : BufTy).Contents (Elt F) → (⟨S64x1x1, .f32⟩ : BufTy).Contents (Elt F)),
    reshape main_v68 main_v69 rfl shapeCasts_S64x1x1_S64,
    unary main_v69 main_v70 (broadcastInDim S1x64x1x1 ![1] bcast_S64_S1x64x1x1_1 : (⟨S64, .f32⟩ : BufTy).Contents (Elt F) → (⟨S1x64x1x1, .f32⟩ : BufTy).Contents (Elt F)),
    unary main_v64 main_v71 ((extractStridedSlice S64x1x1 ![0, 1, 0] · slices_S64x2x2_S64x1x1_0_1_0) : (⟨S64x2x2, .f32⟩ : BufTy).Contents (Elt F) → (⟨S64x1x1, .f32⟩ : BufTy).Contents (Elt F)),
    reshape main_v71 main_v72 rfl shapeCasts_S64x1x1_S64,
    unary main_v72 main_v73 (broadcastInDim S1x64x1x1 ![1] bcast_S64_S1x64x1x1_1 : (⟨S64, .f32⟩ : BufTy).Contents (Elt F) → (⟨S1x64x1x1, .f32⟩ : BufTy).Contents (Elt F)),
    unary main_v64 main_v74 ((extractStridedSlice S64x1x1 ![0, 1, 1] · slices_S64x2x2_S64x1x1_0_1_1) : (⟨S64x2x2, .f32⟩ : BufTy).Contents (Elt F) → (⟨S64x1x1, .f32⟩ : BufTy).Contents (Elt F)),
    reshape main_v74 main_v75 rfl shapeCasts_S64x1x1_S64,
    unary main_v75 main_v76 (broadcastInDim S1x64x1x1 ![1] bcast_S64_S1x64x1x1_1 : (⟨S64, .f32⟩ : BufTy).Contents (Elt F) → (⟨S1x64x1x1, .f32⟩ : BufTy).Contents (Elt F)),
    unary main_arg2 main_v77 ((extractStridedSlice S64x1x1 ![0, 0, 0] · slices_S64x2x1_S64x1x1_0_0_0) : (⟨S64x2x1, .f32⟩ : BufTy).Contents (Elt F) → (⟨S64x1x1, .f32⟩ : BufTy).Contents (Elt F)),
    reshape main_v77 main_v78 rfl shapeCasts_S64x1x1_S64,
    unary main_v78 main_v79 (broadcastInDim S1x64x1x1 ![1] bcast_S64_S1x64x1x1_1 : (⟨S64, .f32⟩ : BufTy).Contents (Elt F) → (⟨S1x64x1x1, .f32⟩ : BufTy).Contents (Elt F)),
    unary main_arg2 main_v80 ((extractStridedSlice S64x1x1 ![0, 1, 0] · slices_S64x2x1_S64x1x1_0_1_0) : (⟨S64x2x1, .f32⟩ : BufTy).Contents (Elt F) → (⟨S64x1x1, .f32⟩ : BufTy).Contents (Elt F)),
    reshape main_v80 main_v81 rfl shapeCasts_S64x1x1_S64,
    unary main_v81 main_v82 (broadcastInDim S1x64x1x1 ![1] bcast_S64_S1x64x1x1_1 : (⟨S64, .f32⟩ : BufTy).Contents (Elt F) → (⟨S1x64x1x1, .f32⟩ : BufTy).Contents (Elt F)),
    unary main_v67 main_v83 (broadcastInDim S32x64x128x128 ![0, 1, 2, 3] bcast_S1x64x1x1_S32x64x128x128_0_1_2_3 : (⟨S1x64x1x1, .f32⟩ : BufTy).Contents (Elt F) → (⟨S32x64x128x128, .f32⟩ : BufTy).Contents (Elt F)),
    binary main_v83 main_v11 main_v84 (mulf : (⟨S32x64x128x128, .f32⟩ : BufTy).Contents (Elt F) → (⟨S32x64x128x128, .f32⟩ : BufTy).Contents (Elt F) → (⟨S32x64x128x128, .f32⟩ : BufTy).Contents (Elt F)),
    unary main_v70 main_v85 (broadcastInDim S32x64x128x128 ![0, 1, 2, 3] bcast_S1x64x1x1_S32x64x128x128_0_1_2_3 : (⟨S1x64x1x1, .f32⟩ : BufTy).Contents (Elt F) → (⟨S32x64x128x128, .f32⟩ : BufTy).Contents (Elt F)),
    binary main_v85 main_v13 main_v86 (mulf : (⟨S32x64x128x128, .f32⟩ : BufTy).Contents (Elt F) → (⟨S32x64x128x128, .f32⟩ : BufTy).Contents (Elt F) → (⟨S32x64x128x128, .f32⟩ : BufTy).Contents (Elt F)),
    binary main_v84 main_v86 main_v87 (addf : (⟨S32x64x128x128, .f32⟩ : BufTy).Contents (Elt F) → (⟨S32x64x128x128, .f32⟩ : BufTy).Contents (Elt F) → (⟨S32x64x128x128, .f32⟩ : BufTy).Contents (Elt F)),
    unary main_v79 main_v88 (broadcastInDim S32x64x128x128 ![0, 1, 2, 3] bcast_S1x64x1x1_S32x64x128x128_0_1_2_3 : (⟨S1x64x1x1, .f32⟩ : BufTy).Contents (Elt F) → (⟨S32x64x128x128, .f32⟩ : BufTy).Contents (Elt F)),
    binary main_v87 main_v88 main_v89 (addf : (⟨S32x64x128x128, .f32⟩ : BufTy).Contents (Elt F) → (⟨S32x64x128x128, .f32⟩ : BufTy).Contents (Elt F) → (⟨S32x64x128x128, .f32⟩ : BufTy).Contents (Elt F)),
    unary main_v73 main_v90 (broadcastInDim S32x64x128x128 ![0, 1, 2, 3] bcast_S1x64x1x1_S32x64x128x128_0_1_2_3 : (⟨S1x64x1x1, .f32⟩ : BufTy).Contents (Elt F) → (⟨S32x64x128x128, .f32⟩ : BufTy).Contents (Elt F)),
    binary main_v90 main_v11 main_v91 (mulf : (⟨S32x64x128x128, .f32⟩ : BufTy).Contents (Elt F) → (⟨S32x64x128x128, .f32⟩ : BufTy).Contents (Elt F) → (⟨S32x64x128x128, .f32⟩ : BufTy).Contents (Elt F)),
    unary main_v76 main_v92 (broadcastInDim S32x64x128x128 ![0, 1, 2, 3] bcast_S1x64x1x1_S32x64x128x128_0_1_2_3 : (⟨S1x64x1x1, .f32⟩ : BufTy).Contents (Elt F) → (⟨S32x64x128x128, .f32⟩ : BufTy).Contents (Elt F)),
    binary main_v92 main_v13 main_v93 (mulf : (⟨S32x64x128x128, .f32⟩ : BufTy).Contents (Elt F) → (⟨S32x64x128x128, .f32⟩ : BufTy).Contents (Elt F) → (⟨S32x64x128x128, .f32⟩ : BufTy).Contents (Elt F)),
    binary main_v91 main_v93 main_v94 (addf : (⟨S32x64x128x128, .f32⟩ : BufTy).Contents (Elt F) → (⟨S32x64x128x128, .f32⟩ : BufTy).Contents (Elt F) → (⟨S32x64x128x128, .f32⟩ : BufTy).Contents (Elt F)),
    unary main_v82 main_v95 (broadcastInDim S32x64x128x128 ![0, 1, 2, 3] bcast_S1x64x1x1_S32x64x128x128_0_1_2_3 : (⟨S1x64x1x1, .f32⟩ : BufTy).Contents (Elt F) → (⟨S32x64x128x128, .f32⟩ : BufTy).Contents (Elt F)),
    binary main_v94 main_v95 main_v96 (addf : (⟨S32x64x128x128, .f32⟩ : BufTy).Contents (Elt F) → (⟨S32x64x128x128, .f32⟩ : BufTy).Contents (Elt F) → (⟨S32x64x128x128, .f32⟩ : BufTy).Contents (Elt F)) ]

/-- Operations 111 … 111: the two rows joined along the channel axis. -/
abbrev S5b : List (HloOp τ sig (Elt F)) :=
  [ binary main_v89 main_v96 main_v97 ((fun a b => concatenate S32x128x128x128 1 [⟨S32x64x128x128, a⟩, ⟨S32x64x128x128, b⟩] concatenates_S32x64x128x128_S32x64x128x128_S32x128x128x128_d1) : (⟨S32x64x128x128, .f32⟩ : BufTy).Contents (Elt F) → (⟨S32x64x128x128, .f32⟩ : BufTy).Contents (Elt F) → (⟨S32x128x128x128, .f32⟩ : BufTy).Contents (Elt F)) ]

set_option maxRecDepth 8192 in
/-- The program's operations are the nine stretches in order. -/
theorem ops_split : (Cert.ReferenceIdeal.ValueP.ops : List (HloOp τ sig (Elt F)))
    = S1 ++ (S2 ++ (S3 ++ (S4a ++ (S4b ++ (S4c ++ (S4d ++ (S5a ++ S5b))))))) := rfl

/-! ## The terms between the stretches of the inverse and of the affine map -/

section Terms
variable (V0 : Valuation τ sig (Elt F))

/-- The determinant of the square root. -/
def t49 : (Proc.devRef .tc main_v49 : DevRef τ sig).ty.Contents (Elt F) :=
  subf (mulf (res_main_v40 V0) (res_main_v46 V0)) (mulf (res_main_v42 V0) (res_main_v44 V0))
/-- The adjugate's entries as columns, its rows joined, the rows as row blocks. -/
def t51 : (Proc.devRef .tc main_v51 : DevRef τ sig).ty.Contents (Elt F) := broadcastInDim S64x1 ![0] bcast_S64_S64x1_0 (res_main_v46 V0)
def t52 : (Proc.devRef .tc main_v52 : DevRef τ sig).ty.Contents (Elt F) := broadcastInDim S64x1 ![0] bcast_S64_S64x1_0 (Host.negf (res_main_v42 V0))
def t53 : (Proc.devRef .tc main_v53 : DevRef τ sig).ty.Contents (Elt F) := concatenate S64x2 1 [⟨S64x1, t51 V0⟩, ⟨S64x1, t52 V0⟩] concatenates_S64x1_S64x1_S64x2_d1
def t55 : (Proc.devRef .tc main_v55 : DevRef τ sig).ty.Contents (Elt F) := broadcastInDim S64x1 ![0] bcast_S64_S64x1_0 (Host.negf (res_main_v44 V0))
def t56 : (Proc.devRef .tc main_v56 : DevRef τ sig).ty.Contents (Elt F) := broadcastInDim S64x1 ![0] bcast_S64_S64x1_0 (res_main_v40 V0)
def t57 : (Proc.devRef .tc main_v57 : DevRef τ sig).ty.Contents (Elt F) := concatenate S64x2 1 [⟨S64x1, t55 V0⟩, ⟨S64x1, t56 V0⟩] concatenates_S64x1_S64x1_S64x2_d1
def t58 : (Proc.devRef .tc main_v58 : DevRef τ sig).ty.Contents (Elt F) := broadcastInDim S64x1x2 ![0, 2] bcast_S64x2_S64x1x2_0_2 (t53 V0)
def t59 : (Proc.devRef .tc main_v59 : DevRef τ sig).ty.Contents (Elt F) := broadcastInDim S64x1x2 ![0, 2] bcast_S64x2_S64x1x2_0_2 (t57 V0)
/-- The real and the imaginary row of the affine map. -/
def t89 : (Proc.devRef .tc main_v89 : DevRef τ sig).ty.Contents (Elt F) :=
  addf (addf (mulf (broadcastInDim S32x64x128x128 ![0, 1, 2, 3] bcast_S1x64x1x1_S32x64x128x128_0_1_2_3 (broadcastInDim S1x64x1x1 ![1] bcast_S64_S1x64x1x1_1 (shapeCast _ (extractStridedSlice S64x1x1 ![0, 0, 0] (res_main_v64 V0) slices_S64x2x2_S64x1x1_0_0_0) shapeCasts_S64x1x1_S64))) (res_main_v11 V0)) (mulf (broadcastInDim S32x64x128x128 ![0, 1, 2, 3] bcast_S1x64x1x1_S32x64x128x128_0_1_2_3 (broadcastInDim S1x64x1x1 ![1] bcast_S64_S1x64x1x1_1 (shapeCast _ (extractStridedSlice S64x1x1 ![0, 0, 1] (res_main_v64 V0) slices_S64x2x2_S64x1x1_0_0_1) shapeCasts_S64x1x1_S64))) (res_main_v13 V0))) (broadcastInDim S32x64x128x128 ![0, 1, 2, 3] bcast_S1x64x1x1_S32x64x128x128_0_1_2_3 (broadcastInDim S1x64x1x1 ![1] bcast_S64_S1x64x1x1_1 (shapeCast _ (extractStridedSlice S64x1x1 ![0, 0, 0] (V0 (Proc.devRef .tc main_arg2)) slices_S64x2x1_S64x1x1_0_0_0) shapeCasts_S64x1x1_S64)))
def t96 : (Proc.devRef .tc main_v96 : DevRef τ sig).ty.Contents (Elt F) :=
  addf (addf (mulf (broadcastInDim S32x64x128x128 ![0, 1, 2, 3] bcast_S1x64x1x1_S32x64x128x128_0_1_2_3 (broadcastInDim S1x64x1x1 ![1] bcast_S64_S1x64x1x1_1 (shapeCast _ (extractStridedSlice S64x1x1 ![0, 1, 0] (res_main_v64 V0) slices_S64x2x2_S64x1x1_0_1_0) shapeCasts_S64x1x1_S64))) (res_main_v11 V0)) (mulf (broadcastInDim S32x64x128x128 ![0, 1, 2, 3] bcast_S1x64x1x1_S32x64x128x128_0_1_2_3 (broadcastInDim S1x64x1x1 ![1] bcast_S64_S1x64x1x1_1 (shapeCast _ (extractStridedSlice S64x1x1 ![0, 1, 1] (res_main_v64 V0) slices_S64x2x2_S64x1x1_0_1_1) shapeCasts_S64x1x1_S64))) (res_main_v13 V0))) (broadcastInDim S32x64x128x128 ![0, 1, 2, 3] bcast_S1x64x1x1_S32x64x128x128_0_1_2_3 (broadcastInDim S1x64x1x1 ![1] bcast_S64_S1x64x1x1_1 (shapeCast _ (extractStridedSlice S64x1x1 ![0, 1, 0] (V0 (Proc.devRef .tc main_arg2)) slices_S64x2x1_S64x1x1_0_1_0) shapeCasts_S64x1x1_S64)))

end Terms

/-! ## Stretch 1 -/

set_option maxHeartbeats 4000000 in
theorem s1_v11 (W : Valuation τ sig (Elt F)) : after (S1 (F := F)) W (Proc.devRef .tc main_v11) = res_main_v11 W := by
  after_results_simp
  rfl
set_option maxHeartbeats 4000000 in
theorem s1_v13 (W : Valuation τ sig (Elt F)) : after (S1 (F := F)) W (Proc.devRef .tc main_v13) = res_main_v13 W := by
  after_results_simp
  rfl
set_option maxHeartbeats 4000000 in
theorem s1_arg0 (W : Valuation τ sig (Elt F)) : after (S1 (F := F)) W (Proc.devRef .tc main_arg0) = W (Proc.devRef .tc main_arg0) := by
  after_results_simp
set_option maxHeartbeats 4000000 in
theorem s1_arg1 (W : Valuation τ sig (Elt F)) : after (S1 (F := F)) W (Proc.devRef .tc main_arg1) = W (Proc.devRef .tc main_arg1) := by
  after_results_simp
set_option maxHeartbeats 4000000 in
theorem s1_arg2 (W : Valuation τ sig (Elt F)) : after (S1 (F := F)) W (Proc.devRef .tc main_arg2) = W (Proc.devRef .tc main_arg2) := by
  after_results_simp

/-! ## Stretch 2 -/

section Stretch2
variable (W V : Valuation τ sig (Elt F)) (h11 : W (Proc.devRef .tc main_v11) = res_main_v11 V) (h13 : W (Proc.devRef .tc main_v13) = res_main_v13 V)
include h11 h13

set_option maxHeartbeats 4000000 in
theorem s2_v25 : after (S2 (F := F)) W (Proc.devRef .tc main_v25) = res_main_v25 V := by
  after_results_simp
  rw [h11, h13]
  rfl
set_option maxHeartbeats 4000000 in
theorem s2_v27 : after (S2 (F := F)) W (Proc.devRef .tc main_v27) = res_main_v27 V := by
  after_results_simp
  rw [h11]
  rfl
set_option maxHeartbeats 4000000 in
theorem s2_v29 : after (S2 (F := F)) W (Proc.devRef .tc main_v29) = res_main_v29 V := by
  after_results_simp
  rw [h13]
  rfl
end Stretch2

set_option maxHeartbeats 4000000 in
theorem s2_v11 (W : Valuation τ sig (Elt F)) : after (S2 (F := F)) W (Proc.devRef .tc main_v11) = W (Proc.devRef .tc main_v11) := by
  after_results_simp
set_option maxHeartbeats 4000000 in
theorem s2_v13 (W : Valuation τ sig (Elt F)) : after (S2 (F := F)) W (Proc.devRef .tc main_v13) = W (Proc.devRef .tc main_v13) := by
  after_results_simp
set_option maxHeartbeats 4000000 in
theorem s2_arg0 (W : Valuation τ sig (Elt F)) : after (S2 (F := F)) W (Proc.devRef .tc main_arg0) = W (Proc.devRef .tc main_arg0) := by
  after_results_simp
set_option maxHeartbeats 4000000 in
theorem s2_arg1 (W : Valuation τ sig (Elt F)) : after (S2 (F := F)) W (Proc.devRef .tc main_arg1) = W (Proc.devRef .tc main_arg1) := by
  after_results_simp
set_option maxHeartbeats 4000000 in
theorem s2_arg2 (W : Valuation τ sig (Elt F)) : after (S2 (F := F)) W (Proc.devRef .tc main_arg2) = W (Proc.devRef .tc main_arg2) := by
  after_results_simp

/-! ## Stretch 3 -/

section Stretch3
variable (W V : Valuation τ sig (Elt F)) (h25 : W (Proc.devRef .tc main_v25) = res_main_v25 V) (h27 : W (Proc.devRef .tc main_v27) = res_main_v27 V)
  (h29 : W (Proc.devRef .tc main_v29) = res_main_v29 V)
include h25 h27 h29

set_option maxHeartbeats 4000000 in
theorem s3_v40 : after (S3 (F := F)) W (Proc.devRef .tc main_v40) = res_main_v40 V := by
  after_results_simp
  rw [h25, h27, h29]
  rfl
set_option maxHeartbeats 4000000 in
theorem s3_v42 : after (S3 (F := F)) W (Proc.devRef .tc main_v42) = res_main_v42 V := by
  after_results_simp
  rw [h25, h27, h29]
  rfl
set_option maxHeartbeats 4000000 in
theorem s3_v44 : after (S3 (F := F)) W (Proc.devRef .tc main_v44) = res_main_v44 V := by
  after_results_simp
  rw [h25, h27, h29]
  rfl
set_option maxHeartbeats 4000000 in
theorem s3_v46 : after (S3 (F := F)) W (Proc.devRef .tc main_v46) = res_main_v46 V := by
  after_results_simp
  rw [h25, h27, h29]
  rfl
end Stretch3

set_option maxHeartbeats 4000000 in
theorem s3_v11 (W : Valuation τ sig (Elt F)) : after (S3 (F := F)) W (Proc.devRef .tc main_v11) = W (Proc.devRef .tc main_v11) := by
  after_results_simp
set_option maxHeartbeats 4000000 in
theorem s3_v13 (W : Valuation τ sig (Elt F)) : after (S3 (F := F)) W (Proc.devRef .tc main_v13) = W (Proc.devRef .tc main_v13) := by
  after_results_simp
set_option maxHeartbeats 4000000 in
theorem s3_arg0 (W : Valuation τ sig (Elt F)) : after (S3 (F := F)) W (Proc.devRef .tc main_arg0) = W (Proc.devRef .tc main_arg0) := by
  after_results_simp
set_option maxHeartbeats 4000000 in
theorem s3_arg1 (W : Valuation τ sig (Elt F)) : after (S3 (F := F)) W (Proc.devRef .tc main_arg1) = W (Proc.devRef .tc main_arg1) := by
  after_results_simp
set_option maxHeartbeats 4000000 in
theorem s3_arg2 (W : Valuation τ sig (Elt F)) : after (S3 (F := F)) W (Proc.devRef .tc main_arg2) = W (Proc.devRef .tc main_arg2) := by
  after_results_simp

/-! ## Stretch 4a -/

section Stretch4a
variable (W V : Valuation τ sig (Elt F)) (h40 : W (Proc.devRef .tc main_v40) = res_main_v40 V) (h42 : W (Proc.devRef .tc main_v42) = res_main_v42 V)
  (h44 : W (Proc.devRef .tc main_v44) = res_main_v44 V) (h46 : W (Proc.devRef .tc main_v46) = res_main_v46 V)
include h40 h42 h44 h46

set_option maxHeartbeats 4000000 in
theorem s4a_v49 : after (S4a (F := F)) W (Proc.devRef .tc main_v49) = t49 V := by
  after_results_simp
  rw [h40, h42, h44, h46]
  rfl
set_option maxHeartbeats 4000000 in
theorem s4a_v51 : after (S4a (F := F)) W (Proc.devRef .tc main_v51) = t51 V := by
  after_results_simp
  rw [h46]
  rfl
set_option maxHeartbeats 4000000 in
theorem s4a_v52 : after (S4a (F := F)) W (Proc.devRef .tc main_v52) = t52 V := by
  after_results_simp
  rw [h42]
  rfl
end Stretch4a

set_option maxHeartbeats 4000000 in
theorem s4a_v40 (W : Valuation τ sig (Elt F)) : after (S4a (F := F)) W (Proc.devRef .tc main_v40) = W (Proc.devRef .tc main_v40) := by
  after_results_simp
set_option maxHeartbeats 4000000 in
theorem s4a_v44 (W : Valuation τ sig (Elt F)) : after (S4a (F := F)) W (Proc.devRef .tc main_v44) = W (Proc.devRef .tc main_v44) := by
  after_results_simp
set_option maxHeartbeats 4000000 in
theorem s4a_v11 (W : Valuation τ sig (Elt F)) : after (S4a (F := F)) W (Proc.devRef .tc main_v11) = W (Proc.devRef .tc main_v11) := by
  after_results_simp
set_option maxHeartbeats 4000000 in
theorem s4a_v13 (W : Valuation τ sig (Elt F)) : after (S4a (F := F)) W (Proc.devRef .tc main_v13) = W (Proc.devRef .tc main_v13) := by
  after_results_simp
set_option maxHeartbeats 4000000 in
theorem s4a_arg0 (W : Valuation τ sig (Elt F)) : after (S4a (F := F)) W (Proc.devRef .tc main_arg0) = W (Proc.devRef .tc main_arg0) := by
  after_results_simp
set_option maxHeartbeats 4000000 in
theorem s4a_arg1 (W : Valuation τ sig (Elt F)) : after (S4a (F := F)) W (Proc.devRef .tc main_arg1) = W (Proc.devRef .tc main_arg1) := by
  after_results_simp
set_option maxHeartbeats 4000000 in
theorem s4a_arg2 (W : Valuation τ sig (Elt F)) : after (S4a (F := F)) W (Proc.devRef .tc main_arg2) = W (Proc.devRef .tc main_arg2) := by
  after_results_simp

/-! ## Stretch 4b -/

section Stretch4b
variable (W V : Valuation τ sig (Elt F)) (h51 : W (Proc.devRef .tc main_v51) = t51 V) (h52 : W (Proc.devRef .tc main_v52) = t52 V)
  (h40 : W (Proc.devRef .tc main_v40) = res_main_v40 V) (h44 : W (Proc.devRef .tc main_v44) = res_main_v44 V)
include h51 h52 h40 h44

set_option maxHeartbeats 4000000 in
theorem s4b_v53 : after (S4b (F := F)) W (Proc.devRef .tc main_v53) = t53 V := by
  after_results_simp
  rw [h51, h52]
  rfl
set_option maxHeartbeats 4000000 in
theorem s4b_v55 : after (S4b (F := F)) W (Proc.devRef .tc main_v55) = t55 V := by
  after_results_simp
  rw [h44]
  rfl
set_option maxHeartbeats 4000000 in
theorem s4b_v56 : after (S4b (F := F)) W (Proc.devRef .tc main_v56) = t56 V := by
  after_results_simp
  rw [h40]
  rfl
end Stretch4b

set_option maxHeartbeats 4000000 in
theorem s4b_v49 (W : Valuation τ sig (Elt F)) : after (S4b (F := F)) W (Proc.devRef .tc main_v49) = W (Proc.devRef .tc main_v49) := by
  after_results_simp
set_option maxHeartbeats 4000000 in
theorem s4b_v11 (W : Valuation τ sig (Elt F)) : after (S4b (F := F)) W (Proc.devRef .tc main_v11) = W (Proc.devRef .tc main_v11) := by
  after_results_simp
set_option maxHeartbeats 4000000 in
theorem s4b_v13 (W : Valuation τ sig (Elt F)) : after (S4b (F := F)) W (Proc.devRef .tc main_v13) = W (Proc.devRef .tc main_v13) := by
  after_results_simp
set_option maxHeartbeats 4000000 in
theorem s4b_arg0 (W : Valuation τ sig (Elt F)) : after (S4b (F := F)) W (Proc.devRef .tc main_arg0) = W (Proc.devRef .tc main_arg0) := by
  after_results_simp
set_option maxHeartbeats 4000000 in
theorem s4b_arg1 (W : Valuation τ sig (Elt F)) : after (S4b (F := F)) W (Proc.devRef .tc main_arg1) = W (Proc.devRef .tc main_arg1) := by
  after_results_simp
set_option maxHeartbeats 4000000 in
theorem s4b_arg2 (W : Valuation τ sig (Elt F)) : after (S4b (F := F)) W (Proc.devRef .tc main_arg2) = W (Proc.devRef .tc main_arg2) := by
  after_results_simp

/-! ## Stretch 4c -/

section Stretch4c
variable (W V : Valuation τ sig (Elt F)) (h53 : W (Proc.devRef .tc main_v53) = t53 V) (h55 : W (Proc.devRef .tc main_v55) = t55 V)
  (h56 : W (Proc.devRef .tc main_v56) = t56 V)
include h53 h55 h56

set_option maxHeartbeats 4000000 in
theorem s4c_v58 : after (S4c (F := F)) W (Proc.devRef .tc main_v58) = t58 V := by
  after_results_simp
  rw [h53]
  rfl
set_option maxHeartbeats 4000000 in
theorem s4c_v59 : after (S4c (F := F)) W (Proc.devRef .tc main_v59) = t59 V := by
  after_results_simp
  rw [h55, h56]
  rfl
end Stretch4c

set_option maxHeartbeats 4000000 in
theorem s4c_v49 (W : Valuation τ sig (Elt F)) : after (S4c (F := F)) W (Proc.devRef .tc main_v49) = W (Proc.devRef .tc main_v49) := by
  after_results_simp
set_option maxHeartbeats 4000000 in
theorem s4c_v11 (W : Valuation τ sig (Elt F)) : after (S4c (F := F)) W (Proc.devRef .tc main_v11) = W (Proc.devRef .tc main_v11) := by
  after_results_simp
set_option maxHeartbeats 4000000 in
theorem s4c_v13 (W : Valuation τ sig (Elt F)) : after (S4c (F := F)) W (Proc.devRef .tc main_v13) = W (Proc.devRef .tc main_v13) := by
  after_results_simp
set_option maxHeartbeats 4000000 in
theorem s4c_arg0 (W : Valuation τ sig (Elt F)) : after (S4c (F := F)) W (Proc.devRef .tc main_arg0) = W (Proc.devRef .tc main_arg0) := by
  after_results_simp
set_option maxHeartbeats 4000000 in
theorem s4c_arg1 (W : Valuation τ sig (Elt F)) : after (S4c (F := F)) W (Proc.devRef .tc main_arg1) = W (Proc.devRef .tc main_arg1) := by
  after_results_simp
set_option maxHeartbeats 4000000 in
theorem s4c_arg2 (W : Valuation τ sig (Elt F)) : after (S4c (F := F)) W (Proc.devRef .tc main_arg2) = W (Proc.devRef .tc main_arg2) := by
  after_results_simp

/-! ## Stretch 4d -/

set_option maxHeartbeats 4000000 in
theorem s4d_v64 (W V : Valuation τ sig (Elt F)) (hg : W (Proc.devRef .tc main_arg1) = V (Proc.devRef .tc main_arg1))
    (h58 : W (Proc.devRef .tc main_v58) = t58 V) (h59 : W (Proc.devRef .tc main_v59) = t59 V) (h49 : W (Proc.devRef .tc main_v49) = t49 V) :
    after (S4d (F := F)) W (Proc.devRef .tc main_v64) = res_main_v64 V := by
  after_results_simp
  rw [hg, h58, h59, h49]
  rfl

set_option maxHeartbeats 4000000 in
theorem s4d_v11 (W : Valuation τ sig (Elt F)) : after (S4d (F := F)) W (Proc.devRef .tc main_v11) = W (Proc.devRef .tc main_v11) := by
  after_results_simp
set_option maxHeartbeats 4000000 in
theorem s4d_v13 (W : Valuation τ sig (Elt F)) : after (S4d (F := F)) W (Proc.devRef .tc main_v13) = W (Proc.devRef .tc main_v13) := by
  after_results_simp
set_option maxHeartbeats 4000000 in
theorem s4d_arg0 (W : Valuation τ sig (Elt F)) : after (S4d (F := F)) W (Proc.devRef .tc main_arg0) = W (Proc.devRef .tc main_arg0) := by
  after_results_simp
set_option maxHeartbeats 4000000 in
theorem s4d_arg1 (W : Valuation τ sig (Elt F)) : after (S4d (F := F)) W (Proc.devRef .tc main_arg1) = W (Proc.devRef .tc main_arg1) := by
  after_results_simp
set_option maxHeartbeats 4000000 in
theorem s4d_arg2 (W : Valuation τ sig (Elt F)) : after (S4d (F := F)) W (Proc.devRef .tc main_arg2) = W (Proc.devRef .tc main_arg2) := by
  after_results_simp

/-! ## Stretch 5a -/

section Stretch5a
variable (W V : Valuation τ sig (Elt F)) (h64 : W (Proc.devRef .tc main_v64) = res_main_v64 V)
  (h11 : W (Proc.devRef .tc main_v11) = res_main_v11 V) (h13 : W (Proc.devRef .tc main_v13) = res_main_v13 V)
  (hb : W (Proc.devRef .tc main_arg2) = V (Proc.devRef .tc main_arg2))
include h64 h11 h13 hb

set_option maxHeartbeats 8000000 in
theorem s5a_v89 : after (S5a (F := F)) W (Proc.devRef .tc main_v89) = t89 V := by
  after_results_simp
  rw [h64, h11, h13, hb]
  rfl
set_option maxHeartbeats 8000000 in
theorem s5a_v96 : after (S5a (F := F)) W (Proc.devRef .tc main_v96) = t96 V := by
  after_results_simp
  rw [h64, h11, h13, hb]
  rfl
end Stretch5a

set_option maxHeartbeats 4000000 in
theorem s5a_arg0 (W : Valuation τ sig (Elt F)) : after (S5a (F := F)) W (Proc.devRef .tc main_arg0) = W (Proc.devRef .tc main_arg0) := by
  after_results_simp
set_option maxHeartbeats 4000000 in
theorem s5a_arg1 (W : Valuation τ sig (Elt F)) : after (S5a (F := F)) W (Proc.devRef .tc main_arg1) = W (Proc.devRef .tc main_arg1) := by
  after_results_simp
set_option maxHeartbeats 4000000 in
theorem s5a_arg2 (W : Valuation τ sig (Elt F)) : after (S5a (F := F)) W (Proc.devRef .tc main_arg2) = W (Proc.devRef .tc main_arg2) := by
  after_results_simp

/-! ## Stretch 5b -/

set_option maxHeartbeats 4000000 in
theorem s5b_v97 (W V : Valuation τ sig (Elt F)) (h89 : W (Proc.devRef .tc main_v89) = t89 V) (h96 : W (Proc.devRef .tc main_v96) = t96 V) :
    after (S5b (F := F)) W (Proc.devRef .tc main_v97) = outTerm V := by
  after_results_simp
  rw [h89, h96]
  rfl

set_option maxHeartbeats 4000000 in
theorem s5b_arg0 (W : Valuation τ sig (Elt F)) : after (S5b (F := F)) W (Proc.devRef .tc main_arg0) = W (Proc.devRef .tc main_arg0) := by
  after_results_simp
set_option maxHeartbeats 4000000 in
theorem s5b_arg1 (W : Valuation τ sig (Elt F)) : after (S5b (F := F)) W (Proc.devRef .tc main_arg1) = W (Proc.devRef .tc main_arg1) := by
  after_results_simp
set_option maxHeartbeats 4000000 in
theorem s5b_arg2 (W : Valuation τ sig (Elt F)) : after (S5b (F := F)) W (Proc.devRef .tc main_arg2) = W (Proc.devRef .tc main_arg2) := by
  after_results_simp

/-! ## The whole program -/

section Whole
variable (V : Valuation τ sig (Elt F))

/-- The contents after the first stretch, the first two, and so on. -/
abbrev W1 : Valuation τ sig (Elt F) := after S1 V
abbrev W2 : Valuation τ sig (Elt F) := after S2 (W1 V)
abbrev W3 : Valuation τ sig (Elt F) := after S3 (W2 V)
abbrev W4a : Valuation τ sig (Elt F) := after S4a (W3 V)
abbrev W4b : Valuation τ sig (Elt F) := after S4b (W4a V)
abbrev W4c : Valuation τ sig (Elt F) := after S4c (W4b V)
abbrev W4d : Valuation τ sig (Elt F) := after S4d (W4c V)
abbrev W5a : Valuation τ sig (Elt F) := after S5a (W4d V)

/-- The contents after the whole program are the contents after the nine stretches in order. -/
theorem after_ops : after (Cert.ReferenceIdeal.ValueP.ops (F := F)) V = after S5b (W5a V) := by
  rw [ops_split, after_append, after_append, after_append, after_append, after_append, after_append, after_append, after_append]

/-- The result buffer ends at the composed term. -/
theorem after_ops_v97 : after (Cert.ReferenceIdeal.ValueP.ops (F := F)) V (Proc.devRef .tc main_v97) = outTerm V := by
  rw [after_ops]
  -- the centred halves, carried through
  have a11 : W1 V (Proc.devRef .tc main_v11) = res_main_v11 V := s1_v11 V
  have a13 : W1 V (Proc.devRef .tc main_v13) = res_main_v13 V := s1_v13 V
  have b11 : W2 V (Proc.devRef .tc main_v11) = res_main_v11 V := (s2_v11 _).trans a11
  have b13 : W2 V (Proc.devRef .tc main_v13) = res_main_v13 V := (s2_v13 _).trans a13
  have c11 : W3 V (Proc.devRef .tc main_v11) = res_main_v11 V := (s3_v11 _).trans b11
  have c13 : W3 V (Proc.devRef .tc main_v13) = res_main_v13 V := (s3_v13 _).trans b13
  have d11 : W4d V (Proc.devRef .tc main_v11) = res_main_v11 V :=
    (s4d_v11 _).trans ((s4c_v11 _).trans ((s4b_v11 _).trans ((s4a_v11 _).trans c11)))
  have d13 : W4d V (Proc.devRef .tc main_v13) = res_main_v13 V :=
    (s4d_v13 _).trans ((s4c_v13 _).trans ((s4b_v13 _).trans ((s4a_v13 _).trans c13)))
  -- gamma and beta, carried through
  have cg : W3 V (Proc.devRef .tc main_arg1) = V (Proc.devRef .tc main_arg1) := (s3_arg1 _).trans ((s2_arg1 _).trans (s1_arg1 V))
  have dg : W4c V (Proc.devRef .tc main_arg1) = V (Proc.devRef .tc main_arg1) := (s4c_arg1 _).trans ((s4b_arg1 _).trans ((s4a_arg1 _).trans cg))
  have cb : W3 V (Proc.devRef .tc main_arg2) = V (Proc.devRef .tc main_arg2) := (s3_arg2 _).trans ((s2_arg2 _).trans (s1_arg2 V))
  have db : W4d V (Proc.devRef .tc main_arg2) = V (Proc.devRef .tc main_arg2) :=
    (s4d_arg2 _).trans ((s4c_arg2 _).trans ((s4b_arg2 _).trans ((s4a_arg2 _).trans cb)))
  -- the covariances, the square root, the inverse, the product
  have b25 := s2_v25 (W1 V) V a11 a13
  have b27 := s2_v27 (W1 V) V a11 a13
  have b29 := s2_v29 (W1 V) V a11 a13
  have c40 := s3_v40 (W2 V) V b25 b27 b29
  have c42 := s3_v42 (W2 V) V b25 b27 b29
  have c44 := s3_v44 (W2 V) V b25 b27 b29
  have c46 := s3_v46 (W2 V) V b25 b27 b29
  have e49 := s4a_v49 (W3 V) V c40 c42 c44 c46
  have e51 := s4a_v51 (W3 V) V c40 c42 c44 c46
  have e52 := s4a_v52 (W3 V) V c40 c42 c44 c46
  have e40 : W4a V (Proc.devRef .tc main_v40) = res_main_v40 V := (s4a_v40 _).trans c40
  have e44 : W4a V (Proc.devRef .tc main_v44) = res_main_v44 V := (s4a_v44 _).trans c44
  have f53 := s4b_v53 (W4a V) V e51 e52 e40 e44
  have f55 := s4b_v55 (W4a V) V e51 e52 e40 e44
  have f56 := s4b_v56 (W4a V) V e51 e52 e40 e44
  have f49 : W4b V (Proc.devRef .tc main_v49) = t49 V := (s4b_v49 _).trans e49
  have g58 := s4c_v58 (W4b V) V f53 f55 f56
  have g59 := s4c_v59 (W4b V) V f53 f55 f56
  have g49 : W4c V (Proc.devRef .tc main_v49) = t49 V := (s4c_v49 _).trans f49
  have d64 := s4d_v64 (W4c V) V dg g58 g59 g49
  have h89 := s5a_v89 (W4d V) V d64 d11 d13 db
  have h96 := s5a_v96 (W4d V) V d64 d11 d13 db
  exact s5b_v97 (W5a V) V h89 h96

/-- The argument buffers end as they started. -/
theorem after_ops_arg0 : after (Cert.ReferenceIdeal.ValueP.ops (F := F)) V (Proc.devRef .tc main_arg0) = V (Proc.devRef .tc main_arg0) :=
  (congrFun (after_ops V) _).trans <| (s5b_arg0 _).trans <| (s5a_arg0 _).trans <| (s4d_arg0 _).trans <| (s4c_arg0 _).trans <|
    (s4b_arg0 _).trans <| (s4a_arg0 _).trans <| (s3_arg0 _).trans <| (s2_arg0 _).trans (s1_arg0 V)
theorem after_ops_arg1 : after (Cert.ReferenceIdeal.ValueP.ops (F := F)) V (Proc.devRef .tc main_arg1) = V (Proc.devRef .tc main_arg1) :=
  (congrFun (after_ops V) _).trans <| (s5b_arg1 _).trans <| (s5a_arg1 _).trans <| (s4d_arg1 _).trans <| (s4c_arg1 _).trans <|
    (s4b_arg1 _).trans <| (s4a_arg1 _).trans <| (s3_arg1 _).trans <| (s2_arg1 _).trans (s1_arg1 V)
theorem after_ops_arg2 : after (Cert.ReferenceIdeal.ValueP.ops (F := F)) V (Proc.devRef .tc main_arg2) = V (Proc.devRef .tc main_arg2) :=
  (congrFun (after_ops V) _).trans <| (s5b_arg2 _).trans <| (s5a_arg2 _).trans <| (s4d_arg2 _).trans <| (s4c_arg2 _).trans <|
    (s4b_arg2 _).trans <| (s4a_arg2 _).trans <| (s3_arg2 _).trans <| (s2_arg2 _).trans (s1_arg2 V)

end Whole

end Cert.ReferenceIdeal.RefValue

end
-- ==== Proof.RefOps.lean ====
/-
  The layout operations of a per-channel normalisation over a `[32, 128, 128, 128]` array of 64 complex channels,
  each read at an index written by its coordinates, at the ideal values.

  * the two channel halves of the array (slices along axis 1);
  * a sum over batch, rows and lanes of a `[32, 64, 128, 128]` array, read at channel `c` as the triple sum;
  * a per-channel vector `[64]` spread to `[1, 64, 1, 1]` and on to `[32, 64, 128, 128]`, and to the columns
    `[64, 1]`, `[64, 1, 1]`, `[64, 2, 2]`; a scalar spread to any shape;
  * two columns `[64, 1]` joined into `[64, 2]`, a `[64, 2]` array viewed as a row block `[64, 1, 2]`, two row blocks
    joined into `[64, 2, 2]`;
  * an entry `(i, k)` of a `[64, 2, 2]` or `[64, 2, 1]` array cut out as `[64, 1, 1]` and flattened to `[64]`;
  * the per-channel product of 2×2 matrices as a sum over `Fin 2`;
  * the two halves joined back along axis 1.
-/
import Idealize.ShloMosaic.Lib.IdealHost
import Idealize.ShloMosaic.Lib.Pipeline.Value
import Idealize.ShloMosaic.PureOps.Reduce

noncomputable section

open scoped BigOperators

namespace Cert.BN.RefOps

open Idealize.ShloMosaic Idealize.ShloMosaic.ValueIdx

abbrev A4 : Shape := ⟨4, ![32, 128, 128, 128]⟩
abbrev H4 : Shape := ⟨4, ![32, 64, 128, 128]⟩
abbrev K4 : Shape := ⟨4, ![1, 64, 1, 1]⟩
abbrev C1 : Shape := ⟨1, ![64]⟩
abbrev Z0 : Shape := ⟨0, ![]⟩
abbrev C21 : Shape := ⟨2, ![64, 1]⟩
abbrev C22 : Shape := ⟨2, ![64, 2]⟩
abbrev C312 : Shape := ⟨3, ![64, 1, 2]⟩
abbrev C322 : Shape := ⟨3, ![64, 2, 2]⟩
abbrev C311 : Shape := ⟨3, ![64, 1, 1]⟩
abbrev C321 : Shape := ⟨3, ![64, 2, 1]⟩

variable {α : Type}

/-! ## The two halves -/

/-- The first 64 channels, at `(b, c, p, q)`: the array at channel `c`. -/
theorem slice_lo_apply (x : A4.Idx → α) (h : A4.Slices ![0, 0, 0, 0] H4) (b : Fin 32) (c : Fin 64) (p q : Fin 128) :
    extractStridedSlice H4 ![0, 0, 0, 0] x h (ix4 b c p q) = x (ix4 b (⟨c.val, by omega⟩ : Fin 128) p q) :=
  extractStridedSlice_apply ![0, 0, 0, 0] x h (ix4 b c p q) (ix4 b (⟨c.val, by omega⟩ : Fin 128) p q) (fun a => by
    match a with
    | ⟨0, _⟩ => exact (Nat.zero_add _).symm
    | ⟨1, _⟩ => exact (Nat.zero_add _).symm
    | ⟨2, _⟩ => exact (Nat.zero_add _).symm
    | ⟨3, _⟩ => exact (Nat.zero_add _).symm)

/-- The last 64 channels, at `(b, c, p, q)`: the array at channel `c + 64`. -/
theorem slice_hi_apply (x : A4.Idx → α) (h : A4.Slices ![0, 64, 0, 0] H4) (b : Fin 32) (c : Fin 64) (p q : Fin 128) :
    extractStridedSlice H4 ![0, 64, 0, 0] x h (ix4 b c p q) = x (ix4 b (⟨c.val + 64, by omega⟩ : Fin 128) p q) :=
  extractStridedSlice_apply ![0, 64, 0, 0] x h (ix4 b c p q) (ix4 b (⟨c.val + 64, by omega⟩ : Fin 128) p q) (fun a => by
    match a with
    | ⟨0, _⟩ => exact (Nat.zero_add _).symm
    | ⟨1, _⟩ => exact Nat.add_comm _ _
    | ⟨2, _⟩ => exact (Nat.zero_add _).symm
    | ⟨3, _⟩ => exact (Nat.zero_add _).symm)

/-! ## The sum over batch, rows and lanes -/

/-- The indices of a rank-4 shape that a reduction over axes 0, 2 and 3 sends to `c`, summed, are the three reduced
    coordinates, summed. -/
theorem sum_filter_drop_023 {M : Type*} [AddCommMonoid M] {n0 n1 A B : Nat}
    (h : (⟨4, ![n0, n1, A, B]⟩ : Shape).ReducesTo [0, 2, 3] ⟨1, ![n1]⟩)
    (x : (⟨4, ![n0, n1, A, B]⟩ : Shape).Idx → M) (c : Fin n1) :
    ∑ i ∈ Finset.univ.filter (fun i => h.drop i = ix1 c), x i = ∑ b : Fin n0, ∑ p : Fin A, ∑ q : Fin B, x (ix4 b c p q) := by
  have hd : ∀ i, ((h.drop i 0 : Fin n1) : Nat) = ((i 1 : Fin n1) : Nat) := fun i => rfl
  have e3 : (∑ b : Fin n0, ∑ p : Fin A, ∑ q : Fin B, x (ix4 b c p q))
      = ∑ t : Fin n0 × Fin A × Fin B, x (ix4 t.1 c t.2.1 t.2.2) := by
    rw [Fintype.sum_prod_type]
    refine Finset.sum_congr rfl fun b _ => ?_
    rw [Fintype.sum_prod_type]
  rw [e3]
  refine Finset.sum_nbij' (fun i => ((i 0 : Fin n0), (i 2 : Fin A), (i 3 : Fin B))) (fun t => ix4 t.1 c t.2.1 t.2.2) ?_ ?_ ?_ ?_ ?_
  · intro i _; exact Finset.mem_univ _
  · intro t _
    refine Finset.mem_filter.2 ⟨Finset.mem_univ _, funext fun a => Fin.ext ?_⟩
    match a with
    | ⟨0, _⟩ => exact hd _
  · intro i hi
    have hj := (Finset.mem_filter.1 hi).2
    have e1 : (i 1 : Fin n1) = c :=
      Fin.ext ((hd i).symm.trans (congrArg (fun j : (⟨1, ![n1]⟩ : Shape).Idx => ((j 0 : Fin n1) : Nat)) hj))
    show ix4 (i 0) c (i 2) (i 3) = i
    rw [← e1]; exact (eq_ix4 i).symm
  · intro t _; rfl
  · intro i hi
    have hj := (Finset.mem_filter.1 hi).2
    have e1 : (i 1 : Fin n1) = c :=
      Fin.ext ((hd i).symm.trans (congrArg (fun j : (⟨1, ![n1]⟩ : Shape).Idx => ((j 0 : Fin n1) : Nat)) hj))
    show x i = x (ix4 (i 0) c (i 2) (i 3))
    rw [← e1]; exact congrArg x (eq_ix4 i)

/-- The host sum over axes 0, 2, 3 from a zero initial value, at channel `c`: the triple sum. -/
theorem reduce_zero_apply (y : FVec Ideal H4 .f32) (h : H4.ReducesTo [0, 2, 3] C1) (hu : 0 < Z0.numel) (c : Fin 64) :
    Host.reduceAdd (F := Ideal) y (constant (F := Ideal) Z0 .f32 0x00000000#32) h hu (ix1 c)
      = ∑ b : Fin 32, ∑ p : Fin 128, ∑ q : Fin 128, y (ix4 b c p q) := by
  rw [hostReduceAdd_apply]
  unfold Ideal.hostReduceAdd
  rw [sum_filter_drop_023 h y c, constant_apply, Ideal.ofBits_zero_f32, zero_add]

/-! ## Broadcasts -/

/-- A scalar constant spread to any shape reads the word's value. -/
theorem bcast_const_apply {T : Shape} (w : BitVec 32) (h : Z0.BroadcastsInDim T ![]) (j : T.Idx) :
    broadcastInDim T ![] h (constant (F := Ideal) Z0 .f32 w) j = Ideal.ofBits .f32 w :=
  broadcastInDim_scalar_apply h _ j

/-- A per-channel vector as `[1, 64, 1, 1]`, at `(0, c, 0, 0)`. -/
theorem bcast_keep_apply (v : C1.Idx → α) (h : C1.BroadcastsInDim K4 (![1] : Fin 1 → Fin 4)) (c : Fin 64) :
    broadcastInDim K4 ![1] h v (ix4 (0 : Fin 1) c (0 : Fin 1) (0 : Fin 1)) = v (ix1 c) :=
  broadcastInDim_apply _ h v _ (ix1 c) (fun a => by
    match a with
    | ⟨0, _⟩ => rfl)

/-- A `[1, 64, 1, 1]` array spread over batch, rows and lanes, at `(b, c, p, q)`. -/
theorem bcast_full_apply (u : K4.Idx → α) (h : K4.BroadcastsInDim H4 (![0, 1, 2, 3] : Fin 4 → Fin 4)) (b : Fin 32) (c : Fin 64)
    (p q : Fin 128) :
    broadcastInDim H4 ![0, 1, 2, 3] h u (ix4 b c p q) = u (ix4 (0 : Fin 1) c (0 : Fin 1) (0 : Fin 1)) :=
  broadcastInDim_apply _ h u _ (ix4 (0 : Fin 1) c (0 : Fin 1) (0 : Fin 1)) (fun a => by
    match a with
    | ⟨0, _⟩ => rfl
    | ⟨1, _⟩ => rfl
    | ⟨2, _⟩ => rfl
    | ⟨3, _⟩ => rfl)

/-- A per-channel vector spread over batch, rows and lanes through `[1, 64, 1, 1]`, at `(b, c, p, q)`. -/
theorem bcast_chan_apply (v : C1.Idx → α) (h1 : C1.BroadcastsInDim K4 (![1] : Fin 1 → Fin 4))
    (h2 : K4.BroadcastsInDim H4 (![0, 1, 2, 3] : Fin 4 → Fin 4)) (b : Fin 32) (c : Fin 64) (p q : Fin 128) :
    broadcastInDim H4 ![0, 1, 2, 3] h2 (broadcastInDim K4 ![1] h1 v) (ix4 b c p q) = v (ix1 c) :=
  (bcast_full_apply _ h2 b c p q).trans (bcast_keep_apply v h1 c)

/-- A per-channel vector as a column `[64, 1]`, at `(c, 0)`. -/
theorem bcast_col_apply (v : C1.Idx → α) (h : C1.BroadcastsInDim C21 (![0] : Fin 1 → Fin 2)) (c : Fin 64) :
    broadcastInDim C21 ![0] h v (ix2 c (0 : Fin 1)) = v (ix1 c) :=
  broadcastInDim_apply _ h v _ (ix1 c) (fun a => by
    match a with
    | ⟨0, _⟩ => rfl)

/-- A `[64, 2]` array as a row block `[64, 1, 2]`, at `(c, 0, k)`. -/
theorem bcast_row_apply (v : C22.Idx → α) (h : C22.BroadcastsInDim C312 (![0, 2] : Fin 2 → Fin 3)) (c : Fin 64) (k : Fin 2) :
    broadcastInDim C312 ![0, 2] h v (ix3 c (0 : Fin 1) k) = v (ix2 c k) :=
  broadcastInDim_apply _ h v _ (ix2 c k) (fun a => by
    match a with
    | ⟨0, _⟩ => rfl
    | ⟨1, _⟩ => rfl)

/-- A per-channel vector as `[64, 1, 1]`, at `(c, 0, 0)`. -/
theorem bcast_c11_apply (v : C1.Idx → α) (h : C1.BroadcastsInDim C311 (![0] : Fin 1 → Fin 3)) (c : Fin 64) :
    broadcastInDim C311 ![0] h v (ix3 c (0 : Fin 1) (0 : Fin 1)) = v (ix1 c) :=
  broadcastInDim_apply _ h v _ (ix1 c) (fun a => by
    match a with
    | ⟨0, _⟩ => rfl)

/-- A `[64, 1, 1]` array spread over the 2×2 entries, at `(c, i, k)`. -/
theorem bcast_c22_apply (u : C311.Idx → α) (h : C311.BroadcastsInDim C322 (![0, 1, 2] : Fin 3 → Fin 3)) (c : Fin 64) (i k : Fin 2) :
    broadcastInDim C322 ![0, 1, 2] h u (ix3 c i k) = u (ix3 c (0 : Fin 1) (0 : Fin 1)) :=
  broadcastInDim_apply _ h u _ (ix3 c (0 : Fin 1) (0 : Fin 1)) (fun a => by
    match a with
    | ⟨0, _⟩ => rfl
    | ⟨1, _⟩ => rfl
    | ⟨2, _⟩ => rfl)

/-! ## The host's square root and negation at an index -/

/-- The host's square root at an index is the extended reals' square root of the element. -/
theorem hostSqrt_apply {s : Shape} (a : FVec Ideal s .f32) (i : s.Idx) : Host.sqrt a i = Ideal.sqrt (a i) := rfl

/-- The host's negation at an index is the negation of the element. -/
theorem hostNegf_apply {s : Shape} (a : FVec Ideal s .f32) (i : s.Idx) : Host.negf a i = -(a i) := rfl

/-! ## Joining columns and row blocks -/

/-- Two columns joined, at `(c, 0)`: the first. -/
theorem cat_cols_apply0 (a b : C21.Idx → α) (h : Shape.Concatenates [C21, C21] C22 (1 : Fin 2)) (c : Fin 64) :
    concatenate C22 (1 : Fin 2) [⟨C21, a⟩, ⟨C21, b⟩] h (ix2 c (0 : Fin 2)) = a (ix2 c (0 : Fin 1)) :=
  concatenate_pair_apply_left (t := C22) (1 : Fin 2) a b h _ rfl (ix2 c (0 : Fin 1)) (fun d => by
    match d with
    | ⟨0, _⟩ => rfl
    | ⟨1, _⟩ => rfl)

/-- Two columns joined, at `(c, 1)`: the second. -/
theorem cat_cols_apply1 (a b : C21.Idx → α) (h : Shape.Concatenates [C21, C21] C22 (1 : Fin 2)) (c : Fin 64) :
    concatenate C22 (1 : Fin 2) [⟨C21, a⟩, ⟨C21, b⟩] h (ix2 c (1 : Fin 2)) = b (ix2 c (0 : Fin 1)) :=
  concatenate_pair_apply_right (t := C22) (1 : Fin 2) a b h _ rfl rfl (ix2 c (0 : Fin 1)) (fun d hd => by
    match d with
    | ⟨0, _⟩ => rfl
    | ⟨1, _⟩ => exact absurd rfl hd) rfl

/-- Two row blocks joined, at `(c, 0, k)`: the first. -/
theorem cat_rows_apply0 (a b : C312.Idx → α) (h : Shape.Concatenates [C312, C312] C322 (1 : Fin 3)) (c : Fin 64) (k : Fin 2) :
    concatenate C322 (1 : Fin 3) [⟨C312, a⟩, ⟨C312, b⟩] h (ix3 c (0 : Fin 2) k) = a (ix3 c (0 : Fin 1) k) :=
  concatenate_pair_apply_left (t := C322) (1 : Fin 3) a b h _ rfl (ix3 c (0 : Fin 1) k) (fun d => by
    match d with
    | ⟨0, _⟩ => rfl
    | ⟨1, _⟩ => rfl
    | ⟨2, _⟩ => rfl)

/-- Two row blocks joined, at `(c, 1, k)`: the second. -/
theorem cat_rows_apply1 (a b : C312.Idx → α) (h : Shape.Concatenates [C312, C312] C322 (1 : Fin 3)) (c : Fin 64) (k : Fin 2) :
    concatenate C322 (1 : Fin 3) [⟨C312, a⟩, ⟨C312, b⟩] h (ix3 c (1 : Fin 2) k) = b (ix3 c (0 : Fin 1) k) :=
  concatenate_pair_apply_right (t := C322) (1 : Fin 3) a b h _ rfl rfl (ix3 c (0 : Fin 1) k) (fun d hd => by
    match d with
    | ⟨0, _⟩ => rfl
    | ⟨1, _⟩ => exact absurd rfl hd
    | ⟨2, _⟩ => rfl) rfl

/-! ## One entry of a per-channel matrix, as a per-channel vector -/

/-- A `[64, 1, 1]` array flattened to `[64]`, at `c`. -/
theorem flat_apply (u : C311.Idx → α) (h : C311.ShapeCasts C1) (c : Fin 64) :
    shapeCast C1 u h (ix1 c) = u (ix3 c (0 : Fin 1) (0 : Fin 1)) :=
  shapeCast_apply u h (ix1 c) (ix3 c (0 : Fin 1) (0 : Fin 1)) (by
    rw [Shape.rowMajor_val_three, Shape.rowMajor_val_one]
    show (c.val * 1 + 0) * 1 + 0 = c.val
    omega)

/-- Entry `(0, 0)` of a `[64, 2, 2]` array cut out as `[64, 1, 1]`, at `(c, 0, 0)`. -/
theorem entry22_00_apply (A : C322.Idx → α) (h : C322.Slices ![0, 0, 0] C311) (c : Fin 64) :
    extractStridedSlice C311 ![0, 0, 0] A h (ix3 c (0 : Fin 1) (0 : Fin 1)) = A (ix3 c (0 : Fin 2) (0 : Fin 2)) :=
  extractStridedSlice_apply _ A h _ (ix3 c (0 : Fin 2) (0 : Fin 2)) (fun a => by
    match a with
    | ⟨0, _⟩ => exact (Nat.zero_add _).symm
    | ⟨1, _⟩ => rfl
    | ⟨2, _⟩ => rfl)

/-- Entry `(0, 1)` of a `[64, 2, 2]` array cut out as `[64, 1, 1]`, at `(c, 0, 0)`. -/
theorem entry22_01_apply (A : C322.Idx → α) (h : C322.Slices ![0, 0, 1] C311) (c : Fin 64) :
    extractStridedSlice C311 ![0, 0, 1] A h (ix3 c (0 : Fin 1) (0 : Fin 1)) = A (ix3 c (0 : Fin 2) (1 : Fin 2)) :=
  extractStridedSlice_apply _ A h _ (ix3 c (0 : Fin 2) (1 : Fin 2)) (fun a => by
    match a with
    | ⟨0, _⟩ => exact (Nat.zero_add _).symm
    | ⟨1, _⟩ => rfl
    | ⟨2, _⟩ => rfl)

/-- Entry `(1, 0)` of a `[64, 2, 2]` array cut out as `[64, 1, 1]`, at `(c, 0, 0)`. -/
theorem entry22_10_apply (A : C322.Idx → α) (h : C322.Slices ![0, 1, 0] C311) (c : Fin 64) :
    extractStridedSlice C311 ![0, 1, 0] A h (ix3 c (0 : Fin 1) (0 : Fin 1)) = A (ix3 c (1 : Fin 2) (0 : Fin 2)) :=
  extractStridedSlice_apply _ A h _ (ix3 c (1 : Fin 2) (0 : Fin 2)) (fun a => by
    match a with
    | ⟨0, _⟩ => exact (Nat.zero_add _).symm
    | ⟨1, _⟩ => rfl
    | ⟨2, _⟩ => rfl)

/-- Entry `(1, 1)` of a `[64, 2, 2]` array cut out as `[64, 1, 1]`, at `(c, 0, 0)`. -/
theorem entry22_11_apply (A : C322.Idx → α) (h : C322.Slices ![0, 1, 1] C311) (c : Fin 64) :
    extractStridedSlice C311 ![0, 1, 1] A h (ix3 c (0 : Fin 1) (0 : Fin 1)) = A (ix3 c (1 : Fin 2) (1 : Fin 2)) :=
  extractStridedSlice_apply _ A h _ (ix3 c (1 : Fin 2) (1 : Fin 2)) (fun a => by
    match a with
    | ⟨0, _⟩ => exact (Nat.zero_add _).symm
    | ⟨1, _⟩ => rfl
    | ⟨2, _⟩ => rfl)

/-- Entry `(0, 0)` of a `[64, 2, 1]` array cut out as `[64, 1, 1]`, at `(c, 0, 0)`. -/
theorem entry21_0_apply (B : C321.Idx → α) (h : C321.Slices ![0, 0, 0] C311) (c : Fin 64) :
    extractStridedSlice C311 ![0, 0, 0] B h (ix3 c (0 : Fin 1) (0 : Fin 1)) = B (ix3 c (0 : Fin 2) (0 : Fin 1)) :=
  extractStridedSlice_apply _ B h _ (ix3 c (0 : Fin 2) (0 : Fin 1)) (fun a => by
    match a with
    | ⟨0, _⟩ => exact (Nat.zero_add _).symm
    | ⟨1, _⟩ => rfl
    | ⟨2, _⟩ => rfl)

/-- Entry `(1, 0)` of a `[64, 2, 1]` array cut out as `[64, 1, 1]`, at `(c, 0, 0)`. -/
theorem entry21_1_apply (B : C321.Idx → α) (h : C321.Slices ![0, 1, 0] C311) (c : Fin 64) :
    extractStridedSlice C311 ![0, 1, 0] B h (ix3 c (0 : Fin 1) (0 : Fin 1)) = B (ix3 c (1 : Fin 2) (0 : Fin 1)) :=
  extractStridedSlice_apply _ B h _ (ix3 c (1 : Fin 2) (0 : Fin 1)) (fun a => by
    match a with
    | ⟨0, _⟩ => exact (Nat.zero_add _).symm
    | ⟨1, _⟩ => rfl
    | ⟨2, _⟩ => rfl)

/-! ## The per-channel 2×2 product -/

/-- The host's batched product of `[64, 2, 2]` arrays — batch axis 0, the left operand's axis 2 contracted with the right
    operand's axis 1 — at `(c, i, k)`: `∑ⱼ L[c, i, j] · R[c, j, k]`. The dimension numbers enter through where they
    send an output index and a contraction index in each operand. -/
theorem dot22_apply (D : DotDims C322 C322 C322) (hr : D.contr.rank = 1) (hs : D.contr.size ⟨0, by omega⟩ = 2)
    (hl0 : ∀ i q, (D.lhsIdx i q 0).val = (i 0).val) (hl1 : ∀ i q, (D.lhsIdx i q 1).val = (i 1).val)
    (hl2 : ∀ i q, (D.lhsIdx i q 2).val = (q ⟨0, by omega⟩).val)
    (hr0 : ∀ i q, (D.rhsIdx i q 0).val = (i 0).val) (hr1 : ∀ i q, (D.rhsIdx i q 1).val = (q ⟨0, by omega⟩).val)
    (hr2 : ∀ i q, (D.rhsIdx i q 2).val = (i 2).val)
    (prec : Option ContractPrecision) (Lh Rh : FVec Ideal C322 .f32) (c : Fin 64) (i k : Fin 2) :
    Host.dotGeneral (F := Ideal) D prec Lh Rh (ix3 c i k) = ∑ j : Fin 2, Lh (ix3 c i j) * Rh (ix3 c j k) := by
  simp only [Host.dotGeneral]
  rw [Ideal.dotGeneral_apply, ← Equiv.sum_comp (contrEquiv1 D 2 hr hs).symm]
  refine Finset.sum_congr rfl fun j _ => ?_
  have hk := contrEquiv1_symm_val D 2 hr hs j
  have el : D.lhsIdx (ix3 c i k) ((contrEquiv1 D 2 hr hs).symm j) = ix3 c i j := funext fun a => Fin.ext (by
    match a with
    | ⟨0, _⟩ => exact hl0 _ _
    | ⟨1, _⟩ => exact hl1 _ _
    | ⟨2, _⟩ => exact (hl2 _ _).trans hk)
  have er : D.rhsIdx (ix3 c i k) ((contrEquiv1 D 2 hr hs).symm j) = ix3 c j k := funext fun a => Fin.ext (by
    match a with
    | ⟨0, _⟩ => exact hr0 _ _
    | ⟨1, _⟩ => exact (hr1 _ _).trans hk
    | ⟨2, _⟩ => exact hr2 _ _)
  rw [el, er]

/-! ## The two halves joined back -/

/-- Two halves joined along the channel axis, at channel `c` of the first 64: the first half. -/
theorem cat_halves_lo (y1 y2 : H4.Idx → α) (h : Shape.Concatenates [H4, H4] A4 (1 : Fin 4)) (b : Fin 32) (c : Fin 64) (p q : Fin 128) :
    concatenate A4 (1 : Fin 4) [⟨H4, y1⟩, ⟨H4, y2⟩] h (ix4 b (⟨c.val, by omega⟩ : Fin 128) p q) = y1 (ix4 b c p q) :=
  concatenate_pair_apply_left (t := A4) (1 : Fin 4) y1 y2 h _ rfl (ix4 b c p q) (fun d => by
    match d with
    | ⟨0, _⟩ => rfl
    | ⟨1, _⟩ => rfl
    | ⟨2, _⟩ => rfl
    | ⟨3, _⟩ => rfl)

/-- Two halves joined along the channel axis, at channel `c + 64`: the second half at `c`. -/
theorem cat_halves_hi (y1 y2 : H4.Idx → α) (h : Shape.Concatenates [H4, H4] A4 (1 : Fin 4)) (b : Fin 32) (c : Fin 64) (p q : Fin 128) :
    concatenate A4 (1 : Fin 4) [⟨H4, y1⟩, ⟨H4, y2⟩] h (ix4 b (⟨c.val + 64, by omega⟩ : Fin 128) p q) = y2 (ix4 b c p q) :=
  concatenate_pair_apply_right (t := A4) (1 : Fin 4) y1 y2 h _ rfl rfl (ix4 b c p q) (fun d hd => by
    match d with
    | ⟨0, _⟩ => rfl
    | ⟨1, _⟩ => exact absurd rfl hd
    | ⟨2, _⟩ => rfl
    | ⟨3, _⟩ => rfl) rfl

end Cert.BN.RefOps

end
-- ==== Proof.RefCore.lean ====
/-
  The reference program's result is the centred arrangement of the per-channel 2×2 whitening: at every index of the
  output, the value the program's operations compose is `Cert.BN.Rout` of the three argument arrays.

  Read bottom-up over the program's named intermediates. The two channel halves are `xr`, `xi`; each half less its mean is
  the centred sample; the three sums of products of centred samples over batch, rows and lanes, divided by n − 1, are the
  covariance entries; the closed 2×2 square root and its inverse are arithmetic on per-channel vectors, read entry by entry;
  the per-channel product with `gamma` is a sum over `Fin 2`; its four entries, spread over batch, rows and lanes, are the
  coefficients of the affine map applied to the centred halves, which are joined back along the channel axis.
-/
import proofs.«141001_j43499428774583_2_alg».proof.Proof.RefTerms
import proofs.«141001_j43499428774583_2_alg».proof.Proof.Spec
import proofs.«141001_j43499428774583_2_alg».proof.Proof.RefOps

noncomputable section

open scoped BigOperators

namespace Cert.ReferenceIdeal.RefValue

open Cert.ReferenceIdeal Cert.ReferenceIdeal.Gen Idealize.ShloMosaic Idealize.ShloMosaic.TcCoe Idealize.SL.Sem
open Idealize.ShloMosaic.StableHlo Idealize.ShloMosaic.ValueIdx Cert.BN Cert.BN.RefOps

/-! ## The per-channel quantities, named as the closed form names them -/

section Names
variable (x : SX.Idx → EReal)

/-- Channel `c`'s two means. -/
def mr (c : Fin 64) : EReal := mean (tot (xr x c))
def mi (c : Fin 64) : EReal := mean (tot (xi x c))
/-- Channel `c`'s covariance entries with ε on the diagonal, the determinant, its root, the root of trace plus twice the
    determinant, and the three entries of the square root. -/
def cRI (c : Fin 64) : EReal := covR (xr x c) (xi x c) (mr x c) (mi x c)
def m00 (c : Fin 64) : EReal := covR (xr x c) (xr x c) (mr x c) (mr x c) + epsW
def m11 (c : Fin 64) : EReal := covR (xi x c) (xi x c) (mi x c) (mi x c) + epsW
def dlt (c : Fin 64) : EReal := m00 x c * m11 x c - cRI x c * cRI x c
def sd (c : Fin 64) : EReal := Ideal.sqrt (dlt x c)
def tt (c : Fin 64) : EReal := Ideal.sqrt ((m00 x c + m11 x c) + twoW * dlt x c)
def q00 (c : Fin 64) : EReal := Ideal.div (m00 x c + sd x c) (tt x c)
def q01 (c : Fin 64) : EReal := Ideal.div (cRI x c + sd x c) (tt x c)
def q11 (c : Fin 64) : EReal := Ideal.div (m11 x c + sd x c) (tt x c)
def dtq (c : Fin 64) : EReal := q00 x c * q11 x c - q01 x c * q01 x c

/-- The coefficients of the centred arrangement, in these names. -/
theorem coefR_eq (γ : SG.Idx → EReal) (c : Fin 64) :
    coefR x γ c = ⟨γ (ix3 c (0 : Fin 2) (0 : Fin 2)) * Ideal.div (q11 x c) (dtq x c) + γ (ix3 c (0 : Fin 2) (1 : Fin 2)) * Ideal.div (-q01 x c) (dtq x c),
      γ (ix3 c (0 : Fin 2) (0 : Fin 2)) * Ideal.div (-q01 x c) (dtq x c) + γ (ix3 c (0 : Fin 2) (1 : Fin 2)) * Ideal.div (q00 x c) (dtq x c),
      γ (ix3 c (1 : Fin 2) (0 : Fin 2)) * Ideal.div (q11 x c) (dtq x c) + γ (ix3 c (1 : Fin 2) (1 : Fin 2)) * Ideal.div (-q01 x c) (dtq x c),
      γ (ix3 c (1 : Fin 2) (0 : Fin 2)) * Ideal.div (-q01 x c) (dtq x c) + γ (ix3 c (1 : Fin 2) (1 : Fin 2)) * Ideal.div (q00 x c) (dtq x c)⟩ := rfl

end Names

/-- The output of the centred arrangement at a channel of the first 64: the real row. -/
theorem RoutAt_lo (x : SX.Idx → EReal) (γ : SG.Idx → EReal) (β : SB.Idx → EReal) (b : Fin 32) (c : Fin 64) (p q : Fin 128) :
    RoutAt x γ β b (⟨c.val, by omega⟩ : Fin 128) p q
      = ((coefR x γ c).a00 * (xr x c b p q - mr x c) + (coefR x γ c).a01 * (xi x c b p q - mi x c)) + β (ix3 c (0 : Fin 2) (0 : Fin 1)) := by
  have hc : (⟨(⟨c.val, by omega⟩ : Fin 128).val % 64, Nat.mod_lt _ (by decide)⟩ : Fin 64) = c := Fin.ext (Nat.mod_eq_of_lt c.isLt)
  simp only [RoutAt, hc, mr, mi]
  exact if_pos c.isLt

/-- The output of the centred arrangement at a channel of the last 64: the imaginary row. -/
theorem RoutAt_hi (x : SX.Idx → EReal) (γ : SG.Idx → EReal) (β : SB.Idx → EReal) (b : Fin 32) (c : Fin 64) (p q : Fin 128) :
    RoutAt x γ β b (⟨c.val + 64, by omega⟩ : Fin 128) p q
      = ((coefR x γ c).a10 * (xr x c b p q - mr x c) + (coefR x γ c).a11 * (xi x c b p q - mi x c)) + β (ix3 c (1 : Fin 2) (0 : Fin 1)) := by
  have hc : (⟨(⟨c.val + 64, by omega⟩ : Fin 128).val % 64, Nat.mod_lt _ (by decide)⟩ : Fin 64) = c :=
    Fin.ext (by show (c.val + 64) % 64 = c.val; have := c.isLt; omega)
  simp only [RoutAt, hc, mr, mi]
  exact if_neg (by show ¬ (c.val + 64 < 64); omega)

/-! ## The program's named intermediates, read at an index -/

section Read
variable (V0 : Valuation τ sig (Elt Ideal))

/-- The three argument arrays. -/
abbrev aX : SX.Idx → EReal := V0 (Proc.devRef .tc main_arg0)
abbrev aG : SG.Idx → EReal := V0 (Proc.devRef .tc main_arg1)
abbrev aB : SB.Idx → EReal := V0 (Proc.devRef .tc main_arg2)

/-- The first half of the array is the real parts. -/
theorem v0_apply (b : Fin 32) (c : Fin 64) (p q : Fin 128) :
    (res_main_v0 V0 : H4.Idx → EReal) (ix4 b c p q) = xr (aX V0) c b p q := by
  unfold res_main_v0
  exact slice_lo_apply _ _ b c p q

/-- The second half is the imaginary parts. -/
theorem v1_apply (b : Fin 32) (c : Fin 64) (p q : Fin 128) :
    (res_main_v1 V0 : H4.Idx → EReal) (ix4 b c p q) = xi (aX V0) c b p q := by
  unfold res_main_v1
  exact slice_hi_apply _ _ b c p q

/-- The sum of the real parts of channel `c`. -/
theorem sum_v0 (h : H4.ReducesTo [0, 2, 3] C1) (hu : 0 < Z0.numel) (c : Fin 64) :
    Host.reduceAdd (F := Ideal) (res_main_v0 V0) (constant (F := Ideal) Z0 .f32 0x00000000#32) h hu (ix1 c) = tot (xr (aX V0) c) := by
  rw [reduce_zero_apply]
  unfold tot
  simp only [v0_apply]

/-- The sum of the imaginary parts of channel `c`. -/
theorem sum_v1 (h : H4.ReducesTo [0, 2, 3] C1) (hu : 0 < Z0.numel) (c : Fin 64) :
    Host.reduceAdd (F := Ideal) (res_main_v1 V0) (constant (F := Ideal) Z0 .f32 0x00000000#32) h hu (ix1 c) = tot (xi (aX V0) c) := by
  rw [reduce_zero_apply]
  unfold tot
  simp only [v1_apply]

/-- The centred real part. -/
theorem v11_apply (b : Fin 32) (c : Fin 64) (p q : Fin 128) :
    (res_main_v11 V0 : H4.Idx → EReal) (ix4 b c p q) = xr (aX V0) c b p q - mr (aX V0) c := by
  unfold res_main_v11
  rw [subf_apply, v0_apply, bcast_full_apply, hostDivf_apply, bcast_keep_apply, bcast_const_apply, sum_v0]
  rfl

/-- The centred imaginary part. -/
theorem v13_apply (b : Fin 32) (c : Fin 64) (p q : Fin 128) :
    (res_main_v13 V0 : H4.Idx → EReal) (ix4 b c p q) = xi (aX V0) c b p q - mi (aX V0) c := by
  unfold res_main_v13
  rw [subf_apply, v1_apply, bcast_full_apply, hostDivf_apply, bcast_keep_apply, bcast_const_apply, sum_v1]
  rfl

/-- The cross covariance. -/
theorem v25_apply (c : Fin 64) : (res_main_v25 V0 : C1.Idx → EReal) (ix1 c) = cRI (aX V0) c := by
  unfold res_main_v25
  rw [hostDivf_apply, reduce_zero_apply, bcast_const_apply]
  simp only [mulf_apply, v11_apply, v13_apply]
  rfl

/-- The real variance plus ε. -/
theorem v27_apply (c : Fin 64) : (res_main_v27 V0 : C1.Idx → EReal) (ix1 c) = m00 (aX V0) c := by
  unfold res_main_v27
  rw [addf_apply, hostDivf_apply, reduce_zero_apply, bcast_const_apply, bcast_const_apply]
  simp only [mulf_apply, v11_apply]
  rfl

/-- The imaginary variance plus ε. -/
theorem v29_apply (c : Fin 64) : (res_main_v29 V0 : C1.Idx → EReal) (ix1 c) = m11 (aX V0) c := by
  unfold res_main_v29
  rw [addf_apply, hostDivf_apply, reduce_zero_apply, bcast_const_apply, bcast_const_apply]
  simp only [mulf_apply, v13_apply]
  rfl

/-- The determinant. -/
theorem v33_apply (c : Fin 64) : (res_main_v33 V0 : C1.Idx → EReal) (ix1 c) = dlt (aX V0) c := by
  unfold res_main_v33
  rw [subf_apply, mulf_apply, mulf_apply, v27_apply, v29_apply, v25_apply]
  rfl

/-- Its root. -/
theorem v34_apply (c : Fin 64) : (res_main_v34 V0 : C1.Idx → EReal) (ix1 c) = sd (aX V0) c := by
  unfold res_main_v34
  rw [hostSqrt_apply, v33_apply]
  rfl

/-- The root of the trace plus twice the determinant. -/
theorem v38_apply (c : Fin 64) : (res_main_v38 V0 : C1.Idx → EReal) (ix1 c) = tt (aX V0) c := by
  unfold res_main_v38
  rw [hostSqrt_apply, addf_apply, addf_apply, mulf_apply, bcast_const_apply, v27_apply, v29_apply, v33_apply]
  rfl

/-- The square root's entries. -/
theorem v40_apply (c : Fin 64) : (res_main_v40 V0 : C1.Idx → EReal) (ix1 c) = q00 (aX V0) c := by
  unfold res_main_v40
  rw [hostDivf_apply, addf_apply, v27_apply, v34_apply, v38_apply]
  rfl
theorem v42_apply (c : Fin 64) : (res_main_v42 V0 : C1.Idx → EReal) (ix1 c) = q01 (aX V0) c := by
  unfold res_main_v42
  rw [hostDivf_apply, addf_apply, v25_apply, v34_apply, v38_apply]
  rfl
theorem v44_apply (c : Fin 64) : (res_main_v44 V0 : C1.Idx → EReal) (ix1 c) = q01 (aX V0) c := by
  unfold res_main_v44
  rw [hostDivf_apply, addf_apply, v25_apply, v34_apply, v38_apply]
  rfl
theorem v46_apply (c : Fin 64) : (res_main_v46 V0 : C1.Idx → EReal) (ix1 c) = q11 (aX V0) c := by
  unfold res_main_v46
  rw [hostDivf_apply, addf_apply, v29_apply, v34_apply, v38_apply]
  rfl

/-! ## The per-channel product with gamma -/

/-- The program's dimension numbers: batch axis 0, the left operand's axis 2 contracted with the right operand's axis 1. -/
abbrev D22 : DotDims C322 C322 C322 := dot_S64x2x2_S64x2x2_S64x2x2_2_1_1_2_0_0

theorem lhs0 (i : C322.Idx) (q : D22.contr.Idx) : (D22.lhsIdx i q 0).val = (i 0).val := by
  unfold DotDims.lhsIdx
  rw [dif_pos (show (0 : Fin C322.rank) ∈ D22.lhsBatch by decide)]
  rfl
theorem lhs1 (i : C322.Idx) (q : D22.contr.Idx) : (D22.lhsIdx i q 1).val = (i 1).val := by
  unfold DotDims.lhsIdx
  rw [dif_neg (show ¬(1 : Fin C322.rank) ∈ D22.lhsBatch by decide), dif_pos (show (1 : Fin C322.rank) ∈ D22.lhsNonContracting by decide)]
  rfl
theorem lhs2 (i : C322.Idx) (q : D22.contr.Idx) : (D22.lhsIdx i q 2).val = (q ⟨0, by decide⟩).val :=
  D22.lhsIdx_val_of_single rfl i q
theorem rhs0 (i : C322.Idx) (q : D22.contr.Idx) : (D22.rhsIdx i q 0).val = (i 0).val := by
  unfold DotDims.rhsIdx
  rw [dif_pos (show (0 : Fin C322.rank) ∈ D22.rhsBatch by decide)]
  rfl
theorem rhs1 (i : C322.Idx) (q : D22.contr.Idx) : (D22.rhsIdx i q 1).val = (q ⟨0, by decide⟩).val :=
  D22.rhsIdx_val_of_single rfl i q
theorem rhs2 (i : C322.Idx) (q : D22.contr.Idx) : (D22.rhsIdx i q 2).val = (i 2).val := by
  unfold DotDims.rhsIdx
  rw [dif_neg (show ¬(2 : Fin C322.rank) ∈ D22.rhsBatch by decide), dif_pos (show (2 : Fin C322.rank) ∈ D22.rhsNonContracting by decide)]
  rfl

/-- Column 0 of gamma times the inverse of the square root: row `i`. -/
theorem v64_col0 (c : Fin 64) (i : Fin 2) :
    (res_main_v64 V0 : C322.Idx → EReal) (ix3 c i (0 : Fin 2))
      = aG V0 (ix3 c i (0 : Fin 2)) * Ideal.div (q11 (aX V0) c) (dtq (aX V0) c)
        + aG V0 (ix3 c i (1 : Fin 2)) * Ideal.div (-q01 (aX V0) c) (dtq (aX V0) c) := by
  unfold res_main_v64
  rw [dot22_apply _ rfl rfl lhs0 lhs1 lhs2 rhs0 rhs1 rhs2, Fin.sum_univ_two]
  rw [hostDivf_apply, hostDivf_apply, cat_rows_apply0, cat_rows_apply1, bcast_row_apply, bcast_row_apply,
    cat_cols_apply0, cat_cols_apply0, bcast_col_apply, bcast_col_apply, hostNegf_apply,
    bcast_c22_apply, bcast_c22_apply, bcast_c11_apply, subf_apply, mulf_apply, mulf_apply,
    v40_apply, v42_apply, v44_apply, v46_apply]
  rfl

/-- Column 1. -/
theorem v64_col1 (c : Fin 64) (i : Fin 2) :
    (res_main_v64 V0 : C322.Idx → EReal) (ix3 c i (1 : Fin 2))
      = aG V0 (ix3 c i (0 : Fin 2)) * Ideal.div (-q01 (aX V0) c) (dtq (aX V0) c)
        + aG V0 (ix3 c i (1 : Fin 2)) * Ideal.div (q00 (aX V0) c) (dtq (aX V0) c) := by
  unfold res_main_v64
  rw [dot22_apply _ rfl rfl lhs0 lhs1 lhs2 rhs0 rhs1 rhs2, Fin.sum_univ_two]
  rw [hostDivf_apply, hostDivf_apply, cat_rows_apply0, cat_rows_apply1, bcast_row_apply, bcast_row_apply,
    cat_cols_apply1, cat_cols_apply1, bcast_col_apply, bcast_col_apply, hostNegf_apply,
    bcast_c22_apply, bcast_c22_apply, bcast_c11_apply, subf_apply, mulf_apply, mulf_apply,
    v40_apply, v42_apply, v44_apply, v46_apply]
  rfl

/-! ## The result -/

/-- At a channel of the first 64 the composed term is the real row of the centred arrangement. -/
theorem result_lo (b : Fin 32) (c : Fin 64) (p q : Fin 128) :
    (outTerm V0 : SX.Idx → EReal) (ix4 b (⟨c.val, by omega⟩ : Fin 128) p q) = RoutAt (aX V0) (aG V0) (aB V0) b (⟨c.val, by omega⟩ : Fin 128) p q := by
  unfold outTerm
  rw [cat_halves_lo, RoutAt_lo, coefR_eq]
  rw [addf_apply, addf_apply, mulf_apply, mulf_apply, bcast_chan_apply, bcast_chan_apply, bcast_chan_apply,
    flat_apply, flat_apply, flat_apply, entry22_00_apply, entry22_01_apply, entry21_0_apply,
    v64_col0, v64_col1, v11_apply, v13_apply]

/-- At a channel of the last 64 it is the imaginary row. -/
theorem result_hi (b : Fin 32) (c : Fin 64) (p q : Fin 128) :
    (outTerm V0 : SX.Idx → EReal) (ix4 b (⟨c.val + 64, by omega⟩ : Fin 128) p q) = RoutAt (aX V0) (aG V0) (aB V0) b (⟨c.val + 64, by omega⟩ : Fin 128) p q := by
  unfold outTerm
  rw [cat_halves_hi, RoutAt_hi, coefR_eq]
  rw [addf_apply, addf_apply, mulf_apply, mulf_apply, bcast_chan_apply, bcast_chan_apply, bcast_chan_apply,
    flat_apply, flat_apply, flat_apply, entry22_10_apply, entry22_11_apply, entry21_1_apply,
    v64_col0, v64_col1, v11_apply, v13_apply]

/-- The program's composed term is the centred arrangement of its arguments. -/
theorem result_eq : (outTerm V0 : SX.Idx → EReal) = Rout (aX V0) (aG V0) (aB V0) := by
  funext j
  obtain ⟨b, ch, p, q, rfl⟩ : ∃ (b : Fin 32) (ch : Fin 128) (p q : Fin 128), j = ix4 b ch p q := ⟨j 0, j 1, j 2, j 3, eq_ix4 j⟩
  show _ = RoutAt (aX V0) (aG V0) (aB V0) b ch p q
  by_cases hch : ch.val < 64
  · exact result_lo V0 b ⟨ch.val, hch⟩ p q
  · have hlt : ch.val - 64 < 64 := by have := ch.isLt; omega
    have e : (⟨(⟨ch.val - 64, hlt⟩ : Fin 64).val + 64, by omega⟩ : Fin 128) = ch :=
      Fin.ext (by show ch.val - 64 + 64 = ch.val; omega)
    have key := result_hi V0 b ⟨ch.val - 64, hlt⟩ p q
    rw [e] at key
    exact key

end Read

end Cert.ReferenceIdeal.RefValue

end
-- ==== Proof.RefValue.lean ====
/-
  The reference program's run: every weakly fair execution terminates with the result buffer at the centred arrangement
  `Cert.BN.Rout` of the three argument arrays, and with the argument arrays unchanged.

  The run leaves every buffer at what the program's operations, in order, make of the launch contents; the result buffer
  then holds the program's composed term, which is the centred arrangement index by index.
-/
import proofs.«141001_j43499428774583_2_alg».proof.Defs
import proofs.«141001_j43499428774583_2_alg».proof.Proof.Gen.Pre_finite_inputs
import proofs.«141001_j43499428774583_2_alg».proof.Proof.RefRead
import proofs.«141001_j43499428774583_2_alg».proof.Proof.RefCore

noncomputable section

namespace Cert.ReferenceIdeal.RefValue

open Cert.ReferenceIdeal Idealize.ShloMosaic Idealize.ShloMosaic.TcCoe Idealize.SL.Sem Idealize.ShloMosaic.StableHlo

/-- Every weakly fair execution of the reference terminates with its result at the centred arrangement of the argument
    arrays, the arguments unchanged. -/
theorem run_Rout (m : (ℓ : Loc nD τ sig) → Buf (Elt Ideal) ℓ) (ρ : Dev nD → PrngReg) :
    θ_run (Cert.ReferenceIdeal.defs (F := Ideal)) (onTc (τ := τ) (Cert.ReferenceIdeal.main (F := Ideal))) ⟨m, fun _ => 0, ρ⟩ fun r => ∀ c : Dev nD,
      r.2.mem ((c.tc : Thread nD τ).loc main_v97)
          = Cert.BN.Rout (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run Cert.ReferenceIdeal.defs _ _).mono (fun _ h c =>
      ⟨(h c main_v97).trans ((after_ops_v97 (launchContents m c)).trans (result_eq (launchContents m c))),
        (h c main_arg0).trans (after_ops_arg0 (launchContents m c)),
        (h c main_arg1).trans (after_ops_arg1 (launchContents m c)),
        (h c main_arg2).trans (after_ops_arg2 (launchContents m c))⟩)
    (Cert.ReferenceIdeal.ValueP.run_after (F := Ideal) m ρ)

/-- The reference runs and leaves its arguments unchanged. -/
theorem frame_ri : Cert.frame_ReferenceIdeal := fun m ρ _ =>
  (θ_run Cert.ReferenceIdeal.defs _ _).mono (fun _ h c => (h c).2) (run_Rout m ρ)

end Cert.ReferenceIdeal.RefValue

end
-- ==== Proof.MathBN.lean ====
/-
  Real numbers inside the extended reals: the facts the two arrangements of the complex batch normalisation
  share.

  * the four float words are the reals 524288, 524287, 2 and a positive real;
  * division by a nonzero real, the square root of a nonnegative real and a finite triple sum of reals are the real
    operations;
  * over the reals, with n = 524288 the number of samples, the sum of products of deviations from the means is the
    sum of products minus the product of the sums over n; sums of squares are nonnegative and the Cauchy-Schwarz
    inequality bounds the squared cross term;
  * on real covariance entries forming a positive-semidefinite matrix the chain's four coefficients are real;
  * hence, on real inputs, the covariance from raw moments is the covariance of the centred samples, the two
    arrangements have the same real coefficients, and the bias form of the affine map is the centred form:
    `Kout_eq_Rout`.
-/
import proofs.«141001_j43499428774583_2_alg».proof.Proof.Spec
import Idealize.ShloMosaic.PureOps.Ideal.Laws
import Mathlib.Algebra.Order.BigOperators.Ring.Finset

noncomputable section

open scoped BigOperators

namespace Cert.BN

open Idealize.ShloMosaic Idealize.ShloMosaic.ValueIdx

/-! ## The words -/

theorem nW_eq : nW = ((524288 : ℝ) : EReal) := by
  simp [nW, Ideal.ofBits, Ideal.ieee, -EReal.coe_mul]; norm_num

theorem dW_eq : dW = ((524287 : ℝ) : EReal) := by
  simp [dW, Ideal.ofBits, Ideal.ieee, -EReal.coe_mul]; norm_num

theorem twoW_eq : twoW = ((2 : ℝ) : EReal) := by
  simp [twoW, Ideal.ofBits, Ideal.ieee, -EReal.coe_mul]; norm_num

theorem epsW_eq : ∃ e : ℝ, 0 < e ∧ epsW = (e : EReal) := by
  refine ⟨10995116 * (2 : ℝ) ^ (-40 : Int), by positivity, ?_⟩
  simp [epsW, Ideal.ofBits, Ideal.ieee, -EReal.coe_mul]

/-! ## The operations on reals -/

/-- Division of a real by a nonzero real is the real quotient. -/
theorem div_real (a : ℝ) {b : ℝ} (h : b ≠ 0) : Ideal.div (a : EReal) (b : EReal) = ((a / b : ℝ) : EReal) := by
  rw [Ideal.div_coe h, ← EReal.coe_mul, mul_one_div]

/-- The square root of a nonnegative real is the real root. -/
theorem sqrt_real {r : ℝ} (h : 0 ≤ r) : Ideal.sqrt (r : EReal) = ((Real.sqrt r : ℝ) : EReal) := by
  rw [Ideal.sqrt_coe, if_neg (not_lt.mpr h)]

/-- A finite sum of reals, formed in the extended reals, is the real sum. -/
theorem coe_sum {α : Type*} (s : Finset α) (f : α → ℝ) :
    ∑ i ∈ s, (f i : EReal) = ((∑ i ∈ s, f i : ℝ) : EReal) := by
  classical
  induction s using Finset.induction_on with
  | empty => simp
  | insert a s ha ih => rw [Finset.sum_insert ha, Finset.sum_insert ha, ih, EReal.coe_add]

/-- The real sum over a channel's batch, rows and lanes. -/
def totR (F : Fin 32 → Fin 128 → Fin 128 → ℝ) : ℝ := ∑ b : Fin 32, ∑ h : Fin 128, ∑ w : Fin 128, F b h w

theorem tot_real (F : Fin 32 → Fin 128 → Fin 128 → ℝ) : tot (fun b h w => (F b h w : EReal)) = (totR F : EReal) := by
  unfold tot totR
  simp only [coe_sum]

theorem tot_mul_real (F G : Fin 32 → Fin 128 → Fin 128 → ℝ) :
    tot (fun b h w => (F b h w : EReal) * (G b h w : EReal)) = (totR (fun b h w => F b h w * G b h w) : EReal) := by
  unfold tot totR
  simp only [← EReal.coe_mul, coe_sum]

theorem mean_real (S : ℝ) : mean (S : EReal) = ((S / 524288 : ℝ) : EReal) := by
  rw [mean, nW_eq, div_real _ (by norm_num)]

theorem covK_real (Sxy Sx Sy : ℝ) :
    covK (Sxy : EReal) (Sx : EReal) (Sy : EReal) = (((Sxy - Sx * Sy / 524288) / 524287 : ℝ) : EReal) := by
  rw [covK, nW_eq, dW_eq, ← EReal.coe_mul, div_real _ (by norm_num), ← EReal.coe_sub, div_real _ (by norm_num)]

theorem covR_real (F G : Fin 32 → Fin 128 → Fin 128 → ℝ) (mf mg : ℝ) :
    covR (fun b h w => (F b h w : EReal)) (fun b h w => (G b h w : EReal)) (mf : EReal) (mg : EReal)
      = ((totR (fun b h w => (F b h w - mf) * (G b h w - mg)) / 524287 : ℝ) : EReal) := by
  unfold covR
  simp only [← EReal.coe_sub]
  rw [tot_mul_real (fun b h w => F b h w - mf) (fun b h w => G b h w - mg), dW_eq, div_real _ (by norm_num)]

/-! ## The real identities -/

/-- The triple sum as one sum over the triples. -/
theorem totR_flat (F : Fin 32 → Fin 128 → Fin 128 → ℝ) :
    totR F = ∑ p : Fin 32 × Fin 128 × Fin 128, F p.1 p.2.1 p.2.2 := by
  unfold totR
  simp only [Fintype.sum_prod_type]

theorem card_samples : (Fintype.card (Fin 32 × Fin 128 × Fin 128) : ℝ) = 524288 := by
  simp only [Fintype.card_prod, Fintype.card_fin]; norm_num

/-- With N the (nonzero) number of terms: the sum of products of deviations from the means is the sum of products
    minus the product of the sums over N. -/
theorem sum_dev {ι : Type*} [Fintype ι] (f g : ι → ℝ) (N : ℝ) (hN : (Fintype.card ι : ℝ) = N) (h0 : N ≠ 0) :
    ∑ i, (f i - (∑ j, f j) / N) * (g i - (∑ j, g j) / N) = ∑ i, f i * g i - (∑ j, f j) * (∑ j, g j) / N := by
  have h : ∀ i, (f i - (∑ j, f j) / N) * (g i - (∑ j, g j) / N)
      = f i * g i - (∑ j, g j) / N * f i - (∑ j, f j) / N * g i + (∑ j, f j) / N * ((∑ j, g j) / N) := fun i => by ring
  simp only [h]
  rw [Finset.sum_add_distrib, Finset.sum_sub_distrib, Finset.sum_sub_distrib, ← Finset.mul_sum, ← Finset.mul_sum,
    Finset.sum_const, Finset.card_univ, nsmul_eq_mul, hN]
  field_simp
  ring

/-- Raw-moment form equals centred form, for the triple sums. -/
theorem totR_dev (F G : Fin 32 → Fin 128 → Fin 128 → ℝ) :
    totR (fun b h w => (F b h w - totR F / 524288) * (G b h w - totR G / 524288))
      = totR (fun b h w => F b h w * G b h w) - totR F * totR G / 524288 := by
  rw [totR_flat, totR_flat (fun b h w => F b h w * G b h w), totR_flat F, totR_flat G]
  exact sum_dev (fun p : Fin 32 × Fin 128 × Fin 128 => F p.1 p.2.1 p.2.2) (fun p => G p.1 p.2.1 p.2.2) 524288
    card_samples (by norm_num)

/-- A sum of squares is nonnegative. -/
theorem totR_sq_nonneg (F : Fin 32 → Fin 128 → Fin 128 → ℝ) : 0 ≤ totR (fun b h w => F b h w * F b h w) := by
  unfold totR
  exact Finset.sum_nonneg fun _ _ => Finset.sum_nonneg fun _ _ => Finset.sum_nonneg fun _ _ => mul_self_nonneg _

/-- The Cauchy-Schwarz inequality for the triple sums. -/
theorem totR_cauchy (F G : Fin 32 → Fin 128 → Fin 128 → ℝ) :
    totR (fun b h w => F b h w * G b h w) * totR (fun b h w => F b h w * G b h w)
      ≤ totR (fun b h w => F b h w * F b h w) * totR (fun b h w => G b h w * G b h w) := by
  rw [totR_flat, totR_flat (fun b h w => F b h w * F b h w), totR_flat (fun b h w => G b h w * G b h w)]
  have := Finset.sum_mul_sq_le_sq_mul_sq (Finset.univ : Finset (Fin 32 × Fin 128 × Fin 128))
    (fun p => F p.1 p.2.1 p.2.2) (fun p => G p.1 p.2.1 p.2.2)
  simpa only [sq] using this

/-! ## The chain on real entries -/

/-- On real covariance entries forming a positive-semidefinite matrix (nonnegative diagonal, squared off-diagonal at most
    the product of the diagonal) and real gamma entries, the chain's four coefficients are real: with ε > 0 on the
    diagonal the determinant δ is positive, so both square roots are positive reals; the determinant of the root,
    times t², is δ + s·(m00 + m11 − 2·cRI) > 0 because (m00 + m11)² ≥ 4·m00·m11 > 4·cRI²; so every division is by
    a nonzero real. -/
theorem chain_real (cRR cII cRI g00 g01 g10 g11 : ℝ) (hRR : 0 ≤ cRR) (hII : 0 ≤ cII) (hCS : cRI * cRI ≤ cRR * cII) :
    ∃ a00 a01 a10 a11 : ℝ,
      chain (cRR : EReal) (cII : EReal) (cRI : EReal) (g00 : EReal) (g01 : EReal) (g10 : EReal) (g11 : EReal)
        = ⟨(a00 : EReal), (a01 : EReal), (a10 : EReal), (a11 : EReal)⟩ := by
  obtain ⟨e, he, hE⟩ := epsW_eq
  unfold chain
  dsimp only
  rw [hE, twoW_eq, ← EReal.coe_add cRR e, ← EReal.coe_add cII e]
  have hm00 : 0 < cRR + e := by linarith
  have hm11 : 0 < cII + e := by linarith
  have hprod : cRI * cRI < (cRR + e) * (cII + e) := by
    nlinarith [mul_pos he he, mul_nonneg hRR he.le, mul_nonneg hII he.le]
  generalize cRR + e = m00 at hm00 hprod ⊢
  generalize cII + e = m11 at hm11 hprod ⊢
  rw [← EReal.coe_add m00 m11, ← EReal.coe_mul m00 m11, ← EReal.coe_mul cRI cRI, ← EReal.coe_sub]
  have hδ : 0 < m00 * m11 - cRI * cRI := by linarith
  have hmid : 2 * cRI < m00 + m11 := by
    have h1 : (2 * cRI) ^ 2 < (m00 + m11) ^ 2 := by nlinarith [sq_nonneg (m00 - m11)]
    exact lt_of_le_of_lt (le_abs_self _) (abs_lt_of_sq_lt_sq h1 (by linarith))
  generalize hδe : m00 * m11 - cRI * cRI = δ at hδ ⊢
  rw [sqrt_real hδ.le]
  have hs : 0 < Real.sqrt δ := Real.sqrt_pos.mpr hδ
  have hss : Real.sqrt δ * Real.sqrt δ = δ := Real.mul_self_sqrt hδ.le
  generalize Real.sqrt δ = s at hs hss ⊢
  rw [← EReal.coe_mul 2 δ, ← EReal.coe_add (m00 + m11) (2 * δ)]
  have hT : 0 < m00 + m11 + 2 * δ := by linarith
  rw [sqrt_real hT.le]
  have ht : 0 < Real.sqrt (m00 + m11 + 2 * δ) := Real.sqrt_pos.mpr hT
  generalize Real.sqrt (m00 + m11 + 2 * δ) = t at ht ⊢
  rw [← EReal.coe_add m00 s, ← EReal.coe_add cRI s, ← EReal.coe_add m11 s,
    div_real _ ht.ne', div_real _ ht.ne', div_real _ ht.ne']
  have hnum : 0 < (m00 + s) * (m11 + s) - (cRI + s) * (cRI + s) := by
    nlinarith [mul_pos hs (sub_pos.mpr hmid)]
  have hdet : 0 < (m00 + s) / t * ((m11 + s) / t) - (cRI + s) / t * ((cRI + s) / t) := by
    have h2 : (m00 + s) / t * ((m11 + s) / t) - (cRI + s) / t * ((cRI + s) / t)
        = ((m00 + s) * (m11 + s) - (cRI + s) * (cRI + s)) / (t * t) := by
      field_simp
    rw [h2]
    exact div_pos hnum (mul_pos ht ht)
  generalize (m00 + s) / t = q00 at hdet ⊢
  generalize (m11 + s) / t = q11 at hdet ⊢
  generalize (cRI + s) / t = q01 at hdet ⊢
  rw [← EReal.coe_mul q00 q11, ← EReal.coe_mul q01 q01, ← EReal.coe_sub, ← EReal.coe_neg]
  generalize q00 * q11 - q01 * q01 = det at hdet ⊢
  rw [div_real _ hdet.ne', div_real _ hdet.ne', div_real _ hdet.ne']
  exact ⟨g00 * (q11 / det) + g01 * (-q01 / det), g00 * (-q01 / det) + g01 * (q00 / det),
    g10 * (q11 / det) + g11 * (-q01 / det), g10 * (-q01 / det) + g11 * (q00 / det),
    by simp only [EReal.coe_add, EReal.coe_mul]⟩

/-! ## The two arrangements agree -/

/-- Channel `c`'s real part, as a real. -/
def xrR (x : SX.Idx → ℝ) (c : Fin 64) (b : Fin 32) (h w : Fin 128) : ℝ :=
  x (ix4 b (⟨c.val, by omega⟩ : Fin 128) h w)
/-- Channel `c`'s imaginary part, as a real. -/
def xiR (x : SX.Idx → ℝ) (c : Fin 64) (b : Fin 32) (h w : Fin 128) : ℝ :=
  x (ix4 b (⟨c.val + 64, by omega⟩ : Fin 128) h w)

/-- The real covariance of the centred samples. -/
def cvR (F G : Fin 32 → Fin 128 → Fin 128 → ℝ) : ℝ :=
  totR (fun b h w => (F b h w - totR F / 524288) * (G b h w - totR G / 524288)) / 524287

/-- On real samples the covariance from raw moments is the covariance of the centred samples. -/
theorem covK_eq_covR (F G : Fin 32 → Fin 128 → Fin 128 → ℝ) :
    covK (tot fun b h w => (F b h w : EReal) * (G b h w : EReal)) (tot fun b h w => (F b h w : EReal))
        (tot fun b h w => (G b h w : EReal))
      = covR (fun b h w => (F b h w : EReal)) (fun b h w => (G b h w : EReal))
          (mean (tot fun b h w => (F b h w : EReal))) (mean (tot fun b h w => (G b h w : EReal))) := by
  rw [tot_mul_real, tot_real, tot_real, mean_real, mean_real, covK_real, covR_real, totR_dev]

theorem covR_mean_real (F G : Fin 32 → Fin 128 → Fin 128 → ℝ) :
    covR (fun b h w => (F b h w : EReal)) (fun b h w => (G b h w : EReal))
        (mean (tot fun b h w => (F b h w : EReal))) (mean (tot fun b h w => (G b h w : EReal)))
      = (cvR F G : EReal) := by
  rw [tot_real, tot_real, mean_real, mean_real, covR_real]
  rfl

/-- The same two facts and the mean, for extended-real samples known to be the coerced real samples. -/
theorem covK_eq_covR' (f g : Fin 32 → Fin 128 → Fin 128 → EReal) (F G : Fin 32 → Fin 128 → Fin 128 → ℝ)
    (hf : f = fun b h w => (F b h w : EReal)) (hg : g = fun b h w => (G b h w : EReal)) :
    covK (tot fun b h w => f b h w * g b h w) (tot f) (tot g) = covR f g (mean (tot f)) (mean (tot g)) := by
  subst hf hg
  exact covK_eq_covR F G

theorem covR_mean_real' (f g : Fin 32 → Fin 128 → Fin 128 → EReal) (F G : Fin 32 → Fin 128 → Fin 128 → ℝ)
    (hf : f = fun b h w => (F b h w : EReal)) (hg : g = fun b h w => (G b h w : EReal)) :
    covR f g (mean (tot f)) (mean (tot g)) = (cvR F G : EReal) := by
  subst hf hg
  exact covR_mean_real F G

theorem mean_tot_real' (f : Fin 32 → Fin 128 → Fin 128 → EReal) (F : Fin 32 → Fin 128 → Fin 128 → ℝ)
    (hf : f = fun b h w => (F b h w : EReal)) : mean (tot f) = ((totR F / 524288 : ℝ) : EReal) := by
  subst hf
  rw [tot_real, mean_real]

theorem cvR_self_nonneg (F : Fin 32 → Fin 128 → Fin 128 → ℝ) : 0 ≤ cvR F F :=
  div_nonneg (totR_sq_nonneg (fun b h w => F b h w - totR F / 524288)) (by norm_num)

theorem cvR_cauchy (F G : Fin 32 → Fin 128 → Fin 128 → ℝ) : cvR F G * cvR F G ≤ cvR F F * cvR G G := by
  have h := totR_cauchy (fun b h w => F b h w - totR F / 524288) (fun b h w => G b h w - totR G / 524288)
  unfold cvR
  rw [div_mul_div_comm, div_mul_div_comm]
  exact div_le_div_of_nonneg_right h (by norm_num)

theorem coefK_eq_coefR (x : SX.Idx → ℝ) (γ : SG.Idx → EReal) (c : Fin 64) :
    coefK (fun i => (x i : EReal)) γ c = coefR (fun i => (x i : EReal)) γ c := by
  unfold coefK coefR
  rw [covK_eq_covR' (xr (fun i => (x i : EReal)) c) (xr (fun i => (x i : EReal)) c) (xrR x c) (xrR x c) rfl rfl,
    covK_eq_covR' (xi (fun i => (x i : EReal)) c) (xi (fun i => (x i : EReal)) c) (xiR x c) (xiR x c) rfl rfl,
    covK_eq_covR' (xr (fun i => (x i : EReal)) c) (xi (fun i => (x i : EReal)) c) (xrR x c) (xiR x c) rfl rfl]

theorem coefR_real (x : SX.Idx → ℝ) (γ : SG.Idx → ℝ) (c : Fin 64) :
    ∃ a00 a01 a10 a11 : ℝ, coefR (fun i => (x i : EReal)) (fun i => (γ i : EReal)) c
      = ⟨(a00 : EReal), (a01 : EReal), (a10 : EReal), (a11 : EReal)⟩ := by
  unfold coefR
  rw [covR_mean_real' (xr (fun i => (x i : EReal)) c) (xr (fun i => (x i : EReal)) c) (xrR x c) (xrR x c) rfl rfl,
    covR_mean_real' (xi (fun i => (x i : EReal)) c) (xi (fun i => (x i : EReal)) c) (xiR x c) (xiR x c) rfl rfl,
    covR_mean_real' (xr (fun i => (x i : EReal)) c) (xi (fun i => (x i : EReal)) c) (xrR x c) (xiR x c) rfl rfl]
  exact chain_real (cvR (xrR x c) (xrR x c)) (cvR (xiR x c) (xiR x c))
    (cvR (xrR x c) (xiR x c)) (γ (ix3 c (0 : Fin 2) (0 : Fin 2))) (γ (ix3 c (0 : Fin 2) (1 : Fin 2)))
    (γ (ix3 c (1 : Fin 2) (0 : Fin 2))) (γ (ix3 c (1 : Fin 2) (1 : Fin 2)))
    (cvR_self_nonneg _) (cvR_self_nonneg _) (cvR_cauchy _ _)

/-- With real coefficients the bias form and the centred form of the affine map agree. -/
theorem affine_real (a a' u v mu mv be : ℝ) :
    ((a : EReal) * (u : EReal) + (a' : EReal) * (v : EReal))
        + (((be : EReal) - (a : EReal) * (mu : EReal)) - (a' : EReal) * (mv : EReal))
      = ((a : EReal) * ((u : EReal) - (mu : EReal)) + (a' : EReal) * ((v : EReal) - (mv : EReal))) + (be : EReal) := by
  simp only [← EReal.coe_mul, ← EReal.coe_add, ← EReal.coe_sub]
  congr 1
  ring

theorem KoutAt_eq_RoutAt (x : SX.Idx → ℝ) (γ : SG.Idx → ℝ) (β : SB.Idx → ℝ) (b : Fin 32) (ch h w : Fin 128) :
    KoutAt (fun i => (x i : EReal)) (fun i => (γ i : EReal)) (fun i => (β i : EReal)) b ch h w
      = RoutAt (fun i => (x i : EReal)) (fun i => (γ i : EReal)) (fun i => (β i : EReal)) b ch h w := by
  unfold KoutAt RoutAt
  dsimp only
  generalize (⟨ch.val % 64, Nat.mod_lt _ (by decide)⟩ : Fin 64) = c
  rw [coefK_eq_coefR]
  obtain ⟨a00, a01, a10, a11, hA⟩ := coefR_real x γ c
  rw [hA]
  dsimp only
  rw [mean_tot_real' (xr (fun i => (x i : EReal)) c) (xrR x c) rfl,
    mean_tot_real' (xi (fun i => (x i : EReal)) c) (xiR x c) rfl]
  split_ifs
  · exact affine_real a00 a01 (xrR x c b h w) (xiR x c b h w) _ _ (β (ix3 c (0 : Fin 2) (0 : Fin 1)))
  · exact affine_real a10 a11 (xrR x c b h w) (xiR x c b h w) _ _ (β (ix3 c (1 : Fin 2) (0 : Fin 1)))

/-- On real inputs the bias arrangement with raw-moment covariance and the centred arrangement are one function. -/
theorem Kout_eq_Rout (x : SX.Idx → EReal) (γ : SG.Idx → EReal) (β : SB.Idx → EReal)
    (hx : ∀ i, ∃ r : ℝ, x i = (r : EReal)) (hγ : ∀ i, ∃ r : ℝ, γ i = (r : EReal)) (hβ : ∀ i, ∃ r : ℝ, β i = (r : EReal)) :
    Kout x γ β = Rout x γ β := by
  obtain ⟨xR, rfl⟩ : ∃ xR : SX.Idx → ℝ, x = fun i => (xR i : EReal) :=
    ⟨fun i => (hx i).choose, funext fun i => (hx i).choose_spec⟩
  obtain ⟨γR, rfl⟩ : ∃ γR : SG.Idx → ℝ, γ = fun i => (γR i : EReal) :=
    ⟨fun i => (hγ i).choose, funext fun i => (hγ i).choose_spec⟩
  obtain ⟨βR, rfl⟩ : ∃ βR : SB.Idx → ℝ, β = fun i => (βR i : EReal) :=
    ⟨fun i => (hβ i).choose, funext fun i => (hβ i).choose_spec⟩
  funext i
  exact KoutAt_eq_RoutAt xR γR βR (i 0) (i 1) (i 2) (i 3)

end Cert.BN

end
-- ==== Proof.LibReal.lean ====
/-
  Real entries of extended-real arrays.

  * `IsReal x`: the extended real `x` is a real number; closed under sums, products, maxima and finite sums; the
    zero word of single precision is real; `|x| < +∞` makes `x` real; the coercion of the reals commutes with finite sums;
  * the usual finiteness precondition read entry by entry: where `all (|x| < +∞)` — the comparison of `|x|` with the
    broadcast `+∞` word, reduced by `and` from 1 over all axes into the scalar shape — is 1, every entry of `x` is real
    (`real_of_entry`, `real_of_all`), for an array of any shape.
-/
import Idealize.ShloMosaic.PureOps.Ideal
import Idealize.ShloMosaic.PureOps.Ideal.Laws
import Idealize.ShloMosaic.Lib.ValueIdx
import Idealize.ShloMosaic.Lib.ReduceAll

noncomputable section

namespace Cert.LibReal

open Idealize.ShloMosaic

/-- An extended real that is a real number. -/
def IsReal (x : EReal) : Prop := ∃ r : ℝ, x = (r : EReal)

theorem isReal_coe (r : ℝ) : IsReal (r : EReal) := ⟨r, rfl⟩
theorem isReal_zero_word : IsReal (Ideal.ofBits .f32 0x00000000#32) := ⟨0, by rw [Ideal.ofBits_zero_f32]; rfl⟩
theorem IsReal.add {x y : EReal} (hx : IsReal x) (hy : IsReal y) : IsReal (x + y) := by
  obtain ⟨a, rfl⟩ := hx
  obtain ⟨b, rfl⟩ := hy
  exact ⟨a + b, (EReal.coe_add a b).symm⟩
theorem IsReal.mul {x y : EReal} (hx : IsReal x) (hy : IsReal y) : IsReal (x * y) := by
  obtain ⟨a, rfl⟩ := hx
  obtain ⟨b, rfl⟩ := hy
  exact ⟨a * b, (EReal.coe_mul a b).symm⟩
theorem IsReal.max {x y : EReal} (hx : IsReal x) (hy : IsReal y) : IsReal (max x y) := by
  rcases le_total x y with h | h
  · rw [max_eq_right h]; exact hy
  · rw [max_eq_left h]; exact hx
theorem IsReal.sum {ι : Type*} (s : Finset ι) (f : ι → EReal) (h : ∀ i ∈ s, IsReal (f i)) : IsReal (∑ i ∈ s, f i) := by
  classical
  induction s using Finset.induction_on with
  | empty => exact ⟨0, by simp⟩
  | insert a s ha ih =>
    rw [Finset.sum_insert ha]
    exact (h a (Finset.mem_insert_self a s)).add (ih fun i hi => h i (Finset.mem_insert_of_mem hi))

/-- `|x| < +∞` says `x` is a real number. -/
theorem isReal_of_abs_lt_top {x : EReal} (h : max x (-x) < ⊤) : IsReal x := by
  induction x using EReal.rec with
  | bot => simp at h
  | coe r => exact ⟨r, rfl⟩
  | top => simp at h

/-- The coercion of the reals into the extended reals commutes with finite sums. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-! ## The finiteness precondition, entry by entry -/

/-- The scalar shape has exactly one index, so a reduction over all axes has one result. -/
private instance subsingleton_scalar_idx : Subsingleton (⟨0, ![]⟩ : Shape).Idx := ⟨fun a b => funext fun d => d.elim0⟩

/-- The single-precision pattern `0x7F800000` (sign 0, exponent all ones, significand 0) denotes `+∞`. -/
theorem top_word : Ideal.ofBits .f32 0x7F800000#32 = ⊤ := by simp [Ideal.ofBits, Ideal.ieee]

/-- A Boolean as a one-bit word is 1 exactly when it is true. -/
theorem ofBool_eq_one (b : Bool) : BitVec.ofBool b = 1#1 ↔ b = true := by cases b <;> decide

/-- One entry. The comparison `|x| < c` at an index compares `max (x i) (-(x i))` with the value the scalar `c`
    broadcasts, here `+∞`; where it yields 1 the entry's absolute value is below `+∞`, so the entry is real. -/
theorem real_of_entry {s : Shape} (hb : (⟨0, ![]⟩ : Shape).BroadcastsInDim s (![] : Fin 0 → Fin s.rank))
    (x : FVec Ideal s .f32) (i : s.Idx)
    (e : cmpf .olt (Host.absf x) (broadcastInDim s ![] hb (constant ⟨0, ![]⟩ .f32 0x7F800000#32)) i = 1#1) :
    IsReal (x i) := by
  apply isReal_of_abs_lt_top
  have e' : Ideal.cmp .olt (max (x i) (-(x i))) (Ideal.ofBits .f32 0x7F800000#32) = 1#1 := e
  rw [top_word] at e'
  have e'' : BitVec.ofBool (decide (max (x i) (-(x i)) < ⊤)) = 1#1 := e'
  exact of_decide_eq_true ((ofBool_eq_one _).1 e'')

/-- One input. A conjunction (a reduction by `and` from 1) over all axes that is 1 met a 1 at every index, and
    each such 1 says that entry is real. -/
theorem real_of_all {s : Shape} {axes : List (Fin s.rank)}
    (hb : (⟨0, ![]⟩ : Shape).BroadcastsInDim s (![] : Fin 0 → Fin s.rank)) (hr : s.ReducesTo axes ⟨0, ![]⟩)
    (hu : 0 < (⟨0, ![]⟩ : Shape).numel) (x : FVec Ideal s .f32) (init : IVec ⟨0, ![]⟩ 1)
    (e : Host.reduce IntOp.andi (cmpf .olt (Host.absf x) (broadcastInDim s ![] hb (constant ⟨0, ![]⟩ .f32 0x7F800000#32)))
      init hr hu ValueIdx.ix0 = 1#1) (i : s.Idx) : IsReal (x i) :=
  real_of_entry hb x i (Host.reduce_andi_all _ init hr hu _ e i)

end Cert.LibReal

end
-- ==== Proof.Finite.lean ====
/-
  From the printed finiteness precondition to "every entry of the three inputs is a real number".
-/
import proofs.«141001_j43499428774583_2_alg».proof.Pre_finite_inputs
import proofs.«141001_j43499428774583_2_alg».proof.Proof.LibReal
import Idealize.ShloMosaic.Lib.ReduceAll

noncomputable section

namespace Cert.BN

open Idealize.ShloMosaic Cert.LibReal

private instance subsingleton_scalar : Subsingleton Cert.Pre_finite_inputs.S_.Idx := ⟨fun a b => funext fun d => d.elim0⟩

/-- Where the printed precondition holds, every entry of the three inputs is a real number: the precondition is the
    conjunction of three `all (|x| < +∞)`, one per input. -/
theorem reals_of_pre [Cert.Pre_finite_inputs.Facts]
    (a0 : FVec Ideal Cert.Pre_finite_inputs.S32x128x128x128 .f32) (a1 : FVec Ideal Cert.Pre_finite_inputs.S64x2x2 .f32)
    (a2 : FVec Ideal Cert.Pre_finite_inputs.S64x2x1 .f32)
    (h : Cert.Pre_finite_inputs.fn (F := Ideal) a0 a1 a2 = fun _ => 1#1) :
    (∀ i, ∃ r : ℝ, a0 i = (r : EReal)) ∧ (∀ i, ∃ r : ℝ, a1 i = (r : EReal)) ∧ (∀ i, ∃ r : ℝ, a2 i = (r : EReal)) := by
  have h0 := congrFun h ValueIdx.ix0
  dsimp only [Cert.Pre_finite_inputs.fn] at h0
  obtain ⟨h01, h2⟩ := IntOp.andi_eq_one.1 h0
  obtain ⟨h0', h1⟩ := IntOp.andi_eq_one.1 h01
  exact ⟨fun i => real_of_all _ _ _ a0 _ h0' i, fun i => real_of_all _ _ _ a1 _ h1 i, fun i => real_of_all _ _ _ a2 _ h2 i⟩

end Cert.BN

end
-- ==== Proof.lean ====
/-
  A complex batch normalisation: the input [32, 128, 128, 128] carries 64 complex channels (real parts in channels
  0–63, imaginary parts in channels 64–127). Per channel the 2×2 covariance of (real, imaginary) over the batch,
  rows and lanes, regularised by ε on the diagonal, is square-rooted and inverted in closed form and multiplied by
  the channel's gamma; the output is that 2×2 map applied to the centred sample, plus beta.

  The kernel program computes it in two pipelined passes: a statistics pass that accumulates, per half of the batch,
  the five raw moments Σx_re, Σx_re², Σx_im, Σx_im², Σx_re·x_im into rows 0 and 8 of five small arrays; host
  operations that add the two halves, form the covariance from the raw moments, (Σxy − Σx·Σy/n)/d, the four
  coefficients, and a bias β − a·m that folds the centring in; and an affine pass a·x + bias. The reference centres
  first, sums the products of centred samples, and applies the map to the centred sample. On finite inputs the two
  are one function: the raw-moment covariance IS the centred one over the reals, the regularised covariance matrix
  is positive definite (Cauchy–Schwarz and ε > 0), so every square root and quotient is of a positive real, the
  coefficients are real, and a·x + (β − a·m) = a·(x − m) + β.

  The three frames: each program's run (the kernel program's through the launch of its two regions and the host
  stretches between them, at both instances; the reference's as a line of host operations). The ideal pass rewrote
  nothing, so the kernel program's idealization is its own text.
-/
import proofs.«141001_j43499428774583_2_alg».proof.Defs
import proofs.«141001_j43499428774583_2_alg».proof.Proof.Gen.Kernel
import proofs.«141001_j43499428774583_2_alg».proof.Proof.Gen.KernelIdeal
import proofs.«141001_j43499428774583_2_alg».proof.Proof.Gen.ReferenceIdeal
import proofs.«141001_j43499428774583_2_alg».proof.Proof.Gen.Pre_finite_inputs
import proofs.«141001_j43499428774583_2_alg».proof.Proof.KI.Final
import proofs.«141001_j43499428774583_2_alg».proof.Proof.KB.Run5
import proofs.«141001_j43499428774583_2_alg».proof.Proof.RefValue
import proofs.«141001_j43499428774583_2_alg».proof.Proof.MathBN
import proofs.«141001_j43499428774583_2_alg».proof.Proof.Finite
import Idealize.ShloMosaic.Adequacy
import Idealize.ShloMosaic.Init

noncomputable section

namespace Cert.Proof

open Idealize.ShloMosaic Idealize.ShloMosaic.TcCoe Idealize.SL.Sem

/-- Under the precondition the two arrangements of the batch normalisation agree on the launch contents. -/
theorem spec_eq [Cert.Pre_finite_inputs.Facts] (a0 : FVec Ideal Cert.Pre_finite_inputs.S32x128x128x128 .f32) (a1 : FVec Ideal Cert.Pre_finite_inputs.S64x2x2 .f32)
    (a2 : FVec Ideal Cert.Pre_finite_inputs.S64x2x1 .f32)
    (h : Cert.Pre_finite_inputs.fn (F := Ideal) a0 a1 a2 = fun _ => 1#1) :
    Cert.BN.Kout a0 a1 a2 = Cert.BN.Rout a0 a1 a2 := by
  obtain ⟨hx, hγ, hβ⟩ := Cert.BN.reals_of_pre a0 a1 a2 h
  exact Cert.BN.Kout_eq_Rout a0 a1 a2 hx hγ hβ

theorem claim : Cert.Claim := ⟨Cert.Kernel.Gen.facts, Cert.KernelIdeal.Gen.facts, Cert.ReferenceIdeal.Gen.facts, Cert.Pre_finite_inputs.Gen.facts, by
  refine ⟨fun m ρ _ => Cert.Kernel.Hand.frame m ρ, fun m ρ _ => Cert.KernelIdeal.Hand.frame m ρ,
    Cert.ReferenceIdeal.RefValue.frame_ri, trivial, ?_⟩
  intro m ρ m' ρ' hpre hagree
  refine ⟨_, Cert.KernelIdeal.Hand.run_Kout m ρ, ?_⟩
  refine (θ_run Cert.ReferenceIdeal.defs _ _).mono (fun _ h c => ⟨(h c).1.trans ?_, (h c).2⟩)
    (Cert.ReferenceIdeal.RefValue.run_Rout m' ρ')
  rw [(hagree c).1, (hagree c).2.1, (hagree c).2.2]
  exact (spec_eq _ _ _ (hpre c)).symm⟩

end Cert.Proof

end
